-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32x32 : Shape := ⟨4, ![64, 128, 32, 32]⟩
abbrev S64x128 : Shape := ⟨2, ![64, 128]⟩
abbrev S128x128 : Shape := ⟨2, ![128, 128]⟩
abbrev S3x3x128x128 : Shape := ⟨4, ![3, 3, 128, 128]⟩
abbrev S128 : Shape := ⟨1, ![128]⟩
abbrev S1x1x128x128 : Shape := ⟨4, ![1, 1, 128, 128]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S128 : S_.BroadcastsInDim S128 (![] : Fin 0 → Fin S128.rank)
  reducesTo_S128_S_d0 : S128.ReducesTo [0] S_
  bcast_S_S1x1x128x128 : S_.BroadcastsInDim S1x1x128x128 (![] : Fin 0 → Fin S1x1x128x128.rank)
  reducesTo_S1x1x128x128_S_d0_1_2_3 : S1x1x128x128.ReducesTo [0, 1, 2, 3] S_

variable [Facts]

def fn_part3 {F : FTy → Type} [FloatOps F] (main_arg11 : FVec F S128 .f32) (main_v48 : IVec S_ 1) (main_v49 : FVec F S1x1x128x128 .f32) (main_v50 : FVec F S1x1x128x128 .f32) : IVec S_ 1 :=
  let main_v51 : IVec S1x1x128x128 1 := cmpf .olt main_v49 main_v50
  let main_c_19 : IVec S_ 1 := constantI S_ 1 1#1
  let main_v52 : IVec S_ 1 := (fun x v => Host.reduce IntOp.andi x v reducesTo_S1x1x128x128_S_d0_1_2_3 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S3x3x128x128 .f32) (main_arg9 : FVec F S128 .f32) (main_arg10 : FVec F S1x1x128x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x3x128x128 .f32 := Host.absf main_arg8
  let main_cst_14 : FVec F S_ .f32 := constant S_ .f32 0x7F800000#32
  let main_v40 : FVec F S3x3x128x128 .f32 := broadcastInDim S3x3x128x128 ![] bcast_S_S3x3x128x128 main_cst_14
  let main_v41 : IVec S3x3x128x128 1 := cmpf .olt main_v39 main_v40
  let main_c_15 : IVec S_ 1 := constantI S_ 1 1#1
  let main_v42 : IVec S_ 1 := (fun x v => Host.reduce IntOp.andi x v reducesTo_S3x3x128x128_S_d0_1_2_3 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x1x128x128 .f32 := Host.absf main_arg10
  let main_cst_18 : FVec F S_ .f32 := constant S_ .f32 0x7F800000#32
  let main_v50 : FVec F S1x1x128x128 .f32 := broadcastInDim S1x1x128x128 ![] bcast_S_S1x1x128x128 main_cst_18
  fn_part3 (F := F) main_arg11 main_v48 main_v49 main_v50

def fn_part1 {F : FTy → Type} [FloatOps F] (main_arg4 : FVec F S128x128 .f32) (main_arg5 : FVec F S128x128 .f32) (main_arg6 : FVec F S3x3x128x128 .f32) (main_arg7 : FVec F S128 .f32) (main_arg8 : FVec F S3x3x128x128 .f32) (main_arg9 : FVec F S128 .f32) (main_arg10 : FVec F S1x1x128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S3x3x128x128 .f32 := Host.absf main_arg6
  let main_cst_10 : FVec F S_ .f32 := constant S_ .f32 0x7F800000#32
  let main_v30 : FVec F S3x3x128x128 .f32 := broadcastInDim S3x3x128x128 ![] bcast_S_S3x3x128x128 main_cst_10
  let main_v31 : IVec S3x3x128x128 1 := cmpf .olt main_v29 main_v30
  let main_c_11 : IVec S_ 1 := constantI S_ 1 1#1
  let main_v32 : IVec S_ 1 := (fun x v => Host.reduce IntOp.andi x v reducesTo_S3x3x128x128_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x128x32x32 .f32) (main_arg1 : FVec F S64x128 .f32) (main_arg2 : FVec F S128x128 .f32) (main_arg3 : FVec F S128x128 .f32) (main_arg4 : FVec F S128x128 .f32) (main_arg5 : FVec F S128x128 .f32) (main_arg6 : FVec F S3x3x128x128 .f32) (main_arg7 : FVec F S128 .f32) (main_arg8 : FVec F S3x3x128x128 .f32) (main_arg9 : FVec F S128 .f32) (main_arg10 : FVec F S1x1x128x128 .f32) (main_arg11 : FVec F S128 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_v13 main_v16
-- ==== Kernel.lean ====
abbrev S64x128x32x32 : Shape := ⟨4, ![64, 128, 32, 32]⟩
abbrev S64x128 : Shape := ⟨2, ![64, 128]⟩
abbrev S128x128 : Shape := ⟨2, ![128, 128]⟩
abbrev S3x3x128x128 : Shape := ⟨4, ![3, 3, 128, 128]⟩
abbrev S128 : Shape := ⟨1, ![128]⟩
abbrev S1x1x128x128 : Shape := ⟨4, ![1, 1, 128, 128]⟩
abbrev S64x32x32x128 : Shape := ⟨4, ![64, 32, 32, 128]⟩
abbrev S_ : Shape := ⟨0, ![]⟩
abbrev S1x128 : Shape := ⟨2, ![1, 128]⟩
abbrev S64x1x128 : Shape := ⟨3, ![64, 1, 128]⟩
abbrev S128x512 : Shape := ⟨2, ![128, 512]⟩
abbrev S512x512 : Shape := ⟨2, ![512, 512]⟩
abbrev S4x128 : Shape := ⟨2, ![4, 128]⟩
abbrev S512 : Shape := ⟨1, ![512]⟩
abbrev S1x512 : Shape := ⟨2, ![1, 512]⟩
abbrev S64x64x32x256 : Shape := ⟨4, ![64, 64, 32, 256]⟩
abbrev S4x32x32x128 : Shape := ⟨4, ![4, 32, 32, 128]⟩
abbrev S4x1x128 : Shape := ⟨3, ![4, 1, 128]⟩
abbrev S4x64x32x256 : Shape := ⟨4, ![4, 64, 32, 256]⟩
abbrev S4x1x1x128 : Shape := ⟨4, ![4, 1, 1, 128]⟩
abbrev S4x1x32x128 : Shape := ⟨4, ![4, 1, 32, 128]⟩
abbrev S4x32x1x128 : Shape := ⟨4, ![4, 32, 1, 128]⟩
abbrev S4x31x32x128 : Shape := ⟨4, ![4, 31, 32, 128]⟩
abbrev S4x32x31x128 : Shape := ⟨4, ![4, 32, 31, 128]⟩
abbrev S4x32x32x512 : Shape := ⟨4, ![4, 32, 32, 512]⟩
abbrev S4096x512 : Shape := ⟨2, ![4096, 512]⟩
abbrev S4x1024x512 : Shape := ⟨3, ![4, 1024, 512]⟩
abbrev S4x512 : Shape := ⟨2, ![4, 512]⟩
abbrev S4x1x512 : Shape := ⟨3, ![4, 1, 512]⟩
abbrev S4x32x32x256 : Shape := ⟨4, ![4, 32, 32, 256]⟩
abbrev S4x32x1x32x256 : Shape := ⟨5, ![4, 32, 1, 32, 256]⟩
abbrev S4x32x2x32x256 : Shape := ⟨5, ![4, 32, 2, 32, 256]⟩
abbrev S4096x128 : Shape := ⟨2, ![4096, 128]⟩
abbrev S64x64x64x128 : Shape := ⟨4, ![64, 64, 64, 128]⟩
abbrev S3x384x128 : Shape := ⟨3, ![3, 384, 128]⟩
abbrev S1x384x128 : Shape := ⟨3, ![1, 384, 128]⟩
abbrev S384x128 : Shape := ⟨2, ![384, 128]⟩
abbrev S384x384 : Shape := ⟨2, ![384, 384]⟩
abbrev S2x64x64x128 : Shape := ⟨4, ![2, 64, 64, 128]⟩
abbrev S2x1x128 : Shape := ⟨3, ![2, 1, 128]⟩
abbrev S2x32x32x128 : Shape := ⟨4, ![2, 32, 32, 128]⟩
abbrev S2x1x1x128 : Shape := ⟨4, ![2, 1, 1, 128]⟩
abbrev S2x1x64x128 : Shape := ⟨4, ![2, 1, 64, 128]⟩
abbrev S2x66x1x128 : Shape := ⟨4, ![2, 66, 1, 128]⟩
abbrev S2x66x64x128 : Shape := ⟨4, ![2, 66, 64, 128]⟩
abbrev S2x66x66x128 : Shape := ⟨4, ![2, 66, 66, 128]⟩
abbrev S2x64x66x128 : Shape := ⟨4, ![2, 64, 66, 128]⟩
abbrev S2x64x64x384 : Shape := ⟨4, ![2, 64, 64, 384]⟩
abbrev S8192x384 : Shape := ⟨2, ![8192, 384]⟩
abbrev S2x4096x384 : Shape := ⟨3, ![2, 4096, 384]⟩
abbrev S2x4096x128 : Shape := ⟨3, ![2, 4096, 128]⟩
abbrev S2x64x128 : Shape := ⟨3, ![2, 64, 128]⟩
abbrev S2x4032x128 : Shape := ⟨3, ![2, 4032, 128]⟩
abbrev S1x1x1x128 : Shape := ⟨4, ![1, 1, 1, 128]⟩
abbrev S2x32x32x1x128 : Shape := ⟨5, ![2, 32, 32, 1, 128]⟩
abbrev S2x32x32x2x128 : Shape := ⟨5, ![2, 32, 32, 2, 128]⟩
abbrev S2x32x64x128 : Shape := ⟨4, ![2, 32, 64, 128]⟩
abbrev S2x32x1x64x128 : Shape := ⟨5, ![2, 32, 1, 64, 128]⟩
abbrev S2x32x2x64x128 : Shape := ⟨5, ![2, 32, 2, 64, 128]⟩
abbrev S64x128x64x64 : Shape := ⟨4, ![64, 128, 64, 64]⟩

abbrev nBuf : Space → Nat
  | .hbm => 127
  | .vmem => 29
  | .smem => 0
  | _ => 0

abbrev bufTy : (tb : Table) → Fin (tcTables nBuf tb) → BufTy
  | .hbm, ⟨0, _⟩ => ⟨S64x128x32x32, .f32⟩
  | .hbm, ⟨1, _⟩ => ⟨S64x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S3x3x128x128, .f32⟩
  | .hbm, ⟨7, _⟩ => ⟨S128, .f32⟩
  | .hbm, ⟨8, _⟩ => ⟨S3x3x128x128, .f32⟩
  | .hbm, ⟨9, _⟩ => ⟨S128, .f32⟩
  | .hbm, ⟨10, _⟩ => ⟨S1x1x128x128, .f32⟩
  | .hbm, ⟨11, _⟩ => ⟨S128, .f32⟩
  | .hbm, ⟨12, _⟩ => ⟨S64x32x32x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S64x128x32x32, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S64x128, .f32⟩
  | .hbm, ⟨31, _⟩ => ⟨S64x128, .f32⟩
  | .hbm, ⟨32, _⟩ => ⟨S1x128, .f32⟩
  | .hbm, ⟨33, _⟩ => ⟨S64x128, .f32⟩
  | .hbm, ⟨34, _⟩ => ⟨S64x128, .f32⟩
  | .hbm, ⟨35, _⟩ => ⟨S64x1x128, .f32⟩
  | .hbm, ⟨36, _⟩ => ⟨S1x128, .f32⟩
  | .hbm, ⟨37, _⟩ => ⟨S64x128, .f32⟩
  | .hbm, ⟨38, _⟩ => ⟨S64x128, .f32⟩
  | .hbm, ⟨39, _⟩ => ⟨S1x128, .f32⟩
  | .hbm, ⟨40, _⟩ => ⟨S64x128, .f32⟩
  | .hbm, ⟨41, _⟩ => ⟨S64x128, .f32⟩
  | .hbm, ⟨42, _⟩ => ⟨S64x128, .f32⟩
  | .hbm, ⟨43, _⟩ => ⟨S64x1x128, .f32⟩
  | .hbm, ⟨44, _⟩ => ⟨S_, .f32⟩
  | .hbm, ⟨45, _⟩ => ⟨S128x128, .f32⟩
  | .hbm, ⟨46, _⟩ => ⟨S1x1x128x128, .f32⟩
  | .hbm, ⟨47, _⟩ => ⟨S128x128, .f32⟩
  | .hbm, ⟨48, _⟩ => ⟨S1x1x128x128, .f32⟩
  | .hbm, ⟨49, _⟩ => ⟨S128x128, .f32⟩
  | .hbm, ⟨50, _⟩ => ⟨S1x1x128x128, .f32⟩
  | .hbm, ⟨51, _⟩ => ⟨S128x128, .f32⟩
  | .hbm, ⟨52, _⟩ => ⟨S1x1x128x128, .f32⟩
  | .hbm, ⟨53, _⟩ => ⟨S128x128, .f32⟩
  | .hbm, ⟨54, _⟩ => ⟨S128x512, .f32⟩
  | .hbm, ⟨55, _⟩ => ⟨S1x1x128x128, .f32⟩
  | .hbm, ⟨56, _⟩ => ⟨S128x128, .f32⟩
  | .hbm, ⟨57, _⟩ => ⟨S1x1x128x128, .f32⟩
  | .hbm, ⟨58, _⟩ => ⟨S128x128, .f32⟩
  | .hbm, ⟨59, _⟩ => ⟨S128x512, .f32⟩
  | .hbm, ⟨60, _⟩ => ⟨S1x1x128x128, .f32⟩
  | .hbm, ⟨61, _⟩ => ⟨S128x128, .f32⟩
  | .hbm, ⟨62, _⟩ => ⟨S1x1x128x128, .f32⟩
  | .hbm, ⟨63, _⟩ => ⟨S128x128, .f32⟩
  | .hbm, ⟨64, _⟩ => ⟨S128x512, .f32⟩
  | .hbm, ⟨65, _⟩ => ⟨S1x1x128x128, .f32⟩
  | .hbm, ⟨66, _⟩ => ⟨S128x128, .f32⟩
  | .hbm, ⟨67, _⟩ => ⟨S128x512, .f32⟩
  | .hbm, ⟨68, _⟩ => ⟨S512x512, .f32⟩
  | .hbm, ⟨69, _⟩ => ⟨S512x512, .bf16⟩
  | .hbm, ⟨70, _⟩ => ⟨S1x128, .f32⟩
  | .hbm, ⟨71, _⟩ => ⟨S4x128, .f32⟩
  | .hbm, ⟨72, _⟩ => ⟨S512, .f32⟩
  | .hbm, ⟨73, _⟩ => ⟨S1x512, .f32⟩
  | .hbm, ⟨74, _⟩ => ⟨S128x128, .f32⟩
  | .hbm, ⟨75, _⟩ => ⟨S128x128, .bf16⟩
  | .hbm, ⟨76, _⟩ => ⟨S64x64x32x256, .bf16⟩
  | .hbm, ⟨77, _⟩ => ⟨S64x32x32x128, .bf16⟩
  | .hbm, ⟨78, _⟩ => ⟨S64x1x128, .f32⟩
  | .hbm, ⟨79, _⟩ => ⟨S64x1x128, .f32⟩
  | .hbm, ⟨80, _⟩ => ⟨S64x64x64x128, .bf16⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S64x128, .f32⟩
  | .hbm, ⟨101, _⟩ => ⟨S64x128, .f32⟩
  | .hbm, ⟨102, _⟩ => ⟨S1x128, .f32⟩
  | .hbm, ⟨103, _⟩ => ⟨S64x128, .f32⟩
  | .hbm, ⟨104, _⟩ => ⟨S64x128, .f32⟩
  | .hbm, ⟨105, _⟩ => ⟨S64x1x128, .f32⟩
  | .hbm, ⟨106, _⟩ => ⟨S1x128, .f32⟩
  | .hbm, ⟨107, _⟩ => ⟨S64x128, .f32⟩
  | .hbm, ⟨108, _⟩ => ⟨S64x128, .f32⟩
  | .hbm, ⟨109, _⟩ => ⟨S1x128, .f32⟩
  | .hbm, ⟨110, _⟩ => ⟨S64x128, .f32⟩
  | .hbm, ⟨111, _⟩ => ⟨S64x128, .f32⟩
  | .hbm, ⟨112, _⟩ => ⟨S64x128, .f32⟩
  | .hbm, ⟨113, _⟩ => ⟨S64x1x128, .f32⟩
  | .hbm, ⟨114, _⟩ => ⟨S3x384x128, .f32⟩
  | .hbm, ⟨115, _⟩ => ⟨S1x384x128, .f32⟩
  | .hbm, ⟨116, _⟩ => ⟨S384x128, .f32⟩
  | .hbm, ⟨117, _⟩ => ⟨S1x384x128, .f32⟩
  | .hbm, ⟨118, _⟩ => ⟨S384x128, .f32⟩
  | .hbm, ⟨119, _⟩ => ⟨S1x384x128, .f32⟩
  | .hbm, ⟨120, _⟩ => ⟨S384x128, .f32⟩
  | .hbm, ⟨121, _⟩ => ⟨S384x384, .f32⟩
  | .hbm, ⟨122, _⟩ => ⟨S384x384, .bf16⟩
  | .hbm, ⟨123, _⟩ => ⟨S128, .f32⟩
  | .hbm, ⟨124, _⟩ => ⟨S1x128, .f32⟩
  | .hbm, ⟨125, _⟩ => ⟨S64x64x64x128, .f32⟩
  | .hbm, ⟨126, _⟩ => ⟨S64x128x64x64, .f32⟩
  | .local _ .vmem, ⟨0, _⟩ => ⟨S4x32x32x128, .f32⟩
  | .local _ .vmem, ⟨1, _⟩ => ⟨S4x32x32x128, .f32⟩
  | .local _ .vmem, ⟨2, _⟩ => ⟨S4x1x128, .f32⟩
  | .local _ .vmem, ⟨3, _⟩ => ⟨S4x1x128, .f32⟩
  | .local _ .vmem, ⟨4, _⟩ => ⟨S4x1x128, .f32⟩
  | .local _ .vmem, ⟨5, _⟩ => ⟨S4x1x128, .f32⟩
  | .local _ .vmem, ⟨6, _⟩ => ⟨S512x512, .bf16⟩
  | .local _ .vmem, ⟨7, _⟩ => ⟨S1x512, .f32⟩
  | .local _ .vmem, ⟨8, _⟩ => ⟨S128x128, .bf16⟩
  | .local _ .vmem, ⟨9, _⟩ => ⟨S4x64x32x256, .bf16⟩
  | .local _ .vmem, ⟨10, _⟩ => ⟨S4x64x32x256, .bf16⟩
  | .local _ .vmem, ⟨11, _⟩ => ⟨S4x32x32x128, .bf16⟩
  | .local _ .vmem, ⟨12, _⟩ => ⟨S4x32x32x128, .bf16⟩
  | .local _ .vmem, ⟨13, _⟩ => ⟨S4x1x128, .f32⟩
  | .local _ .vmem, ⟨14, _⟩ => ⟨S4x1x128, .f32⟩
  | .local _ .vmem, ⟨15, _⟩ => ⟨S4x1x128, .f32⟩
  | .local _ .vmem, ⟨16, _⟩ => ⟨S4x1x128, .f32⟩
  | .local _ .vmem, ⟨17, _⟩ => ⟨S2x64x64x128, .bf16⟩
  | .local _ .vmem, ⟨18, _⟩ => ⟨S2x64x64x128, .bf16⟩
  | .local _ .vmem, ⟨19, _⟩ => ⟨S2x1x128, .f32⟩
  | .local _ .vmem, ⟨20, _⟩ => ⟨S2x1x128, .f32⟩
  | .local _ .vmem, ⟨21, _⟩ => ⟨S2x1x128, .f32⟩
  | .local _ .vmem, ⟨22, _⟩ => ⟨S2x1x128, .f32⟩
  | .local _ .vmem, ⟨23, _⟩ => ⟨S384x384, .bf16⟩
  | .local _ .vmem, ⟨24, _⟩ => ⟨S1x128, .f32⟩
  | .local _ .vmem, ⟨25, _⟩ => ⟨S2x32x32x128, .bf16⟩
  | .local _ .vmem, ⟨26, _⟩ => ⟨S2x32x32x128, .bf16⟩
  | .local _ .vmem, ⟨27, _⟩ => ⟨S2x64x64x128, .f32⟩
  | .local _ .vmem, ⟨28, _⟩ => ⟨S2x64x64x128, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev main_v58_3 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem5_1 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x64x32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x32x32x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x64x64x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x32x32x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x64x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x128x32x32_S64x32x32x128_0_2_3_1 : S64x128x32x32.Transposes [0, 2, 3, 1] S64x32x32x128
  reducesTo_S64x128x32x32_S128_d0_2_3 : S64x128x32x32.ReducesTo [0, 2, 3] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S64x128_S64x1x128 : S64x128.ShapeCasts S64x1x128
  bcast_S_S128x128 : S_.BroadcastsInDim S128x128 (![] : Fin 0 → Fin S128x128.rank)
  slices_S3x3x128x128_S1x1x128x128_1_1_0_0 : S3x3x128x128.Slices ![1, 1, 0, 0] S1x1x128x128
  shapeCasts_S1x1x128x128_S128x128 : S1x1x128x128.ShapeCasts S128x128
  slices_S3x3x128x128_S1x1x128x128_1_0_0_0 : S3x3x128x128.Slices ![1, 0, 0, 0] S1x1x128x128
  slices_S3x3x128x128_S1x1x128x128_0_1_0_0 : S3x3x128x128.Slices ![0, 1, 0, 0] S1x1x128x128
  slices_S3x3x128x128_S1x1x128x128_0_0_0_0 : S3x3x128x128.Slices ![0, 0, 0, 0] S1x1x128x128
  concatenates_S128x128_S128x128_S128x128_S128x128_S128x512_d1 : Shape.Concatenates [S128x128, S128x128, S128x128, S128x128] S128x512 1
  slices_S3x3x128x128_S1x1x128x128_1_2_0_0 : S3x3x128x128.Slices ![1, 2, 0, 0] S1x1x128x128
  slices_S3x3x128x128_S1x1x128x128_0_2_0_0 : S3x3x128x128.Slices ![0, 2, 0, 0] S1x1x128x128
  slices_S3x3x128x128_S1x1x128x128_2_1_0_0 : S3x3x128x128.Slices ![2, 1, 0, 0] S1x1x128x128
  slices_S3x3x128x128_S1x1x128x128_2_0_0_0 : S3x3x128x128.Slices ![2, 0, 0, 0] S1x1x128x128
  slices_S3x3x128x128_S1x1x128x128_2_2_0_0 : S3x3x128x128.Slices ![2, 2, 0, 0] S1x1x128x128
  concatenates_S128x512_S128x512_S128x512_S128x512_S512x512_d0 : Shape.Concatenates [S128x512, S128x512, S128x512, S128x512] S512x512 0
  bitsLt_bf16_f32 : FTy.bits .bf16 < FTy.bits .f32
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  inb_S4x32x32x128_S4x32x32x128_0_0_0_0 : ∀ a, (![0, 0, 0, 0] : Fin 4 → Nat) a + S4x32x32x128.size a ≤ S4x32x32x128.size a
  h_S4x32x32x128 : 0 < S4x32x32x128.numel
  shapeCasts_S4x32x32x128_S4x32x32x128 : S4x32x32x128.ShapeCasts S4x32x32x128
  inb_S4x1x128_S4x1x128_0_0_0 : ∀ a, (![0, 0, 0] : Fin 3 → Nat) a + S4x1x128.size a ≤ S4x1x128.size a
  h_S4x1x128 : 0 < S4x1x128.numel
  shapeCasts_S4x1x128_S4x1x128 : S4x1x128.ShapeCasts S4x1x128
  shapeCasts_S4x1x128_S4x1x1x128 : S4x1x128.ShapeCasts S4x1x1x128
  broadcasts_S4x1x1x128_S4x32x32x128 : S4x1x1x128.Broadcasts S4x32x32x128
  slices_S4x32x32x128_o0_1_0_0_S4x31x32x128 : S4x32x32x128.Slices ![0, 1, 0, 0] S4x31x32x128
  concatenates_S4x31x32x128_S4x1x32x128_S4x32x32x128_d1 : Shape.Concatenates [S4x31x32x128, S4x1x32x128] S4x32x32x128 1
  slices_S4x32x32x128_o0_0_1_0_S4x32x31x128 : S4x32x32x128.Slices ![0, 0, 1, 0] S4x32x31x128
  concatenates_S4x32x31x128_S4x32x1x128_S4x32x32x128_d2 : Shape.Concatenates [S4x32x31x128, S4x32x1x128] S4x32x32x128 2
  concatenates_S4x32x32x128_S4x32x32x128_S4x32x32x128_S4x32x32x128_S4x32x32x512_d3 : Shape.Concatenates [S4x32x32x128, S4x32x32x128, S4x32x32x128, S4x32x32x128] S4x32x32x512 3
  shapeCasts_S4x32x32x512_S4096x512 : S4x32x32x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S4096x512_S4x1024x512 : S4096x512.ShapeCasts S4x1024x512
  reduces_S4x1024x512_S4x512 : S4x1024x512.Reduces [1] S4x512
  shapeCasts_S4x512_S4x1x512 : S4x512.ShapeCasts S4x1x512
  slices_S4x1x512_o0_0_0_S4x1x128 : S4x1x512.Slices ![0, 0, 0] S4x1x128
  slices_S4x1x512_o0_0_128_S4x1x128 : S4x1x512.Slices ![0, 0, 128] S4x1x128
  slices_S4x1x512_o0_0_256_S4x1x128 : S4x1x512.Slices ![0, 0, 256] S4x1x128
  slices_S4x1x512_o0_0_384_S4x1x128 : S4x1x512.Slices ![0, 0, 384] S4x1x128
  shapeCasts_S4096x512_S4x32x32x512 : S4096x512.ShapeCasts S4x32x32x512
  slices_S4x32x32x512_o0_0_0_0_S4x32x32x256 : S4x32x32x512.Slices ![0, 0, 0, 0] S4x32x32x256
  slices_S4x32x32x512_o0_0_0_256_S4x32x32x256 : S4x32x32x512.Slices ![0, 0, 0, 256] S4x32x32x256
  shapeCasts_S4x32x32x256_S4x32x1x32x256 : S4x32x32x256.ShapeCasts S4x32x1x32x256
  concatenates_S4x32x1x32x256_S4x32x1x32x256_S4x32x2x32x256_d2 : Shape.Concatenates [S4x32x1x32x256, S4x32x1x32x256] S4x32x2x32x256 2
  shapeCasts_S4x32x2x32x256_S4x64x32x256 : S4x32x2x32x256.ShapeCasts S4x64x32x256
  inb_S4x64x32x256_S4x64x32x256_0_0_0_0 : ∀ a, (![0, 0, 0, 0] : Fin 4 → Nat) a + S4x64x32x256.size a ≤ S4x64x32x256.size a
  h_S4x64x32x256 : 0 < S4x64x32x256.numel
  packedbf16_S4x64x32x256_S4x64x32x256_0_0_0_0 : (Rect.unit (s := S4x64x32x256) ![0, 0, 0, 0] S4x64x32x256.size inb_S4x64x32x256_S4x64x32x256_0_0_0_0).PackedRows (EltTy.packing .bf16)
  shapeCasts_S4x32x32x128_S4096x128 : S4x32x32x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S4x32x32x128 : S4096x128.ShapeCasts S4x32x32x128
  packedbf16_S4x32x32x128_S4x32x32x128_0_0_0_0 : (Rect.unit (s := S4x32x32x128) ![0, 0, 0, 0] S4x32x32x128.size inb_S4x32x32x128_S4x32x32x128_0_0_0_0).PackedRows (EltTy.packing .bf16)
  shapeCasts_S64x64x32x256_S64x64x64x128 : S64x64x32x256.ShapeCasts S64x64x64x128
  reducesTo_S64x1x128_S128_d0_1 : S64x1x128.ReducesTo [0, 1] S128
  shapeCasts_S3x3x128x128_S3x384x128 : S3x3x128x128.ShapeCasts S3x384x128
  slices_S3x384x128_S1x384x128_0_0_0 : S3x384x128.Slices ![0, 0, 0] S1x384x128
  shapeCasts_S1x384x128_S384x128 : S1x384x128.ShapeCasts S384x128
  slices_S3x384x128_S1x384x128_1_0_0 : S3x384x128.Slices ![1, 0, 0] S1x384x128
  slices_S3x384x128_S1x384x128_2_0_0 : S3x384x128.Slices ![2, 0, 0] S1x384x128
  concatenates_S384x128_S384x128_S384x128_S384x384_d1 : Shape.Concatenates [S384x128, S384x128, S384x128] S384x384 1
  inb_S2x64x64x128_S2x64x64x128_0_0_0_0 : ∀ a, (![0, 0, 0, 0] : Fin 4 → Nat) a + S2x64x64x128.size a ≤ S2x64x64x128.size a
  h_S2x64x64x128 : 0 < S2x64x64x128.numel
  shapeCasts_S2x64x64x128_S2x64x64x128 : S2x64x64x128.ShapeCasts S2x64x64x128
  inb_S2x1x128_S2x1x128_0_0_0 : ∀ a, (![0, 0, 0] : Fin 3 → Nat) a + S2x1x128.size a ≤ S2x1x128.size a
  h_S2x1x128 : 0 < S2x1x128.numel
  shapeCasts_S2x1x128_S2x1x128 : S2x1x128.ShapeCasts S2x1x128
  shapeCasts_S2x1x128_S2x1x1x128 : S2x1x128.ShapeCasts S2x1x1x128
  broadcasts_S2x1x1x128_S2x64x64x128 : S2x1x1x128.Broadcasts S2x64x64x128
  concatenates_S2x1x64x128_S2x64x64x128_S2x1x64x128_S2x66x64x128_d1 : Shape.Concatenates [S2x1x64x128, S2x64x64x128, S2x1x64x128] S2x66x64x128 1
  concatenates_S2x66x1x128_S2x66x64x128_S2x66x1x128_S2x66x66x128_d2 : Shape.Concatenates [S2x66x1x128, S2x66x64x128, S2x66x1x128] S2x66x66x128 2
  slices_S2x66x66x128_o0_1_0_0_S2x64x66x128 : S2x66x66x128.Slices ![0, 1, 0, 0] S2x64x66x128
  slices_S2x64x66x128_o0_0_0_0_S2x64x64x128 : S2x64x66x128.Slices ![0, 0, 0, 0] S2x64x64x128
  slices_S2x64x66x128_o0_0_1_0_S2x64x64x128 : S2x64x66x128.Slices ![0, 0, 1, 0] S2x64x64x128
  slices_S2x64x66x128_o0_0_2_0_S2x64x64x128 : S2x64x66x128.Slices ![0, 0, 2, 0] S2x64x64x128
  concatenates_S2x64x64x128_S2x64x64x128_S2x64x64x128_S2x64x64x384_d3 : Shape.Concatenates [S2x64x64x128, S2x64x64x128, S2x64x64x128] S2x64x64x384 3
  shapeCasts_S2x64x64x384_S8192x384 : S2x64x64x384.ShapeCasts S8192x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  shapeCasts_S8192x384_S2x4096x384 : S8192x384.ShapeCasts S2x4096x384
  slices_S2x4096x384_o0_0_0_S2x4096x128 : S2x4096x384.Slices ![0, 0, 0] S2x4096x128
  slices_S2x4096x384_o0_0_128_S2x4096x128 : S2x4096x384.Slices ![0, 0, 128] S2x4096x128
  slices_S2x4096x384_o0_0_256_S2x4096x128 : S2x4096x384.Slices ![0, 0, 256] S2x4096x128
  slices_S2x4096x128_o0_0_0_S2x4032x128 : S2x4096x128.Slices ![0, 0, 0] S2x4032x128
  concatenates_S2x64x128_S2x4032x128_S2x4096x128_d1 : Shape.Concatenates [S2x64x128, S2x4032x128] S2x4096x128 1
  slices_S2x4096x128_o0_64_0_S2x4032x128 : S2x4096x128.Slices ![0, 64, 0] S2x4032x128
  concatenates_S2x4032x128_S2x64x128_S2x4096x128_d1 : Shape.Concatenates [S2x4032x128, S2x64x128] S2x4096x128 1
  shapeCasts_S2x4096x128_S2x64x64x128 : S2x4096x128.ShapeCasts S2x64x64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x1x128 : S1x128.ShapeCasts S1x1x1x128
  broadcasts_S1x1x1x128_S2x64x64x128 : S1x1x1x128.Broadcasts S2x64x64x128
  inb_S2x32x32x128_S2x32x32x128_0_0_0_0 : ∀ a, (![0, 0, 0, 0] : Fin 4 → Nat) a + S2x32x32x128.size a ≤ S2x32x32x128.size a
  h_S2x32x32x128 : 0 < S2x32x32x128.numel
  shapeCasts_S2x32x32x128_S2x32x32x128 : S2x32x32x128.ShapeCasts S2x32x32x128
  shapeCasts_S2x32x32x128_S2x32x32x1x128 : S2x32x32x128.ShapeCasts S2x32x32x1x128
  concatenates_S2x32x32x1x128_S2x32x32x1x128_S2x32x32x2x128_d3 : Shape.Concatenates [S2x32x32x1x128, S2x32x32x1x128] S2x32x32x2x128 3
  shapeCasts_S2x32x32x2x128_S2x32x64x128 : S2x32x32x2x128.ShapeCasts S2x32x64x128
  shapeCasts_S2x32x64x128_S2x32x1x64x128 : S2x32x64x128.ShapeCasts S2x32x1x64x128
  concatenates_S2x32x1x64x128_S2x32x1x64x128_S2x32x2x64x128_d2 : Shape.Concatenates [S2x32x1x64x128, S2x32x1x64x128] S2x32x2x64x128 2
  shapeCasts_S2x32x2x64x128_S2x64x64x128 : S2x32x2x64x128.ShapeCasts S2x64x64x128
  transposes_S64x64x64x128_S64x128x64x64_0_3_1_2 : S64x64x64x128.Transposes [0, 3, 1, 2] S64x128x64x64
  dot_S64x128_S128x128_S64x128_1_0_0_1_n_n_wf : DotDims.WF S64x128 S128x128 S64x128 [1] [0] [0] [1] [] []
  dot_S4096x512_S512x512_S4096x512_1_0_0_1_n_n_wf : DotDims.WF S4096x512 S512x512 S4096x512 [1] [0] [0] [1] [] []
  dot_S4096x128_S128x128_S4096x128_1_0_0_1_n_n_wf : DotDims.WF S4096x128 S128x128 S4096x128 [1] [0] [0] [1] [] []
  dot_S8192x384_S384x384_S8192x384_1_0_0_1_n_n_wf : DotDims.WF S8192x384 S384x384 S8192x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x32x128.size a ≤ S64x32x32x128.size a
  hwx0_0 : ∀ i : grid0.Coords, EltTy.bits .f32 = 32 ∨ (Rect.block (s := S64x32x32x128) S4x32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x128.size a ≤ S64x1x128.size a
  hwx0_1 : ∀ i : grid0.Coords, EltTy.bits .f32 = 32 ∨ (Rect.block (s := S64x1x128) S4x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x128.size a ≤ S64x1x128.size a
  hwx0_2 : ∀ i : grid0.Coords, EltTy.bits .f32 = 32 ∨ (Rect.block (s := S64x1x128) S4x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x64x32x256.size a ≤ S64x64x32x256.size a
  hwx0_6 : ∀ i : grid0.Coords, EltTy.bits .bf16 = 32 ∨ (Rect.block (s := S64x64x32x256) S4x64x32x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x32x32x128.size a ≤ S64x32x32x128.size a
  hwx0_7 : ∀ i : grid0.Coords, EltTy.bits .bf16 = 32 ∨ (Rect.block (s := S64x32x32x128) S4x32x32x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1x128.size a ≤ S64x1x128.size a
  hwx0_8 : ∀ i : grid0.Coords, EltTy.bits .f32 = 32 ∨ (Rect.block (s := S64x1x128) S4x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x1x128.size a ≤ S64x1x128.size a
  hwx0_9 : ∀ i : grid0.Coords, EltTy.bits .f32 = 32 ∨ (Rect.block (s := S64x1x128) S4x1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x64x128.size a ≤ S64x64x64x128.size a
  hwx1_0 : ∀ i : grid1.Coords, EltTy.bits .bf16 = 32 ∨ (Rect.block (s := S64x64x64x128) S2x64x64x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1x128.size a ≤ S64x1x128.size a
  hwx1_1 : ∀ i : grid1.Coords, EltTy.bits .f32 = 32 ∨ (Rect.block (s := S64x1x128) S2x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1x128.size a ≤ S64x1x128.size a
  hwx1_2 : ∀ i : grid1.Coords, EltTy.bits .f32 = 32 ∨ (Rect.block (s := S64x1x128) S2x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .bf16 = 32 ∨ (Rect.block (s := S384x384) S384x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x32x32x128.size a ≤ S64x32x32x128.size a
  hwx1_5 : ∀ i : grid1.Coords, EltTy.bits .bf16 = 32 ∨ (Rect.block (s := S64x32x32x128) S2x32x32x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x64x64x128.size a ≤ S64x64x64x128.size a
  hwx1_6 : ∀ i : grid1.Coords, EltTy.bits .f32 = 32 ∨ (Rect.block (s := S64x64x64x128) S2x64x64x128.size (cc1_transform_6 i) (hinb1_6 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x384_S384x384_S8192x384_1_0_0_1_n_n : DotDims S8192x384 S384x384 S8192x384 where
  lhsContracting := [1]
  rhsContracting := [0]
  lhsNonContracting := [0]
  rhsNonContracting := [1]
  lhsBatch := []
  rhsBatch := []
  wf := dot_S8192x384_S384x384_S8192x384_1_0_0_1_n_n_wf

abbrev win0_0 : Pipeline.Window sig grid0 :=
  Pipeline.Window.ofSpec (Memref.whole main_v0) S4x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58_0) S4x64x32x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v58_1) S4x32x32x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v58_2) S4x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v58_3) S4x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v59) S2x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S2x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v86) S2x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v95) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58_1) S2x32x32x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v98) S2x64x64x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S64x128x32x32 : Shape := ⟨4, ![64, 128, 32, 32]⟩
abbrev S64x128 : Shape := ⟨2, ![64, 128]⟩
abbrev S128x128 : Shape := ⟨2, ![128, 128]⟩
abbrev S3x3x128x128 : Shape := ⟨4, ![3, 3, 128, 128]⟩
abbrev S128 : Shape := ⟨1, ![128]⟩
abbrev S1x1x128x128 : Shape := ⟨4, ![1, 1, 128, 128]⟩
abbrev S64x32x32x128 : Shape := ⟨4, ![64, 32, 32, 128]⟩
abbrev S_ : Shape := ⟨0, ![]⟩
abbrev S1x1x1x128 : Shape := ⟨4, ![1, 1, 1, 128]⟩
abbrev S1x128 : Shape := ⟨2, ![1, 128]⟩
abbrev S64x1x128 : Shape := ⟨3, ![64, 1, 128]⟩
abbrev S256x128 : Shape := ⟨2, ![256, 128]⟩
abbrev S512x128 : Shape := ⟨2, ![512, 128]⟩
abbrev S64x64x32x256 : Shape := ⟨4, ![64, 64, 32, 256]⟩
abbrev S1x32x32x128 : Shape := ⟨4, ![1, 32, 32, 128]⟩
abbrev S1x1x128 : Shape := ⟨3, ![1, 1, 128]⟩
abbrev S1x64x32x256 : Shape := ⟨4, ![1, 64, 32, 256]⟩
abbrev S32x32x128 : Shape := ⟨3, ![32, 32, 128]⟩
abbrev S1x32x128 : Shape := ⟨3, ![1, 32, 128]⟩
abbrev S32x1x128 : Shape := ⟨3, ![32, 1, 128]⟩
abbrev S31x32x128 : Shape := ⟨3, ![31, 32, 128]⟩
abbrev S32x31x128 : Shape := ⟨3, ![32, 31, 128]⟩
abbrev S1024x128 : Shape := ⟨2, ![1024, 128]⟩
abbrev S32x32x256 : Shape := ⟨3, ![32, 32, 256]⟩
abbrev S1024x256 : Shape := ⟨2, ![1024, 256]⟩
abbrev S32x32x512 : Shape := ⟨3, ![32, 32, 512]⟩
abbrev S1024x512 : Shape := ⟨2, ![1024, 512]⟩
abbrev S32x1x32x256 : Shape := ⟨4, ![32, 1, 32, 256]⟩
abbrev S32x2x32x256 : Shape := ⟨4, ![32, 2, 32, 256]⟩
abbrev S64x32x256 : Shape := ⟨3, ![64, 32, 256]⟩
abbrev S64x64x64x128 : Shape := ⟨4, ![64, 64, 64, 128]⟩
abbrev S3x384x128 : Shape := ⟨3, ![3, 384, 128]⟩
abbrev S1x64x64x128 : Shape := ⟨4, ![1, 64, 64, 128]⟩
abbrev S64x64x128 : Shape := ⟨3, ![64, 64, 128]⟩
abbrev S1x64x128 : Shape := ⟨3, ![1, 64, 128]⟩
abbrev S66x1x128 : Shape := ⟨3, ![66, 1, 128]⟩
abbrev S66x64x128 : Shape := ⟨3, ![66, 64, 128]⟩
abbrev S66x66x128 : Shape := ⟨3, ![66, 66, 128]⟩
abbrev S4096x128 : Shape := ⟨2, ![4096, 128]⟩
abbrev S64x66x128 : Shape := ⟨3, ![64, 66, 128]⟩
abbrev S64x64x384 : Shape := ⟨3, ![64, 64, 384]⟩
abbrev S4096x384 : Shape := ⟨2, ![4096, 384]⟩
abbrev S1x384x128 : Shape := ⟨3, ![1, 384, 128]⟩
abbrev S384x128 : Shape := ⟨2, ![384, 128]⟩
abbrev S32x32x1x128 : Shape := ⟨4, ![32, 32, 1, 128]⟩
abbrev S32x32x2x128 : Shape := ⟨4, ![32, 32, 2, 128]⟩
abbrev S32x64x128 : Shape := ⟨3, ![32, 64, 128]⟩
abbrev S32x1x64x128 : Shape := ⟨4, ![32, 1, 64, 128]⟩
abbrev S32x2x64x128 : Shape := ⟨4, ![32, 2, 64, 128]⟩
abbrev S64x128x64x64 : Shape := ⟨4, ![64, 128, 64, 64]⟩

abbrev nBuf : Space → Nat
  | .hbm => 111
  | .vmem => 32
  | .smem => 0
  | _ => 0

abbrev bufTy : (tb : Table) → Fin (tcTables nBuf tb) → BufTy
  | .hbm, ⟨0, _⟩ => ⟨S64x128x32x32, .f32⟩
  | .hbm, ⟨1, _⟩ => ⟨S64x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S3x3x128x128, .f32⟩
  | .hbm, ⟨7, _⟩ => ⟨S128, .f32⟩
  | .hbm, ⟨8, _⟩ => ⟨S3x3x128x128, .f32⟩
  | .hbm, ⟨9, _⟩ => ⟨S128, .f32⟩
  | .hbm, ⟨10, _⟩ => ⟨S1x1x128x128, .f32⟩
  | .hbm, ⟨11, _⟩ => ⟨S128, .f32⟩
  | .hbm, ⟨12, _⟩ => ⟨S64x32x32x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x1x1x128, .f32⟩
  | .hbm, ⟨19, _⟩ => ⟨S64x32x32x128, .f32⟩
  | .hbm, ⟨20, _⟩ => ⟨S64x32x32x128, .f32⟩
  | .hbm, ⟨21, _⟩ => ⟨S64x32x32x128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S64x128, .f32⟩
  | .hbm, ⟨32, _⟩ => ⟨S64x128, .f32⟩
  | .hbm, ⟨33, _⟩ => ⟨S1x128, .f32⟩
  | .hbm, ⟨34, _⟩ => ⟨S64x128, .f32⟩
  | .hbm, ⟨35, _⟩ => ⟨S64x128, .f32⟩
  | .hbm, ⟨36, _⟩ => ⟨S64x1x128, .f32⟩
  | .hbm, ⟨37, _⟩ => ⟨S1x128, .f32⟩
  | .hbm, ⟨38, _⟩ => ⟨S64x128, .f32⟩
  | .hbm, ⟨39, _⟩ => ⟨S64x128, .f32⟩
  | .hbm, ⟨40, _⟩ => ⟨S1x128, .f32⟩
  | .hbm, ⟨41, _⟩ => ⟨S64x128, .f32⟩
  | .hbm, ⟨42, _⟩ => ⟨S64x128, .f32⟩
  | .hbm, ⟨43, _⟩ => ⟨S64x128, .f32⟩
  | .hbm, ⟨44, _⟩ => ⟨S64x1x128, .f32⟩
  | .hbm, ⟨45, _⟩ => ⟨S1x1x128x128, .f32⟩
  | .hbm, ⟨46, _⟩ => ⟨S128x128, .f32⟩
  | .hbm, ⟨47, _⟩ => ⟨S1x1x128x128, .f32⟩
  | .hbm, ⟨48, _⟩ => ⟨S128x128, .f32⟩
  | .hbm, ⟨49, _⟩ => ⟨S1x1x128x128, .f32⟩
  | .hbm, ⟨50, _⟩ => ⟨S128x128, .f32⟩
  | .hbm, ⟨51, _⟩ => ⟨S256x128, .f32⟩
  | .hbm, ⟨52, _⟩ => ⟨S1x1x128x128, .f32⟩
  | .hbm, ⟨53, _⟩ => ⟨S128x128, .f32⟩
  | .hbm, ⟨54, _⟩ => ⟨S1x1x128x128, .f32⟩
  | .hbm, ⟨55, _⟩ => ⟨S128x128, .f32⟩
  | .hbm, ⟨56, _⟩ => ⟨S256x128, .f32⟩
  | .hbm, ⟨57, _⟩ => ⟨S1x1x128x128, .f32⟩
  | .hbm, ⟨58, _⟩ => ⟨S128x128, .f32⟩
  | .hbm, ⟨59, _⟩ => ⟨S1x1x128x128, .f32⟩
  | .hbm, ⟨60, _⟩ => ⟨S128x128, .f32⟩
  | .hbm, ⟨61, _⟩ => ⟨S1x1x128x128, .f32⟩
  | .hbm, ⟨62, _⟩ => ⟨S128x128, .f32⟩
  | .hbm, ⟨63, _⟩ => ⟨S1x1x128x128, .f32⟩
  | .hbm, ⟨64, _⟩ => ⟨S128x128, .f32⟩
  | .hbm, ⟨65, _⟩ => ⟨S512x128, .f32⟩
  | .hbm, ⟨66, _⟩ => ⟨S1x128, .f32⟩
  | .hbm, ⟨67, _⟩ => ⟨S128x128, .f32⟩
  | .hbm, ⟨68, _⟩ => ⟨S64x64x32x256, .f32⟩
  | .hbm, ⟨69, _⟩ => ⟨S64x32x32x128, .f32⟩
  | .hbm, ⟨70, _⟩ => ⟨S64x1x128, .f32⟩
  | .hbm, ⟨71, _⟩ => ⟨S64x1x128, .f32⟩
  | .hbm, ⟨72, _⟩ => ⟨S64x64x64x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S64x128, .f32⟩
  | .hbm, ⟨93, _⟩ => ⟨S64x128, .f32⟩
  | .hbm, ⟨94, _⟩ => ⟨S1x128, .f32⟩
  | .hbm, ⟨95, _⟩ => ⟨S64x128, .f32⟩
  | .hbm, ⟨96, _⟩ => ⟨S64x128, .f32⟩
  | .hbm, ⟨97, _⟩ => ⟨S64x1x128, .f32⟩
  | .hbm, ⟨98, _⟩ => ⟨S1x128, .f32⟩
  | .hbm, ⟨99, _⟩ => ⟨S64x128, .f32⟩
  | .hbm, ⟨100, _⟩ => ⟨S64x128, .f32⟩
  | .hbm, ⟨101, _⟩ => ⟨S1x128, .f32⟩
  | .hbm, ⟨102, _⟩ => ⟨S64x128, .f32⟩
  | .hbm, ⟨103, _⟩ => ⟨S64x128, .f32⟩
  | .hbm, ⟨104, _⟩ => ⟨S64x128, .f32⟩
  | .hbm, ⟨105, _⟩ => ⟨S64x1x128, .f32⟩
  | .hbm, ⟨106, _⟩ => ⟨S3x384x128, .f32⟩
  | .hbm, ⟨107, _⟩ => ⟨S128, .f32⟩
  | .hbm, ⟨108, _⟩ => ⟨S1x128, .f32⟩
  | .hbm, ⟨109, _⟩ => ⟨S64x64x64x128, .f32⟩
  | .hbm, ⟨110, _⟩ => ⟨S64x128x64x64, .f32⟩
  | .local _ .vmem, ⟨0, _⟩ => ⟨S1x32x32x128, .f32⟩
  | .local _ .vmem, ⟨1, _⟩ => ⟨S1x32x32x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S128x128, .f32⟩
  | .local _ .vmem, ⟨7, _⟩ => ⟨S256x128, .f32⟩
  | .local _ .vmem, ⟨8, _⟩ => ⟨S256x128, .f32⟩
  | .local _ .vmem, ⟨9, _⟩ => ⟨S512x128, .f32⟩
  | .local _ .vmem, ⟨10, _⟩ => ⟨S1x128, .f32⟩
  | .local _ .vmem, ⟨11, _⟩ => ⟨S128x128, .f32⟩
  | .local _ .vmem, ⟨12, _⟩ => ⟨S1x64x32x256, .f32⟩
  | .local _ .vmem, ⟨13, _⟩ => ⟨S1x64x32x256, .f32⟩
  | .local _ .vmem, ⟨14, _⟩ => ⟨S1x32x32x128, .f32⟩
  | .local _ .vmem, ⟨15, _⟩ => ⟨S1x32x32x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x64x64x128, .f32⟩
  | .local _ .vmem, ⟨21, _⟩ => ⟨S1x64x64x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S3x384x128, .f32⟩
  | .local _ .vmem, ⟨27, _⟩ => ⟨S1x128, .f32⟩
  | .local _ .vmem, ⟨28, _⟩ => ⟨S1x32x32x128, .f32⟩
  | .local _ .vmem, ⟨29, _⟩ => ⟨S1x32x32x128, .f32⟩
  | .local _ .vmem, ⟨30, _⟩ => ⟨S1x64x64x128, .f32⟩
  | .local _ .vmem, ⟨31, _⟩ => ⟨S1x64x64x128, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_cst_5 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem5_1 : DmaSem sig := 29
abbrev cc1_sem6_0 : DmaSem sig := 30
abbrev cc1_sem6_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x32x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x384x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x32x32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x64x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S64x128x32x32_S64x32x32x128_0_2_3_1 : S64x128x32x32.Transposes [0, 2, 3, 1] S64x32x32x128
  reducesTo_S64x32x32x128_S128_d0_1_2 : S64x32x32x128.ReducesTo [0, 1, 2] S128
  h_S_ : 0 < S_.numel
  bcast_S_S128 : S_.BroadcastsInDim S128 (![] : Fin 0 → Fin S128.rank)
  bcast_S128_S1x1x1x128_3 : S128.BroadcastsInDim S1x1x1x128 (![3] : Fin 1 → Fin S1x1x1x128.rank)
  bcast_S1x1x1x128_S64x32x32x128_0_1_2_3 : S1x1x1x128.BroadcastsInDim S64x32x32x128 (![0, 1, 2, 3] : Fin 4 → Fin S64x32x32x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S64x128_S64x1x128 : S64x128.ShapeCasts S64x1x128
  slices_S3x3x128x128_S1x1x128x128_1_1_0_0 : S3x3x128x128.Slices ![1, 1, 0, 0] S1x1x128x128
  shapeCasts_S1x1x128x128_S128x128 : S1x1x128x128.ShapeCasts S128x128
  slices_S3x3x128x128_S1x1x128x128_1_0_0_0 : S3x3x128x128.Slices ![1, 0, 0, 0] S1x1x128x128
  slices_S3x3x128x128_S1x1x128x128_1_2_0_0 : S3x3x128x128.Slices ![1, 2, 0, 0] S1x1x128x128
  concatenates_S128x128_S128x128_S256x128_d0 : Shape.Concatenates [S128x128, S128x128] S256x128 0
  slices_S3x3x128x128_S1x1x128x128_0_1_0_0 : S3x3x128x128.Slices ![0, 1, 0, 0] S1x1x128x128
  slices_S3x3x128x128_S1x1x128x128_2_1_0_0 : S3x3x128x128.Slices ![2, 1, 0, 0] S1x1x128x128
  slices_S3x3x128x128_S1x1x128x128_0_0_0_0 : S3x3x128x128.Slices ![0, 0, 0, 0] S1x1x128x128
  slices_S3x3x128x128_S1x1x128x128_0_2_0_0 : S3x3x128x128.Slices ![0, 2, 0, 0] S1x1x128x128
  slices_S3x3x128x128_S1x1x128x128_2_0_0_0 : S3x3x128x128.Slices ![2, 0, 0, 0] S1x1x128x128
  slices_S3x3x128x128_S1x1x128x128_2_2_0_0 : S3x3x128x128.Slices ![2, 2, 0, 0] S1x1x128x128
  concatenates_S128x128_S128x128_S128x128_S128x128_S512x128_d0 : Shape.Concatenates [S128x128, S128x128, S128x128, S128x128] S512x128 0
  shapeCasts_S128_S1x128 : S128.ShapeCasts S1x128
  inb_S1x32x32x128_S1x32x32x128_0_0_0_0 : ∀ a, (![0, 0, 0, 0] : Fin 4 → Nat) a + S1x32x32x128.size a ≤ S1x32x32x128.size a
  h_S1x32x32x128 : 0 < S1x32x32x128.numel
  shapeCasts_S1x32x32x128_S32x32x128 : S1x32x32x128.ShapeCasts S32x32x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  broadcasts_S1x1x128_S32x32x128 : S1x1x128.Broadcasts S32x32x128
  slices_S32x32x128_o1_0_0_S31x32x128 : S32x32x128.Slices ![1, 0, 0] S31x32x128
  concatenates_S31x32x128_S1x32x128_S32x32x128_d0 : Shape.Concatenates [S31x32x128, S1x32x128] S32x32x128 0
  slices_S32x32x128_o0_1_0_S32x31x128 : S32x32x128.Slices ![0, 1, 0] S32x31x128
  concatenates_S32x31x128_S32x1x128_S32x32x128_d1 : Shape.Concatenates [S32x31x128, S32x1x128] S32x32x128 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S32x32x128_S1024x128 : S32x32x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1024x128_S32x32x128 : S1024x128.ShapeCasts S32x32x128
  concatenates_S32x32x128_S32x32x128_S32x32x256_d2 : Shape.Concatenates [S32x32x128, S32x32x128] S32x32x256 2
  shapeCasts_S32x32x256_S1024x256 : S32x32x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  concatenates_S32x32x128_S32x32x128_S32x32x128_S32x32x128_S32x32x512_d2 : Shape.Concatenates [S32x32x128, S32x32x128, S32x32x128, S32x32x128] S32x32x512 2
  shapeCasts_S32x32x512_S1024x512 : S32x32x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S32x32x256_S32x1x32x256 : S32x32x256.ShapeCasts S32x1x32x256
  concatenates_S32x1x32x256_S32x1x32x256_S32x2x32x256_d1 : Shape.Concatenates [S32x1x32x256, S32x1x32x256] S32x2x32x256 1
  shapeCasts_S32x2x32x256_S64x32x256 : S32x2x32x256.ShapeCasts S64x32x256
  inb_S1x64x32x256_S1x64x32x256_0_0_0_0 : ∀ a, (![0, 0, 0, 0] : Fin 4 → Nat) a + S1x64x32x256.size a ≤ S1x64x32x256.size a
  h_S1x64x32x256 : 0 < S1x64x32x256.numel
  shapeCasts_S1x64x32x256_S64x32x256 : S1x64x32x256.ShapeCasts S64x32x256
  shapeCasts_S64x32x256_S1x64x32x256 : S64x32x256.ShapeCasts S1x64x32x256
  shapeCasts_S32x32x128_S1x32x32x128 : S32x32x128.ShapeCasts S1x32x32x128
  reduces_S32x32x128_S128 : S32x32x128.Reduces [0, 1] S128
  shapeCasts_S128_S1x1x128 : S128.ShapeCasts S1x1x128
  shapeCasts_S64x64x32x256_S64x64x64x128 : S64x64x32x256.ShapeCasts S64x64x64x128
  reducesTo_S64x1x128_S128_d0_1 : S64x1x128.ReducesTo [0, 1] S128
  shapeCasts_S3x3x128x128_S3x384x128 : S3x3x128x128.ShapeCasts S3x384x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  broadcasts_S1x1x128_S64x64x128 : S1x1x128.Broadcasts S64x64x128
  concatenates_S1x64x128_S64x64x128_S1x64x128_S66x64x128_d0 : Shape.Concatenates [S1x64x128, S64x64x128, S1x64x128] S66x64x128 0
  concatenates_S66x1x128_S66x64x128_S66x1x128_S66x66x128_d1 : Shape.Concatenates [S66x1x128, S66x64x128, S66x1x128] S66x66x128 1
  slices_S66x66x128_o0_0_0_S64x66x128 : S66x66x128.Slices ![0, 0, 0] S64x66x128
  slices_S64x66x128_o0_0_0_S64x64x128 : S64x66x128.Slices ![0, 0, 0] S64x64x128
  slices_S64x66x128_o0_1_0_S64x64x128 : S64x66x128.Slices ![0, 1, 0] S64x64x128
  slices_S64x66x128_o0_2_0_S64x64x128 : S64x66x128.Slices ![0, 2, 0] S64x64x128
  concatenates_S64x64x128_S64x64x128_S64x64x128_S64x64x384_d2 : Shape.Concatenates [S64x64x128, S64x64x128, S64x64x128] S64x64x384 2
  shapeCasts_S64x64x384_S4096x384 : S64x64x384.ShapeCasts S4096x384
  inb_S3x384x128_S1x384x128_0_0_0 : ∀ a, (![0, 0, 0] : Fin 3 → Nat) a + S1x384x128.size a ≤ S3x384x128.size a
  h_S1x384x128 : 0 < S1x384x128.numel
  shapeCasts_S1x384x128_S384x128 : S1x384x128.ShapeCasts S384x128
  slices_S66x66x128_o1_0_0_S64x66x128 : S66x66x128.Slices ![1, 0, 0] S64x66x128
  inb_S3x384x128_S1x384x128_1_0_0 : ∀ a, (![1, 0, 0] : Fin 3 → Nat) a + S1x384x128.size a ≤ S3x384x128.size a
  slices_S66x66x128_o2_0_0_S64x66x128 : S66x66x128.Slices ![2, 0, 0] S64x66x128
  inb_S3x384x128_S1x384x128_2_0_0 : ∀ a, (![2, 0, 0] : Fin 3 → Nat) a + S1x384x128.size a ≤ S3x384x128.size a
  shapeCasts_S4096x128_S64x64x128 : S4096x128.ShapeCasts S64x64x128
  shapeCasts_S32x32x128_S32x32x1x128 : S32x32x128.ShapeCasts S32x32x1x128
  concatenates_S32x32x1x128_S32x32x1x128_S32x32x2x128_d2 : Shape.Concatenates [S32x32x1x128, S32x32x1x128] S32x32x2x128 2
  shapeCasts_S32x32x2x128_S32x64x128 : S32x32x2x128.ShapeCasts S32x64x128
  shapeCasts_S32x64x128_S32x1x64x128 : S32x64x128.ShapeCasts S32x1x64x128
  concatenates_S32x1x64x128_S32x1x64x128_S32x2x64x128_d1 : Shape.Concatenates [S32x1x64x128, S32x1x64x128] S32x2x64x128 1
  shapeCasts_S32x2x64x128_S64x64x128 : S32x2x64x128.ShapeCasts S64x64x128
  shapeCasts_S64x64x128_S1x64x64x128 : S64x64x128.ShapeCasts S1x64x64x128
  transposes_S64x64x64x128_S64x128x64x64_0_3_1_2 : S64x64x64x128.Transposes [0, 3, 1, 2] S64x128x64x64
  dot_S64x128_S128x128_S64x128_1_0_0_1_n_n_wf : DotDims.WF S64x128 S128x128 S64x128 [1] [0] [0] [1] [] []
  dot_S1024x128_S128x128_S1024x128_1_0_0_1_n_n_wf : DotDims.WF S1024x128 S128x128 S1024x128 [1] [0] [0] [1] [] []
  dot_S1024x256_S256x128_S1024x128_1_0_0_1_n_n_wf : DotDims.WF S1024x256 S256x128 S1024x128 [1] [0] [0] [1] [] []
  dot_S1024x512_S512x128_S1024x128_1_0_0_1_n_n_wf : DotDims.WF S1024x512 S512x128 S1024x128 [1] [0] [0] [1] [] []
  dot_S4096x384_S384x128_S4096x128_1_0_0_1_n_n_wf : DotDims.WF S4096x384 S384x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x128.size a ≤ S64x32x32x128.size a
  hwx0_0 : ∀ i : grid0.Coords, EltTy.bits .f32 = 32 ∨ (Rect.block (s := S64x32x32x128) S1x32x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S64x1x128.size a
  hwx0_1 : ∀ i : grid0.Coords, EltTy.bits .f32 = 32 ∨ (Rect.block (s := S64x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x32x256.size a ≤ S64x64x32x256.size a
  hwx0_9 : ∀ i : grid0.Coords, EltTy.bits .f32 = 32 ∨ (Rect.block (s := S64x64x32x256) S1x64x32x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x32x32x128.size a ≤ S64x32x32x128.size a
  hwx0_10 : ∀ i : grid0.Coords, EltTy.bits .f32 = 32 ∨ (Rect.block (s := S64x32x32x128) S1x32x32x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S64x1x128.size a
  hwx0_11 : ∀ i : grid0.Coords, EltTy.bits .f32 = 32 ∨ (Rect.block (s := S64x1x128) S1x1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x128.size a ≤ S64x1x128.size a
  hwx0_12 : ∀ i : grid0.Coords, EltTy.bits .f32 = 32 ∨ (Rect.block (s := S64x1x128) S1x1x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S64x64x64x128.size a
  hwx1_0 : ∀ i : grid1.Coords, EltTy.bits .f32 = 32 ∨ (Rect.block (s := S64x64x64x128) S1x64x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128.size a ≤ S64x1x128.size a
  hwx1_1 : ∀ i : grid1.Coords, EltTy.bits .f32 = 32 ∨ (Rect.block (s := S64x1x128) S1x1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S64x1x128.size a
  hwx1_2 : ∀ i : grid1.Coords, EltTy.bits .f32 = 32 ∨ (Rect.block (s := S64x1x128) S1x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x384x128.size a ≤ S3x384x128.size a
  hwx1_3 : ∀ i : grid1.Coords, EltTy.bits .f32 = 32 ∨ (Rect.block (s := S3x384x128) S3x384x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x32x128.size a ≤ S64x32x32x128.size a
  hwx1_5 : ∀ i : grid1.Coords, EltTy.bits .f32 = 32 ∨ (Rect.block (s := S64x32x32x128) S1x32x32x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x64x128.size a ≤ S64x64x64x128.size a
  hwx1_6 : ∀ i : grid1.Coords, EltTy.bits .f32 = 32 ∨ (Rect.block (s := S64x64x64x128) S1x64x64x128.size (cc1_transform_6 i) (hinb1_6 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf

abbrev win0_0 : Pipeline.Window sig grid0 :=
  Pipeline.Window.ofSpec (Memref.whole main_v0) S1x32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51_0) S1x64x32x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v51_1) S1x32x32x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v51_2) S1x1x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v51_3) S1x1x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v52) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1x1x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S1x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v80) S3x384x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v82) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51_1) S1x32x32x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v83) S1x64x64x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.KBFrame0.lean ====
/-
  Region 0 of the kernel program as printed at the word level (the first, sub-pixel convolution stage): what one grid point's body leaves in each
  of its four output windows — the folded convolution output, the skip projection and the two per-sample partial
  sums — as functions of the blocks of its six input windows, the body's triple, and the per-point obligation of the
  pipeline. Everything is stated for any float instance.
-/
import proofs.«148433_g2000002724561042_pallasbulk_175_35_alg».proof.Proof.Gen.Kernel.Launch
import proofs.«148433_g2000002724561042_pallasbulk_175_35_alg».proof.Proof.Gen.Kernel.Skeleton
import proofs.«148433_g2000002724561042_pallasbulk_175_35_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: `cc0__stage1_kernel`, at the buffer contents `V` found when the region is entered -/

section
variable (V : (c : Dev nD) → (b : Ref sig .tc) → Buf (Elt F) ((c : Thread nD τ).loc b))

/-- Window `w`'s block at grid point `t`: the window's rectangle of its array, read off the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or the block index
    has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/
abbrev r0_S4x32x32x128 : Rect S4x32x32x128 := Rect.unit (s := S4x32x32x128) ![0, 0, 0, 0] S4x32x32x128.size inb_S4x32x32x128_S4x32x32x128_0_0_0_0
abbrev r0_S4x1x128 : Rect S4x1x128 := Rect.unit (s := S4x1x128) ![0, 0, 0] S4x1x128.size inb_S4x1x128_S4x1x128_0_0_0
abbrev r0_S512x512 : Rect S512x512 := Rect.unit (s := S512x512) ![0, 0] S512x512.size inb_S512x512_S512x512_0_0
abbrev r0_S1x512 : Rect S1x512 := Rect.unit (s := S1x512) ![0, 0] S1x512.size inb_S1x512_S1x512_0_0
abbrev r0_S128x128 : Rect S128x128 := Rect.unit (s := S128x128) ![0, 0] S128x128.size inb_S128x128_S128x128_0_0
abbrev r0_S4x64x32x256 : Rect S4x64x32x256 := Rect.unit (s := S4x64x32x256) ![0, 0, 0, 0] S4x64x32x256.size inb_S4x64x32x256_S4x64x32x256_0_0_0_0

/-! ## What the body leaves in each output window's buffer -/

/-- Output window 6's staging buffer after the body, as a function of the input blocks: one store through the whole
    rectangle, its value the body's arithmetic on the loaded blocks. -/
def out0_6 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x64x32x256 .bf16 :=
  View.canon [⟨r0_S4x64x32x256, k0_pay3 (k0_pay6 (View.ld x0 r0_S4x32x32x128) (View.ld x1 r0_S4x1x128) (View.ld x2 r0_S4x1x128) (View.ld x3 r0_S512x512) (View.ld x4 r0_S1x512))⟩]

/-- The store's rectangle is the whole buffer, so it covers every index. -/
theorem cover0_6 (p0 : Vec F S4x64x32x256 .bf16) (y : S4x64x32x256.Idx) :
    ∃ pc ∈ ([⟨r0_S4x64x32x256, p0⟩] : List (View.Piece (Elt F) S4x64x32x256 .bf16)), y ∈ pc.1.set :=
  View.cover_of_tiled [⟨r0_S4x64x32x256, p0⟩] S4x64x32x256.size (by rfl) y

/-- Output window 7's staging buffer after the body, as a function of the input blocks: one store through the whole
    rectangle, its value the body's arithmetic on the loaded blocks. -/
def out0_7 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x32x32x128 .bf16 :=
  View.canon [⟨r0_S4x32x32x128, k0_pay4 (k0_pay5 (View.ld x0 r0_S4x32x32x128)) (View.ld x5 r0_S128x128)⟩]

/-- The store's rectangle is the whole buffer, so it covers every index. -/
theorem cover0_7 (p0 : Vec F S4x32x32x128 .bf16) (y : S4x32x32x128.Idx) :
    ∃ pc ∈ ([⟨r0_S4x32x32x128, p0⟩] : List (View.Piece (Elt F) S4x32x32x128 .bf16)), y ∈ pc.1.set :=
  View.cover_of_tiled [⟨r0_S4x32x32x128, p0⟩] S4x32x32x128.size (by rfl) y

/-- Output window 8's staging buffer after the body, as a function of the input blocks: one store through the whole
    rectangle, its value the body's arithmetic on the loaded blocks. -/
def out0_8 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x1x128 .f32 :=
  View.canon [⟨r0_S4x1x128, k0_pay1 (k0_pay8 (View.ld x0 r0_S4x32x32x128) (View.ld x1 r0_S4x1x128) (View.ld x2 r0_S4x1x128) (View.ld x3 r0_S512x512) (View.ld x4 r0_S1x512)) (k0_pay10 (View.ld x0 r0_S4x32x32x128) (View.ld x1 r0_S4x1x128) (View.ld x2 r0_S4x1x128) (View.ld x3 r0_S512x512) (View.ld x4 r0_S1x512))⟩]

/-- The store's rectangle is the whole buffer, so it covers every index. -/
theorem cover0_8 (p0 : Vec F S4x1x128 .f32) (y : S4x1x128.Idx) :
    ∃ pc ∈ ([⟨r0_S4x1x128, p0⟩] : List (View.Piece (Elt F) S4x1x128 .f32)), y ∈ pc.1.set :=
  View.cover_of_tiled [⟨r0_S4x1x128, p0⟩] S4x1x128.size (by rfl) y

/-- Output window 9's staging buffer after the body, as a function of the input blocks: one store through the whole
    rectangle, its value the body's arithmetic on the loaded blocks. -/
def out0_9 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x1x128 .f32 :=
  View.canon [⟨r0_S4x1x128, k0_pay2 (k0_pay9 (View.ld x0 r0_S4x32x32x128) (View.ld x1 r0_S4x1x128) (View.ld x2 r0_S4x1x128) (View.ld x3 r0_S512x512) (View.ld x4 r0_S1x512))⟩]

/-- The store's rectangle is the whole buffer, so it covers every index. -/
theorem cover0_9 (p0 : Vec F S4x1x128 .f32) (y : S4x1x128.Idx) :
    ∃ pc ∈ ([⟨r0_S4x1x128, p0⟩] : List (View.Piece (Elt F) S4x1x128 .f32)), y ∈ pc.1.set :=
  View.cover_of_tiled [⟨r0_S4x1x128, p0⟩] S4x1x128.size (by rfl) y

/-! ## The body's triple -/

set_option maxHeartbeats 4000000 in
/-- The kernel body on whole staging buffers — the inputs' at contents `xW`, the outputs' at anything — runs to its
    continuation with the inputs' buffers as they were and each output's at `out0_W` of the inputs. -/
theorem sound_kernel0 (c : Dev nD) (E : Set ℕ) (i : grid0.Coords) (arg1 : Memref sig .tc .vmem S4x32x32x128 .f32) (harg1 : arg1.IsWhole) (arg2 : Memref sig .tc .vmem S4x1x128 .f32) (harg2 : arg2.IsWhole) (arg3 : Memref sig .tc .vmem S4x1x128 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S4x64x32x256 .bf16) (harg7 : arg7.IsWhole) (arg8 : Memref sig .tc .vmem S4x32x32x128 .bf16) (harg8 : arg8.IsWhole) (arg9 : Memref sig .tc .vmem S4x1x128 .f32) (harg9 : arg9.IsWhole) (arg10 : Memref sig .tc .vmem S4x1x128 .f32) (harg10 : arg10.IsWhole)
    (x0 : Vec F S4x32x32x128 .f32) (x1 : Vec F S4x1x128 .f32) (x2 : Vec F S4x1x128 .f32) (x3 : Vec F S512x512 .bf16) (x4 : Vec F S1x512 .f32) (x5 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them; after the body at point `t` each
    input's buffer at its block and each output's at `out0_W` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KBFrame1.lean ====
/-
  Region 1 of the kernel program as printed at the word level (the second convolution stage): what one grid point's body leaves in its output
  window as a function of the blocks of its six input windows, the body's triple, and the per-point obligation of
  the pipeline. Everything is stated for any float instance.
-/
import proofs.«148433_g2000002724561042_pallasbulk_175_35_alg».proof.Proof.Gen.Kernel.Launch
import proofs.«148433_g2000002724561042_pallasbulk_175_35_alg».proof.Proof.Gen.Kernel.Skeleton
import proofs.«148433_g2000002724561042_pallasbulk_175_35_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: `cc1__stage2_kernel`, at the buffer contents `V` found when the region is entered -/

section
variable (V : (c : Dev nD) → (b : Ref sig .tc) → Buf (Elt F) ((c : Thread nD τ).loc b))

/-- Window `w`'s block at grid point `t`: the window's rectangle of its array, read off the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or the block index
    has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/
abbrev r1_S2x64x64x128 : Rect S2x64x64x128 := Rect.unit (s := S2x64x64x128) ![0, 0, 0, 0] S2x64x64x128.size inb_S2x64x64x128_S2x64x64x128_0_0_0_0
abbrev r1_S2x1x128 : Rect S2x1x128 := Rect.unit (s := S2x1x128) ![0, 0, 0] S2x1x128.size inb_S2x1x128_S2x1x128_0_0_0
abbrev r1_S384x384 : Rect S384x384 := Rect.unit (s := S384x384) ![0, 0] S384x384.size inb_S384x384_S384x384_0_0
abbrev r1_S1x128 : Rect S1x128 := Rect.unit (s := S1x128) ![0, 0] S1x128.size inb_S1x128_S1x128_0_0
abbrev r1_S2x32x32x128 : Rect S2x32x32x128 := Rect.unit (s := S2x32x32x128) ![0, 0, 0, 0] S2x32x32x128.size inb_S2x32x32x128_S2x32x32x128_0_0_0_0

/-! ## What the body leaves in each output window's buffer -/

/-- Output window 6's staging buffer after the body, as a function of the input blocks: one store through the whole
    rectangle, its value the body's arithmetic on the loaded blocks. -/
def out1_6 (x0 : Vec F S2x64x64x128 .bf16) (x1 : Vec F S2x1x128 .f32) (x2 : Vec F S2x1x128 .f32) (x3 : Vec F S384x384 .bf16) (x4 : Vec F S1x128 .f32) (x5 : Vec F S2x32x32x128 .bf16) : Vec F S2x64x64x128 .f32 :=
  View.canon [⟨r1_S2x64x64x128, k1_pay1 (k1_pay2 (View.ld x0 r1_S2x64x64x128) (View.ld x1 r1_S2x1x128) (View.ld x2 r1_S2x1x128) (View.ld x3 r1_S384x384)) (View.ld x4 r1_S1x128) (View.ld x5 r1_S2x32x32x128)⟩]

/-- The store's rectangle is the whole buffer, so it covers every index. -/
theorem cover1_6 (p0 : Vec F S2x64x64x128 .f32) (y : S2x64x64x128.Idx) :
    ∃ pc ∈ ([⟨r1_S2x64x64x128, p0⟩] : List (View.Piece (Elt F) S2x64x64x128 .f32)), y ∈ pc.1.set :=
  View.cover_of_tiled [⟨r1_S2x64x64x128, p0⟩] S2x64x64x128.size (by rfl) y

/-! ## The body's triple -/

set_option maxHeartbeats 4000000 in
/-- The kernel body on whole staging buffers — the inputs' at contents `xW`, the outputs' at anything — runs to its
    continuation with the inputs' buffers as they were and each output's at `out1_W` of the inputs. -/
theorem sound_kernel1 (c : Dev nD) (E : Set ℕ) (i : grid1.Coords) (arg1 : Memref sig .tc .vmem S2x64x64x128 .bf16) (harg1 : arg1.IsWhole) (arg2 : Memref sig .tc .vmem S2x1x128 .f32) (harg2 : arg2.IsWhole) (arg3 : Memref sig .tc .vmem S2x1x128 .f32) (harg3 : arg3.IsWhole) (arg4 : Memref sig .tc .vmem S384x384 .bf16) (harg4 : arg4.IsWhole) (arg5 : Memref sig .tc .vmem S1x128 .f32) (harg5 : arg5.IsWhole) (arg6 : Memref sig .tc .vmem S2x32x32x128 .bf16) (harg6 : arg6.IsWhole) (arg7 : Memref sig .tc .vmem S2x64x64x128 .f32) (harg7 : arg7.IsWhole)
    (x0 : Vec F S2x64x64x128 .bf16) (x1 : Vec F S2x1x128 .f32) (x2 : Vec F S2x1x128 .f32) (x3 : Vec F S384x384 .bf16) (x4 : Vec F S1x128 .f32) (x5 : Vec F S2x32x32x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__stage2_kernel i arg1 harg1 arg2 harg2 arg3 harg3 arg4 harg4 arg5 harg5 arg6 harg6 arg7 harg7) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and each output's at `out1_W` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KBFrameRun.lean ====
/-
  The whole run of the kernel program as printed at the word level: the contents of the unscoped buffers at each boundary between @main's five
  items — host operations, the first convolution stage, host operations, the second stage, the final transpose —,
  the two stages as segments of the pipeline library, and the launch: every weakly fair execution terminates without
  a fault and ends with every unscoped buffer at the last boundary's contents. The frame (the twelve argument arrays
  end as launched) follows because no item writes an argument. Everything is stated for any float instance.
-/
import proofs.«148433_g2000002724561042_pallasbulk_175_35_alg».proof.Proof.Gen.Kernel.Launch
import proofs.«148433_g2000002724561042_pallasbulk_175_35_alg».proof.Proof.Gen.Kernel.Skeleton
import proofs.«148433_g2000002724561042_pallasbulk_175_35_alg».proof.Proof.Gen.Kernel.Points
import proofs.«148433_g2000002724561042_pallasbulk_175_35_alg».proof.Proof.Gen.Kernel.Regions
import proofs.«148433_g2000002724561042_pallasbulk_175_35_alg».proof.Proof.KBFrame0
import proofs.«148433_g2000002724561042_pallasbulk_175_35_alg».proof.Proof.KBFrame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations: the first stage's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first stage's exit: each of its windows' arrays at what the pipeline's write-backs leave, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: the second stage's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second stage's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host operation (the transpose that writes the result): the contents at the return. -/
abbrev W5 : Dev nD → Valuation τ sig (Elt F) := fun c => StableHlo.after hostOps2 (W4 m ρ c)

/-! ## The arguments end as launched: no host operation writes one and no stage's window is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (r := main_arg9) (by decide)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (r := main_arg10) (by decide)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (r := main_arg11) (by decide)
    _ = W3 m ρ c (Proc.devRef .tc main_arg11) := W4_of_ne m ρ c main_arg11 (by decide)
    _ = W2 m ρ c (Proc.devRef .tc main_arg11) := StableHlo.after_of_writes_sub hostOps1 _ hostOps1_writes (r := main_arg11) (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl

/-! ## The proof data family and what rides beside the buffers -/

abbrev adm : (p : Fin 2) → (pcfgs (F := F) p).Adm := fun p => (cfgs p).toPCfg_adm
/-- Each pipeline's proof data at its stage's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside which the core owes nothing: every unscoped buffer at the return contents. -/
abbrev Tₙ (c : Dev nD) : sProp 𝕄 := iprop(StableHlo.held (c : Thread nD τ) (Pipeline.ucRefs τ sig) (W5 m ρ c) ∗ ∃ r, prngReg c r)

/-! ## The two stages as segments -/

set_option backward.isDefEq.respectTransparency.types false in
/-- Region 0 as a segment: entered with every unscoped buffer at `W1`, left with them at `W2`. Its windows'
    arrays are split out of the unscoped buffers at entry and put back at the exit contents; the generator register
    goes into the pipeline's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its windows'
    arrays are split out of the unscoped buffers at entry and put back at the exit contents; the generator register
    goes into the pipeline's invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the return contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates without a fault and the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c)⟩) (run_main m ρ)

end Cert.Kernel.Hand

end
-- ==== Proof.KFrame0.lean ====
/-
  Region 0 of the kernel program (the first, sub-pixel convolution stage): what one grid point's body leaves in each
  of its four output windows — the folded convolution output, the skip projection and the two per-sample partial
  sums — as functions of the blocks of its six input windows, the body's triple, and the per-point obligation of the
  pipeline. Everything is stated for any float instance.
-/
import proofs.«148433_g2000002724561042_pallasbulk_175_35_alg».proof.Proof.Gen.KernelIdeal.Launch
import proofs.«148433_g2000002724561042_pallasbulk_175_35_alg».proof.Proof.Gen.KernelIdeal.Skeleton
import proofs.«148433_g2000002724561042_pallasbulk_175_35_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: `cc0__stage1_kernel`, at the buffer contents `V` found when the region is entered -/

section
variable (V : (c : Dev nD) → (b : Ref sig .tc) → Buf (Elt F) ((c : Thread nD τ).loc b))

/-- Window `w`'s block at grid point `t`: the window's rectangle of its array, read off the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or the block index
    has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetches it or the block index
    has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The whole-buffer rectangles the body loads and stores through -/
abbrev r0_S4x32x32x128 : Rect S4x32x32x128 := Rect.unit (s := S4x32x32x128) ![0, 0, 0, 0] S4x32x32x128.size inb_S4x32x32x128_S4x32x32x128_0_0_0_0
abbrev r0_S4x1x128 : Rect S4x1x128 := Rect.unit (s := S4x1x128) ![0, 0, 0] S4x1x128.size inb_S4x1x128_S4x1x128_0_0_0
abbrev r0_S512x512 : Rect S512x512 := Rect.unit (s := S512x512) ![0, 0] S512x512.size inb_S512x512_S512x512_0_0
abbrev r0_S1x512 : Rect S1x512 := Rect.unit (s := S1x512) ![0, 0] S1x512.size inb_S1x512_S1x512_0_0
abbrev r0_S128x128 : Rect S128x128 := Rect.unit (s := S128x128) ![0, 0] S128x128.size inb_S128x128_S128x128_0_0
abbrev r0_S4x64x32x256 : Rect S4x64x32x256 := Rect.unit (s := S4x64x32x256) ![0, 0, 0, 0] S4x64x32x256.size inb_S4x64x32x256_S4x64x32x256_0_0_0_0

/-! ## What the body leaves in each output window's buffer -/

/-- Output window 6's staging buffer after the body, as a function of the input blocks: one store through the whole
    rectangle, its value the body's arithmetic on the loaded blocks. -/
def out0_6 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x64x32x256 .bf16 :=
  View.canon [⟨r0_S4x64x32x256, k0_pay3 (k0_pay6 (View.ld x0 r0_S4x32x32x128) (View.ld x1 r0_S4x1x128) (View.ld x2 r0_S4x1x128) (View.ld x3 r0_S512x512) (View.ld x4 r0_S1x512))⟩]

/-- The store's rectangle is the whole buffer, so it covers every index. -/
theorem cover0_6 (p0 : Vec F S4x64x32x256 .bf16) (y : S4x64x32x256.Idx) :
    ∃ pc ∈ ([⟨r0_S4x64x32x256, p0⟩] : List (View.Piece (Elt F) S4x64x32x256 .bf16)), y ∈ pc.1.set :=
  View.cover_of_tiled [⟨r0_S4x64x32x256, p0⟩] S4x64x32x256.size (by rfl) y

/-- Output window 7's staging buffer after the body, as a function of the input blocks: one store through the whole
    rectangle, its value the body's arithmetic on the loaded blocks. -/
def out0_7 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x32x32x128 .bf16 :=
  View.canon [⟨r0_S4x32x32x128, k0_pay4 (k0_pay5 (View.ld x0 r0_S4x32x32x128)) (View.ld x5 r0_S128x128)⟩]

/-- The store's rectangle is the whole buffer, so it covers every index. -/
theorem cover0_7 (p0 : Vec F S4x32x32x128 .bf16) (y : S4x32x32x128.Idx) :
    ∃ pc ∈ ([⟨r0_S4x32x32x128, p0⟩] : List (View.Piece (Elt F) S4x32x32x128 .bf16)), y ∈ pc.1.set :=
  View.cover_of_tiled [⟨r0_S4x32x32x128, p0⟩] S4x32x32x128.size (by rfl) y

/-- Output window 8's staging buffer after the body, as a function of the input blocks: one store through the whole
    rectangle, its value the body's arithmetic on the loaded blocks. -/
def out0_8 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x1x128 .f32 :=
  View.canon [⟨r0_S4x1x128, k0_pay1 (k0_pay8 (View.ld x0 r0_S4x32x32x128) (View.ld x1 r0_S4x1x128) (View.ld x2 r0_S4x1x128) (View.ld x3 r0_S512x512) (View.ld x4 r0_S1x512)) (k0_pay10 (View.ld x0 r0_S4x32x32x128) (View.ld x1 r0_S4x1x128) (View.ld x2 r0_S4x1x128) (View.ld x3 r0_S512x512) (View.ld x4 r0_S1x512))⟩]

/-- The store's rectangle is the whole buffer, so it covers every index. -/
theorem cover0_8 (p0 : Vec F S4x1x128 .f32) (y : S4x1x128.Idx) :
    ∃ pc ∈ ([⟨r0_S4x1x128, p0⟩] : List (View.Piece (Elt F) S4x1x128 .f32)), y ∈ pc.1.set :=
  View.cover_of_tiled [⟨r0_S4x1x128, p0⟩] S4x1x128.size (by rfl) y

/-- Output window 9's staging buffer after the body, as a function of the input blocks: one store through the whole
    rectangle, its value the body's arithmetic on the loaded blocks. -/
def out0_9 (x0 : Vec F S4x32x32x128 .f32) (x1 : Vec F S4x1x128 .f32) (x2 : Vec F S4x1x128 .f32) (x3 : Vec F S512x512 .bf16) (x4 : Vec F S1x512 .f32) (x5 : Vec F S128x128 .bf16) : Vec F S4x1x128 .f32 :=
  View.canon [⟨r0_S4x1x128, k0_pay2 (k0_pay9 (View.ld x0 r0_S4x32x32x128) (View.ld x1 r0_S4x1x128) (View.ld x2 r0_S4x1x128) (View.ld x3 r0_S512x512) (View.ld x4 r0_S1x512))⟩]

/-- The store's rectangle is the whole buffer, so it covers every index. -/
theorem cover0_9 (p0 : Vec F S4x1x128 .f32) (y : S4x1x128.Idx) :
    ∃ pc ∈ ([⟨r0_S4x1x128, p0⟩] : List (View.Piece (Elt F) S4x1x128 .f32)), y ∈ pc.1.set :=
  View.cover_of_tiled [⟨r0_S4x1x128, p0⟩] S4x1x128.size (by rfl) y

/-! ## The body's triple -/

set_option maxHeartbeats 4000000 in
/-- The kernel body on whole staging buffers — the inputs' at contents `xW`, the outputs' at anything — runs to its
    continuation with the inputs' buffers as they were and each output's at `out0_W` of the inputs. -/
theorem sound_kernel0 (c : Dev nD) (E : Set ℕ) (i : grid0.Coords) (arg1 : Memref sig .tc .vmem S4x32x32x128 .f32) (harg1 : arg1.IsWhole) (arg2 : Memref sig .tc .vmem S4x1x128 .f32) (harg2 : arg2.IsWhole) (arg3 : Memref sig .tc .vmem S4x1x128 .f32) (harg3 : arg3.IsWhole) (arg4 : Memref sig .tc .vmem S512x512 .bf16) (harg4 : arg4.IsWhole) (arg5 : Memref sig .tc .vmem S1x512 .f32) (harg5 : arg5.IsWhole) (arg6 : Memref sig .tc .vmem S128x128 .bf16) (harg6 : arg6.IsWhole) (arg7 : Memref sig .tc .vmem S4x64x32x256 .bf16) (harg7 : arg7.IsWhole) (arg8 : Memref sig .tc .vmem S4x32x32x128 .bf16) (harg8 : arg8.IsWhole) (arg9 : Memref sig .tc .vmem S4x1x128 .f32) (harg9 : arg9.IsWhole) (arg10 : Memref sig .tc .vmem S4x1x128 .f32) (harg10 : arg10.IsWhole)
    (x0 : Vec F S4x32x32x128 .f32) (x1 : Vec F S4x1x128 .f32) (x2 : Vec F S4x1x128 .f32) (x3 : Vec F S512x512 .bf16) (x4 : Vec F S1x512 .f32) (x5 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them; after the body at point `t` each
    input's buffer at its block and each output's at `out0_W` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KFrame1.lean ====
/-
  Region 1 of the kernel program (the second convolution stage): what one grid point's body leaves in its output
  window as a function of the blocks of its six input windows, the body's triple, and the per-point obligation of
  the pipeline. Everything is stated for any float instance.
-/
import proofs.«148433_g2000002724561042_pallasbulk_175_35_alg».proof.Proof.Gen.KernelIdeal.Launch
import proofs.«148433_g2000002724561042_pallasbulk_175_35_alg».proof.Proof.Gen.KernelIdeal.Skeleton
import proofs.«148433_g2000002724561042_pallasbulk_175_35_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: `cc1__stage2_kernel`, at the buffer contents `V` found when the region is entered -/

section
variable (V : (c : Dev nD) → (b : Ref sig .tc) → Buf (Elt F) ((c : Thread nD τ).loc b))

/-- Window `w`'s block at grid point `t`: the window's rectangle of its array, read off the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or the block index
    has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetches it or the block index
    has not moved since the last fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The whole-buffer rectangles the body loads and stores through -/
abbrev r1_S2x64x64x128 : Rect S2x64x64x128 := Rect.unit (s := S2x64x64x128) ![0, 0, 0, 0] S2x64x64x128.size inb_S2x64x64x128_S2x64x64x128_0_0_0_0
abbrev r1_S2x1x128 : Rect S2x1x128 := Rect.unit (s := S2x1x128) ![0, 0, 0] S2x1x128.size inb_S2x1x128_S2x1x128_0_0_0
abbrev r1_S384x384 : Rect S384x384 := Rect.unit (s := S384x384) ![0, 0] S384x384.size inb_S384x384_S384x384_0_0
abbrev r1_S1x128 : Rect S1x128 := Rect.unit (s := S1x128) ![0, 0] S1x128.size inb_S1x128_S1x128_0_0
abbrev r1_S2x32x32x128 : Rect S2x32x32x128 := Rect.unit (s := S2x32x32x128) ![0, 0, 0, 0] S2x32x32x128.size inb_S2x32x32x128_S2x32x32x128_0_0_0_0

/-! ## What the body leaves in each output window's buffer -/

/-- Output window 6's staging buffer after the body, as a function of the input blocks: one store through the whole
    rectangle, its value the body's arithmetic on the loaded blocks. -/
def out1_6 (x0 : Vec F S2x64x64x128 .bf16) (x1 : Vec F S2x1x128 .f32) (x2 : Vec F S2x1x128 .f32) (x3 : Vec F S384x384 .bf16) (x4 : Vec F S1x128 .f32) (x5 : Vec F S2x32x32x128 .bf16) : Vec F S2x64x64x128 .f32 :=
  View.canon [⟨r1_S2x64x64x128, k1_pay1 (k1_pay2 (View.ld x0 r1_S2x64x64x128) (View.ld x1 r1_S2x1x128) (View.ld x2 r1_S2x1x128) (View.ld x3 r1_S384x384)) (View.ld x4 r1_S1x128) (View.ld x5 r1_S2x32x32x128)⟩]

/-- The store's rectangle is the whole buffer, so it covers every index. -/
theorem cover1_6 (p0 : Vec F S2x64x64x128 .f32) (y : S2x64x64x128.Idx) :
    ∃ pc ∈ ([⟨r1_S2x64x64x128, p0⟩] : List (View.Piece (Elt F) S2x64x64x128 .f32)), y ∈ pc.1.set :=
  View.cover_of_tiled [⟨r1_S2x64x64x128, p0⟩] S2x64x64x128.size (by rfl) y

/-! ## The body's triple -/

set_option maxHeartbeats 4000000 in
/-- The kernel body on whole staging buffers — the inputs' at contents `xW`, the outputs' at anything — runs to its
    continuation with the inputs' buffers as they were and each output's at `out1_W` of the inputs. -/
theorem sound_kernel1 (c : Dev nD) (E : Set ℕ) (i : grid1.Coords) (arg1 : Memref sig .tc .vmem S2x64x64x128 .bf16) (harg1 : arg1.IsWhole) (arg2 : Memref sig .tc .vmem S2x1x128 .f32) (harg2 : arg2.IsWhole) (arg3 : Memref sig .tc .vmem S2x1x128 .f32) (harg3 : arg3.IsWhole) (arg4 : Memref sig .tc .vmem S384x384 .bf16) (harg4 : arg4.IsWhole) (arg5 : Memref sig .tc .vmem S1x128 .f32) (harg5 : arg5.IsWhole) (arg6 : Memref sig .tc .vmem S2x32x32x128 .bf16) (harg6 : arg6.IsWhole) (arg7 : Memref sig .tc .vmem S2x64x64x128 .f32) (harg7 : arg7.IsWhole)
    (x0 : Vec F S2x64x64x128 .bf16) (x1 : Vec F S2x1x128 .f32) (x2 : Vec F S2x1x128 .f32) (x3 : Vec F S384x384 .bf16) (x4 : Vec F S1x128 .f32) (x5 : Vec F S2x32x32x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__stage2_kernel i arg1 harg1 arg2 harg2 arg3 harg3 arg4 harg4 arg5 harg5 arg6 harg6 arg7 harg7) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them; after the body at point `t` each
    input's buffer at its block and each output's at `out1_W` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KFrameRun.lean ====
/-
  The whole run of the kernel program: the contents of the unscoped buffers at each boundary between @main's five
  items — host operations, the first convolution stage, host operations, the second stage, the final transpose —,
  the two stages as segments of the pipeline library, and the launch: every weakly fair execution terminates without
  a fault and ends with every unscoped buffer at the last boundary's contents. The frame (the twelve argument arrays
  end as launched) follows because no item writes an argument. Everything is stated for any float instance.
-/
import proofs.«148433_g2000002724561042_pallasbulk_175_35_alg».proof.Proof.Gen.KernelIdeal.Launch
import proofs.«148433_g2000002724561042_pallasbulk_175_35_alg».proof.Proof.Gen.KernelIdeal.Skeleton
import proofs.«148433_g2000002724561042_pallasbulk_175_35_alg».proof.Proof.Gen.KernelIdeal.Points
import proofs.«148433_g2000002724561042_pallasbulk_175_35_alg».proof.Proof.Gen.KernelIdeal.Regions
import proofs.«148433_g2000002724561042_pallasbulk_175_35_alg».proof.Proof.KFrame0
import proofs.«148433_g2000002724561042_pallasbulk_175_35_alg».proof.Proof.KFrame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations: the first stage's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first stage's exit: each of its windows' arrays at what the pipeline's write-backs leave, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: the second stage's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second stage's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host operation (the transpose that writes the result): the contents at the return. -/
abbrev W5 : Dev nD → Valuation τ sig (Elt F) := fun c => StableHlo.after hostOps2 (W4 m ρ c)

/-! ## The arguments end as launched: no host operation writes one and no stage's window is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (r := main_arg2) (by decide)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (r := main_arg3) (by decide)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (r := main_arg4) (by decide)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (r := main_arg5) (by decide)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (r := main_arg6) (by decide)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (r := main_arg7) (by decide)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (r := main_arg8) (by decide)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (r := main_arg9) (by decide)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (r := main_arg10) (by decide)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (r := main_arg11) (by decide)
    _ = W3 m ρ c (Proc.devRef .tc main_arg11) := W4_of_ne m ρ c main_arg11 (by decide)
    _ = W2 m ρ c (Proc.devRef .tc main_arg11) := StableHlo.after_of_writes_sub hostOps1 _ hostOps1_writes (r := main_arg11) (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl

/-! ## The proof data family and what rides beside the buffers -/

abbrev adm : (p : Fin 2) → (pcfgs (F := F) p).Adm := fun p => (cfgs p).toPCfg_adm
/-- Each pipeline's proof data at its stage's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside which the core owes nothing: every unscoped buffer at the return contents. -/
abbrev Tₙ (c : Dev nD) : sProp 𝕄 := iprop(StableHlo.held (c : Thread nD τ) (Pipeline.ucRefs τ sig) (W5 m ρ c) ∗ ∃ r, prngReg c r)

/-! ## The two stages as segments -/

set_option backward.isDefEq.respectTransparency.types false in
/-- Region 0 as a segment: entered with every unscoped buffer at `W1`, left with them at `W2`. Its windows'
    arrays are split out of the unscoped buffers at entry and put back at the exit contents; the generator register
    goes into the pipeline's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W3`, left with them at `W4`. Its windows'
    arrays are split out of the unscoped buffers at entry and put back at the exit contents; the generator register
    goes into the pipeline's invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final memory holds each unscoped buffer at the return contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates without a fault and the twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c)⟩) (run_main m ρ)

end Cert.KernelIdeal.Hand

end
-- ==== Proof.RefFrame0.lean ====
import proofs.«148433_g2000002724561042_pallasbulk_175_35_alg».proof.Proof.Gen.ReferenceIdeal.Launch
import proofs.«148433_g2000002724561042_pallasbulk_175_35_alg».proof.Proof.Gen.ReferenceIdeal.Skeleton
import proofs.«148433_g2000002724561042_pallasbulk_175_35_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 0 of the reference program's frame: the transposed-convolution kernel

Region 0 runs its kernel at 64 grid points over thirteen windows: nine inputs (an activation block, its scale and shift rows,
four weight blocks, a bias row, the skip weights) and four outputs (the up-sampled block, the skip block, and two rows of
channel statistics). At every point the body loads each input's whole staging buffer, computes, and stores each output's whole
staging buffer once. Everything is stated at a parameter `V`, the buffer contents when the region is entered.
-/

variable (m : (ℓ : Loc nD τ sig) → Buf (Elt F) ℓ) (ρ : Dev nD → PrngReg)
section Region
variable (V : (c : Dev nD) → (b : Ref sig .tc) → Buf (Elt F) ((c : Thread nD τ).loc b))

/-! # Region 0 of @main (custom_call 0, `cc0__conv0_phase_skip_kernel`), at the entry contents `V` -/

/-- Window `w`'s block at grid point `t`: the sub-array of the window's array, as the region finds it (`V`), that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point

Whether the pipeline fetched the window at the point or not: a point that does not fetch it has the block index of the
point before, and the body leaves an input's buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

/-- The whole-buffer rectangles of region 0's staging buffers, one per block shape. -/
abbrev r0_a : Rect S1x32x32x128 := Rect.unit (s := S1x32x32x128) ![0, 0, 0, 0] S1x32x32x128.size inb_S1x32x32x128_S1x32x32x128_0_0_0_0
abbrev r0_b : Rect S1x1x128 := Rect.unit (s := S1x1x128) ![0, 0, 0] S1x1x128.size inb_S1x1x128_S1x1x128_0_0_0
abbrev r0_c : Rect S128x128 := Rect.unit (s := S128x128) ![0, 0] S128x128.size inb_S128x128_S128x128_0_0
abbrev r0_d : Rect S256x128 := Rect.unit (s := S256x128) ![0, 0] S256x128.size inb_S256x128_S256x128_0_0
abbrev r0_e : Rect S512x128 := Rect.unit (s := S512x128) ![0, 0] S512x128.size inb_S512x128_S512x128_0_0
abbrev r0_f : Rect S1x128 := Rect.unit (s := S1x128) ![0, 0] S1x128.size inb_S1x128_S1x128_0_0
abbrev r0_g : Rect S1x64x32x256 := Rect.unit (s := S1x64x32x256) ![0, 0, 0, 0] S1x64x32x256.size inb_S1x64x32x256_S1x64x32x256_0_0_0_0

/-! ## What the body leaves in each output window's buffer -/

/-! The body's intermediate values, as functions of the nine input blocks `x0 … x8` (what the loads through the whole-buffer
rectangles read of them), named after the skeleton's payloads. -/

/-- the activation block with its unit batch axis dropped -/
abbrev m0_v1 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay3 (View.ld x0 r0_a)
/-- the normalised, rectified activation: `max (x·scale + shift) 0` -/
abbrev m0_v13 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay4 (View.ld x0 r0_a) (View.ld x1 r0_b) (View.ld x2 r0_b)
/-- the same shifted by one row (zero row appended) -/
abbrev m0_v17 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay6 (View.ld x0 r0_a) (View.ld x1 r0_b) (View.ld x2 r0_b)
/-- shifted by one column (zero column appended) -/
abbrev m0_v19 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay7 (View.ld x0 r0_a) (View.ld x1 r0_b) (View.ld x2 r0_b)
/-- shifted by one row and one column -/
abbrev m0_v21 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay8 (View.ld x0 r0_a) (View.ld x1 r0_b) (View.ld x2 r0_b)
/-- the bias row, as loaded -/
abbrev m0_v23 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S1x128 .f32 := k0_pay9 (View.ld x7 r0_f)
/-- the first phase of the transposed convolution: the rectified activation times the first weight block, plus the bias row -/
abbrev m0_v31 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay10 (View.ld x0 r0_a) (View.ld x1 r0_b) (View.ld x2 r0_b) (View.ld x7 r0_f) (View.ld x3 r0_c)
/-- the second phase before its bias: the activation beside its column shift, times the second weight block -/
abbrev m0_v37 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay11 (View.ld x0 r0_a) (View.ld x1 r0_b) (View.ld x2 r0_b) (View.ld x4 r0_d)
/-- the second phase: the product above plus the bias row -/
abbrev m0_v40 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay12 (m0_v23 x0 x1 x2 x3 x4 x5 x6 x7 x8) (m0_v37 x0 x1 x2 x3 x4 x5 x6 x7 x8)
/-- the third phase: the activation beside its row shift, times the third weight block, plus the bias row -/
abbrev m0_v49 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay13 (m0_v13 x0 x1 x2 x3 x4 x5 x6 x7 x8) (m0_v17 x0 x1 x2 x3 x4 x5 x6 x7 x8) (m0_v23 x0 x1 x2 x3 x4 x5 x6 x7 x8) (View.ld x5 r0_d)
/-- the fourth phase: the activation beside its column, row and diagonal shifts, times the fourth weight block, plus the bias row -/
abbrev m0_v58 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S32x32x128 .f32 := k0_pay14 (m0_v13 x0 x1 x2 x3 x4 x5 x6 x7 x8) (m0_v17 x0 x1 x2 x3 x4 x5 x6 x7 x8) (m0_v19 x0 x1 x2 x3 x4 x5 x6 x7 x8) (m0_v21 x0 x1 x2 x3 x4 x5 x6 x7 x8) (m0_v23 x0 x1 x2 x3 x4 x5 x6 x7 x8) (View.ld x6 r0_e)
/-- the first phase's channel sums -/
abbrev m0_v77 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : FVec F S1x1x128 .f32 := k0_pay17 (m0_v31 x0 x1 x2 x3 x4 x5 x6 x7 x8)

/-- Window 9's buffer after the body: its one store, of the four phases interleaved into the up-sampled block. -/
def out0_9 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : Vec F S1x64x32x256 .f32 :=
  View.canon [⟨r0_g, k0_pay15 (m0_v13 x0 x1 x2 x3 x4 x5 x6 x7 x8) (m0_v17 x0 x1 x2 x3 x4 x5 x6 x7 x8) (m0_v19 x0 x1 x2 x3 x4 x5 x6 x7 x8) (m0_v21 x0 x1 x2 x3 x4 x5 x6 x7 x8) (m0_v23 x0 x1 x2 x3 x4 x5 x6 x7 x8) (m0_v31 x0 x1 x2 x3 x4 x5 x6 x7 x8) (m0_v37 x0 x1 x2 x3 x4 x5 x6 x7 x8) (View.ld x5 r0_d) (View.ld x6 r0_e)⟩]
/-- Window 10's buffer after the body: its one store, of the skip path (the raw activation block times the skip weights). -/
def out0_10 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : Vec F S1x32x32x128 .f32 :=
  View.canon [⟨r0_a, k0_pay16 (m0_v1 x0 x1 x2 x3 x4 x5 x6 x7 x8) (View.ld x8 r0_c)⟩]
/-- Window 11's buffer after the body: its one store, of the four phases' channel sums added up. -/
def out0_11 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : Vec F S1x1x128 .f32 :=
  View.canon [⟨r0_b, k0_pay1 (m0_v40 x0 x1 x2 x3 x4 x5 x6 x7 x8) (m0_v49 x0 x1 x2 x3 x4 x5 x6 x7 x8) (m0_v58 x0 x1 x2 x3 x4 x5 x6 x7 x8) (m0_v77 x0 x1 x2 x3 x4 x5 x6 x7 x8)⟩]
/-- Window 12's buffer after the body: its one store, of the four phases' channel sums of squares added up. -/
def out0_12 (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) : Vec F S1x1x128 .f32 :=
  View.canon [⟨r0_b, k0_pay2 (m0_v31 x0 x1 x2 x3 x4 x5 x6 x7 x8) (m0_v40 x0 x1 x2 x3 x4 x5 x6 x7 x8) (m0_v49 x0 x1 x2 x3 x4 x5 x6 x7 x8) (m0_v58 x0 x1 x2 x3 x4 x5 x6 x7 x8)⟩]

/-- The one store into window 9's buffer is of the whole buffer, so it covers it. -/
theorem cover0_9 (p0 : Vec F S1x64x32x256 .f32) (y : S1x64x32x256.Idx) :
    ∃ pc ∈ ([⟨r0_g, p0⟩] : List (View.Piece (Elt F) S1x64x32x256 .f32)), y ∈ pc.1.set :=
  View.cover_of_tiled [⟨r0_g, p0⟩] S1x64x32x256.size (by rfl) y

/-- The one store into window 10's buffer is of the whole buffer, so it covers it. -/
theorem cover0_10 (p0 : Vec F S1x32x32x128 .f32) (y : S1x32x32x128.Idx) :
    ∃ pc ∈ ([⟨r0_a, p0⟩] : List (View.Piece (Elt F) S1x32x32x128 .f32)), y ∈ pc.1.set :=
  View.cover_of_tiled [⟨r0_a, p0⟩] S1x32x32x128.size (by rfl) y

/-- The one store into window 11's buffer is of the whole buffer, so it covers it. -/
theorem cover0_11 (p0 : Vec F S1x1x128 .f32) (y : S1x1x128.Idx) :
    ∃ pc ∈ ([⟨r0_b, p0⟩] : List (View.Piece (Elt F) S1x1x128 .f32)), y ∈ pc.1.set :=
  View.cover_of_tiled [⟨r0_b, p0⟩] S1x1x128.size (by rfl) y

/-- The one store into window 12's buffer is of the whole buffer, so it covers it. -/
theorem cover0_12 (p0 : Vec F S1x1x128 .f32) (y : S1x1x128.Idx) :
    ∃ pc ∈ ([⟨r0_b, p0⟩] : List (View.Piece (Elt F) S1x1x128 .f32)), y ∈ pc.1.set :=
  View.cover_of_tiled [⟨r0_b, p0⟩] S1x1x128.size (by rfl) y

/-! ## The body's triple -/

set_option maxHeartbeats 4000000 in
/-- The kernel body on whole staging buffers — each input's holding contents that read `xW`, each output's holding anything —
    runs to its end without fault, leaves every input's buffer as it was and each output's holding `out0_W` of the inputs'. -/
theorem sound_kernel0 (c : Dev nD) (E : Set ℕ) (i : grid0.Coords) (arg1 : Memref sig .tc .vmem S1x32x32x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S128x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x64x32x256 .f32) (harg10 : arg10.IsWhole) (arg11 : Memref sig .tc .vmem S1x32x32x128 .f32) (harg11 : arg11.IsWhole) (arg12 : Memref sig .tc .vmem S1x1x128 .f32) (harg12 : arg12.IsWhole) (arg13 : Memref sig .tc .vmem S1x1x128 .f32) (harg13 : arg13.IsWhole)
    (x0 : Vec F S1x32x32x128 .f32) (x1 : Vec F S1x1x128 .f32) (x2 : Vec F S1x1x128 .f32) (x3 : Vec F S128x128 .f32) (x4 : Vec F S256x128 .f32) (x5 : Vec F S256x128 .f32) (x6 : Vec F S512x128 .f32) (x7 : Vec F S1x128 .f32) (x8 : Vec F S128x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out0_9 x0 x1 x2 x3 x4 x5 x6 x7 x8)
            ∗ owns (c : Thread nD τ) arg11 fullShare (out0_10 x0 x1 x2 x3 x4 x5 x6 x7 x8)
            ∗ owns (c : Thread nD τ) arg12 fullShare (out0_11 x0 x1 x2 x3 x4 x5 x6 x7 x8)
            ∗ owns (c : Thread nD τ) arg13 fullShare (out0_12 x0 x1 x2 x3 x4 x5 x6 x7 x8)) -∗ K ⟨⟩))
      ⊢ wp frame (wpE (defs₀ (F := F)) Variants.none c none) E (cc0__conv0_phase_skip_kernel i arg1 harg1 arg2 harg2 arg3 harg3 arg4 harg4 arg5 harg5 arg6 harg6 arg7 harg7 arg8 harg8 arg9 harg9 arg10 harg10 arg11 harg11 arg12 harg12 arg13 harg13) K := by
  simp only [cc0__conv0_phase_skip_kernel_eq_skeleton]; unfold cc0__conv0_phase_skip_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0
  subst hf1
  subst hf2
  subst hf3
  subst hf4
  subst hf5
  subst hf6
  subst hf7
  subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  isplitl [H11]
  · iexists _; isplitr
    swap; · iexact H11
    ipureintro
    exact View.read_writes_eq_canon _ _ _ (cover0_11 _)
  iexists _; isplitr
  swap; · iexact H12
  ipureintro
  exact View.read_writes_eq_canon _ _ _ (cover0_12 _)

/-! ## The pipeline's proof data -/

/-- The proof data of pipeline 0 on core `c`: the arrays as the region finds them (`V`); after the body at point `t` each
    input's buffer at its block and each output's at `out0_W` of the input blocks; the invariant the untouched rest
    (scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 1600000 in
/-- The body at any point: the inputs' buffers hold their blocks, so the triple above applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.ReferenceIdeal.Hand

end
-- ==== Proof.RefFrame1.lean ====
import proofs.«148433_g2000002724561042_pallasbulk_175_35_alg».proof.Proof.Gen.ReferenceIdeal.Launch
import proofs.«148433_g2000002724561042_pallasbulk_175_35_alg».proof.Proof.Gen.ReferenceIdeal.Skeleton
import proofs.«148433_g2000002724561042_pallasbulk_175_35_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# Region 1 of the reference program's frame: the convolution-with-residual kernel

Region 1 runs its kernel at 64 grid points over seven windows: six inputs (an activation block, its scale and shift rows, the
three-slab weight buffer, a bias row, the skip block) and one output. At every point the body loads each input's staging buffer
(the weight buffer slab by slab), computes, and stores the output's whole staging buffer once. Everything is stated at a
parameter `V`, the buffer contents when the region is entered.
-/

variable (m : (ℓ : Loc nD τ sig) → Buf (Elt F) ℓ) (ρ : Dev nD → PrngReg)
section Region
variable (V : (c : Dev nD) → (b : Ref sig .tc) → Buf (Elt F) ((c : Thread nD τ).loc b))

/-! # Region 1 of @main (custom_call 1, `cc1__conv1_bn_residual_kernel`), at the entry contents `V` -/

/-- Window `w`'s block at grid point `t`: the sub-array of the window's array, as the region finds it (`V`), that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point

Whether the pipeline fetched the window at the point or not: a point that does not fetch it has the block index of the
point before, and the body leaves an input's buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

/-- The whole-buffer rectangles of region 1's staging buffers, and the three unit slabs of the weight buffer's leading axis. -/
abbrev r1_a : Rect S1x64x64x128 := Rect.unit (s := S1x64x64x128) ![0, 0, 0, 0] S1x64x64x128.size inb_S1x64x64x128_S1x64x64x128_0_0_0_0
abbrev r1_b : Rect S1x1x128 := Rect.unit (s := S1x1x128) ![0, 0, 0] S1x1x128.size inb_S1x1x128_S1x1x128_0_0_0
abbrev r1_f : Rect S1x128 := Rect.unit (s := S1x128) ![0, 0] S1x128.size inb_S1x128_S1x128_0_0
abbrev r1_s : Rect S1x32x32x128 := Rect.unit (s := S1x32x32x128) ![0, 0, 0, 0] S1x32x32x128.size inb_S1x32x32x128_S1x32x32x128_0_0_0_0
abbrev r1_k0 : Rect S3x384x128 := Rect.unit (s := S3x384x128) ![0, 0, 0] S1x384x128.size inb_S3x384x128_S1x384x128_0_0_0
abbrev r1_k1 : Rect S3x384x128 := Rect.unit (s := S3x384x128) ![1, 0, 0] S1x384x128.size inb_S3x384x128_S1x384x128_1_0_0
abbrev r1_k2 : Rect S3x384x128 := Rect.unit (s := S3x384x128) ![2, 0, 0] S1x384x128.size inb_S3x384x128_S1x384x128_2_0_0

/-! ## What the body leaves in each output window's buffer -/

/-! The body's intermediate values, as functions of the six input blocks `x0 … x5`, named after the skeleton's payloads. -/

/-- the activation block scaled, shifted and rectified (`max (x·scale + shift) 0`), then padded with a zero border of width one -/
abbrev m1_v17 (x0 : Vec F S1x64x64x128 .f32) (x1 : Vec F S1x1x128 .f32) (x2 : Vec F S1x1x128 .f32) (x3 : Vec F S3x384x128 .f32) (x4 : Vec F S1x128 .f32) (x5 : Vec F S1x32x32x128 .f32) : FVec F S66x66x128 .f32 := k1_pay2 (View.ld x0 r1_a) (View.ld x1 r1_b) (View.ld x2 r1_b)
/-- the first kernel row's contribution: the three column shifts of the padded block's rows `0 … 63`, side by side, times the
    weight buffer's slab 0, added to zero -/
abbrev m1_v28 (x0 : Vec F S1x64x64x128 .f32) (x1 : Vec F S1x1x128 .f32) (x2 : Vec F S1x1x128 .f32) (x3 : Vec F S3x384x128 .f32) (x4 : Vec F S1x128 .f32) (x5 : Vec F S1x32x32x128 .f32) : FVec F S4096x128 .f32 := k1_pay3 (View.ld x0 r1_a) (View.ld x1 r1_b) (View.ld x2 r1_b) (View.ld x3 r1_k0)
/-- the three column shifts of the padded block's rows `1 … 64`, side by side: the second kernel row's left factor -/
abbrev m1_v34 (x0 : Vec F S1x64x64x128 .f32) (x1 : Vec F S1x1x128 .f32) (x2 : Vec F S1x1x128 .f32) (x3 : Vec F S3x384x128 .f32) (x4 : Vec F S1x128 .f32) (x5 : Vec F S1x32x32x128 .f32) : FVec F S4096x384 .f32 := k1_pay4 (View.ld x0 r1_a) (View.ld x1 r1_b) (View.ld x2 r1_b)
/-- the weight buffer's slab 1 as a matrix -/
abbrev m1_v36 (x0 : Vec F S1x64x64x128 .f32) (x1 : Vec F S1x1x128 .f32) (x2 : Vec F S1x1x128 .f32) (x3 : Vec F S3x384x128 .f32) (x4 : Vec F S1x128 .f32) (x5 : Vec F S1x32x32x128 .f32) : FVec F S384x128 .f32 := k1_pay5 (View.ld x3 r1_k1)

/-- Window 6's buffer after the body: its one store — the three kernel rows' products added up, plus the bias row, plus the
    skip block spread over the even rows and columns (zero elsewhere). -/
def out1_6 (x0 : Vec F S1x64x64x128 .f32) (x1 : Vec F S1x1x128 .f32) (x2 : Vec F S1x1x128 .f32) (x3 : Vec F S3x384x128 .f32) (x4 : Vec F S1x128 .f32) (x5 : Vec F S1x32x32x128 .f32) : Vec F S1x64x64x128 .f32 :=
  View.canon [⟨r1_a, k1_pay1 (m1_v17 x0 x1 x2 x3 x4 x5) (m1_v28 x0 x1 x2 x3 x4 x5) (m1_v34 x0 x1 x2 x3 x4 x5) (m1_v36 x0 x1 x2 x3 x4 x5) (constant S4096x128 .f32 0x00000000#32) (View.ld x3 r1_k2) (View.ld x4 r1_f) (View.ld x5 r1_s)⟩]

/-- The one store into window 6's buffer is of the whole buffer, so it covers it. -/
theorem cover1_6 (p0 : Vec F S1x64x64x128 .f32) (y : S1x64x64x128.Idx) :
    ∃ pc ∈ ([⟨r1_a, p0⟩] : List (View.Piece (Elt F) S1x64x64x128 .f32)), y ∈ pc.1.set :=
  View.cover_of_tiled [⟨r1_a, p0⟩] S1x64x64x128.size (by rfl) y

/-! ## The body's triple -/

set_option maxHeartbeats 4000000 in
/-- The kernel body on whole staging buffers — each input's holding contents that read `xW`, each output's holding anything —
    runs to its end without fault, leaves every input's buffer as it was and each output's holding `out1_W` of the inputs'. -/
theorem sound_kernel1 (c : Dev nD) (E : Set ℕ) (i : grid1.Coords) (arg1 : Memref sig .tc .vmem S1x64x64x128 .f32) (harg1 : arg1.IsWhole) (arg2 : Memref sig .tc .vmem S1x1x128 .f32) (harg2 : arg2.IsWhole) (arg3 : Memref sig .tc .vmem S1x1x128 .f32) (harg3 : arg3.IsWhole) (arg4 : Memref sig .tc .vmem S3x384x128 .f32) (harg4 : arg4.IsWhole) (arg5 : Memref sig .tc .vmem S1x128 .f32) (harg5 : arg5.IsWhole) (arg6 : Memref sig .tc .vmem S1x32x32x128 .f32) (harg6 : arg6.IsWhole) (arg7 : Memref sig .tc .vmem S1x64x64x128 .f32) (harg7 : arg7.IsWhole)
    (x0 : Vec F S1x64x64x128 .f32) (x1 : Vec F S1x1x128 .f32) (x2 : Vec F S1x1x128 .f32) (x3 : Vec F S3x384x128 .f32) (x4 : Vec F S1x128 .f32) (x5 : Vec F S1x32x32x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__conv1_bn_residual_kernel i arg1 harg1 arg2 harg2 arg3 harg3 arg4 harg4 arg5 harg5 arg6 harg6 arg7 harg7) K := by
  simp only [cc1__conv1_bn_residual_kernel_eq_skeleton]; unfold cc1__conv1_bn_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t` each
    input's buffer at its block and each output's at `out1_W` of the input blocks; the invariant the untouched rest
    (scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1600000 in
/-- The body at any point: the inputs' buffers hold their blocks, so the triple above applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.ReferenceIdeal.Hand

end
-- ==== Proof.RefFrameRun.lean ====
import proofs.«148433_g2000002724561042_pallasbulk_175_35_alg».proof.Proof.RefFrame0
import proofs.«148433_g2000002724561042_pallasbulk_175_35_alg».proof.Proof.RefFrame1
import proofs.«148433_g2000002724561042_pallasbulk_175_35_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The reference program's run: @main's five items from the launch to the return

@main is a stretch of host operations, region 0, a second stretch, region 1, and a last stretch (one transpose, writing the
result). The buffer contents on a core at each of the six boundaries are a fold from the launch memory: a host stretch applies
its operations in order; a region leaves each of its windows' arrays at what its pipeline's write-backs leave and every other
buffer as it found it.
-/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what region 0 is entered with. -/
abbrev W1 : Dev nD → Valuation τ sig (Elt F) := fun c => StableHlo.after hostOps0 (W0 m ρ c)
/-- The same, read at the TensorCore's references. -/
abbrev U1 : (c : Dev nD) → (b : Ref sig .tc) → Buf (Elt F) ((c : Thread nD τ).loc b) := fun c b => W1 m ρ c b
/-- At region 0's exit: each of its windows' arrays at what the pipeline leaves after its last point (an input's as entered, an
    output's with every write-back folded in), every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch: what region 1 is entered with. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its windows' arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-- The fold, by name. -/
theorem W1_eq (c : Dev nD) : W1 m ρ c = StableHlo.after hostOps0 (fun b => m ((c : Dev nD), b)) := rfl
theorem W3_eq (c : Dev nD) : W3 m ρ c = StableHlo.after hostOps1 (W2 m ρ c) := rfl
theorem W5_eq (c : Dev nD) : W5 m ρ c = StableHlo.after hostOps2 (W4 m ρ c) := rfl

/-! ### The arguments end as launched

No host operation writes an argument and no window's array is one, so the fold at an argument's buffer walks back to the launch
memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W5 m ρ c) ∗ ∃ r, prngReg c r)

/-- The last host stretch's end is the last thread state beside the dues: the same resources, regrouped. -/
theorem last_link (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered with every unscoped buffer at `W1`, left with them at `W2`. Its arrays are
    split out of the unscoped buffers and put back at the exit contents; the generator register passes into the region's
    invariant and out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are
    split out of the unscoped buffers and put back at the exit contents; the generator register passes into the region's
    invariant and out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN. At the compiled mesh, from any memory with zero counters, every weakly fair execution of @main on the TensorCores
    terminates, nothing faulting, and every final memory has every unscoped buffer of every core at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by
      rewrite [main_chain c, Pipeline.Seg.run_eq_chain,
        show (mainSegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

/-- THE FRAME: every argument array ends as launched, read off the run's last contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c)⟩) (run_main m ρ)

/-- The result buffer at the end, off the same run. -/
theorem run_result : θ_run defs (onTc (τ := τ) (main (F := F))) ⟨m, fun _ => 0, ρ⟩ (fun r => ∀ c : Dev nD,
      r.2.mem ((c.tc : Thread nD τ).loc main_v84) = W5 m ρ c (Proc.devRef .tc main_v84)) :=
  (θ_run defs _ _).mono (fun r h c => h c _ (mem_uc main_v84 (by decide))) (run_main m ρ)

/-- info: 'Cert.ReferenceIdeal.Hand.run_main' depends on axioms: [propext, Classical.choice, Quot.sound] -/
#guard_msgs in #print axioms run_main

end Cert.ReferenceIdeal.Hand

end
-- ==== Proof.BridgeLib.lean ====
/-
  Small facts about the two programs' folds of buffer contents used by the stage-by-stage comparison: an argument
  array read at the boundary after the first stage is the launch memory's (no host operation writes an argument and
  no stage's window is one).
-/
import proofs.«148433_g2000002724561042_pallasbulk_175_35_alg».proof.Defs
import proofs.«148433_g2000002724561042_pallasbulk_175_35_alg».proof.Proof.KFrameRun
import proofs.«148433_g2000002724561042_pallasbulk_175_35_alg».proof.Proof.RefFrameRun

noncomputable section

namespace Cert.Bridge

open Idealize.ShloMosaic Idealize.ShloMosaic.TcCoe Idealize.SL.Sem

section
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)

/-- An argument of the kernel program, read after its first stage. -/
theorem K_W2_arg (r : Ref Cert.KernelIdeal.sig .tc) (h1 : ∀ w, Pipeline.arrRef Cert.KernelIdeal.spec0 w ≠ r) (h0 : r ∉ Cert.KernelIdeal.Gen.hostOps0_W) :
    Cert.KernelIdeal.Hand.W2 (F := Ideal) m ρ c (Proc.devRef .tc r) = m ((c : Thread Cert.KernelIdeal.nD Cert.KernelIdeal.τ).loc r) :=
  (Cert.KernelIdeal.Hand.W2_of_ne m ρ c r h1).trans
    ((StableHlo.after_of_writes_sub Cert.KernelIdeal.Gen.hostOps0 _ Cert.KernelIdeal.Gen.hostOps0_writes (r := r) h0).trans rfl)

/-- An argument of the reference program, read after its first stage. -/
theorem R_W2_arg (r : Ref Cert.ReferenceIdeal.sig .tc) (h1 : ∀ w, Pipeline.arrRef Cert.ReferenceIdeal.spec0 w ≠ r) (h0 : r ∉ Cert.ReferenceIdeal.Gen.hostOps0_W) :
    Cert.ReferenceIdeal.Hand.W2 (F := Ideal) m' ρ' c (Proc.devRef .tc r) = m' ((c : Thread Cert.ReferenceIdeal.nD Cert.ReferenceIdeal.τ).loc r) :=
  (Cert.ReferenceIdeal.Hand.W2_of_ne m' ρ' c r h1).trans
    ((StableHlo.after_of_writes_sub Cert.ReferenceIdeal.Gen.hostOps0 _ Cert.ReferenceIdeal.Gen.hostOps0_writes (r := r) h0).trans rfl)

end

end Cert.Bridge

end
-- ==== Proof.Spec.lean ====
/-
  The mathematics both programs compute, stated once over plain functions into the extended reals, sample by sample.

  Stage 1 (a conditional batch-norm, a ReLU, then the 3×3 convolution of the zero-stuffed 2× upsampled map, written
  phase by phase): with `a(i,j,k) = max (x(i,j,k)·sc(k) + sh(k)) 0` on the 32×32 image and `0` outside it, the output
  at the fine position `(2i+r, 2j+s)` only sees the taps that land on a sample of the coarse grid:
    (r,s) = (0,0): the centre tap;            (0,1): the taps left and right of centre, on `a(i,j)`, `a(i,j+1)`;
    (1,0): the taps above and below, on `a(i,j)`, `a(i+1,j)`;   (1,1): the four corner taps.
  The stage also returns the 1×1 projection of the raw input and, per sample and channel, the sum and the sum of
  squares of its convolution output over all four phases and all positions.

  Stage 2 (batch-norm, ReLU, an ordinary zero-padded 3×3 convolution on the 64×64 map, plus a bias, plus the
  projection placed at the even/even positions).
-/
import Idealize.ShloMosaic.PureOps.Ideal

noncomputable section

namespace Cert.Spec

open scoped BigOperators

/-! ## Stage 1 -/

/-- The activated input at coarse position `(i, j)` — natural numbers, so that `i+1`, `j+1` may step off the image,
    where it is zero. -/
def act1 (x : Fin 32 → Fin 32 → Fin 128 → EReal) (sc sh : Fin 128 → EReal) (i j : ℕ) (k : Fin 128) : EReal :=
  if h : i < 32 ∧ j < 32 then max (x ⟨i, h.1⟩ ⟨j, h.2⟩ k * sc k + sh k) 0 else 0

/-- One tap of the convolution: the contraction over the input channels of the activation at `(i, j)` with the
    kernel's `(kh, kw)` slice. -/
def tap1 (x : Fin 32 → Fin 32 → Fin 128 → EReal) (sc sh : Fin 128 → EReal) (w : Fin 3 → Fin 3 → Fin 128 → Fin 128 → EReal)
    (i j : ℕ) (kh kw : Fin 3) (c : Fin 128) : EReal :=
  ∑ k : Fin 128, act1 x sc sh i j k * w kh kw k c

/-- The convolution output at the fine position `(2i+r, 2j+s)`, channel `c`: the taps of phase `(r, s)`, then the bias. -/
def phase1 (x : Fin 32 → Fin 32 → Fin 128 → EReal) (sc sh : Fin 128 → EReal) (w : Fin 3 → Fin 3 → Fin 128 → Fin 128 → EReal)
    (b : Fin 128 → EReal) (r s : Fin 2) (i j : Fin 32) (c : Fin 128) : EReal :=
  if r = 0 then
    if s = 0 then tap1 x sc sh w i j 1 1 c + b c
    else (tap1 x sc sh w i j 1 0 c + tap1 x sc sh w i (j + 1) 1 2 c) + b c
  else
    if s = 0 then (tap1 x sc sh w i j 0 1 c + tap1 x sc sh w (i + 1) j 2 1 c) + b c
    else (tap1 x sc sh w i j 0 0 c + tap1 x sc sh w i (j + 1) 0 2 c + tap1 x sc sh w (i + 1) j 2 0 c
          + tap1 x sc sh w (i + 1) (j + 1) 2 2 c) + b c

/-- The stage's first result in its folded layout `[2·32, 32, 2·128]`: row `I = 2i+r`, column `j`, lane `l = s·128+c`. -/
def yfold1 (x : Fin 32 → Fin 32 → Fin 128 → EReal) (sc sh : Fin 128 → EReal) (w : Fin 3 → Fin 3 → Fin 128 → Fin 128 → EReal)
    (b : Fin 128 → EReal) (I : Fin 64) (j : Fin 32) (l : Fin 256) : EReal :=
  phase1 x sc sh w b ⟨I.val % 2, Nat.mod_lt _ (by norm_num)⟩ ⟨l.val / 128, by have := l.isLt; omega⟩
    ⟨I.val / 2, by have := I.isLt; omega⟩ j ⟨l.val % 128, Nat.mod_lt _ (by norm_num)⟩

/-- The 1×1 projection of the raw input. -/
def skip1 (x : Fin 32 → Fin 32 → Fin 128 → EReal) (wsc : Fin 128 → Fin 128 → EReal) (i j : Fin 32) (c : Fin 128) : EReal :=
  ∑ k : Fin 128, x i j k * wsc k c

/-- Per channel, the sum of the convolution output over the four phases and all coarse positions. -/
def sum1 (x : Fin 32 → Fin 32 → Fin 128 → EReal) (sc sh : Fin 128 → EReal) (w : Fin 3 → Fin 3 → Fin 128 → Fin 128 → EReal)
    (b : Fin 128 → EReal) (c : Fin 128) : EReal :=
  ∑ r : Fin 2, ∑ s : Fin 2, ∑ i : Fin 32, ∑ j : Fin 32, phase1 x sc sh w b r s i j c

/-- Per channel, the sum of its squares. -/
def ssq1 (x : Fin 32 → Fin 32 → Fin 128 → EReal) (sc sh : Fin 128 → EReal) (w : Fin 3 → Fin 3 → Fin 128 → Fin 128 → EReal)
    (b : Fin 128 → EReal) (c : Fin 128) : EReal :=
  ∑ r : Fin 2, ∑ s : Fin 2, ∑ i : Fin 32, ∑ j : Fin 32, phase1 x sc sh w b r s i j c * phase1 x sc sh w b r s i j c

/-! ## Stage 2 -/

/-- The activated map with its one-pixel zero border: padded coordinates `I, J ∈ 0..65`, the image at `1..64`. -/
def act2 (y : Fin 64 → Fin 64 → Fin 128 → EReal) (sc sh : Fin 128 → EReal) (I J : ℕ) (k : Fin 128) : EReal :=
  if h : (1 ≤ I ∧ I ≤ 64) ∧ (1 ≤ J ∧ J ≤ 64) then
    max (y ⟨I - 1, by omega⟩ ⟨J - 1, by omega⟩ k * sc k + sh k) 0
  else 0

/-- The zero-padded 3×3 convolution at `(I, J)`, channel `c`. -/
def conv2 (y : Fin 64 → Fin 64 → Fin 128 → EReal) (sc sh : Fin 128 → EReal) (w : Fin 3 → Fin 3 → Fin 128 → Fin 128 → EReal)
    (I J : Fin 64) (c : Fin 128) : EReal :=
  ∑ kh : Fin 3, ∑ kw : Fin 3, ∑ k : Fin 128, act2 y sc sh (I.val + kh.val) (J.val + kw.val) k * w kh kw k c

/-- The projection of the coarse map placed at the even/even fine positions, zero elsewhere. -/
def skipUp (sk : Fin 32 → Fin 32 → Fin 128 → EReal) (I J : Fin 64) (c : Fin 128) : EReal :=
  if I.val % 2 = 0 ∧ J.val % 2 = 0 then sk ⟨I.val / 2, by have := I.isLt; omega⟩ ⟨J.val / 2, by have := J.isLt; omega⟩ c else 0

/-- The stage's result. -/
def out2 (y : Fin 64 → Fin 64 → Fin 128 → EReal) (sc sh : Fin 128 → EReal) (w : Fin 3 → Fin 3 → Fin 128 → Fin 128 → EReal)
    (bias : Fin 128 → EReal) (sk : Fin 32 → Fin 32 → Fin 128 → EReal) (I J : Fin 64) (c : Fin 128) : EReal :=
  (conv2 y sc sh w I J c + bias c) + skipUp sk I J c

end Cert.Spec

end
-- ==== Proof.K0Act.lean ====
/-
  The first stage on a block of four samples: the activation max (x·scale + shift) 0, its copies shifted by one
  column, one row, and both (zero where the shift leaves the image), and the four laid side by side as the rows
  of the left factor of the stage's matrix product — each read at an index, and identified with the
  specification's activation at the shifted position.
-/
import proofs.«148433_g2000002724561042_pallasbulk_175_35_alg».proof.Proof.Gen.KernelIdeal.Skeleton
import proofs.«148433_g2000002724561042_pallasbulk_175_35_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Val0

open Cert.KernelIdeal Cert.KernelIdeal.Gen
open Idealize.ShloMosaic Idealize.ShloMosaic.ValueIdx
open scoped BigOperators

/-- The sixteen-bit zero word is the extended real zero. -/
theorem ofBits_zero_bf16 : Ideal.ofBits .bf16 0x0000#16 = 0 := by simp [Ideal.ofBits, Ideal.ieee]

/-- Sample n's image, read off a block of four. -/
def xs (x0 : Vec Ideal S4x32x32x128 .f32) (n : Fin 4) : Fin 32 → Fin 32 → Fin 128 → EReal := fun i j k => x0 (ix4 n i j k)
/-- Sample n's scale or shift row, read off a block of four. -/
def rw1 (x1 : Vec Ideal S4x1x128 .f32) (n : Fin 4) : Fin 128 → EReal := fun k => x1 (ix3 n (0 : Fin 1) k)

/-- A row [4,1,128] viewed [4,1,1,128] and repeated over the 32×32 positions, read at (n, i, j, k): the row at (n, 0, k). -/
theorem rowBcast_apply (x1 : Vec Ideal S4x1x128 .f32) (n : Fin 4) (i j : Fin 32) (k : Fin 128) :
    broadcastTo S4x32x32x128 (shapeCast S4x1x1x128 (shapeCast S4x1x128 x1 shapeCasts_S4x1x128_S4x1x128) shapeCasts_S4x1x128_S4x1x1x128)
        broadcasts_S4x1x1x128_S4x32x32x128 (ix4 n i j k) = x1 (ix3 n (0 : Fin 1) k) := by
  refine (broadcastTo_apply _ _ (ix4 n i j k) (ix4 n (0 : Fin 1) (0 : Fin 1) k) (fun a => by
    match a with
    | ⟨0, _⟩ => rfl
    | ⟨1, _⟩ => rfl
    | ⟨2, _⟩ => rfl
    | ⟨3, _⟩ => rfl)).trans ?_
  refine (shapeCast_apply _ _ (ix4 n (0 : Fin 1) (0 : Fin 1) k) (ix3 n (0 : Fin 1) k) (by
    rw [Shape.rowMajor_val_three, Shape.rowMajor_val_four]
    show (n.val * 1 + 0) * 128 + k.val = ((n.val * 1 + 0) * 1 + 0) * 128 + k.val
    omega)).trans ?_
  rw [shapeCast_self]

/-- The activated block. -/
def actB (x0 : Vec Ideal S4x32x32x128 .f32) (x1 x2 : Vec Ideal S4x1x128 .f32) : FVec Ideal S4x32x32x128 .bf16 :=
  truncf .bf16 (maximumf (addf (mulf (k0_pay5 x0)
      (broadcastTo S4x32x32x128 (shapeCast S4x1x1x128 (shapeCast S4x1x128 x1 shapeCasts_S4x1x128_S4x1x128) shapeCasts_S4x1x128_S4x1x1x128) broadcasts_S4x1x1x128_S4x32x32x128))
      (broadcastTo S4x32x32x128 (shapeCast S4x1x1x128 (shapeCast S4x1x128 x2 shapeCasts_S4x1x128_S4x1x128) shapeCasts_S4x1x128_S4x1x1x128) broadcasts_S4x1x1x128_S4x32x32x128))
    (broadcast S4x32x32x128 (Scalar.ofBits .f32 0x00000000#32))) bitsLt_bf16_f32

/-- The activated block at (n, i, j, k). -/
theorem actB_apply (x0 : Vec Ideal S4x32x32x128 .f32) (x1 x2 : Vec Ideal S4x1x128 .f32) (n : Fin 4) (i j : Fin 32) (k : Fin 128) :
    actB x0 x1 x2 (ix4 n i j k) = max (x0 (ix4 n i j k) * x1 (ix3 n (0 : Fin 1) k) + x2 (ix3 n (0 : Fin 1) k)) 0 := by
  unfold actB k0_pay5
  rw [truncf_apply, maximumf_apply, addf_apply, mulf_apply, broadcast_apply, rowBcast_apply, rowBcast_apply, shapeCast_self]
  exact congrArg (max _) Ideal.ofBits_zero_f32

/-- A block shifted up by one row: row i reads row i+1, the last row reads zero. -/
def shiftH (v : FVec Ideal S4x32x32x128 .bf16) : FVec Ideal S4x32x32x128 .bf16 :=
  concatenate S4x32x32x128 1 [⟨S4x31x32x128, extractStridedSlice S4x31x32x128 ![0, 1, 0, 0] v slices_S4x32x32x128_o0_1_0_0_S4x31x32x128⟩,
    ⟨S4x1x32x128, broadcast S4x1x32x128 (Scalar.ofBits (F := Ideal) .bf16 0x0000#16)⟩] concatenates_S4x31x32x128_S4x1x32x128_S4x32x32x128_d1

/-- A block shifted left by one column: column j reads column j+1, the last column reads zero. -/
def shiftW (v : FVec Ideal S4x32x32x128 .bf16) : FVec Ideal S4x32x32x128 .bf16 :=
  concatenate S4x32x32x128 2 [⟨S4x32x31x128, extractStridedSlice S4x32x31x128 ![0, 0, 1, 0] v slices_S4x32x32x128_o0_0_1_0_S4x32x31x128⟩,
    ⟨S4x32x1x128, broadcast S4x32x1x128 (Scalar.ofBits (F := Ideal) .bf16 0x0000#16)⟩] concatenates_S4x32x31x128_S4x32x1x128_S4x32x32x128_d2

theorem shiftH_apply_lt (v : FVec Ideal S4x32x32x128 .bf16) (n : Fin 4) (i j : Fin 32) (k : Fin 128) (h : i.val + 1 < 32) :
    shiftH v (ix4 n i j k) = v (ix4 n ⟨i.val + 1, h⟩ j k) := by
  unfold shiftH
  refine (concatenate_apply_piece 1 _ _ (ix4 n i j k) 0 (by show 0 < 2; omega) S4x31x32x128 _ rfl rfl 0 rfl
    (ix4 n (⟨i.val, by omega⟩ : Fin 31) j k) (fun c hc => by
      match c with
      | ⟨0, _⟩ => rfl
      | ⟨1, _⟩ => exact absurd rfl hc
      | ⟨2, _⟩ => rfl
      | ⟨3, _⟩ => rfl) (by show 0 + i.val = i.val; omega)).trans ?_
  exact extractStridedSlice_apply _ _ _ _ (ix4 n ⟨i.val + 1, h⟩ j k) (fun a => by
    match a with
    | ⟨0, _⟩ => show n.val = 0 + n.val; omega
    | ⟨1, _⟩ => show i.val + 1 = 1 + i.val; omega
    | ⟨2, _⟩ => show j.val = 0 + j.val; omega
    | ⟨3, _⟩ => show k.val = 0 + k.val; omega)

theorem shiftH_apply_ge (v : FVec Ideal S4x32x32x128 .bf16) (n : Fin 4) (i j : Fin 32) (k : Fin 128) (h : ¬ i.val + 1 < 32) :
    shiftH v (ix4 n i j k) = 0 := by
  unfold shiftH
  refine (concatenate_apply_piece 1 _ _ (ix4 n i j k) 1 (by show 1 < 2; omega) S4x1x32x128 _ rfl rfl 31 (by simp)
    (ix4 n (0 : Fin 1) j k) (fun c hc => by
      match c with
      | ⟨0, _⟩ => rfl
      | ⟨1, _⟩ => exact absurd rfl hc
      | ⟨2, _⟩ => rfl
      | ⟨3, _⟩ => rfl) (by show 31 + 0 = i.val; have := i.isLt; omega)).trans ?_
  exact ofBits_zero_bf16

theorem shiftW_apply_lt (v : FVec Ideal S4x32x32x128 .bf16) (n : Fin 4) (i j : Fin 32) (k : Fin 128) (h : j.val + 1 < 32) :
    shiftW v (ix4 n i j k) = v (ix4 n i ⟨j.val + 1, h⟩ k) := by
  unfold shiftW
  refine (concatenate_apply_piece 2 _ _ (ix4 n i j k) 0 (by show 0 < 2; omega) S4x32x31x128 _ rfl rfl 0 rfl
    (ix4 n i (⟨j.val, by omega⟩ : Fin 31) k) (fun c hc => by
      match c with
      | ⟨0, _⟩ => rfl
      | ⟨1, _⟩ => rfl
      | ⟨2, _⟩ => exact absurd rfl hc
      | ⟨3, _⟩ => rfl) (by show 0 + j.val = j.val; omega)).trans ?_
  exact extractStridedSlice_apply _ _ _ _ (ix4 n i ⟨j.val + 1, h⟩ k) (fun a => by
    match a with
    | ⟨0, _⟩ => show n.val = 0 + n.val; omega
    | ⟨1, _⟩ => show i.val = 0 + i.val; omega
    | ⟨2, _⟩ => show j.val + 1 = 1 + j.val; omega
    | ⟨3, _⟩ => show k.val = 0 + k.val; omega)

theorem shiftW_apply_ge (v : FVec Ideal S4x32x32x128 .bf16) (n : Fin 4) (i j : Fin 32) (k : Fin 128) (h : ¬ j.val + 1 < 32) :
    shiftW v (ix4 n i j k) = 0 := by
  unfold shiftW
  refine (concatenate_apply_piece 2 _ _ (ix4 n i j k) 1 (by show 1 < 2; omega) S4x32x1x128 _ rfl rfl 31 (by simp)
    (ix4 n i (0 : Fin 1) k) (fun c hc => by
      match c with
      | ⟨0, _⟩ => rfl
      | ⟨1, _⟩ => rfl
      | ⟨2, _⟩ => exact absurd rfl hc
      | ⟨3, _⟩ => rfl) (by show 31 + 0 = j.val; have := j.isLt; omega)).trans ?_
  exact ofBits_zero_bf16

/-- The activation at a position that may have stepped off the image, as the block's shifted copies read it. -/
theorem act1_in (x0 : Vec Ideal S4x32x32x128 .f32) (x1 x2 : Vec Ideal S4x1x128 .f32) (n : Fin 4) (i j : ℕ) (k : Fin 128)
    (hi : i < 32) (hj : j < 32) :
    Spec.act1 (xs x0 n) (rw1 x1 n) (rw1 x2 n) i j k = actB x0 x1 x2 (ix4 n ⟨i, hi⟩ ⟨j, hj⟩ k) := by
  unfold Spec.act1
  rw [dif_pos ⟨hi, hj⟩, actB_apply]
  rfl

theorem act1_out (x0 : Vec Ideal S4x32x32x128 .f32) (x1 x2 : Vec Ideal S4x1x128 .f32) (n : Fin 4) (i j : ℕ) (k : Fin 128)
    (h : ¬ (i < 32 ∧ j < 32)) :
    Spec.act1 (xs x0 n) (rw1 x1 n) (rw1 x2 n) i j k = 0 := by
  unfold Spec.act1
  rw [dif_neg h]

/-- The activated block is the specification's activation inside the image. -/
theorem actB_eq (x0 : Vec Ideal S4x32x32x128 .f32) (x1 x2 : Vec Ideal S4x1x128 .f32) (n : Fin 4) (i j : Fin 32) (k : Fin 128) :
    actB x0 x1 x2 (ix4 n i j k) = Spec.act1 (xs x0 n) (rw1 x1 n) (rw1 x2 n) i.val j.val k :=
  (act1_in x0 x1 x2 n i.val j.val k i.isLt j.isLt).symm

/-- The copy shifted by one column is the activation at column j+1. -/
theorem shiftW_eq (x0 : Vec Ideal S4x32x32x128 .f32) (x1 x2 : Vec Ideal S4x1x128 .f32) (n : Fin 4) (i j : Fin 32) (k : Fin 128) :
    shiftW (actB x0 x1 x2) (ix4 n i j k) = Spec.act1 (xs x0 n) (rw1 x1 n) (rw1 x2 n) i.val (j.val + 1) k := by
  by_cases h : j.val + 1 < 32
  · rw [shiftW_apply_lt _ n i j k h, act1_in x0 x1 x2 n i.val (j.val + 1) k i.isLt h]
  · rw [shiftW_apply_ge _ n i j k h, act1_out x0 x1 x2 n _ _ k (fun hh => h hh.2)]

/-- The copy shifted by one row is the activation at row i+1. -/
theorem shiftH_eq (x0 : Vec Ideal S4x32x32x128 .f32) (x1 x2 : Vec Ideal S4x1x128 .f32) (n : Fin 4) (i j : Fin 32) (k : Fin 128) :
    shiftH (actB x0 x1 x2) (ix4 n i j k) = Spec.act1 (xs x0 n) (rw1 x1 n) (rw1 x2 n) (i.val + 1) j.val k := by
  by_cases h : i.val + 1 < 32
  · rw [shiftH_apply_lt _ n i j k h, act1_in x0 x1 x2 n (i.val + 1) j.val k h j.isLt]
  · rw [shiftH_apply_ge _ n i j k h, act1_out x0 x1 x2 n _ _ k (fun hh => h hh.1)]

/-- The copy shifted by both is the activation at (i+1, j+1). -/
theorem shiftHW_eq (x0 : Vec Ideal S4x32x32x128 .f32) (x1 x2 : Vec Ideal S4x1x128 .f32) (n : Fin 4) (i j : Fin 32) (k : Fin 128) :
    shiftW (shiftH (actB x0 x1 x2)) (ix4 n i j k) = Spec.act1 (xs x0 n) (rw1 x1 n) (rw1 x2 n) (i.val + 1) (j.val + 1) k := by
  by_cases h : j.val + 1 < 32
  · rw [shiftW_apply_lt _ n i j k h]
    exact shiftH_eq x0 x1 x2 n i ⟨j.val + 1, h⟩ k
  · rw [shiftW_apply_ge _ n i j k h, act1_out x0 x1 x2 n _ _ k (fun hh => h hh.2)]

/-- The left factor: the block and its three shifted copies side by side along the channel axis, the positions
    flattened to 4096 rows. -/
def lhsB (x0 : Vec Ideal S4x32x32x128 .f32) (x1 x2 : Vec Ideal S4x1x128 .f32) : FVec Ideal S4096x512 .bf16 :=
  shapeCast S4096x512 (concatenate S4x32x32x512 3 [⟨S4x32x32x128, actB x0 x1 x2⟩, ⟨S4x32x32x128, shiftW (actB x0 x1 x2)⟩,
      ⟨S4x32x32x128, shiftH (actB x0 x1 x2)⟩, ⟨S4x32x32x128, shiftW (shiftH (actB x0 x1 x2))⟩]
    concatenates_S4x32x32x128_S4x32x32x128_S4x32x32x128_S4x32x32x128_S4x32x32x512_d3) shapeCasts_S4x32x32x512_S4096x512

/-- The row of position (n, i, j) among the 4096. -/
abbrev rowOf (n : Fin 4) (i j : Fin 32) : Fin 4096 := ⟨(n.val * 32 + i.val) * 32 + j.val, by have := n.isLt; have := i.isLt; have := j.isLt; omega⟩

/-- A [4,32,32,512] block flattened to 4096 rows, read at row (n, i, j). -/
theorem flat_apply {α : Type} (v : S4x32x32x512.Idx → α) (n : Fin 4) (i j : Fin 32) (q : Fin 512) :
    shapeCast S4096x512 v shapeCasts_S4x32x32x512_S4096x512 (ix2 (rowOf n i j) q) = v (ix4 n i j q) :=
  shapeCast_apply _ _ (ix2 (rowOf n i j) q) (ix4 n i j q) (by
    rw [Shape.rowMajor_val_two, Shape.rowMajor_val_four]
    show ((n.val * 32 + i.val) * 32 + j.val) * 512 + q.val = ((n.val * 32 + i.val) * 32 + j.val) * 512 + q.val
    rfl)

section Cat4
variable {α : Type} (v0 v1 v2 v3 : S4x32x32x128.Idx → α) (n : Fin 4) (i j : Fin 32) (k : Fin 128) (q : Fin 512)

/-- Four blocks side by side along the channel axis, read in the first. -/
theorem cat4_apply0 (hq : q.val = k.val) :
    concatenate S4x32x32x512 3 [⟨S4x32x32x128, v0⟩, ⟨S4x32x32x128, v1⟩, ⟨S4x32x32x128, v2⟩, ⟨S4x32x32x128, v3⟩]
      concatenates_S4x32x32x128_S4x32x32x128_S4x32x32x128_S4x32x32x128_S4x32x32x512_d3 (ix4 n i j q) = v0 (ix4 n i j k) :=
  concatenate_apply_piece 3 [⟨S4x32x32x128, v0⟩, ⟨S4x32x32x128, v1⟩, ⟨S4x32x32x128, v2⟩, ⟨S4x32x32x128, v3⟩] _ (ix4 n i j q) 0
    (by show 0 < 4; omega) S4x32x32x128 v0 rfl rfl 0 rfl (ix4 n i j k) (fun c hc => by
      match c with
      | ⟨0, _⟩ => rfl
      | ⟨1, _⟩ => rfl
      | ⟨2, _⟩ => rfl
      | ⟨3, _⟩ => exact absurd rfl hc) (by show 0 + k.val = q.val; omega)

/-- … in the second. -/
theorem cat4_apply1 (hq : q.val = 128 + k.val) :
    concatenate S4x32x32x512 3 [⟨S4x32x32x128, v0⟩, ⟨S4x32x32x128, v1⟩, ⟨S4x32x32x128, v2⟩, ⟨S4x32x32x128, v3⟩]
      concatenates_S4x32x32x128_S4x32x32x128_S4x32x32x128_S4x32x32x128_S4x32x32x512_d3 (ix4 n i j q) = v1 (ix4 n i j k) :=
  concatenate_apply_piece 3 [⟨S4x32x32x128, v0⟩, ⟨S4x32x32x128, v1⟩, ⟨S4x32x32x128, v2⟩, ⟨S4x32x32x128, v3⟩] _ (ix4 n i j q) 1
    (by show 1 < 4; omega) S4x32x32x128 v1 rfl rfl 128 (by simp) (ix4 n i j k) (fun c hc => by
      match c with
      | ⟨0, _⟩ => rfl
      | ⟨1, _⟩ => rfl
      | ⟨2, _⟩ => rfl
      | ⟨3, _⟩ => exact absurd rfl hc) (by show 128 + k.val = q.val; omega)

/-- … in the third. -/
theorem cat4_apply2 (hq : q.val = 256 + k.val) :
    concatenate S4x32x32x512 3 [⟨S4x32x32x128, v0⟩, ⟨S4x32x32x128, v1⟩, ⟨S4x32x32x128, v2⟩, ⟨S4x32x32x128, v3⟩]
      concatenates_S4x32x32x128_S4x32x32x128_S4x32x32x128_S4x32x32x128_S4x32x32x512_d3 (ix4 n i j q) = v2 (ix4 n i j k) :=
  concatenate_apply_piece 3 [⟨S4x32x32x128, v0⟩, ⟨S4x32x32x128, v1⟩, ⟨S4x32x32x128, v2⟩, ⟨S4x32x32x128, v3⟩] _ (ix4 n i j q) 2
    (by show 2 < 4; omega) S4x32x32x128 v2 rfl rfl 256 (by simp) (ix4 n i j k) (fun c hc => by
      match c with
      | ⟨0, _⟩ => rfl
      | ⟨1, _⟩ => rfl
      | ⟨2, _⟩ => rfl
      | ⟨3, _⟩ => exact absurd rfl hc) (by show 256 + k.val = q.val; omega)

/-- … in the fourth. -/
theorem cat4_apply3 (hq : q.val = 384 + k.val) :
    concatenate S4x32x32x512 3 [⟨S4x32x32x128, v0⟩, ⟨S4x32x32x128, v1⟩, ⟨S4x32x32x128, v2⟩, ⟨S4x32x32x128, v3⟩]
      concatenates_S4x32x32x128_S4x32x32x128_S4x32x32x128_S4x32x32x128_S4x32x32x512_d3 (ix4 n i j q) = v3 (ix4 n i j k) :=
  concatenate_apply_piece 3 [⟨S4x32x32x128, v0⟩, ⟨S4x32x32x128, v1⟩, ⟨S4x32x32x128, v2⟩, ⟨S4x32x32x128, v3⟩] _ (ix4 n i j q) 3
    (by show 3 < 4; omega) S4x32x32x128 v3 rfl rfl 384 (by simp) (ix4 n i j k) (fun c hc => by
      match c with
      | ⟨0, _⟩ => rfl
      | ⟨1, _⟩ => rfl
      | ⟨2, _⟩ => rfl
      | ⟨3, _⟩ => exact absurd rfl hc) (by show 384 + k.val = q.val; omega)

end Cat4

section Lhs
variable (x0 : Vec Ideal S4x32x32x128 .f32) (x1 x2 : Vec Ideal S4x1x128 .f32) (n : Fin 4) (i j : Fin 32) (k : Fin 128) (q : Fin 512)

/-- The left factor at row (n, i, j), in the first block of 128 columns: the activation at (i, j). -/
theorem lhsB_apply0 (hq : q.val = k.val) :
    lhsB x0 x1 x2 (ix2 (rowOf n i j) q) = Spec.act1 (xs x0 n) (rw1 x1 n) (rw1 x2 n) i.val j.val k :=
  ((flat_apply _ n i j q).trans (cat4_apply0 _ _ _ _ n i j k q hq)).trans (actB_eq x0 x1 x2 n i j k)

/-- … in the second block: the activation at (i, j+1). -/
theorem lhsB_apply1 (hq : q.val = 128 + k.val) :
    lhsB x0 x1 x2 (ix2 (rowOf n i j) q) = Spec.act1 (xs x0 n) (rw1 x1 n) (rw1 x2 n) i.val (j.val + 1) k :=
  ((flat_apply _ n i j q).trans (cat4_apply1 _ _ _ _ n i j k q hq)).trans (shiftW_eq x0 x1 x2 n i j k)

/-- … in the third block: the activation at (i+1, j). -/
theorem lhsB_apply2 (hq : q.val = 256 + k.val) :
    lhsB x0 x1 x2 (ix2 (rowOf n i j) q) = Spec.act1 (xs x0 n) (rw1 x1 n) (rw1 x2 n) (i.val + 1) j.val k :=
  ((flat_apply _ n i j q).trans (cat4_apply2 _ _ _ _ n i j k q hq)).trans (shiftH_eq x0 x1 x2 n i j k)

/-- … in the fourth block: the activation at (i+1, j+1). -/
theorem lhsB_apply3 (hq : q.val = 384 + k.val) :
    lhsB x0 x1 x2 (ix2 (rowOf n i j) q) = Spec.act1 (xs x0 n) (rw1 x1 n) (rw1 x2 n) (i.val + 1) (j.val + 1) k :=
  ((flat_apply _ n i j q).trans (cat4_apply3 _ _ _ _ n i j k q hq)).trans (shiftHW_eq x0 x1 x2 n i j k)

end Lhs

end Cert.KernelIdeal.Val0

end
-- ==== Proof.LibPlainDot.lean ====
/-
  A matrix product "rows by columns" read at an index, at the ideal instance.

  For dimension numbers that contract the left operand's second axis with the right operand's first one and
  have no batch axis — an `M×K` matrix times a `K×N` matrix —, the element `(r, c)` of the product is
  `∑ k : Fin K, A (r, k) * B (k, c)`:
  * for the host's `dot_general` (no accumulator), and
  * for the matrix unit's `matmul` into the all-zero accumulator.
  Both are the same sum over the ONE coordinate `k` of the contracted axis, so a product computed in row
  blocks and a product computed whole agree element by element. General in `M`, `K`, `N`, the dimension-number
  record (any record whose six lists are the plain ones) and the operands' float formats.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract the left operand's axis 1 with the right operand's
    axis 0; the result's axes are the left operand's axis 0, then the right operand's axis 1; no batch axis. -/
structure Plain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The left operand's row coordinate is the result's row coordinate. -/
theorem lhs_row (d : DotDims ⟨2, ![M, K]⟩ ⟨2, ![K, N]⟩ ⟨2, ![M, N]⟩) (P : Plain d)
    (j : (⟨2, ![M, N]⟩ : Shape).Idx) (q : d.contr.Idx) : (d.lhsIdx j q 0).val = (j 0).val := by
  unfold DotDims.lhsIdx
  rw [dif_neg (show ¬ (0 : Fin (⟨2, ![M, K]⟩ : Shape).rank) ∈ d.lhsBatch by rw [P.lb]; simp),
    dif_pos (show (0 : Fin (⟨2, ![M, K]⟩ : Shape).rank) ∈ d.lhsNonContracting by rw [P.ln]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln])

/-- The right operand's column coordinate is the result's column coordinate. -/
theorem rhs_col (d : DotDims ⟨2, ![M, K]⟩ ⟨2, ![K, N]⟩ ⟨2, ![M, N]⟩) (P : Plain d)
    (j : (⟨2, ![M, N]⟩ : Shape).Idx) (q : d.contr.Idx) : (d.rhsIdx j q 1).val = (j 1).val := by
  unfold DotDims.rhsIdx
  rw [dif_neg (show ¬ (1 : Fin (⟨2, ![K, N]⟩ : Shape).rank) ∈ d.rhsBatch by rw [P.rb]; simp),
    dif_pos (show (1 : Fin (⟨2, ![K, N]⟩ : Shape).rank) ∈ d.rhsNonContracting by rw [P.rn]; simp)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [P.lb, P.ln, P.rn])

/-- The left operand is read at (row of the result, the contracted coordinate). -/
theorem lhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.lhsIdx j ((contrEquiv1 d K hr hs).symm k) = ix2 (j 0) k := by
  have hk := contrEquiv1_symm_val d K hr hs k
  funext a
  apply Fin.ext
  match a with
  | ⟨0, _⟩ => exact lhs_row d P j _
  | ⟨1, _⟩ => exact (d.lhsIdx_val_of_single P.lc j _).trans hk

/-- The right operand is read at (the contracted coordinate, column of the result). -/
theorem rhsIdx_eq (d : DotDims ⟨2, ![M, K]⟩ ⟨2, ![K, N]⟩ ⟨2, ![M, N]⟩) (P : Plain d)
    (hr : d.contr.rank = 1) (hs : d.contr.size ⟨0, by omega⟩ = K)
    (j : (⟨2, ![M, N]⟩ : Shape).Idx) (k : Fin K) :
    d.rhsIdx j ((contrEquiv1 d K hr hs).symm k) = ix2 k (j 1) := by
  have hk := contrEquiv1_symm_val d K hr hs k
  funext a
  apply Fin.ext
  match a with
  | ⟨0, _⟩ => exact (d.rhsIdx_val_of_single P.rc j _).trans hk
  | ⟨1, _⟩ => exact rhs_col d P j _

/-- The sum over the contraction index, re-indexed by the contracted axis's one coordinate. -/
theorem sum_contr (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (A : FVec Ideal ⟨2, ![M, K]⟩ φ₁) (B : FVec Ideal ⟨2, ![K, N]⟩ φ₂)
    (j : (⟨2, ![M, N]⟩ : Shape).Idx) :
    (∑ q : d.contr.Idx, A (d.lhsIdx j q) * B (d.rhsIdx j q)) = ∑ k : Fin K, A (ix2 (j 0) k) * B (ix2 k (j 1)) := by
  rw [← Equiv.sum_comp (contrEquiv1 d K hr hs).symm]
  refine Finset.sum_congr rfl fun k _ => ?_
  rw [lhsIdx_eq d P hr hs j k, rhsIdx_eq d P hr hs j k]
  rfl

/-- The host's product at an index: the sum over the contracted coordinate. -/
theorem dotGeneral_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral d prec sched A B j = ∑ k : Fin K, A (ix2 (j 0) k) * B (ix2 k (j 1)) := by
  rw [Ideal.dotGeneral_apply]
  exact sum_contr d P hr hs A B j

/-- The matrix unit's product into the zero accumulator at an index: the same sum. -/
theorem matmul_zero_apply (d : DotDims ⟨2, ![M, K]⟩ ⟨2, ![K, N]⟩ ⟨2, ![M, N]⟩) (P : Plain d)
    (hr : d.contr.rank = 1) (hs : d.contr.size ⟨0, by omega⟩ = K)
    {φ₁ φ₂ : FTy} (prec : Option ContractPrecision)
    (A : FVec Ideal ⟨2, ![M, K]⟩ φ₁) (B : FVec Ideal ⟨2, ![K, N]⟩ φ₂) (j : (⟨2, ![M, N]⟩ : Shape).Idx) :
    FloatOps.matmul d prec A B (constant ⟨2, ![M, N]⟩ .f32 0x00000000#32) j
      = ∑ k : Fin K, A (ix2 (j 0) k) * B (ix2 k (j 1)) := by
  rw [Ideal.matmul_constant_zero_apply]
  exact sum_contr d P hr hs A B j

end PlainDot

end
-- ==== Proof.LibSumBlocks.lean ====
/-
  Splitting a finite sum over a product extent into nested sums over its factors.
-/
import Mathlib.Algebra.BigOperators.Fin

open scoped BigOperators

namespace Cert.LibSumBlocks

/-- The position of entry `q` of block `p`, for blocks of length `b`, lies below `a * b`
when there are `a` blocks. -/
theorem blk_lt {a b p q : ℕ} (hp : p < a) (hq : q < b) : p * b + q < a * b :=
  calc p * b + q < p * b + b := Nat.add_lt_add_left hq _
    _ = (p + 1) * b := (Nat.succ_mul p b).symm
    _ ≤ a * b := Nat.mul_le_mul_right b hp

/-- A sum over `Fin (a * b)` is the sum over the `a` consecutive blocks of length `b` of the sum
inside each block: entry `q` of block `p` sits at position `p * b + q`. -/
theorem sum_fin_blocks2 {M : Type*} [AddCommMonoid M] (a b : ℕ) (f : Fin (a * b) → M) :
    ∑ i, f i = ∑ p : Fin a, ∑ q : Fin b, f ⟨p.val * b + q.val, blk_lt p.isLt q.isLt⟩ := by
  rw [← Equiv.sum_comp finProdFinEquiv f, Fintype.sum_prod_type]
  refine Finset.sum_congr rfl fun p _ => Finset.sum_congr rfl fun q _ => congrArg f (Fin.ext ?_)
  show q.val + b * p.val = p.val * b + q.val
  rw [Nat.mul_comm, Nat.add_comm]

/-- A sum over `Fin (a * b * c)` is a triple nested sum: the index range is cut into `a` blocks,
each block into `b` sub-blocks of length `c`; entry `s` of sub-block `q` of block `p` sits at
position `(p * b + q) * c + s`. -/
theorem sum_fin_blocks3 {M : Type*} [AddCommMonoid M] (a b c : ℕ) (f : Fin (a * b * c) → M) :
    ∑ i, f i = ∑ p : Fin a, ∑ q : Fin b, ∑ s : Fin c,
      f ⟨(p.val * b + q.val) * c + s.val, blk_lt (blk_lt p.isLt q.isLt) s.isLt⟩ :=
  (sum_fin_blocks2 (a * b) c f).trans
    (sum_fin_blocks2 a b fun pq : Fin (a * b) =>
      ∑ s : Fin c, f ⟨pq.val * c + s.val, blk_lt pq.isLt s.isLt⟩)

/-- The triple split of `sum_fin_blocks3` for an extent `n` given with a proof that it is the
product `a * b * c`, so that `n` may be a numeral. -/
theorem sum_fin_blocks3_of_eq {M : Type*} [AddCommMonoid M] (n a b c : ℕ) (h : n = a * b * c)
    (f : Fin n → M) :
    ∑ i, f i = ∑ p : Fin a, ∑ q : Fin b, ∑ s : Fin c,
      f ⟨(p.val * b + q.val) * c + s.val, h ▸ blk_lt (blk_lt p.isLt q.isLt) s.isLt⟩ := by
  subst h
  exact sum_fin_blocks3 a b c f

/-- A sum over the 32768 rows, cut into 2 halves of 8 blocks of 2048 rows each: row `s` of block
`q` of half `p` is row `(p * 8 + q) * 2048 + s`. -/
theorem sum_rows_32768 {M : Type*} [AddCommMonoid M] (f : Fin 32768 → M) :
    ∑ i : Fin 32768, f i = ∑ p : Fin 2, ∑ q : Fin 8, ∑ s : Fin 2048,
      f ⟨(p.val * 8 + q.val) * 2048 + s.val, by omega⟩ :=
  sum_fin_blocks3_of_eq 32768 2 8 2048 (by decide) f

end Cert.LibSumBlocks
-- ==== Proof.K0Dot.lean ====
/-
  The first stage's matrix product on a block of four samples, read at an index: row (n, i, j), column block U
  (the output phase), entry c. The 512 contracted columns split into the four blocks of 128 that hold the activation at
  (i, j), (i, j+1), (i+1, j), (i+1, j+1); against block-sparse merged weights each block contributes one tap of the
  3×3 kernel or nothing, and the four phases of the specification come out.
-/
import proofs.«148433_g2000002724561042_pallasbulk_175_35_alg».proof.Proof.K0Act
import proofs.«148433_g2000002724561042_pallasbulk_175_35_alg».proof.Proof.LibPlainDot
import proofs.«148433_g2000002724561042_pallasbulk_175_35_alg».proof.Proof.LibSumBlocks

set_option maxRecDepth 16384

noncomputable section

namespace Cert.KernelIdeal.Val0

open Cert.KernelIdeal Cert.KernelIdeal.Gen
open Idealize.ShloMosaic Idealize.ShloMosaic.ValueIdx
open scoped BigOperators

/-- Entry c of the U-th block of 128 among 512. -/
abbrev colOf (U : Fin 4) (c : Fin 128) : Fin 512 := ⟨U.val * 128 + c.val, by have := U.isLt; have := c.isLt; omega⟩

/-- The merged weights, block by block: row block T holds the activation at (i, j), (i, j+1), (i+1, j), (i+1, j+1);
    column block U is the output phase (0,0), (0,1), (1,0), (1,1); each block is one tap of the kernel, or zero. -/
def Mblk (w : Fin 3 → Fin 3 → Fin 128 → Fin 128 → EReal) (T U : Fin 4) (k c : Fin 128) : EReal :=
  match T, U with
  | ⟨0, _⟩, ⟨0, _⟩ => w 1 1 k c
  | ⟨0, _⟩, ⟨1, _⟩ => w 1 0 k c
  | ⟨0, _⟩, ⟨2, _⟩ => w 0 1 k c
  | ⟨0, _⟩, ⟨3, _⟩ => w 0 0 k c
  | ⟨1, _⟩, ⟨1, _⟩ => w 1 2 k c
  | ⟨1, _⟩, ⟨3, _⟩ => w 0 2 k c
  | ⟨2, _⟩, ⟨2, _⟩ => w 2 1 k c
  | ⟨2, _⟩, ⟨3, _⟩ => w 2 0 k c
  | ⟨3, _⟩, ⟨3, _⟩ => w 2 2 k c
  | _, _ => 0

/-- The product plus the bias row, as the body computes it from the left factor. -/
theorem pay6_eq (x0 : Vec Ideal S4x32x32x128 .f32) (x1 x2 : Vec Ideal S4x1x128 .f32) (x3 : Vec Ideal S512x512 .bf16) (x4 : Vec Ideal S1x512 .f32) :
    k0_pay6 x0 x1 x2 x3 x4
      = addf (matmul dot_S4096x512_S512x512_S4096x512_1_0_0_1_n_n none (lhsB x0 x1 x2) (shapeCast S512x512 x3 shapeCasts_S512x512_S512x512 : FVec Ideal S512x512 .bf16)
            (constant (F := Ideal) S4096x512 .f32 0x00000000#32))
          (broadcastTo S4096x512 (shapeCast S1x512 x4 shapeCasts_S1x512_S1x512) broadcasts_S1x512_S4096x512) := rfl

theorem plain512 : PlainDot.Plain (M := 4096) (K := 512) (N := 512) dot_S4096x512_S512x512_S4096x512_1_0_0_1_n_n :=
  ⟨rfl, rfl, rfl, rfl, rfl, rfl⟩

/-- The product at (row r, column q): the contraction over the 512 columns of the left factor, plus the bias. -/
theorem pay6_apply (x0 : Vec Ideal S4x32x32x128 .f32) (x1 x2 : Vec Ideal S4x1x128 .f32) (x3 : Vec Ideal S512x512 .bf16) (x4 : Vec Ideal S1x512 .f32)
    (r : Fin 4096) (q : Fin 512) :
    k0_pay6 x0 x1 x2 x3 x4 (ix2 r q)
      = (∑ kk : Fin 512, lhsB x0 x1 x2 (ix2 r kk) * x3 (ix2 kk q)) + x4 (ix2 (0 : Fin 1) q) := by
  rw [pay6_eq, addf_apply, shapeCast_self, shapeCast_self]
  refine congrArg₂ (· + ·) ?_ ?_
  · exact PlainDot.matmul_zero_apply (M := 4096) (K := 512) (N := 512) (φ₁ := .bf16) (φ₂ := .bf16) dot_S4096x512_S512x512_S4096x512_1_0_0_1_n_n plain512 rfl rfl none
      (lhsB x0 x1 x2) x3 (ix2 r q)
  · exact broadcastTo_apply _ _ (ix2 r q) (ix2 (0 : Fin 1) q) (fun a => by
      match a with
      | ⟨0, _⟩ => rfl
      | ⟨1, _⟩ => rfl)

/-- A sum over the 512 columns is the sum over the four blocks of the sums inside the blocks. -/
theorem sum512 {M : Type*} [AddCommMonoid M] (f : Fin 512 → M) :
    ∑ q : Fin 512, f q = ∑ T : Fin 4, ∑ k : Fin 128, f (colOf T k) :=
  Cert.LibSumBlocks.sum_fin_blocks2 4 128 f

/-- A block of the contraction against a zero block of the weights contributes nothing. -/
theorem sum_mul_zero (f : Fin 128 → EReal) : ∑ k : Fin 128, f k * (0 : EReal) = 0 :=
  Finset.sum_eq_zero fun k _ => mul_zero _

section Phase
variable (x0 : Vec Ideal S4x32x32x128 .f32) (x1 x2 : Vec Ideal S4x1x128 .f32) (x3 : Vec Ideal S512x512 .bf16) (x4 : Vec Ideal S1x512 .f32)
  (w : Fin 3 → Fin 3 → Fin 128 → Fin 128 → EReal) (b : Fin 128 → EReal)
  (hw : ∀ (T U : Fin 4) (k c : Fin 128), x3 (ix2 (colOf T k) (colOf U c)) = Mblk w T U k c)
  (hb : ∀ (U : Fin 4) (c : Fin 128), x4 (ix2 (0 : Fin 1) (colOf U c)) = b c)
  (n : Fin 4) (i j : Fin 32) (c : Fin 128)

include hw hb

/-- The product at row (n, i, j), column block U: the four blocks of the contraction, each the activation at one of
    the four positions against one block of the weights, plus the bias. -/
theorem pay6_blocks (U : Fin 4) :
    k0_pay6 x0 x1 x2 x3 x4 (ix2 (rowOf n i j) (colOf U c))
      = ((∑ k : Fin 128, Spec.act1 (xs x0 n) (rw1 x1 n) (rw1 x2 n) i.val j.val k * Mblk w 0 U k c)
          + (∑ k : Fin 128, Spec.act1 (xs x0 n) (rw1 x1 n) (rw1 x2 n) i.val (j.val + 1) k * Mblk w 1 U k c)
          + (∑ k : Fin 128, Spec.act1 (xs x0 n) (rw1 x1 n) (rw1 x2 n) (i.val + 1) j.val k * Mblk w 2 U k c)
          + (∑ k : Fin 128, Spec.act1 (xs x0 n) (rw1 x1 n) (rw1 x2 n) (i.val + 1) (j.val + 1) k * Mblk w 3 U k c))
        + b c := by
  rw [pay6_apply, sum512, Fin.sum_univ_four, hb]
  refine congrArg (· + b c) ?_
  refine congrArg₂ (· + ·) (congrArg₂ (· + ·) (congrArg₂ (· + ·) ?_ ?_) ?_) ?_
  · exact Finset.sum_congr rfl fun k _ => by
      rw [lhsB_apply0 x0 x1 x2 n i j k (colOf 0 k) (by show (0 : ℕ) * 128 + k.val = k.val; omega), hw]
  · exact Finset.sum_congr rfl fun k _ => by
      rw [lhsB_apply1 x0 x1 x2 n i j k (colOf 1 k) (by show (1 : ℕ) * 128 + k.val = 128 + k.val; omega), hw]
  · exact Finset.sum_congr rfl fun k _ => by
      rw [lhsB_apply2 x0 x1 x2 n i j k (colOf 2 k) (by show (2 : ℕ) * 128 + k.val = 256 + k.val; omega), hw]
  · exact Finset.sum_congr rfl fun k _ => by
      rw [lhsB_apply3 x0 x1 x2 n i j k (colOf 3 k) (by show (3 : ℕ) * 128 + k.val = 384 + k.val; omega), hw]

/-- Phase (0,0): the centre tap. -/
theorem pay6_phase00 :
    k0_pay6 x0 x1 x2 x3 x4 (ix2 (rowOf n i j) (colOf 0 c)) = Spec.phase1 (xs x0 n) (rw1 x1 n) (rw1 x2 n) w b 0 0 i j c := by
  rw [pay6_blocks x0 x1 x2 x3 x4 w b hw hb n i j c 0]
  show ((∑ k : Fin 128, _ * w 1 1 k c) + (∑ k : Fin 128, _ * (0 : EReal)) + (∑ k : Fin 128, _ * (0 : EReal)) + (∑ k : Fin 128, _ * (0 : EReal))) + b c = _
  rw [sum_mul_zero, sum_mul_zero, sum_mul_zero, add_zero, add_zero, add_zero]
  rfl

/-- Phase (0,1): the taps left and right of centre. -/
theorem pay6_phase01 :
    k0_pay6 x0 x1 x2 x3 x4 (ix2 (rowOf n i j) (colOf 1 c)) = Spec.phase1 (xs x0 n) (rw1 x1 n) (rw1 x2 n) w b 0 1 i j c := by
  rw [pay6_blocks x0 x1 x2 x3 x4 w b hw hb n i j c 1]
  show ((∑ k : Fin 128, _ * w 1 0 k c) + (∑ k : Fin 128, _ * w 1 2 k c) + (∑ k : Fin 128, _ * (0 : EReal)) + (∑ k : Fin 128, _ * (0 : EReal))) + b c = _
  rw [sum_mul_zero, sum_mul_zero, add_zero, add_zero]
  rfl

/-- Phase (1,0): the taps above and below centre. -/
theorem pay6_phase10 :
    k0_pay6 x0 x1 x2 x3 x4 (ix2 (rowOf n i j) (colOf 2 c)) = Spec.phase1 (xs x0 n) (rw1 x1 n) (rw1 x2 n) w b 1 0 i j c := by
  rw [pay6_blocks x0 x1 x2 x3 x4 w b hw hb n i j c 2]
  show ((∑ k : Fin 128, _ * w 0 1 k c) + (∑ k : Fin 128, _ * (0 : EReal)) + (∑ k : Fin 128, _ * w 2 1 k c) + (∑ k : Fin 128, _ * (0 : EReal))) + b c = _
  rw [sum_mul_zero, sum_mul_zero, add_zero, add_zero]
  rfl

/-- Phase (1,1): the four corner taps. -/
theorem pay6_phase11 :
    k0_pay6 x0 x1 x2 x3 x4 (ix2 (rowOf n i j) (colOf 3 c)) = Spec.phase1 (xs x0 n) (rw1 x1 n) (rw1 x2 n) w b 1 1 i j c := by
  rw [pay6_blocks x0 x1 x2 x3 x4 w b hw hb n i j c 3]
  rfl

/-- The product at row (n, i, j) and the column of phase (r, s), channel c, is the specification's convolution output
    at the fine position (2i+r, 2j+s). -/
theorem pay6_phase (r s : Fin 2) (q : Fin 512) (hq : q.val = (2 * r.val + s.val) * 128 + c.val) :
    k0_pay6 x0 x1 x2 x3 x4 (ix2 (rowOf n i j) q) = Spec.phase1 (xs x0 n) (rw1 x1 n) (rw1 x2 n) w b r s i j c := by
  match r, s with
  | ⟨0, _⟩, ⟨0, _⟩ =>
    obtain rfl : q = colOf 0 c := Fin.ext (hq.trans rfl)
    exact pay6_phase00 x0 x1 x2 x3 x4 w b hw hb n i j c
  | ⟨0, _⟩, ⟨1, _⟩ =>
    obtain rfl : q = colOf 1 c := Fin.ext (hq.trans rfl)
    exact pay6_phase01 x0 x1 x2 x3 x4 w b hw hb n i j c
  | ⟨1, _⟩, ⟨0, _⟩ =>
    obtain rfl : q = colOf 2 c := Fin.ext (hq.trans rfl)
    exact pay6_phase10 x0 x1 x2 x3 x4 w b hw hb n i j c
  | ⟨1, _⟩, ⟨1, _⟩ =>
    obtain rfl : q = colOf 3 c := Fin.ext (hq.trans rfl)
    exact pay6_phase11 x0 x1 x2 x3 x4 w b hw hb n i j c

end Phase

end Cert.KernelIdeal.Val0

end
-- ==== Proof.K0Outs.lean ====
/-
  What one grid point of the first stage leaves in its first two output blocks, read at an index of a sample of the
  block: the folded convolution output is the specification's, row 2i+r, lane s·128+c being phase (r, s) at coarse
  position (i, j), channel c; and the projection block is the 1×1 projection of the raw input.
-/
import proofs.«148433_g2000002724561042_pallasbulk_175_35_alg».proof.Proof.K0Dot
import proofs.«148433_g2000002724561042_pallasbulk_175_35_alg».proof.Proof.KFrame0

set_option maxRecDepth 16384

noncomputable section

namespace Cert.KernelIdeal.Val0

open Cert.KernelIdeal Cert.KernelIdeal.Gen
open Idealize.ShloMosaic Idealize.ShloMosaic.ValueIdx
open scoped BigOperators

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! ## The folded convolution output -/

/-- The 4096 rows viewed as positions (n, i, j) again. -/
theorem flat_back_apply {α : Type} (v : S4096x512.Idx → α) (n : Fin 4) (i j : Fin 32) (q : Fin 512) :
    shapeCast S4x32x32x512 v shapeCasts_S4096x512_S4x32x32x512 (ix4 n i j q) = v (ix2 (rowOf n i j) q) :=
  shapeCast_apply _ _ (ix4 n i j q) (ix2 (rowOf n i j) q) (by
    rw [Shape.rowMajor_val_two, Shape.rowMajor_val_four]
    show ((n.val * 32 + i.val) * 32 + j.val) * 512 + q.val = ((n.val * 32 + i.val) * 32 + j.val) * 512 + q.val
    rfl)

/-- The fold: the 512 lanes of row (n, i, j) of the product go to rows 2i and 2i+1 of the folded block, 256 lanes each. -/
theorem pay3_apply (v31 : FVec Ideal S4096x512 .f32) (n : Fin 4) (I : Fin 64) (j : Fin 32) (l : Fin 256) :
    k0_pay3 v31 (ix4 n I j l)
      = v31 (ix2 (rowOf n ⟨I.val / 2, by have := I.isLt; omega⟩ j) ⟨(I.val % 2) * 256 + l.val, by have := l.isLt; omega⟩) := by
  have hI := I.isLt
  have hl := l.isLt
  unfold k0_pay3
  rw [truncf_apply]
  refine (shapeCast_apply _ _ (ix4 n I j l)
    (ix5 n (⟨I.val / 2, by omega⟩ : Fin 32) (⟨I.val % 2, by omega⟩ : Fin 2) j l) (by
      rw [Shape.rowMajor_val_five, Shape.rowMajor_val_four]
      show (((n.val * 32 + I.val / 2) * 2 + I.val % 2) * 32 + j.val) * 256 + l.val = ((n.val * 64 + I.val) * 32 + j.val) * 256 + l.val
      omega)).trans ?_
  rcases Nat.mod_two_eq_zero_or_one I.val with h0 | h1
  · refine (concatenate_apply_piece 2 _ _ (ix5 n (⟨I.val / 2, by omega⟩ : Fin 32) (⟨I.val % 2, by omega⟩ : Fin 2) j l) 0 (by show 0 < 2; omega)
      S4x32x1x32x256 _ rfl rfl 0 rfl (ix5 n (⟨I.val / 2, by omega⟩ : Fin 32) (0 : Fin 1) j l) (fun c hc => by
        match c with
        | ⟨0, _⟩ => rfl
        | ⟨1, _⟩ => rfl
        | ⟨2, _⟩ => exact absurd rfl hc
        | ⟨3, _⟩ => rfl
        | ⟨4, _⟩ => rfl) (by show 0 + 0 = I.val % 2; omega)).trans ?_
    refine (shapeCast_apply _ _ (ix5 n (⟨I.val / 2, by omega⟩ : Fin 32) (0 : Fin 1) j l) (ix4 n (⟨I.val / 2, by omega⟩ : Fin 32) j l) (by
      rw [Shape.rowMajor_val_five, Shape.rowMajor_val_four]
      show ((n.val * 32 + I.val / 2) * 32 + j.val) * 256 + l.val = (((n.val * 32 + I.val / 2) * 1 + 0) * 32 + j.val) * 256 + l.val
      omega)).trans ?_
    refine (extractStridedSlice_apply _ _ _ (ix4 n (⟨I.val / 2, by omega⟩ : Fin 32) j l)
      (ix4 n (⟨I.val / 2, by omega⟩ : Fin 32) j (⟨(I.val % 2) * 256 + l.val, by omega⟩ : Fin 512)) (fun a => by
        match a with
        | ⟨0, _⟩ => show n.val = 0 + n.val; omega
        | ⟨1, _⟩ => show I.val / 2 = 0 + I.val / 2; omega
        | ⟨2, _⟩ => show j.val = 0 + j.val; omega
        | ⟨3, _⟩ => show (I.val % 2) * 256 + l.val = 0 + l.val; omega)).trans ?_
    exact flat_back_apply v31 n _ j _
  · refine (concatenate_apply_piece 2 _ _ (ix5 n (⟨I.val / 2, by omega⟩ : Fin 32) (⟨I.val % 2, by omega⟩ : Fin 2) j l) 1 (by show 1 < 2; omega)
      S4x32x1x32x256 _ rfl rfl 1 (by simp) (ix5 n (⟨I.val / 2, by omega⟩ : Fin 32) (0 : Fin 1) j l) (fun c hc => by
        match c with
        | ⟨0, _⟩ => rfl
        | ⟨1, _⟩ => rfl
        | ⟨2, _⟩ => exact absurd rfl hc
        | ⟨3, _⟩ => rfl
        | ⟨4, _⟩ => rfl) (by show 1 + 0 = I.val % 2; omega)).trans ?_
    refine (shapeCast_apply _ _ (ix5 n (⟨I.val / 2, by omega⟩ : Fin 32) (0 : Fin 1) j l) (ix4 n (⟨I.val / 2, by omega⟩ : Fin 32) j l) (by
      rw [Shape.rowMajor_val_five, Shape.rowMajor_val_four]
      show ((n.val * 32 + I.val / 2) * 32 + j.val) * 256 + l.val = (((n.val * 32 + I.val / 2) * 1 + 0) * 32 + j.val) * 256 + l.val
      omega)).trans ?_
    refine (extractStridedSlice_apply _ _ _ (ix4 n (⟨I.val / 2, by omega⟩ : Fin 32) j l)
      (ix4 n (⟨I.val / 2, by omega⟩ : Fin 32) j (⟨(I.val % 2) * 256 + l.val, by omega⟩ : Fin 512)) (fun a => by
        match a with
        | ⟨0, _⟩ => show n.val = 0 + n.val; omega
        | ⟨1, _⟩ => show I.val / 2 = 0 + I.val / 2; omega
        | ⟨2, _⟩ => show j.val = 0 + j.val; omega
        | ⟨3, _⟩ => show (I.val % 2) * 256 + l.val = 256 + l.val; omega)).trans ?_
    exact flat_back_apply v31 n _ j _

section Out6
variable (x0 : Vec Ideal S4x32x32x128 .f32) (x1 x2 : Vec Ideal S4x1x128 .f32) (x3 : Vec Ideal S512x512 .bf16) (x4 : Vec Ideal S1x512 .f32)
  (x5 : Vec Ideal S128x128 .bf16)

/-- One store through the whole buffer leaves its payload, computed from the blocks as loaded whole. -/
theorem out0_6_eq : Hand.out0_6 x0 x1 x2 x3 x4 x5 = k0_pay3 (k0_pay6 x0 x1 x2 x3 x4) := by
  unfold Hand.out0_6
  rw [View.canon_unit_zero hz4]
  simp only [View.ld_unit_zero (S := S4x32x32x128) hz4, View.ld_unit_zero (S := S4x1x128) hz3,
    View.ld_unit_zero (S := S512x512) hz2, View.ld_unit_zero (S := S1x512) hz2]

variable (w : Fin 3 → Fin 3 → Fin 128 → Fin 128 → EReal) (b : Fin 128 → EReal)
  (hw : ∀ (T U : Fin 4) (k c : Fin 128), x3 (ix2 (colOf T k) (colOf U c)) = Mblk w T U k c)
  (hb : ∀ (U : Fin 4) (c : Fin 128), x4 (ix2 (0 : Fin 1) (colOf U c)) = b c)

include hw hb in
/-- THE FIRST OUTPUT BLOCK at sample n of the block, row I, column j, lane l: the specification's folded output of
    that sample. -/
theorem out0_6_apply (n : Fin 4) (I : Fin 64) (j : Fin 32) (l : Fin 256) :
    Hand.out0_6 x0 x1 x2 x3 x4 x5 (ix4 n I j l) = Spec.yfold1 (xs x0 n) (rw1 x1 n) (rw1 x2 n) w b I j l := by
  have hI := I.isLt
  have hl := l.isLt
  rw [out0_6_eq, pay3_apply]
  exact pay6_phase x0 x1 x2 x3 x4 w b hw hb n ⟨I.val / 2, by omega⟩ j ⟨l.val % 128, Nat.mod_lt _ (by norm_num)⟩
    ⟨I.val % 2, Nat.mod_lt _ (by norm_num)⟩ ⟨l.val / 128, by omega⟩ _
    (by show (I.val % 2) * 256 + l.val = (2 * (I.val % 2) + l.val / 128) * 128 + l.val % 128; omega)

end Out6

/-! ## The projection -/

theorem plain128 : PlainDot.Plain (M := 4096) (K := 128) (N := 128) dot_S4096x128_S128x128_S4096x128_1_0_0_1_n_n :=
  ⟨rfl, rfl, rfl, rfl, rfl, rfl⟩

/-- The projection payload, operation by operation. -/
theorem pay4_eq (v1 : FVec Ideal S4x32x32x128 .f32) (v65 : Vec Ideal S128x128 .bf16) :
    k0_pay4 v1 v65 = truncf .bf16 (shapeCast S4x32x32x128
        (matmul dot_S4096x128_S128x128_S4096x128_1_0_0_1_n_n none
          (shapeCast S4096x128 (truncf .bf16 v1 bitsLt_bf16_f32 : FVec Ideal S4x32x32x128 .bf16) shapeCasts_S4x32x32x128_S4096x128 : FVec Ideal S4096x128 .bf16)
          (shapeCast S128x128 v65 shapeCasts_S128x128_S128x128 : FVec Ideal S128x128 .bf16)
          (constant (F := Ideal) S4096x128 .f32 0x00000000#32) : FVec Ideal S4096x128 .f32)
        shapeCasts_S4096x128_S4x32x32x128 : FVec Ideal S4x32x32x128 .f32) bitsLt_bf16_f32 := rfl

/-- The projection at (n, i, j, c): the contraction of the raw input's channels with the projection weights. -/
theorem pay4_apply (v1 : FVec Ideal S4x32x32x128 .f32) (v65 : Vec Ideal S128x128 .bf16) (n : Fin 4) (i j : Fin 32) (c : Fin 128) :
    k0_pay4 v1 v65 (ix4 n i j c) = ∑ k : Fin 128, v1 (ix4 n i j k) * v65 (ix2 k c) := by
  rw [pay4_eq, truncf_apply]
  refine (shapeCast_apply _ _ (ix4 n i j c) (ix2 (rowOf n i j) c) (by
    rw [Shape.rowMajor_val_two, Shape.rowMajor_val_four]
    show ((n.val * 32 + i.val) * 32 + j.val) * 128 + c.val = ((n.val * 32 + i.val) * 32 + j.val) * 128 + c.val
    rfl)).trans ?_
  refine (PlainDot.matmul_zero_apply (M := 4096) (K := 128) (N := 128) (φ₁ := .bf16) (φ₂ := .bf16)
    dot_S4096x128_S128x128_S4096x128_1_0_0_1_n_n plain128 rfl rfl none _ _ (ix2 (rowOf n i j) c)).trans ?_
  refine Finset.sum_congr rfl fun k _ => ?_
  rw [shapeCast_self]
  refine congrArg (· * v65 (ix2 k c)) ?_
  exact shapeCast_apply _ _ (ix2 (rowOf n i j) k) (ix4 n i j k) (by
    rw [Shape.rowMajor_val_two, Shape.rowMajor_val_four]
    show ((n.val * 32 + i.val) * 32 + j.val) * 128 + k.val = ((n.val * 32 + i.val) * 32 + j.val) * 128 + k.val
    rfl)

section Out7
variable (x0 : Vec Ideal S4x32x32x128 .f32) (x1 x2 : Vec Ideal S4x1x128 .f32) (x3 : Vec Ideal S512x512 .bf16) (x4 : Vec Ideal S1x512 .f32)
  (x5 : Vec Ideal S128x128 .bf16)

theorem out0_7_eq : Hand.out0_7 x0 x1 x2 x3 x4 x5 = k0_pay4 (k0_pay5 x0) x5 := by
  unfold Hand.out0_7
  rw [View.canon_unit_zero hz4]
  simp only [View.ld_unit_zero (S := S4x32x32x128) hz4, View.ld_unit_zero (S := S128x128) hz2]

/-- THE SECOND OUTPUT BLOCK at sample n of the block: the 1×1 projection of that sample's raw input. -/
theorem out0_7_apply (wsc : Fin 128 → Fin 128 → EReal) (hwsc : ∀ k c : Fin 128, x5 (ix2 k c) = wsc k c)
    (n : Fin 4) (i j : Fin 32) (c : Fin 128) :
    Hand.out0_7 x0 x1 x2 x3 x4 x5 (ix4 n i j c) = Spec.skip1 (xs x0 n) wsc i j c := by
  rw [out0_7_eq, pay4_apply]
  unfold Spec.skip1 k0_pay5
  rw [shapeCast_self]
  exact Finset.sum_congr rfl fun k _ => by rw [hwsc]; rfl

end Out7

end Cert.KernelIdeal.Val0

end
-- ==== Proof.K0Sums.lean ====
/-
  The two per-sample partial sums one grid point of the first stage leaves: over the 1024 coarse positions of a
  sample the product's column of phase (r, s), channel c, sums to the specification's phase summed over the image;
  adding the four 128-lane slices adds the four phases. The same for the squares.
-/
import proofs.«148433_g2000002724561042_pallasbulk_175_35_alg».proof.Proof.K0Dot
import proofs.«148433_g2000002724561042_pallasbulk_175_35_alg».proof.Proof.KFrame0

set_option maxRecDepth 16384

noncomputable section

namespace Cert.KernelIdeal.Val0

open Cert.KernelIdeal Cert.KernelIdeal.Gen
open Idealize.ShloMosaic Idealize.ShloMosaic.ValueIdx
open scoped BigOperators

theorem hz4' : (![0, 0, 0, 0] : Fin 4 → Nat) = fun _ => 0 := funext fun a => by fin_cases a <;> rfl
theorem hz3' : (![0, 0, 0] : Fin 3 → Nat) = fun _ => 0 := funext fun a => by fin_cases a <;> rfl
theorem hz2' : (![0, 0] : Fin 2 → Nat) = fun _ => 0 := funext fun a => by fin_cases a <;> rfl

/-- The reduced index (n, q) with position pos put back on the reduced axis is (n, pos, q). -/
theorem lift_pos (h : S4x1024x512.Reduces [1] S4x512) (n : Fin 4) (q : Fin 512) (pos : Fin (S4x1024x512.size 1)) :
    h.lift (ix2 n q) pos = ix3 n (⟨pos.val, pos.isLt⟩ : Fin 1024) q := by
  funext c; apply Fin.ext
  fin_cases c <;> rfl

/-- The sum over the positions axis, kept as a unit axis, read at (n, 0, q): the sum over the 1024 positions. -/
theorem posSum_apply (v : FVec Ideal S4x1024x512 .f32) (hφ : FKind.Formats .f32)
    (hacc : (0x00000000#32 : BitVec 32) = FKind.add.neutral .f32 hφ) (n : Fin 4) (q : Fin 512) :
    shapeCast S4x1x512 (multiReduction .add [1] S4x512 v 0x00000000#32 reduces_S4x1024x512_S4x512 hφ hacc : FVec Ideal S4x512 .f32)
        shapeCasts_S4x512_S4x1x512 (ix3 n (0 : Fin 1) q) = ∑ pos : Fin 1024, v (ix3 n pos q) := by
  refine (shapeCast_apply _ _ (ix3 n (0 : Fin 1) q) (ix2 n q) (by
    rw [Shape.rowMajor_val_two, Shape.rowMajor_val_three]
    show n.val * 512 + q.val = (n.val * 1 + 0) * 512 + q.val
    omega)).trans ?_
  refine (Ideal.multiReduction_add_single v _ reduces_S4x1024x512_S4x512 hφ hacc (ix2 n q)).trans ?_
  exact Finset.sum_congr rfl fun pos _ => congrArg v (lift_pos _ n q pos)

/-- A sum over the 1024 positions of a sample is the double sum over rows and columns of the image. -/
theorem sum1024 {M : Type*} [AddCommMonoid M] (f : Fin 1024 → M) :
    ∑ pos : Fin 1024, f pos = ∑ i : Fin 32, ∑ j : Fin 32, f ⟨i.val * 32 + j.val, by have := i.isLt; have := j.isLt; omega⟩ :=
  Cert.LibSumBlocks.sum_fin_blocks2 32 32 f

/-- A 128-lane slice of a [4,1,512] row, read at (n, 0, c). -/
theorem lane_slice_apply (v : FVec Ideal S4x1x512 .f32) (off : ℕ) (h : S4x1x512.Slices ![0, 0, off] S4x1x128) (n : Fin 4) (c : Fin 128)
    (q : Fin 512) (hq : q.val = off + c.val) :
    extractStridedSlice S4x1x128 ![0, 0, off] v h (ix3 n (0 : Fin 1) c) = v (ix3 n (0 : Fin 1) q) :=
  extractStridedSlice_apply _ _ _ _ (ix3 n (0 : Fin 1) q) (fun a => by
    match a with
    | ⟨0, _⟩ => show n.val = 0 + n.val; omega
    | ⟨1, _⟩ => show 0 = 0 + 0; omega
    | ⟨2, _⟩ => show q.val = off + c.val; omega)

section Sums
variable (x0 : Vec Ideal S4x32x32x128 .f32) (x1 x2 : Vec Ideal S4x1x128 .f32) (x3 : Vec Ideal S512x512 .bf16) (x4 : Vec Ideal S1x512 .f32)
  (x5 : Vec Ideal S128x128 .bf16)

/-- The product with its rows grouped by sample, at (n, pos, q), pos = i·32 + j. -/
theorem pay7_apply (n : Fin 4) (i j : Fin 32) (q : Fin 512) :
    k0_pay7 x0 x1 x2 x3 x4 (ix3 n (⟨i.val * 32 + j.val, by have := i.isLt; have := j.isLt; omega⟩ : Fin 1024) q)
      = k0_pay6 x0 x1 x2 x3 x4 (ix2 (rowOf n i j) q) := by
  have hi := i.isLt
  have hj := j.isLt
  have hn := n.isLt
  unfold k0_pay7
  exact shapeCast_apply _ _ _ (ix2 (rowOf n i j) q) (by
    rw [Shape.rowMajor_val_two, Shape.rowMajor_val_three]
    show ((n.val * 32 + i.val) * 32 + j.val) * 512 + q.val = (n.val * 1024 + (i.val * 32 + j.val)) * 512 + q.val
    omega)

variable (w : Fin 3 → Fin 3 → Fin 128 → Fin 128 → EReal) (b : Fin 128 → EReal)
  (hw : ∀ (T U : Fin 4) (k c : Fin 128), x3 (ix2 (colOf T k) (colOf U c)) = Mblk w T U k c)
  (hb : ∀ (U : Fin 4) (c : Fin 128), x4 (ix2 (0 : Fin 1) (colOf U c)) = b c)

include hw hb

/-- The column of phase (r, s), channel c, summed over sample n's positions. -/
theorem colsum_phase (n : Fin 4) (c : Fin 128) (r s : Fin 2) (q : Fin 512) (hq : q.val = (2 * r.val + s.val) * 128 + c.val) :
    k0_pay8 x0 x1 x2 x3 x4 (ix3 n (0 : Fin 1) q)
      = ∑ i : Fin 32, ∑ j : Fin 32, Spec.phase1 (xs x0 n) (rw1 x1 n) (rw1 x2 n) w b r s i j c := by
  unfold k0_pay8
  refine (posSum_apply _ _ _ n q).trans ?_
  rw [sum1024]
  exact Finset.sum_congr rfl fun i _ => Finset.sum_congr rfl fun j _ =>
    (pay7_apply x0 x1 x2 x3 x4 n i j q).trans (pay6_phase x0 x1 x2 x3 x4 w b hw hb n i j c r s q hq)

/-- The same column's squares summed over sample n's positions. -/
theorem colsq_phase (n : Fin 4) (c : Fin 128) (r s : Fin 2) (q : Fin 512) (hq : q.val = (2 * r.val + s.val) * 128 + c.val) :
    k0_pay9 x0 x1 x2 x3 x4 (ix3 n (0 : Fin 1) q)
      = ∑ i : Fin 32, ∑ j : Fin 32, Spec.phase1 (xs x0 n) (rw1 x1 n) (rw1 x2 n) w b r s i j c
          * Spec.phase1 (xs x0 n) (rw1 x1 n) (rw1 x2 n) w b r s i j c := by
  unfold k0_pay9
  refine (posSum_apply _ _ _ n q).trans ?_
  rw [sum1024]
  exact Finset.sum_congr rfl fun i _ => Finset.sum_congr rfl fun j _ => by
    rw [mulf_apply, pay7_apply x0 x1 x2 x3 x4 n i j q, pay6_phase x0 x1 x2 x3 x4 w b hw hb n i j c r s q hq]

end Sums

/-- Where the lane slices of the two sums are added, operation by operation. -/
theorem pay1_eq (v34 : FVec Ideal S4x1x512 .f32) (v38 : FVec Ideal S4x1x128 .f32) :
    k0_pay1 v34 v38 = addf (addf (addf v38 (extractStridedSlice S4x1x128 ![0, 0, 128] v34 slices_S4x1x512_o0_0_128_S4x1x128))
        (extractStridedSlice S4x1x128 ![0, 0, 256] v34 slices_S4x1x512_o0_0_256_S4x1x128))
      (extractStridedSlice S4x1x128 ![0, 0, 384] v34 slices_S4x1x512_o0_0_384_S4x1x128) := rfl

theorem pay2_eq (v37 : FVec Ideal S4x1x512 .f32) :
    k0_pay2 v37 = addf (addf (addf (extractStridedSlice S4x1x128 ![0, 0, 0] v37 slices_S4x1x512_o0_0_0_S4x1x128)
          (extractStridedSlice S4x1x128 ![0, 0, 128] v37 slices_S4x1x512_o0_0_128_S4x1x128))
        (extractStridedSlice S4x1x128 ![0, 0, 256] v37 slices_S4x1x512_o0_0_256_S4x1x128))
      (extractStridedSlice S4x1x128 ![0, 0, 384] v37 slices_S4x1x512_o0_0_384_S4x1x128) := rfl

/-- The four lane slices of a [4,1,512] row added, at (n, 0, c): the row at lanes c, 128+c, 256+c, 384+c. -/
theorem pay2_apply (v37 : FVec Ideal S4x1x512 .f32) (n : Fin 4) (c : Fin 128) :
    k0_pay2 v37 (ix3 n (0 : Fin 1) c)
      = v37 (ix3 n (0 : Fin 1) (colOf 0 c)) + v37 (ix3 n (0 : Fin 1) (colOf 1 c)) + v37 (ix3 n (0 : Fin 1) (colOf 2 c))
          + v37 (ix3 n (0 : Fin 1) (colOf 3 c)) := by
  rw [pay2_eq, addf_apply, addf_apply, addf_apply,
    lane_slice_apply v37 0 _ n c (colOf 0 c) (by show (0 : ℕ) * 128 + c.val = 0 + c.val; omega),
    lane_slice_apply v37 128 _ n c (colOf 1 c) (by show (1 : ℕ) * 128 + c.val = 128 + c.val; omega),
    lane_slice_apply v37 256 _ n c (colOf 2 c) (by show (2 : ℕ) * 128 + c.val = 256 + c.val; omega),
    lane_slice_apply v37 384 _ n c (colOf 3 c) (by show (3 : ℕ) * 128 + c.val = 384 + c.val; omega)]

theorem pay1_apply (v34 : FVec Ideal S4x1x512 .f32) (n : Fin 4) (c : Fin 128) :
    k0_pay1 v34 (extractStridedSlice S4x1x128 ![0, 0, 0] v34 slices_S4x1x512_o0_0_0_S4x1x128) (ix3 n (0 : Fin 1) c)
      = v34 (ix3 n (0 : Fin 1) (colOf 0 c)) + v34 (ix3 n (0 : Fin 1) (colOf 1 c)) + v34 (ix3 n (0 : Fin 1) (colOf 2 c))
          + v34 (ix3 n (0 : Fin 1) (colOf 3 c)) := by
  rw [pay1_eq, addf_apply, addf_apply, addf_apply,
    lane_slice_apply v34 0 _ n c (colOf 0 c) (by show (0 : ℕ) * 128 + c.val = 0 + c.val; omega),
    lane_slice_apply v34 128 _ n c (colOf 1 c) (by show (1 : ℕ) * 128 + c.val = 128 + c.val; omega),
    lane_slice_apply v34 256 _ n c (colOf 2 c) (by show (2 : ℕ) * 128 + c.val = 256 + c.val; omega),
    lane_slice_apply v34 384 _ n c (colOf 3 c) (by show (3 : ℕ) * 128 + c.val = 384 + c.val; omega)]

section Outs
variable (x0 : Vec Ideal S4x32x32x128 .f32) (x1 x2 : Vec Ideal S4x1x128 .f32) (x3 : Vec Ideal S512x512 .bf16) (x4 : Vec Ideal S1x512 .f32)
  (x5 : Vec Ideal S128x128 .bf16)

theorem out0_8_eq : Hand.out0_8 x0 x1 x2 x3 x4 x5 = k0_pay1 (k0_pay8 x0 x1 x2 x3 x4) (k0_pay10 x0 x1 x2 x3 x4) := by
  unfold Hand.out0_8
  rw [View.canon_unit_zero hz3']
  simp only [View.ld_unit_zero (S := S4x32x32x128) hz4', View.ld_unit_zero (S := S4x1x128) hz3',
    View.ld_unit_zero (S := S512x512) hz2', View.ld_unit_zero (S := S1x512) hz2']

theorem out0_9_eq : Hand.out0_9 x0 x1 x2 x3 x4 x5 = k0_pay2 (k0_pay9 x0 x1 x2 x3 x4) := by
  unfold Hand.out0_9
  rw [View.canon_unit_zero hz3']
  simp only [View.ld_unit_zero (S := S4x32x32x128) hz4', View.ld_unit_zero (S := S4x1x128) hz3',
    View.ld_unit_zero (S := S512x512) hz2', View.ld_unit_zero (S := S1x512) hz2']

variable (w : Fin 3 → Fin 3 → Fin 128 → Fin 128 → EReal) (b : Fin 128 → EReal)
  (hw : ∀ (T U : Fin 4) (k c : Fin 128), x3 (ix2 (colOf T k) (colOf U c)) = Mblk w T U k c)
  (hb : ∀ (U : Fin 4) (c : Fin 128), x4 (ix2 (0 : Fin 1) (colOf U c)) = b c)

include hw hb

/-- THE THIRD OUTPUT BLOCK at sample n of the block, channel c: the specification's sum of that sample's convolution
    output over the four phases and all positions. -/
theorem out0_8_apply (n : Fin 4) (c : Fin 128) :
    Hand.out0_8 x0 x1 x2 x3 x4 x5 (ix3 n (0 : Fin 1) c) = Spec.sum1 (xs x0 n) (rw1 x1 n) (rw1 x2 n) w b c := by
  rw [out0_8_eq]
  unfold k0_pay10
  rw [pay1_apply,
    colsum_phase x0 x1 x2 x3 x4 w b hw hb n c 0 0 (colOf 0 c) rfl,
    colsum_phase x0 x1 x2 x3 x4 w b hw hb n c 0 1 (colOf 1 c) rfl,
    colsum_phase x0 x1 x2 x3 x4 w b hw hb n c 1 0 (colOf 2 c) rfl,
    colsum_phase x0 x1 x2 x3 x4 w b hw hb n c 1 1 (colOf 3 c) rfl]
  unfold Spec.sum1
  rw [Fin.sum_univ_two, Fin.sum_univ_two, Fin.sum_univ_two]
  exact add_assoc _ _ _

/-- THE FOURTH OUTPUT BLOCK: the same sum of squares. -/
theorem out0_9_apply (n : Fin 4) (c : Fin 128) :
    Hand.out0_9 x0 x1 x2 x3 x4 x5 (ix3 n (0 : Fin 1) c) = Spec.ssq1 (xs x0 n) (rw1 x1 n) (rw1 x2 n) w b c := by
  rw [out0_9_eq, pay2_apply,
    colsq_phase x0 x1 x2 x3 x4 w b hw hb n c 0 0 (colOf 0 c) rfl,
    colsq_phase x0 x1 x2 x3 x4 w b hw hb n c 0 1 (colOf 1 c) rfl,
    colsq_phase x0 x1 x2 x3 x4 w b hw hb n c 1 0 (colOf 2 c) rfl,
    colsq_phase x0 x1 x2 x3 x4 w b hw hb n c 1 1 (colOf 3 c) rfl]
  unfold Spec.ssq1
  rw [Fin.sum_univ_two, Fin.sum_univ_two, Fin.sum_univ_two]
  exact add_assoc _ _ _

end Outs

end Cert.KernelIdeal.Val0

end
-- ==== Proof.K0Arr.lean ====
/-
  From the blocks to the arrays, first stage: grid point t works on samples 4t … 4t+3, the weights and the bias row
  are read whole at every point, and the sixteen points' blocks tile each output array. So after the region the
  four output arrays hold, sample by sample, the specification's folded convolution output, projection, sum and sum
  of squares of that sample's image, scale row and shift row as the region found them.
-/
import proofs.«148433_g2000002724561042_pallasbulk_175_35_alg».proof.Proof.K0Outs
import proofs.«148433_g2000002724561042_pallasbulk_175_35_alg».proof.Proof.K0Sums
import Idealize.ShloMosaic.Lib.Pipeline.Value

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The printed index maps, decided over the sixteen points -/

theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 4) = t.val ∧ win0_6.index t (1 : Fin 4) = 0
    ∧ win0_6.index t (2 : Fin 4) = 0 ∧ win0_6.index t (3 : Fin 4) = 0 :=
  (by decide +kernel : ∀ t : Fin grid0.N, _)
theorem idx7 : ∀ t : Fin cfg0.N, win0_7.index t (0 : Fin 4) = t.val ∧ win0_7.index t (1 : Fin 4) = 0
    ∧ win0_7.index t (2 : Fin 4) = 0 ∧ win0_7.index t (3 : Fin 4) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem t_lt (t : Fin cfg0.N) : t.val < 16 := lt_of_lt_of_eq t.isLt N_0

/-- Sample n of point t's block is sample 4t+n. -/
abbrev smp (t : Fin cfg0.N) (n : Fin 4) : Fin 64 := ⟨4 * t.val + n.val, by have := t_lt t; have := n.isLt; omega⟩

section
variable (V : (c : Dev nD) → (b : Ref sig .tc) → Buf (Elt Ideal) ((c : Thread nD τ).loc b)) (c : Dev nD)

/-! ## The input blocks, read off the arrays -/

theorem iblk0_0_apply (t : Fin cfg0.N) (n : Fin 4) (i j : Fin 32) (k : Fin 128) :
    (iblk0 V c 0 t : Vec Ideal S4x32x32x128 .f32) (ix4 n i j k)
      = (V c main_v0 : S64x32x32x128.Idx → Elt Ideal .f32) (ix4 (smp t n) i j k) := by
  obtain ⟨e0, e1, e2, e3⟩ := idx0 t
  unfold iblk0
  rw [View.read_apply]
  show V c main_v0 _ = V c main_v0 _
  congr 1
  funext a
  apply Fin.ext
  match a with
  | ⟨0, _⟩ => show win0_0.index t (0 : Fin 4) * 4 + 1 * n.val = 4 * t.val + n.val; rw [e0]; omega
  | ⟨1, _⟩ => show win0_0.index t (1 : Fin 4) * 32 + 1 * i.val = i.val; rw [e1]; omega
  | ⟨2, _⟩ => show win0_0.index t (2 : Fin 4) * 32 + 1 * j.val = j.val; rw [e2]; omega
  | ⟨3, _⟩ => show win0_0.index t (3 : Fin 4) * 128 + 1 * k.val = k.val; rw [e3]; omega

theorem iblk0_1_apply (t : Fin cfg0.N) (n : Fin 4) (k : Fin 128) :
    (iblk0 V c 1 t : Vec Ideal S4x1x128 .f32) (ix3 n (0 : Fin 1) k)
      = (V c main_v18 : S64x1x128.Idx → Elt Ideal .f32) (ix3 (smp t n) (0 : Fin 1) k) := by
  obtain ⟨e0, e1, e2⟩ := idx1 t
  unfold iblk0
  rw [View.read_apply]
  show V c main_v18 _ = V c main_v18 _
  congr 1
  funext a
  apply Fin.ext
  match a with
  | ⟨0, _⟩ => show win0_1.index t (0 : Fin 3) * 4 + 1 * n.val = 4 * t.val + n.val; rw [e0]; omega
  | ⟨1, _⟩ => show win0_1.index t (1 : Fin 3) * 1 + 1 * 0 = 0; rw [e1]
  | ⟨2, _⟩ => show win0_1.index t (2 : Fin 3) * 128 + 1 * k.val = k.val; rw [e2]; omega

theorem iblk0_2_apply (t : Fin cfg0.N) (n : Fin 4) (k : Fin 128) :
    (iblk0 V c 2 t : Vec Ideal S4x1x128 .f32) (ix3 n (0 : Fin 1) k)
      = (V c main_v26 : S64x1x128.Idx → Elt Ideal .f32) (ix3 (smp t n) (0 : Fin 1) k) := by
  obtain ⟨e0, e1, e2⟩ := idx2 t
  unfold iblk0
  rw [View.read_apply]
  show V c main_v26 _ = V c main_v26 _
  congr 1
  funext a
  apply Fin.ext
  match a with
  | ⟨0, _⟩ => show win0_2.index t (0 : Fin 3) * 4 + 1 * n.val = 4 * t.val + n.val; rw [e0]; omega
  | ⟨1, _⟩ => show win0_2.index t (1 : Fin 3) * 1 + 1 * 0 = 0; rw [e1]
  | ⟨2, _⟩ => show win0_2.index t (2 : Fin 3) * 128 + 1 * k.val = k.val; rw [e2]; omega

theorem iblk0_3_apply (t : Fin cfg0.N) (p q : Fin 512) :
    (iblk0 V c 3 t : Vec Ideal S512x512 .bf16) (ix2 p q) = (V c main_v51 : S512x512.Idx → Elt Ideal .bf16) (ix2 p q) := by
  obtain ⟨e0, e1⟩ := idx3 t
  unfold iblk0
  rw [View.read_apply]
  show V c main_v51 _ = V c main_v51 _
  congr 1
  funext a
  apply Fin.ext
  match a with
  | ⟨0, _⟩ => show win0_3.index t (0 : Fin 2) * 512 + 1 * p.val = p.val; rw [e0]; omega
  | ⟨1, _⟩ => show win0_3.index t (1 : Fin 2) * 512 + 1 * q.val = q.val; rw [e1]; omega

theorem iblk0_4_apply (t : Fin cfg0.N) (q : Fin 512) :
    (iblk0 V c 4 t : Vec Ideal S1x512 .f32) (ix2 (0 : Fin 1) q) = (V c main_v55 : S1x512.Idx → Elt Ideal .f32) (ix2 (0 : Fin 1) q) := by
  obtain ⟨e0, e1⟩ := idx4 t
  unfold iblk0
  rw [View.read_apply]
  show V c main_v55 _ = V c main_v55 _
  congr 1
  funext a
  apply Fin.ext
  match a with
  | ⟨0, _⟩ => show win0_4.index t (0 : Fin 2) * 1 + 1 * 0 = 0; rw [e0]
  | ⟨1, _⟩ => show win0_4.index t (1 : Fin 2) * 512 + 1 * q.val = q.val; rw [e1]; omega

theorem iblk0_5_apply (t : Fin cfg0.N) (p q : Fin 128) :
    (iblk0 V c 5 t : Vec Ideal S128x128 .bf16) (ix2 p q) = (V c main_v57 : S128x128.Idx → Elt Ideal .bf16) (ix2 p q) := by
  obtain ⟨e0, e1⟩ := idx5 t
  unfold iblk0
  rw [View.read_apply]
  show V c main_v57 _ = V c main_v57 _
  congr 1
  funext a
  apply Fin.ext
  match a with
  | ⟨0, _⟩ => show win0_5.index t (0 : Fin 2) * 128 + 1 * p.val = p.val; rw [e0]; omega
  | ⟨1, _⟩ => show win0_5.index t (1 : Fin 2) * 128 + 1 * q.val = q.val; rw [e1]; omega

/-! ## The samples, read off the arrays -/

/-- Sample N's image, scale row and shift row as the region finds them. -/
def gX (N : Fin 64) : Fin 32 → Fin 32 → Fin 128 → EReal :=
  fun i j k => (V c main_v0 : S64x32x32x128.Idx → Elt Ideal .f32) (ix4 N i j k)
def gSc (N : Fin 64) : Fin 128 → EReal := fun k => (V c main_v18 : S64x1x128.Idx → Elt Ideal .f32) (ix3 N (0 : Fin 1) k)
def gSh (N : Fin 64) : Fin 128 → EReal := fun k => (V c main_v26 : S64x1x128.Idx → Elt Ideal .f32) (ix3 N (0 : Fin 1) k)

theorem xs_blk (t : Fin cfg0.N) (n : Fin 4) : xs (iblk0 V c 0 t) n = gX V c (smp t n) :=
  funext fun i => funext fun j => funext fun k => iblk0_0_apply V c t n i j k
theorem sc_blk (t : Fin cfg0.N) (n : Fin 4) : rw1 (iblk0 V c 1 t) n = gSc V c (smp t n) :=
  funext fun k => iblk0_1_apply V c t n k
theorem sh_blk (t : Fin cfg0.N) (n : Fin 4) : rw1 (iblk0 V c 2 t) n = gSh V c (smp t n) :=
  funext fun k => iblk0_2_apply V c t n k

end

/-! ## The four output arrays -/

/-- Two functions on a rank-4 index set that agree at every tuple of coordinates are equal. -/
theorem ext_ix4 {α : Type} {n0 n1 n2 n3 : ℕ} (f g : (⟨4, ![n0, n1, n2, n3]⟩ : Shape).Idx → α)
    (h : ∀ (a : Fin n0) (b : Fin n1) (c : Fin n2) (d : Fin n3), f (ix4 a b c d) = g (ix4 a b c d)) : f = g :=
  funext fun y => by rw [eq_ix4 y]; exact h _ _ _ _
theorem ext_ix3 {α : Type} {n0 n1 n2 : ℕ} (f g : (⟨3, ![n0, n1, n2]⟩ : Shape).Idx → α)
    (h : ∀ (a : Fin n0) (b : Fin n1) (c : Fin n2), f (ix3 a b c) = g (ix3 a b c)) : f = g :=
  funext fun y => by rw [eq_ix3 y]; exact h _ _ _

section
variable (V : (c : Dev nD) → (b : Ref sig .tc) → Buf (Elt Ideal) ((c : Thread nD τ).loc b)) (c : Dev nD)
  (w : Fin 3 → Fin 3 → Fin 128 → Fin 128 → EReal) (b : Fin 128 → EReal) (wsc : Fin 128 → Fin 128 → EReal)

/-- What the arrays end holding, as functions of the index. -/
def G6 : S64x64x32x256.Idx → EReal := fun y => Spec.yfold1 (gX V c (y 0)) (gSc V c (y 0)) (gSh V c (y 0)) w b (y 1) (y 2) (y 3)
def G7 : S64x32x32x128.Idx → EReal := fun y => Spec.skip1 (gX V c (y 0)) wsc (y 1) (y 2) (y 3)
def G8 : S64x1x128.Idx → EReal := fun y => Spec.sum1 (gX V c (y 0)) (gSc V c (y 0)) (gSh V c (y 0)) w b (y 2)
def G9 : S64x1x128.Idx → EReal := fun y => Spec.ssq1 (gX V c (y 0)) (gSc V c (y 0)) (gSh V c (y 0)) w b (y 2)

variable (hw : ∀ (T U : Fin 4) (k c' : Fin 128), (V c main_v51 : S512x512.Idx → Elt Ideal .bf16) (ix2 (colOf T k) (colOf U c')) = Mblk w T U k c')
  (hb : ∀ (U : Fin 4) (c' : Fin 128), (V c main_v55 : S1x512.Idx → Elt Ideal .f32) (ix2 (0 : Fin 1) (colOf U c')) = b c')
  (hwsc : ∀ k c' : Fin 128, (V c main_v57 : S128x128.Idx → Elt Ideal .bf16) (ix2 k c') = wsc k c')

include hw hb in
/-- WHAT POINT t WRITES BACK to the first output array is its block of G6. -/
theorem flushed6_eq (t : Fin cfg0.N) :
    (dat0 V c).flushed 6 t = ((cfg0.win 6).blk t).view.read (Elt Ideal) (G6 V c w b) := by
  show (cfg0.win 6).cut (grid0.coords t) ((dat0 V c).after 6 t) = _
  rw [after0_6]
  refine ext_ix4 (n0 := 4) (n1 := 64) (n2 := 32) (n3 := 256) _ _ fun n I j l => ?_
  obtain ⟨e0, e1, e2, e3⟩ := idx6 t
  have hemb : ((cfg0.win 6).blk t).view.emb (ix4 n I j l) = (ix4 (smp t n) I j l : S64x64x32x256.Idx) := by
    funext a
    apply Fin.ext
    match a with
    | ⟨0, _⟩ => show win0_6.index t (0 : Fin 4) * 4 + 1 * n.val = 4 * t.val + n.val; rw [e0]; omega
    | ⟨1, _⟩ => show win0_6.index t (1 : Fin 4) * 64 + 1 * I.val = I.val; rw [e1]; omega
    | ⟨2, _⟩ => show win0_6.index t (2 : Fin 4) * 32 + 1 * j.val = j.val; rw [e2]; omega
    | ⟨3, _⟩ => show win0_6.index t (3 : Fin 4) * 256 + 1 * l.val = l.val; rw [e3]; omega
  rw [View.read_apply]
  show out0_6 (iblk0 V c 0 t) (iblk0 V c 1 t) (iblk0 V c 2 t) (iblk0 V c 3 t) (iblk0 V c 4 t) (iblk0 V c 5 t) (ix4 n I j l)
    = G6 V c w b (((cfg0.win 6).blk t).view.emb (ix4 n I j l))
  rw [hemb]
  refine (out0_6_apply (iblk0 V c 0 t) (iblk0 V c 1 t) (iblk0 V c 2 t) (iblk0 V c 3 t) (iblk0 V c 4 t) (iblk0 V c 5 t) w b
    (fun T U k c' => (iblk0_3_apply V c t _ _).trans (hw T U k c')) (fun U c' => (iblk0_4_apply V c t _).trans (hb U c')) n I j l).trans ?_
  rw [xs_blk, sc_blk, sh_blk]
  rfl

include hwsc in
/-- … to the second is its block of G7. -/
theorem flushed7_eq (t : Fin cfg0.N) :
    (dat0 V c).flushed 7 t = ((cfg0.win 7).blk t).view.read (Elt Ideal) (G7 V c wsc) := by
  show (cfg0.win 7).cut (grid0.coords t) ((dat0 V c).after 7 t) = _
  rw [after0_7]
  refine ext_ix4 (n0 := 4) (n1 := 32) (n2 := 32) (n3 := 128) _ _ fun n i j k => ?_
  obtain ⟨e0, e1, e2, e3⟩ := idx7 t
  have hemb : ((cfg0.win 7).blk t).view.emb (ix4 n i j k) = (ix4 (smp t n) i j k : S64x32x32x128.Idx) := by
    funext a
    apply Fin.ext
    match a with
    | ⟨0, _⟩ => show win0_7.index t (0 : Fin 4) * 4 + 1 * n.val = 4 * t.val + n.val; rw [e0]; omega
    | ⟨1, _⟩ => show win0_7.index t (1 : Fin 4) * 32 + 1 * i.val = i.val; rw [e1]; omega
    | ⟨2, _⟩ => show win0_7.index t (2 : Fin 4) * 32 + 1 * j.val = j.val; rw [e2]; omega
    | ⟨3, _⟩ => show win0_7.index t (3 : Fin 4) * 128 + 1 * k.val = k.val; rw [e3]; omega
  rw [View.read_apply]
  show out0_7 (iblk0 V c 0 t) (iblk0 V c 1 t) (iblk0 V c 2 t) (iblk0 V c 3 t) (iblk0 V c 4 t) (iblk0 V c 5 t) (ix4 n i j k)
    = G7 V c wsc (((cfg0.win 7).blk t).view.emb (ix4 n i j k))
  rw [hemb]
  refine (out0_7_apply (iblk0 V c 0 t) (iblk0 V c 1 t) (iblk0 V c 2 t) (iblk0 V c 3 t) (iblk0 V c 4 t) (iblk0 V c 5 t) wsc
    (fun k c' => (iblk0_5_apply V c t _ _).trans (hwsc k c')) n i j k).trans ?_
  rw [xs_blk]
  rfl

include hw hb in
/-- … to the third is its block of G8. -/
theorem flushed8_eq (t : Fin cfg0.N) :
    (dat0 V c).flushed 8 t = ((cfg0.win 8).blk t).view.read (Elt Ideal) (G8 V c w b) := by
  show (cfg0.win 8).cut (grid0.coords t) ((dat0 V c).after 8 t) = _
  rw [after0_8]
  refine ext_ix3 (n0 := 4) (n1 := 1) (n2 := 128) _ _ fun n z k => ?_
  obtain rfl : z = (0 : Fin 1) := Subsingleton.elim _ _
  obtain ⟨e0, e1, e2⟩ := idx8 t
  have hemb : ((cfg0.win 8).blk t).view.emb (ix3 n (0 : Fin 1) k) = (ix3 (smp t n) (0 : Fin 1) k : S64x1x128.Idx) := by
    funext a
    apply Fin.ext
    match a with
    | ⟨0, _⟩ => show win0_8.index t (0 : Fin 3) * 4 + 1 * n.val = 4 * t.val + n.val; rw [e0]; omega
    | ⟨1, _⟩ => show win0_8.index t (1 : Fin 3) * 1 + 1 * 0 = 0; rw [e1]
    | ⟨2, _⟩ => show win0_8.index t (2 : Fin 3) * 128 + 1 * k.val = k.val; rw [e2]; omega
  rw [View.read_apply]
  show out0_8 (iblk0 V c 0 t) (iblk0 V c 1 t) (iblk0 V c 2 t) (iblk0 V c 3 t) (iblk0 V c 4 t) (iblk0 V c 5 t) (ix3 n (0 : Fin 1) k)
    = G8 V c w b (((cfg0.win 8).blk t).view.emb (ix3 n (0 : Fin 1) k))
  rw [hemb]
  refine (out0_8_apply (iblk0 V c 0 t) (iblk0 V c 1 t) (iblk0 V c 2 t) (iblk0 V c 3 t) (iblk0 V c 4 t) (iblk0 V c 5 t) w b
    (fun T U k c' => (iblk0_3_apply V c t _ _).trans (hw T U k c')) (fun U c' => (iblk0_4_apply V c t _).trans (hb U c')) n k).trans ?_
  rw [xs_blk, sc_blk, sh_blk]
  rfl

include hw hb in
/-- … to the fourth is its block of G9. -/
theorem flushed9_eq (t : Fin cfg0.N) :
    (dat0 V c).flushed 9 t = ((cfg0.win 9).blk t).view.read (Elt Ideal) (G9 V c w b) := by
  show (cfg0.win 9).cut (grid0.coords t) ((dat0 V c).after 9 t) = _
  rw [after0_9]
  refine ext_ix3 (n0 := 4) (n1 := 1) (n2 := 128) _ _ fun n z k => ?_
  obtain rfl : z = (0 : Fin 1) := Subsingleton.elim _ _
  obtain ⟨e0, e1, e2⟩ := idx9 t
  have hemb : ((cfg0.win 9).blk t).view.emb (ix3 n (0 : Fin 1) k) = (ix3 (smp t n) (0 : Fin 1) k : S64x1x128.Idx) := by
    funext a
    apply Fin.ext
    match a with
    | ⟨0, _⟩ => show win0_9.index t (0 : Fin 3) * 4 + 1 * n.val = 4 * t.val + n.val; rw [e0]; omega
    | ⟨1, _⟩ => show win0_9.index t (1 : Fin 3) * 1 + 1 * 0 = 0; rw [e1]
    | ⟨2, _⟩ => show win0_9.index t (2 : Fin 3) * 128 + 1 * k.val = k.val; rw [e2]; omega
  rw [View.read_apply]
  show out0_9 (iblk0 V c 0 t) (iblk0 V c 1 t) (iblk0 V c 2 t) (iblk0 V c 3 t) (iblk0 V c 4 t) (iblk0 V c 5 t) (ix3 n (0 : Fin 1) k)
    = G9 V c w b (((cfg0.win 9).blk t).view.emb (ix3 n (0 : Fin 1) k))
  rw [hemb]
  refine (out0_9_apply (iblk0 V c 0 t) (iblk0 V c 1 t) (iblk0 V c 2 t) (iblk0 V c 3 t) (iblk0 V c 4 t) (iblk0 V c 5 t) w b
    (fun T U k c' => (iblk0_3_apply V c t _ _).trans (hw T U k c')) (fun U c' => (iblk0_4_apply V c t _).trans (hb U c')) n k).trans ?_
  rw [xs_blk, sc_blk, sh_blk]
  rfl

/-! ### The cover: sample N lies in the block of point N / 4 -/

/-- The point that works on sample N. -/
abbrev ptOf (N : Fin 64) : Fin cfg0.N := ⟨N.val / 4, by rw [show cfg0.N = 16 from N_0]; have := N.isLt; omega⟩

theorem cover6 (i : S64x64x32x256.Idx) : ∃ t : Fin cfg0.N, (cfg0.win 6).flush t = true ∧ i ∈ ((cfg0.win 6).blk t).view.set := by
  refine ⟨ptOf (i 0), flush0_6 _, ?_⟩
  obtain ⟨e0, e1, e2, e3⟩ := idx6 (ptOf (i 0))
  show i ∈ ((View.whole main_v58_0).slice (win0_6.rect (ptOf (i 0)))).set
  rw [View.set_slice_whole, Rect.mem_set_unit]
  intro a
  have h0 : (i 0).val < 64 := (i 0).isLt
  have h1 : (i 1).val < 64 := (i 1).isLt
  have h2 : (i 2).val < 32 := (i 2).isLt
  have h3 : (i 3).val < 256 := (i 3).isLt
  match a with
  | ⟨0, _⟩ => show win0_6.index (ptOf (i 0)) (0 : Fin 4) * 4 ≤ (i 0).val ∧ (i 0).val < win0_6.index (ptOf (i 0)) (0 : Fin 4) * 4 + 4
              rw [e0]; show (i 0).val / 4 * 4 ≤ (i 0).val ∧ (i 0).val < (i 0).val / 4 * 4 + 4; omega
  | ⟨1, _⟩ => show win0_6.index (ptOf (i 0)) (1 : Fin 4) * 64 ≤ (i 1).val ∧ (i 1).val < win0_6.index (ptOf (i 0)) (1 : Fin 4) * 64 + 64
              rw [e1]; omega
  | ⟨2, _⟩ => show win0_6.index (ptOf (i 0)) (2 : Fin 4) * 32 ≤ (i 2).val ∧ (i 2).val < win0_6.index (ptOf (i 0)) (2 : Fin 4) * 32 + 32
              rw [e2]; omega
  | ⟨3, _⟩ => show win0_6.index (ptOf (i 0)) (3 : Fin 4) * 256 ≤ (i 3).val ∧ (i 3).val < win0_6.index (ptOf (i 0)) (3 : Fin 4) * 256 + 256
              rw [e3]; omega

theorem cover7 (i : S64x32x32x128.Idx) : ∃ t : Fin cfg0.N, (cfg0.win 7).flush t = true ∧ i ∈ ((cfg0.win 7).blk t).view.set := by
  refine ⟨ptOf (i 0), flush0_7 _, ?_⟩
  obtain ⟨e0, e1, e2, e3⟩ := idx7 (ptOf (i 0))
  show i ∈ ((View.whole main_v58_1).slice (win0_7.rect (ptOf (i 0)))).set
  rw [View.set_slice_whole, Rect.mem_set_unit]
  intro a
  have h0 : (i 0).val < 64 := (i 0).isLt
  have h1 : (i 1).val < 32 := (i 1).isLt
  have h2 : (i 2).val < 32 := (i 2).isLt
  have h3 : (i 3).val < 128 := (i 3).isLt
  match a with
  | ⟨0, _⟩ => show win0_7.index (ptOf (i 0)) (0 : Fin 4) * 4 ≤ (i 0).val ∧ (i 0).val < win0_7.index (ptOf (i 0)) (0 : Fin 4) * 4 + 4
              rw [e0]; show (i 0).val / 4 * 4 ≤ (i 0).val ∧ (i 0).val < (i 0).val / 4 * 4 + 4; omega
  | ⟨1, _⟩ => show win0_7.index (ptOf (i 0)) (1 : Fin 4) * 32 ≤ (i 1).val ∧ (i 1).val < win0_7.index (ptOf (i 0)) (1 : Fin 4) * 32 + 32
              rw [e1]; omega
  | ⟨2, _⟩ => show win0_7.index (ptOf (i 0)) (2 : Fin 4) * 32 ≤ (i 2).val ∧ (i 2).val < win0_7.index (ptOf (i 0)) (2 : Fin 4) * 32 + 32
              rw [e2]; omega
  | ⟨3, _⟩ => show win0_7.index (ptOf (i 0)) (3 : Fin 4) * 128 ≤ (i 3).val ∧ (i 3).val < win0_7.index (ptOf (i 0)) (3 : Fin 4) * 128 + 128
              rw [e3]; omega

theorem cover8 (i : S64x1x128.Idx) : ∃ t : Fin cfg0.N, (cfg0.win 8).flush t = true ∧ i ∈ ((cfg0.win 8).blk t).view.set := by
  refine ⟨ptOf (i 0), flush0_8 _, ?_⟩
  obtain ⟨e0, e1, e2⟩ := idx8 (ptOf (i 0))
  show i ∈ ((View.whole main_v58_2).slice (win0_8.rect (ptOf (i 0)))).set
  rw [View.set_slice_whole, Rect.mem_set_unit]
  intro a
  have h0 : (i 0).val < 64 := (i 0).isLt
  have h1 : (i 1).val < 1 := (i 1).isLt
  have h2 : (i 2).val < 128 := (i 2).isLt
  match a with
  | ⟨0, _⟩ => show win0_8.index (ptOf (i 0)) (0 : Fin 3) * 4 ≤ (i 0).val ∧ (i 0).val < win0_8.index (ptOf (i 0)) (0 : Fin 3) * 4 + 4
              rw [e0]; show (i 0).val / 4 * 4 ≤ (i 0).val ∧ (i 0).val < (i 0).val / 4 * 4 + 4; omega
  | ⟨1, _⟩ => show win0_8.index (ptOf (i 0)) (1 : Fin 3) * 1 ≤ (i 1).val ∧ (i 1).val < win0_8.index (ptOf (i 0)) (1 : Fin 3) * 1 + 1
              rw [e1]; omega
  | ⟨2, _⟩ => show win0_8.index (ptOf (i 0)) (2 : Fin 3) * 128 ≤ (i 2).val ∧ (i 2).val < win0_8.index (ptOf (i 0)) (2 : Fin 3) * 128 + 128
              rw [e2]; omega

theorem cover9 (i : S64x1x128.Idx) : ∃ t : Fin cfg0.N, (cfg0.win 9).flush t = true ∧ i ∈ ((cfg0.win 9).blk t).view.set := by
  refine ⟨ptOf (i 0), flush0_9 _, ?_⟩
  obtain ⟨e0, e1, e2⟩ := idx9 (ptOf (i 0))
  show i ∈ ((View.whole main_v58_3).slice (win0_9.rect (ptOf (i 0)))).set
  rw [View.set_slice_whole, Rect.mem_set_unit]
  intro a
  have h0 : (i 0).val < 64 := (i 0).isLt
  have h1 : (i 1).val < 1 := (i 1).isLt
  have h2 : (i 2).val < 128 := (i 2).isLt
  match a with
  | ⟨0, _⟩ => show win0_9.index (ptOf (i 0)) (0 : Fin 3) * 4 ≤ (i 0).val ∧ (i 0).val < win0_9.index (ptOf (i 0)) (0 : Fin 3) * 4 + 4
              rw [e0]; show (i 0).val / 4 * 4 ≤ (i 0).val ∧ (i 0).val < (i 0).val / 4 * 4 + 4; omega
  | ⟨1, _⟩ => show win0_9.index (ptOf (i 0)) (1 : Fin 3) * 1 ≤ (i 1).val ∧ (i 1).val < win0_9.index (ptOf (i 0)) (1 : Fin 3) * 1 + 1
              rw [e1]; omega
  | ⟨2, _⟩ => show win0_9.index (ptOf (i 0)) (2 : Fin 3) * 128 ≤ (i 2).val ∧ (i 2).val < win0_9.index (ptOf (i 0)) (2 : Fin 3) * 128 + 128
              rw [e2]; omega

/-! ### The arrays after the region -/

include hw hb in
/-- THE FIRST OUTPUT ARRAY: at sample N, row I, column j, lane l, the specification's folded output of sample N. -/
theorem arr6 (N : Fin 64) (I : Fin 64) (j : Fin 32) (l : Fin 256) :
    ((dat0 V c).arrAt 6 cfg0.N : S64x64x32x256.Idx → Elt Ideal .bf16) (ix4 N I j l)
      = Spec.yfold1 (gX V c N) (gSc V c N) (gSh V c N) w b I j l := by
  rw [(dat0 V c).arrAt_eq_of_cover 6 (G6 V c w b) (fun t _ => flushed6_eq V c w b hw hb t) cover6]
  rfl

include hwsc in
/-- THE SECOND: the projection of sample N's raw input. -/
theorem arr7 (N : Fin 64) (i j : Fin 32) (k : Fin 128) :
    ((dat0 V c).arrAt 7 cfg0.N : S64x32x32x128.Idx → Elt Ideal .bf16) (ix4 N i j k) = Spec.skip1 (gX V c N) wsc i j k := by
  rw [(dat0 V c).arrAt_eq_of_cover 7 (G7 V c wsc) (fun t _ => flushed7_eq V c wsc hwsc t) cover7]
  rfl

include hw hb in
/-- THE THIRD: sample N's sum. -/
theorem arr8 (N : Fin 64) (k : Fin 128) :
    ((dat0 V c).arrAt 8 cfg0.N : S64x1x128.Idx → Elt Ideal .f32) (ix3 N (0 : Fin 1) k)
      = Spec.sum1 (gX V c N) (gSc V c N) (gSh V c N) w b k := by
  rw [(dat0 V c).arrAt_eq_of_cover 8 (G8 V c w b) (fun t _ => flushed8_eq V c w b hw hb t) cover8]
  rfl

include hw hb in
/-- THE FOURTH: sample N's sum of squares. -/
theorem arr9 (N : Fin 64) (k : Fin 128) :
    ((dat0 V c).arrAt 9 cfg0.N : S64x1x128.Idx → Elt Ideal .f32) (ix3 N (0 : Fin 1) k)
      = Spec.ssq1 (gX V c N) (gSc V c N) (gSh V c N) w b k := by
  rw [(dat0 V c).arrAt_eq_of_cover 9 (G9 V c w b) (fun t _ => flushed9_eq V c w b hw hb t) cover9]
  rfl

end

end Cert.KernelIdeal.Val0

end
-- ==== Proof.R0Act.lean ====
import proofs.«148433_g2000002724561042_pallasbulk_175_35_alg».proof.Proof.Gen.ReferenceIdeal.Skeleton
import proofs.«148433_g2000002724561042_pallasbulk_175_35_alg».proof.Proof.Spec
import Idealize.ShloMosaic.Lib.Pipeline.Value
import Idealize.ShloMosaic.Lib.ValueIdx
import Idealize.ShloMosaic.PureOps.Ideal.Laws

noncomputable section

namespace Cert.ReferenceIdeal.Val0

open Cert.ReferenceIdeal.Gen
open Idealize.ShloMosaic Idealize.ShloMosaic.ValueIdx
open scoped BigOperators

/-!
# Stage 1, one sample: the activated input and its three shifted copies, read at a position

The body works on one sample's block: the raw input `x0` of shape `[1,32,32,128]` and the per-channel scale and shift
rows `x1`, `x2` of shape `[1,1,128]`. Read as plain functions these are `xOf x0`, `rowOf x1`, `rowOf x2`, and the
activated map `max (x·sc + sh) 0`, and its copies moved one step up, one step left and both (zero where they step off
the image), are `Spec.act1` at `(i, j)`, `(i+1, j)`, `(i, j+1)`, `(i+1, j+1)`.
-/

/-- A sample's input block as a function of row, column and channel. -/
def xOf (x0 : Vec Ideal S1x32x32x128 .f32) : Fin 32 → Fin 32 → Fin 128 → EReal := fun i j k => x0 (ix4 0 i j k)

/-- A sample's per-channel row as a function of the channel. -/
def rowOf (x1 : Vec Ideal S1x1x128 .f32) : Fin 128 → EReal := fun k => x1 (ix3 0 0 k)

/-- Dropping the unit batch axis. -/
theorem pay3_apply (v0 : Vec Ideal S1x32x32x128 .f32) (i j : Fin 32) (k : Fin 128) :
    k0_pay3 (F := Ideal) v0 (ix3 i j k) = xOf v0 i j k := by
  unfold k0_pay3 xOf
  exact shapeCast_apply v0 shapeCasts_S1x32x32x128_S32x32x128 (ix3 i j k) (ix4 0 i j k) (by
    rw [Shape.rowMajor_val_four, Shape.rowMajor_val_three]
    show ((0 * 32 + i.val) * 32 + j.val) * 128 + k.val = (i.val * 32 + j.val) * 128 + k.val
    omega)

/-- A per-channel row `[1,1,128]`, squeezed to `[1,128]`, widened back and repeated over the image, read at a position. -/
theorem row_bcast_apply (v2 : Vec Ideal S1x1x128 .f32) (i j : Fin 32) (k : Fin 128) :
    broadcastTo S32x32x128 (shapeCast S1x1x128 (shapeCast S1x128 v2 shapeCasts_S1x1x128_S1x128) shapeCasts_S1x128_S1x1x128)
      broadcasts_S1x1x128_S32x32x128 (ix3 i j k) = rowOf v2 k := by
  unfold rowOf
  refine (broadcastTo_apply _ broadcasts_S1x1x128_S32x32x128 (ix3 i j k) (ix3 0 0 k) (fun a => ?_)).trans ?_
  · match a with
    | ⟨0, _⟩ => rfl
    | ⟨1, _⟩ => rfl
    | ⟨2, _⟩ => rfl
  refine (shapeCast_apply _ shapeCasts_S1x128_S1x1x128 (ix3 0 0 k) (ix2 0 k) (by
    rw [Shape.rowMajor_val_two, Shape.rowMajor_val_three]
    show 0 * 128 + k.val = (0 * 1 + 0) * 128 + k.val
    omega)).trans ?_
  exact shapeCast_apply v2 shapeCasts_S1x1x128_S1x128 (ix2 0 k) (ix3 0 0 k) (by
    rw [Shape.rowMajor_val_two, Shape.rowMajor_val_three]
    show (0 * 1 + 0) * 128 + k.val = 0 * 128 + k.val
    omega)

/-- The activated input at a position of the image. -/
theorem pay4_apply (v0 : Vec Ideal S1x32x32x128 .f32) (v2 v7 : Vec Ideal S1x1x128 .f32) (i j : Fin 32) (k : Fin 128) :
    k0_pay4 (F := Ideal) v0 v2 v7 (ix3 i j k) = Spec.act1 (xOf v0) (rowOf v2) (rowOf v7) i.val j.val k := by
  have hin : i.val < 32 ∧ j.val < 32 := ⟨i.isLt, j.isLt⟩
  unfold Spec.act1
  rw [dif_pos hin]
  unfold k0_pay4
  show max (k0_pay3 (F := Ideal) v0 (ix3 i j k) * _ + _) (Ideal.ofBits .f32 0x00000000#32) = _
  rw [Ideal.ofBits_zero_f32, pay3_apply]
  exact congrArg₂ (fun a b => max (xOf v0 i j k * a + b) 0) (row_bcast_apply v2 i j k) (row_bcast_apply v7 i j k)

/-! ## The shifted copies -/

/-- The image moved one row up, a zero row appended below: at `(i, j)` the image at `(i+1, j)`, zero at the last row. -/
theorem shiftH_apply (A : FVec Ideal S32x32x128 .f32) (i j : Fin 32) (k : Fin 128) :
    concatenate S32x32x128 0
      [⟨S31x32x128, extractStridedSlice S31x32x128 ![1, 0, 0] A slices_S32x32x128_o1_0_0_S31x32x128⟩,
       ⟨S1x32x128, broadcast S1x32x128 (Scalar.ofBits (F := Ideal) .f32 0x00000000#32)⟩]
      concatenates_S31x32x128_S1x32x128_S32x32x128_d0 (ix3 i j k)
      = if h : i.val + 1 < 32 then A (ix3 ⟨i.val + 1, h⟩ j k) else 0 := by
  by_cases h : i.val + 1 < 32
  · rw [dif_pos h]
    refine (concatenate_apply_piece 0 [⟨S31x32x128, extractStridedSlice S31x32x128 ![1, 0, 0] A slices_S32x32x128_o1_0_0_S31x32x128⟩, ⟨S1x32x128, broadcast S1x32x128 (Scalar.ofBits (F := Ideal) .f32 0x00000000#32)⟩] concatenates_S31x32x128_S1x32x128_S32x32x128_d0 (ix3 i j k) 0 (by show 0 < 2; omega)
      S31x32x128 _ rfl rfl 0 rfl (ix3 ⟨i.val, by omega⟩ j k) (fun c hc => ?_) (by show 0 + i.val = i.val; omega)).trans ?_
    · match c with
      | ⟨0, _⟩ => exact absurd rfl hc
      | ⟨1, _⟩ => rfl
      | ⟨2, _⟩ => rfl
    exact extractStridedSlice_apply _ A slices_S32x32x128_o1_0_0_S31x32x128 _ (ix3 ⟨i.val + 1, h⟩ j k) (fun a => by
      match a with
      | ⟨0, _⟩ => show i.val + 1 = 1 + i.val; omega
      | ⟨1, _⟩ => show j.val = 0 + j.val; omega
      | ⟨2, _⟩ => show k.val = 0 + k.val; omega)
  · rw [dif_neg h]
    have hi : i.val = 31 := by have := i.isLt; omega
    refine (concatenate_apply_piece 0 [⟨S31x32x128, extractStridedSlice S31x32x128 ![1, 0, 0] A slices_S32x32x128_o1_0_0_S31x32x128⟩, ⟨S1x32x128, broadcast S1x32x128 (Scalar.ofBits (F := Ideal) .f32 0x00000000#32)⟩] concatenates_S31x32x128_S1x32x128_S32x32x128_d0 (ix3 i j k) 1 (by show 1 < 2; omega)
      S1x32x128 _ rfl rfl 31 (by simp) (ix3 0 j k) (fun c hc => ?_) (by show 31 + 0 = i.val; omega)).trans ?_
    · match c with
      | ⟨0, _⟩ => exact absurd rfl hc
      | ⟨1, _⟩ => rfl
      | ⟨2, _⟩ => rfl
    exact Ideal.ofBits_zero_f32

/-- The image moved one column left, a zero column appended on the right: at `(i, j)` the image at `(i, j+1)`, zero at
    the last column. -/
theorem shiftW_apply (A : FVec Ideal S32x32x128 .f32) (i j : Fin 32) (k : Fin 128) :
    concatenate S32x32x128 1
      [⟨S32x31x128, extractStridedSlice S32x31x128 ![0, 1, 0] A slices_S32x32x128_o0_1_0_S32x31x128⟩,
       ⟨S32x1x128, k0_pay5 (F := Ideal)⟩]
      concatenates_S32x31x128_S32x1x128_S32x32x128_d1 (ix3 i j k)
      = if h : j.val + 1 < 32 then A (ix3 i ⟨j.val + 1, h⟩ k) else 0 := by
  by_cases h : j.val + 1 < 32
  · rw [dif_pos h]
    refine (concatenate_apply_piece 1 [⟨S32x31x128, extractStridedSlice S32x31x128 ![0, 1, 0] A slices_S32x32x128_o0_1_0_S32x31x128⟩, ⟨S32x1x128, k0_pay5 (F := Ideal)⟩] concatenates_S32x31x128_S32x1x128_S32x32x128_d1 (ix3 i j k) 0 (by show 0 < 2; omega)
      S32x31x128 _ rfl rfl 0 rfl (ix3 i ⟨j.val, by omega⟩ k) (fun c hc => ?_) (by show 0 + j.val = j.val; omega)).trans ?_
    · match c with
      | ⟨0, _⟩ => rfl
      | ⟨1, _⟩ => exact absurd rfl hc
      | ⟨2, _⟩ => rfl
    exact extractStridedSlice_apply _ A slices_S32x32x128_o0_1_0_S32x31x128 _ (ix3 i ⟨j.val + 1, h⟩ k) (fun a => by
      match a with
      | ⟨0, _⟩ => show i.val = 0 + i.val; omega
      | ⟨1, _⟩ => show j.val + 1 = 1 + j.val; omega
      | ⟨2, _⟩ => show k.val = 0 + k.val; omega)
  · rw [dif_neg h]
    have hj : j.val = 31 := by have := j.isLt; omega
    refine (concatenate_apply_piece 1 [⟨S32x31x128, extractStridedSlice S32x31x128 ![0, 1, 0] A slices_S32x32x128_o0_1_0_S32x31x128⟩, ⟨S32x1x128, k0_pay5 (F := Ideal)⟩] concatenates_S32x31x128_S32x1x128_S32x32x128_d1 (ix3 i j k) 1 (by show 1 < 2; omega)
      S32x1x128 _ rfl rfl 31 (by simp) (ix3 i 0 k) (fun c hc => ?_) (by show 31 + 0 = j.val; omega)).trans ?_
    · match c with
      | ⟨0, _⟩ => rfl
      | ⟨1, _⟩ => exact absurd rfl hc
      | ⟨2, _⟩ => rfl
    unfold k0_pay5
    exact Ideal.ofBits_zero_f32

/-- The activation one row further down, zero below the image. -/
theorem pay6_apply (v0 : Vec Ideal S1x32x32x128 .f32) (v2 v7 : Vec Ideal S1x1x128 .f32) (i j : Fin 32) (k : Fin 128) :
    k0_pay6 (F := Ideal) v0 v2 v7 (ix3 i j k) = Spec.act1 (xOf v0) (rowOf v2) (rowOf v7) (i.val + 1) j.val k := by
  unfold k0_pay6
  refine (shiftH_apply (k0_pay4 (F := Ideal) v0 v2 v7) i j k).trans ?_
  by_cases h : i.val + 1 < 32
  · rw [dif_pos h]; exact pay4_apply v0 v2 v7 ⟨i.val + 1, h⟩ j k
  · rw [dif_neg h]; unfold Spec.act1; rw [dif_neg (fun hh => h hh.1)]

/-- The activation one column further right, zero right of the image. -/
theorem pay7_apply (v0 : Vec Ideal S1x32x32x128 .f32) (v2 v7 : Vec Ideal S1x1x128 .f32) (i j : Fin 32) (k : Fin 128) :
    k0_pay7 (F := Ideal) v0 v2 v7 (ix3 i j k) = Spec.act1 (xOf v0) (rowOf v2) (rowOf v7) i.val (j.val + 1) k := by
  unfold k0_pay7
  refine (shiftW_apply (k0_pay4 (F := Ideal) v0 v2 v7) i j k).trans ?_
  by_cases h : j.val + 1 < 32
  · rw [dif_pos h]; exact pay4_apply v0 v2 v7 i ⟨j.val + 1, h⟩ k
  · rw [dif_neg h]; unfold Spec.act1; rw [dif_neg (fun hh => h hh.2)]

/-- The activation one row down and one column right. -/
theorem pay8_apply (v0 : Vec Ideal S1x32x32x128 .f32) (v2 v7 : Vec Ideal S1x1x128 .f32) (i j : Fin 32) (k : Fin 128) :
    k0_pay8 (F := Ideal) v0 v2 v7 (ix3 i j k) = Spec.act1 (xOf v0) (rowOf v2) (rowOf v7) (i.val + 1) (j.val + 1) k := by
  unfold k0_pay8
  refine (shiftW_apply (k0_pay6 (F := Ideal) v0 v2 v7) i j k).trans ?_
  by_cases h : j.val + 1 < 32
  · rw [dif_pos h]; exact pay6_apply v0 v2 v7 i ⟨j.val + 1, h⟩ k
  · rw [dif_neg h]; unfold Spec.act1; rw [dif_neg (fun hh => h hh.2)]

end Cert.ReferenceIdeal.Val0

end
-- ==== Proof.R0Dot.lean ====
import proofs.«148433_g2000002724561042_pallasbulk_175_35_alg».proof.Proof.Gen.ReferenceIdeal.Skeleton
import proofs.«148433_g2000002724561042_pallasbulk_175_35_alg».proof.Proof.Spec
import proofs.«148433_g2000002724561042_pallasbulk_175_35_alg».proof.Proof.R0Act
import proofs.«148433_g2000002724561042_pallasbulk_175_35_alg».proof.Proof.LibPlainDot
import Idealize.ShloMosaic.Lib.Pipeline.Value
import Idealize.ShloMosaic.Lib.ValueIdx
import Idealize.ShloMosaic.PureOps.Ideal.Laws

noncomputable section

namespace Cert.ReferenceIdeal.Val0

open Cert.ReferenceIdeal.Gen
open Idealize.ShloMosaic Idealize.ShloMosaic.ValueIdx
open scoped BigOperators

/-!
# Stage 1, one sample: the four phase products read at a position

Each phase is one matrix product of the image flattened to `1024` rows (one per position, `row = 32·i + j`) with a
weight block whose rows are the channels of one, two or four copies of the image set side by side. Read at a position the
product is the sum, copy by copy, of the contraction of that copy at the position with the matching band of weight rows.
-/

section Sums
variable {M : Type*} [AddCommMonoid M]

/-- A sum over 256 indices as the sums over its two halves of 128. -/
theorem sum_256 (f : Fin 256 → M) :
    ∑ K, f K = (∑ q : Fin 128, f ⟨q.val, by omega⟩) + ∑ q : Fin 128, f ⟨128 + q.val, by omega⟩ :=
  Fin.sum_univ_add (a := 128) (b := 128) f

/-- A sum over 512 indices as the sums over its four quarters of 128. -/
theorem sum_512 (f : Fin 512 → M) :
    ∑ K, f K = (((∑ q : Fin 128, f ⟨q.val, by omega⟩) + ∑ q : Fin 128, f ⟨128 + q.val, by omega⟩)
      + ∑ q : Fin 128, f ⟨256 + q.val, by omega⟩) + ∑ q : Fin 128, f ⟨384 + q.val, by omega⟩ := by
  have h1 := Fin.sum_univ_add (a := 384) (b := 128) f
  have h2 := Fin.sum_univ_add (a := 256) (b := 128) (fun i : Fin 384 => f (Fin.castAdd 128 i))
  have h3 := Fin.sum_univ_add (a := 128) (b := 128) (fun i : Fin 256 => f (Fin.castAdd 128 (Fin.castAdd 128 i)))
  exact h1.trans (congrArg (· + _) (h2.trans (congrArg (· + _) h3)))

end Sums

/-! ## Flattening the image to rows and back -/

/-- The row of position `(i, j)`. -/
abbrev rowIx (i j : Fin 32) : Fin 1024 := ⟨i.val * 32 + j.val, by have := i.isLt; have := j.isLt; omega⟩

theorem flat128_apply (A : FVec Ideal S32x32x128 .f32) (i j : Fin 32) (k : Fin 128) :
    shapeCast S1024x128 A shapeCasts_S32x32x128_S1024x128 (ix2 (rowIx i j) k) = A (ix3 i j k) :=
  shapeCast_apply A shapeCasts_S32x32x128_S1024x128 (ix2 (rowIx i j) k) (ix3 i j k) (by
    rw [Shape.rowMajor_val_two, Shape.rowMajor_val_three]
    show (i.val * 32 + j.val) * 128 + k.val = (i.val * 32 + j.val) * 128 + k.val
    rfl)

theorem flat256_apply (A : FVec Ideal S32x32x256 .f32) (i j : Fin 32) (k : Fin 256) :
    shapeCast S1024x256 A shapeCasts_S32x32x256_S1024x256 (ix2 (rowIx i j) k) = A (ix3 i j k) :=
  shapeCast_apply A shapeCasts_S32x32x256_S1024x256 (ix2 (rowIx i j) k) (ix3 i j k) (by
    rw [Shape.rowMajor_val_two, Shape.rowMajor_val_three]
    show (i.val * 32 + j.val) * 256 + k.val = (i.val * 32 + j.val) * 256 + k.val
    rfl)

theorem flat512_apply (A : FVec Ideal S32x32x512 .f32) (i j : Fin 32) (k : Fin 512) :
    shapeCast S1024x512 A shapeCasts_S32x32x512_S1024x512 (ix2 (rowIx i j) k) = A (ix3 i j k) :=
  shapeCast_apply A shapeCasts_S32x32x512_S1024x512 (ix2 (rowIx i j) k) (ix3 i j k) (by
    rw [Shape.rowMajor_val_two, Shape.rowMajor_val_three]
    show (i.val * 32 + j.val) * 512 + k.val = (i.val * 32 + j.val) * 512 + k.val
    rfl)

theorem unflat_apply (P : FVec Ideal S1024x128 .f32) (i j : Fin 32) (c : Fin 128) :
    shapeCast S32x32x128 P shapeCasts_S1024x128_S32x32x128 (ix3 i j c) = P (ix2 (rowIx i j) c) :=
  shapeCast_apply P shapeCasts_S1024x128_S32x32x128 (ix3 i j c) (ix2 (rowIx i j) c) (by
    rw [Shape.rowMajor_val_two, Shape.rowMajor_val_three]
    show (i.val * 32 + j.val) * 128 + c.val = (i.val * 32 + j.val) * 128 + c.val
    rfl)

/-! ## Copies of the image side by side along the channel axis -/

section Side
variable (A1 A2 A3 A4 : FVec Ideal S32x32x128 .f32) (i j : Fin 32) (k : Fin 128)

theorem side2_fst (K : Fin 256) (hK : K.val = k.val) :
    concatenate S32x32x256 2 [⟨S32x32x128, A1⟩, ⟨S32x32x128, A2⟩] concatenates_S32x32x128_S32x32x128_S32x32x256_d2 (ix3 i j K) = A1 (ix3 i j k) :=
  concatenate_apply_piece 2 [⟨S32x32x128, A1⟩, ⟨S32x32x128, A2⟩] concatenates_S32x32x128_S32x32x128_S32x32x256_d2 (ix3 i j K) 0
    (by show 0 < 2; omega) S32x32x128 A1 rfl rfl 0 rfl (ix3 i j k)
    (fun c hc => by
      match c with
      | ⟨0, _⟩ => rfl
      | ⟨1, _⟩ => rfl
      | ⟨2, _⟩ => exact absurd rfl hc)
    (by show 0 + k.val = K.val; omega)

theorem side2_snd (K : Fin 256) (hK : K.val = 128 + k.val) :
    concatenate S32x32x256 2 [⟨S32x32x128, A1⟩, ⟨S32x32x128, A2⟩] concatenates_S32x32x128_S32x32x128_S32x32x256_d2 (ix3 i j K) = A2 (ix3 i j k) :=
  concatenate_apply_piece 2 [⟨S32x32x128, A1⟩, ⟨S32x32x128, A2⟩] concatenates_S32x32x128_S32x32x128_S32x32x256_d2 (ix3 i j K) 1
    (by show 1 < 2; omega) S32x32x128 A2 rfl rfl 128 (by simp) (ix3 i j k)
    (fun c hc => by
      match c with
      | ⟨0, _⟩ => rfl
      | ⟨1, _⟩ => rfl
      | ⟨2, _⟩ => exact absurd rfl hc)
    (by show 128 + k.val = K.val; omega)

theorem side4_a (K : Fin 512) (hK : K.val = k.val) :
    concatenate S32x32x512 2 [⟨S32x32x128, A1⟩, ⟨S32x32x128, A2⟩, ⟨S32x32x128, A3⟩, ⟨S32x32x128, A4⟩] concatenates_S32x32x128_S32x32x128_S32x32x128_S32x32x128_S32x32x512_d2 (ix3 i j K) = A1 (ix3 i j k) :=
  concatenate_apply_piece 2 [⟨S32x32x128, A1⟩, ⟨S32x32x128, A2⟩, ⟨S32x32x128, A3⟩, ⟨S32x32x128, A4⟩] concatenates_S32x32x128_S32x32x128_S32x32x128_S32x32x128_S32x32x512_d2 (ix3 i j K) 0
    (by show 0 < 4; omega) S32x32x128 A1 rfl rfl 0 rfl (ix3 i j k)
    (fun c hc => by
      match c with
      | ⟨0, _⟩ => rfl
      | ⟨1, _⟩ => rfl
      | ⟨2, _⟩ => exact absurd rfl hc)
    (by show 0 + k.val = K.val; omega)

theorem side4_b (K : Fin 512) (hK : K.val = 128 + k.val) :
    concatenate S32x32x512 2 [⟨S32x32x128, A1⟩, ⟨S32x32x128, A2⟩, ⟨S32x32x128, A3⟩, ⟨S32x32x128, A4⟩] concatenates_S32x32x128_S32x32x128_S32x32x128_S32x32x128_S32x32x512_d2 (ix3 i j K) = A2 (ix3 i j k) :=
  concatenate_apply_piece 2 [⟨S32x32x128, A1⟩, ⟨S32x32x128, A2⟩, ⟨S32x32x128, A3⟩, ⟨S32x32x128, A4⟩] concatenates_S32x32x128_S32x32x128_S32x32x128_S32x32x128_S32x32x512_d2 (ix3 i j K) 1
    (by show 1 < 4; omega) S32x32x128 A2 rfl rfl 128 (by simp) (ix3 i j k)
    (fun c hc => by
      match c with
      | ⟨0, _⟩ => rfl
      | ⟨1, _⟩ => rfl
      | ⟨2, _⟩ => exact absurd rfl hc)
    (by show 128 + k.val = K.val; omega)

theorem side4_c (K : Fin 512) (hK : K.val = 256 + k.val) :
    concatenate S32x32x512 2 [⟨S32x32x128, A1⟩, ⟨S32x32x128, A2⟩, ⟨S32x32x128, A3⟩, ⟨S32x32x128, A4⟩] concatenates_S32x32x128_S32x32x128_S32x32x128_S32x32x128_S32x32x512_d2 (ix3 i j K) = A3 (ix3 i j k) :=
  concatenate_apply_piece 2 [⟨S32x32x128, A1⟩, ⟨S32x32x128, A2⟩, ⟨S32x32x128, A3⟩, ⟨S32x32x128, A4⟩] concatenates_S32x32x128_S32x32x128_S32x32x128_S32x32x128_S32x32x512_d2 (ix3 i j K) 2
    (by show 2 < 4; omega) S32x32x128 A3 rfl rfl 256 (by simp) (ix3 i j k)
    (fun c hc => by
      match c with
      | ⟨0, _⟩ => rfl
      | ⟨1, _⟩ => rfl
      | ⟨2, _⟩ => exact absurd rfl hc)
    (by show 256 + k.val = K.val; omega)

theorem side4_d (K : Fin 512) (hK : K.val = 384 + k.val) :
    concatenate S32x32x512 2 [⟨S32x32x128, A1⟩, ⟨S32x32x128, A2⟩, ⟨S32x32x128, A3⟩, ⟨S32x32x128, A4⟩] concatenates_S32x32x128_S32x32x128_S32x32x128_S32x32x128_S32x32x512_d2 (ix3 i j K) = A4 (ix3 i j k) :=
  concatenate_apply_piece 2 [⟨S32x32x128, A1⟩, ⟨S32x32x128, A2⟩, ⟨S32x32x128, A3⟩, ⟨S32x32x128, A4⟩] concatenates_S32x32x128_S32x32x128_S32x32x128_S32x32x128_S32x32x512_d2 (ix3 i j K) 3
    (by show 3 < 4; omega) S32x32x128 A4 rfl rfl 384 (by simp) (ix3 i j k)
    (fun c hc => by
      match c with
      | ⟨0, _⟩ => rfl
      | ⟨1, _⟩ => rfl
      | ⟨2, _⟩ => exact absurd rfl hc)
    (by show 384 + k.val = K.val; omega)

end Side

/-! ## The matrix products at an entry -/

theorem mm128_apply (A : FVec Ideal S1024x128 .f32) (B : FVec Ideal S128x128 .f32) (r : Fin 1024) (c : Fin 128) :
    matmul dot_S1024x128_S128x128_S1024x128_1_0_0_1_n_n none A B (constant (F := Ideal) S1024x128 .f32 0x00000000#32) (ix2 r c)
      = ∑ k : Fin 128, A (ix2 r k) * B (ix2 k c) :=
  PlainDot.matmul_zero_apply dot_S1024x128_S128x128_S1024x128_1_0_0_1_n_n ⟨rfl, rfl, rfl, rfl, rfl, rfl⟩ rfl rfl none A B (ix2 r c)

theorem mm256_apply (A : FVec Ideal S1024x256 .f32) (B : FVec Ideal S256x128 .f32) (r : Fin 1024) (c : Fin 128) :
    matmul dot_S1024x256_S256x128_S1024x128_1_0_0_1_n_n none A B (constant (F := Ideal) S1024x128 .f32 0x00000000#32) (ix2 r c)
      = ∑ k : Fin 256, A (ix2 r k) * B (ix2 k c) :=
  PlainDot.matmul_zero_apply dot_S1024x256_S256x128_S1024x128_1_0_0_1_n_n ⟨rfl, rfl, rfl, rfl, rfl, rfl⟩ rfl rfl none A B (ix2 r c)

theorem mm512_apply (A : FVec Ideal S1024x512 .f32) (B : FVec Ideal S512x128 .f32) (r : Fin 1024) (c : Fin 128) :
    matmul dot_S1024x512_S512x128_S1024x128_1_0_0_1_n_n none A B (constant (F := Ideal) S1024x128 .f32 0x00000000#32) (ix2 r c)
      = ∑ k : Fin 512, A (ix2 r k) * B (ix2 k c) :=
  PlainDot.matmul_zero_apply dot_S1024x512_S512x128_S1024x128_1_0_0_1_n_n ⟨rfl, rfl, rfl, rfl, rfl, rfl⟩ rfl rfl none A B (ix2 r c)

/-! ## A phase product at a position -/

/-- The bias row repeated over the image. -/
theorem bias_bcast_apply (v23 : FVec Ideal S1x128 .f32) (i j : Fin 32) (c : Fin 128) :
    broadcastTo S32x32x128 (shapeCast S1x1x128 v23 shapeCasts_S1x128_S1x1x128) broadcasts_S1x1x128_S32x32x128 (ix3 i j c)
      = v23 (ix2 0 c) := by
  refine (broadcastTo_apply _ broadcasts_S1x1x128_S32x32x128 (ix3 i j c) (ix3 0 0 c) (fun a => ?_)).trans ?_
  · match a with
    | ⟨0, _⟩ => rfl
    | ⟨1, _⟩ => rfl
    | ⟨2, _⟩ => rfl
  exact shapeCast_apply v23 shapeCasts_S1x128_S1x1x128 (ix3 0 0 c) (ix2 0 c) (by
    rw [Shape.rowMajor_val_two, Shape.rowMajor_val_three]
    show 0 * 128 + c.val = (0 * 1 + 0) * 128 + c.val
    omega)

theorem pay9_eq (v22 : Vec Ideal S1x128 .f32) : k0_pay9 (F := Ideal) v22 = v22 := by
  unfold k0_pay9; exact shapeCast_self v22 _

/-- One copy of the image against a 128-row weight block. -/
theorem prod1_apply (A : FVec Ideal S32x32x128 .f32) (W : Vec Ideal S128x128 .f32) (i j : Fin 32) (c : Fin 128) :
    shapeCast S32x32x128
      (matmul dot_S1024x128_S128x128_S1024x128_1_0_0_1_n_n none (shapeCast S1024x128 A shapeCasts_S32x32x128_S1024x128)
        (shapeCast S128x128 W shapeCasts_S128x128_S128x128 : FVec Ideal S128x128 .f32) (constant (F := Ideal) S1024x128 .f32 0x00000000#32))
      shapeCasts_S1024x128_S32x32x128 (ix3 i j c)
      = ∑ k : Fin 128, A (ix3 i j k) * W (ix2 k c) := by
  refine (unflat_apply _ i j c).trans ((mm128_apply _ _ (rowIx i j) c).trans (Finset.sum_congr rfl fun k _ => ?_))
  exact congrArg₂ (· * ·) (flat128_apply A i j k) (congrFun (shapeCast_self W _) (ix2 k c))

/-- Two copies side by side against a 256-row weight block: each copy meets its own band of rows. -/
theorem prod2_apply (A1 A2 : FVec Ideal S32x32x128 .f32) (W : Vec Ideal S256x128 .f32) (i j : Fin 32) (c : Fin 128) :
    shapeCast S32x32x128
      (matmul dot_S1024x256_S256x128_S1024x128_1_0_0_1_n_n none
        (shapeCast S1024x256 (concatenate S32x32x256 2 [⟨S32x32x128, A1⟩, ⟨S32x32x128, A2⟩] concatenates_S32x32x128_S32x32x128_S32x32x256_d2) shapeCasts_S32x32x256_S1024x256)
        (shapeCast S256x128 W shapeCasts_S256x128_S256x128 : FVec Ideal S256x128 .f32) (constant (F := Ideal) S1024x128 .f32 0x00000000#32))
      shapeCasts_S1024x128_S32x32x128 (ix3 i j c)
      = (∑ k : Fin 128, A1 (ix3 i j k) * W (ix2 ⟨k.val, by omega⟩ c))
        + ∑ k : Fin 128, A2 (ix3 i j k) * W (ix2 ⟨128 + k.val, by omega⟩ c) := by
  refine (unflat_apply _ i j c).trans ((mm256_apply _ _ (rowIx i j) c).trans ((sum_256 _).trans
    (congrArg₂ (· + ·) (Finset.sum_congr rfl fun k _ => ?_) (Finset.sum_congr rfl fun k _ => ?_))))
  · exact congrArg₂ (· * ·) ((flat256_apply _ i j _).trans (side2_fst A1 A2 i j k _ rfl)) (congrFun (shapeCast_self W _) _)
  · exact congrArg₂ (· * ·) ((flat256_apply _ i j _).trans (side2_snd A1 A2 i j k _ rfl)) (congrFun (shapeCast_self W _) _)

/-- Four copies side by side against a 512-row weight block. -/
theorem prod4_apply (A1 A2 A3 A4 : FVec Ideal S32x32x128 .f32) (W : Vec Ideal S512x128 .f32) (i j : Fin 32) (c : Fin 128) :
    shapeCast S32x32x128
      (matmul dot_S1024x512_S512x128_S1024x128_1_0_0_1_n_n none
        (shapeCast S1024x512 (concatenate S32x32x512 2 [⟨S32x32x128, A1⟩, ⟨S32x32x128, A2⟩, ⟨S32x32x128, A3⟩, ⟨S32x32x128, A4⟩] concatenates_S32x32x128_S32x32x128_S32x32x128_S32x32x128_S32x32x512_d2) shapeCasts_S32x32x512_S1024x512)
        (shapeCast S512x128 W shapeCasts_S512x128_S512x128 : FVec Ideal S512x128 .f32) (constant (F := Ideal) S1024x128 .f32 0x00000000#32))
      shapeCasts_S1024x128_S32x32x128 (ix3 i j c)
      = (((∑ k : Fin 128, A1 (ix3 i j k) * W (ix2 ⟨k.val, by omega⟩ c))
        + ∑ k : Fin 128, A2 (ix3 i j k) * W (ix2 ⟨128 + k.val, by omega⟩ c))
        + ∑ k : Fin 128, A3 (ix3 i j k) * W (ix2 ⟨256 + k.val, by omega⟩ c))
        + ∑ k : Fin 128, A4 (ix3 i j k) * W (ix2 ⟨384 + k.val, by omega⟩ c) := by
  refine (unflat_apply _ i j c).trans ((mm512_apply _ _ (rowIx i j) c).trans ((sum_512 _).trans
    (congrArg₂ (· + ·) (congrArg₂ (· + ·) (congrArg₂ (· + ·) (Finset.sum_congr rfl fun k _ => ?_) (Finset.sum_congr rfl fun k _ => ?_))
      (Finset.sum_congr rfl fun k _ => ?_)) (Finset.sum_congr rfl fun k _ => ?_))))
  · exact congrArg₂ (· * ·) ((flat512_apply _ i j _).trans (side4_a A1 A2 A3 A4 i j k _ rfl)) (congrFun (shapeCast_self W _) _)
  · exact congrArg₂ (· * ·) ((flat512_apply _ i j _).trans (side4_b A1 A2 A3 A4 i j k _ rfl)) (congrFun (shapeCast_self W _) _)
  · exact congrArg₂ (· * ·) ((flat512_apply _ i j _).trans (side4_c A1 A2 A3 A4 i j k _ rfl)) (congrFun (shapeCast_self W _) _)
  · exact congrArg₂ (· * ·) ((flat512_apply _ i j _).trans (side4_d A1 A2 A3 A4 i j k _ rfl)) (congrFun (shapeCast_self W _) _)

end Cert.ReferenceIdeal.Val0

end
-- ==== Proof.R0Outs.lean ====
import proofs.«148433_g2000002724561042_pallasbulk_175_35_alg».proof.Proof.Gen.ReferenceIdeal.Skeleton
import proofs.«148433_g2000002724561042_pallasbulk_175_35_alg».proof.Proof.Spec
import proofs.«148433_g2000002724561042_pallasbulk_175_35_alg».proof.Proof.R0Dot
import proofs.«148433_g2000002724561042_pallasbulk_175_35_alg».proof.Proof.RefFrame0
import Idealize.ShloMosaic.Lib.Pipeline.Value
import Idealize.ShloMosaic.Lib.ValueIdx
import Idealize.ShloMosaic.PureOps.Ideal.Laws

noncomputable section

namespace Cert.ReferenceIdeal.Val0

open Cert.ReferenceIdeal.Gen Cert.ReferenceIdeal.Hand
open Idealize.ShloMosaic Idealize.ShloMosaic.ValueIdx
open scoped BigOperators

/-!
# Stage 1, one sample: what the body stores, against the specification

With the sample's input block `x0`, its scale and shift rows `x1`, `x2`, the four phase weight blocks `x3 … x6`, the
bias row `x7` and the projection weights `x8`: the folded convolution output is `Spec.yfold1`, the projection
`Spec.skip1`, the channel sums `Spec.sum1` and the sums of squares `Spec.ssq1` — provided the weight blocks hold the
taps of the 3×3 kernel each phase sees.
-/

/-- The phase weight blocks hold the taps of the 3×3 kernel `w` that each phase sees, band of 128 rows by band, and the
    bias row holds `b`: centre tap; left and right of centre; above and below; the four corners. -/
structure PhaseWeights (x3 : Vec Ideal S128x128 .f32) (x4 x5 : Vec Ideal S256x128 .f32) (x6 : Vec Ideal S512x128 .f32)
    (x7 : Vec Ideal S1x128 .f32) (w : Fin 3 → Fin 3 → Fin 128 → Fin 128 → EReal) (b : Fin 128 → EReal) : Prop where
  w00 : ∀ k c : Fin 128, x3 (ix2 k c) = w 1 1 k c
  w01a : ∀ (K : Fin 256) (k c : Fin 128), K.val = k.val → x4 (ix2 K c) = w 1 0 k c
  w01b : ∀ (K : Fin 256) (k c : Fin 128), K.val = 128 + k.val → x4 (ix2 K c) = w 1 2 k c
  w10a : ∀ (K : Fin 256) (k c : Fin 128), K.val = k.val → x5 (ix2 K c) = w 0 1 k c
  w10b : ∀ (K : Fin 256) (k c : Fin 128), K.val = 128 + k.val → x5 (ix2 K c) = w 2 1 k c
  w11a : ∀ (K : Fin 512) (k c : Fin 128), K.val = k.val → x6 (ix2 K c) = w 0 0 k c
  w11b : ∀ (K : Fin 512) (k c : Fin 128), K.val = 128 + k.val → x6 (ix2 K c) = w 0 2 k c
  w11c : ∀ (K : Fin 512) (k c : Fin 128), K.val = 256 + k.val → x6 (ix2 K c) = w 2 0 k c
  w11d : ∀ (K : Fin 512) (k c : Fin 128), K.val = 384 + k.val → x6 (ix2 K c) = w 2 2 k c
  bias : ∀ c : Fin 128, x7 (ix2 0 c) = b c

/-! ## The specification's four phases, unfolded -/

section SpecPhases
variable (x : Fin 32 → Fin 32 → Fin 128 → EReal) (sc sh : Fin 128 → EReal) (w : Fin 3 → Fin 3 → Fin 128 → Fin 128 → EReal)
  (b : Fin 128 → EReal) (i j : Fin 32) (c : Fin 128)

theorem phase1_00 : Spec.phase1 x sc sh w b 0 0 i j c = Spec.tap1 x sc sh w i.val j.val 1 1 c + b c := by
  unfold Spec.phase1; rw [if_pos rfl, if_pos rfl]
theorem phase1_01 : Spec.phase1 x sc sh w b 0 1 i j c
    = (Spec.tap1 x sc sh w i.val j.val 1 0 c + Spec.tap1 x sc sh w i.val (j.val + 1) 1 2 c) + b c := by
  unfold Spec.phase1; rw [if_pos rfl, if_neg (show ¬ ((1 : Fin 2) = 0) by decide)]
theorem phase1_10 : Spec.phase1 x sc sh w b 1 0 i j c
    = (Spec.tap1 x sc sh w i.val j.val 0 1 c + Spec.tap1 x sc sh w (i.val + 1) j.val 2 1 c) + b c := by
  unfold Spec.phase1; rw [if_neg (show ¬ ((1 : Fin 2) = 0) by decide), if_pos rfl]
theorem phase1_11 : Spec.phase1 x sc sh w b 1 1 i j c
    = (Spec.tap1 x sc sh w i.val j.val 0 0 c + Spec.tap1 x sc sh w i.val (j.val + 1) 0 2 c
        + Spec.tap1 x sc sh w (i.val + 1) j.val 2 0 c + Spec.tap1 x sc sh w (i.val + 1) (j.val + 1) 2 2 c) + b c := by
  unfold Spec.phase1
  rw [if_neg (show ¬ ((1 : Fin 2) = 0) by decide), if_neg (show ¬ ((1 : Fin 2) = 0) by decide)]

end SpecPhases

/-! ## The body's four phases are the specification's -/

section Phases
variable (x0 : Vec Ideal S1x32x32x128 .f32) (x1 x2 : Vec Ideal S1x1x128 .f32) (x3 : Vec Ideal S128x128 .f32)
  (x4 x5 : Vec Ideal S256x128 .f32) (x6 : Vec Ideal S512x128 .f32) (x7 : Vec Ideal S1x128 .f32)
  (w : Fin 3 → Fin 3 → Fin 128 → Fin 128 → EReal) (b : Fin 128 → EReal) (hW : PhaseWeights x3 x4 x5 x6 x7 w b)
  (i j : Fin 32) (c : Fin 128)
include hW

theorem phase00_eq : (k0_pay10 (F := Ideal) x0 x1 x2 x7 x3) (ix3 i j c) = Spec.phase1 (xOf x0) (rowOf x1) (rowOf x2) w b 0 0 i j c := by
  have e : (k0_pay10 (F := Ideal) x0 x1 x2 x7 x3) (ix3 i j c)
      = (∑ k : Fin 128, (k0_pay4 (F := Ideal) x0 x1 x2) (ix3 i j k) * x3 (ix2 k c)) + (k0_pay9 (F := Ideal) x7) (ix2 0 c) := by
    unfold k0_pay10
    exact congrArg₂ (· + ·) (prod1_apply (k0_pay4 (F := Ideal) x0 x1 x2) x3 i j c) (bias_bcast_apply (k0_pay9 (F := Ideal) x7) i j c)
  rw [e, pay9_eq, hW.bias, phase1_00]
  unfold Spec.tap1
  exact congrArg (· + b c) (Finset.sum_congr rfl fun k _ => congrArg₂ (· * ·) (pay4_apply x0 x1 x2 i j k) (hW.w00 k c))

theorem phase01_eq : (k0_pay12 (F := Ideal) (k0_pay9 (F := Ideal) x7) (k0_pay11 (F := Ideal) x0 x1 x2 x4)) (ix3 i j c) = Spec.phase1 (xOf x0) (rowOf x1) (rowOf x2) w b 0 1 i j c := by
  have e : (k0_pay12 (F := Ideal) (k0_pay9 (F := Ideal) x7) (k0_pay11 (F := Ideal) x0 x1 x2 x4)) (ix3 i j c)
      = ((∑ k : Fin 128, (k0_pay4 (F := Ideal) x0 x1 x2) (ix3 i j k) * x4 (ix2 ⟨k.val, by omega⟩ c))
          + ∑ k : Fin 128, (k0_pay7 (F := Ideal) x0 x1 x2) (ix3 i j k) * x4 (ix2 ⟨128 + k.val, by omega⟩ c)) + (k0_pay9 (F := Ideal) x7) (ix2 0 c) := by
    unfold k0_pay12
    refine congrArg₂ (· + ·) ?_ (bias_bcast_apply (k0_pay9 (F := Ideal) x7) i j c)
    unfold k0_pay11
    exact prod2_apply (k0_pay4 (F := Ideal) x0 x1 x2) (k0_pay7 (F := Ideal) x0 x1 x2) x4 i j c
  rw [e, pay9_eq, hW.bias, phase1_01]
  unfold Spec.tap1
  exact congrArg (· + b c) (congrArg₂ (· + ·)
    (Finset.sum_congr rfl fun k _ => congrArg₂ (· * ·) (pay4_apply x0 x1 x2 i j k) (hW.w01a _ k c rfl))
    (Finset.sum_congr rfl fun k _ => congrArg₂ (· * ·) (pay7_apply x0 x1 x2 i j k) (hW.w01b _ k c rfl)))

theorem phase10_eq : (k0_pay13 (F := Ideal) (k0_pay4 (F := Ideal) x0 x1 x2) (k0_pay6 (F := Ideal) x0 x1 x2) (k0_pay9 (F := Ideal) x7) x5) (ix3 i j c) = Spec.phase1 (xOf x0) (rowOf x1) (rowOf x2) w b 1 0 i j c := by
  have e : (k0_pay13 (F := Ideal) (k0_pay4 (F := Ideal) x0 x1 x2) (k0_pay6 (F := Ideal) x0 x1 x2) (k0_pay9 (F := Ideal) x7) x5) (ix3 i j c)
      = ((∑ k : Fin 128, (k0_pay4 (F := Ideal) x0 x1 x2) (ix3 i j k) * x5 (ix2 ⟨k.val, by omega⟩ c))
          + ∑ k : Fin 128, (k0_pay6 (F := Ideal) x0 x1 x2) (ix3 i j k) * x5 (ix2 ⟨128 + k.val, by omega⟩ c)) + (k0_pay9 (F := Ideal) x7) (ix2 0 c) := by
    unfold k0_pay13
    exact congrArg₂ (· + ·) (prod2_apply (k0_pay4 (F := Ideal) x0 x1 x2) (k0_pay6 (F := Ideal) x0 x1 x2) x5 i j c) (bias_bcast_apply (k0_pay9 (F := Ideal) x7) i j c)
  rw [e, pay9_eq, hW.bias, phase1_10]
  unfold Spec.tap1
  exact congrArg (· + b c) (congrArg₂ (· + ·)
    (Finset.sum_congr rfl fun k _ => congrArg₂ (· * ·) (pay4_apply x0 x1 x2 i j k) (hW.w10a _ k c rfl))
    (Finset.sum_congr rfl fun k _ => congrArg₂ (· * ·) (pay6_apply x0 x1 x2 i j k) (hW.w10b _ k c rfl)))

theorem phase11_eq : (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) (ix3 i j c) = Spec.phase1 (xOf x0) (rowOf x1) (rowOf x2) w b 1 1 i j c := by
  have e : (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) (ix3 i j c)
      = ((((∑ k : Fin 128, (k0_pay4 (F := Ideal) x0 x1 x2) (ix3 i j k) * x6 (ix2 ⟨k.val, by omega⟩ c))
          + ∑ k : Fin 128, (k0_pay7 (F := Ideal) x0 x1 x2) (ix3 i j k) * x6 (ix2 ⟨128 + k.val, by omega⟩ c))
          + ∑ k : Fin 128, (k0_pay6 (F := Ideal) x0 x1 x2) (ix3 i j k) * x6 (ix2 ⟨256 + k.val, by omega⟩ c))
          + ∑ k : Fin 128, (k0_pay8 (F := Ideal) x0 x1 x2) (ix3 i j k) * x6 (ix2 ⟨384 + k.val, by omega⟩ c)) + (k0_pay9 (F := Ideal) x7) (ix2 0 c) := by
    unfold k0_pay14
    exact congrArg₂ (· + ·) (prod4_apply (k0_pay4 (F := Ideal) x0 x1 x2) (k0_pay7 (F := Ideal) x0 x1 x2) (k0_pay6 (F := Ideal) x0 x1 x2) (k0_pay8 (F := Ideal) x0 x1 x2) x6 i j c) (bias_bcast_apply (k0_pay9 (F := Ideal) x7) i j c)
  rw [e, pay9_eq, hW.bias, phase1_11]
  unfold Spec.tap1
  exact congrArg (· + b c) (congrArg₂ (· + ·) (congrArg₂ (· + ·) (congrArg₂ (· + ·)
    (Finset.sum_congr rfl fun k _ => congrArg₂ (· * ·) (pay4_apply x0 x1 x2 i j k) (hW.w11a _ k c rfl))
    (Finset.sum_congr rfl fun k _ => congrArg₂ (· * ·) (pay7_apply x0 x1 x2 i j k) (hW.w11b _ k c rfl)))
    (Finset.sum_congr rfl fun k _ => congrArg₂ (· * ·) (pay6_apply x0 x1 x2 i j k) (hW.w11c _ k c rfl)))
    (Finset.sum_congr rfl fun k _ => congrArg₂ (· * ·) (pay8_apply x0 x1 x2 i j k) (hW.w11d _ k c rfl)))

/-- The four phases at once, by the parities. -/
theorem phases_eq (r s : Fin 2) :
    (if r = 0 then (if s = 0 then (k0_pay10 (F := Ideal) x0 x1 x2 x7 x3) else (k0_pay12 (F := Ideal) (k0_pay9 (F := Ideal) x7) (k0_pay11 (F := Ideal) x0 x1 x2 x4))) else (if s = 0 then (k0_pay13 (F := Ideal) (k0_pay4 (F := Ideal) x0 x1 x2) (k0_pay6 (F := Ideal) x0 x1 x2) (k0_pay9 (F := Ideal) x7) x5) else (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6))) (ix3 i j c)
      = Spec.phase1 (xOf x0) (rowOf x1) (rowOf x2) w b r s i j c := by
  match r, s with
  | ⟨0, _⟩, ⟨0, _⟩ => exact phase00_eq x0 x1 x2 x3 x4 x5 x6 x7 w b hW i j c
  | ⟨0, _⟩, ⟨1, _⟩ => exact phase01_eq x0 x1 x2 x3 x4 x5 x6 x7 w b hW i j c
  | ⟨1, _⟩, ⟨0, _⟩ => exact phase10_eq x0 x1 x2 x3 x4 x5 x6 x7 w b hW i j c
  | ⟨1, _⟩, ⟨1, _⟩ => exact phase11_eq x0 x1 x2 x3 x4 x5 x6 x7 w b hW i j c

end Phases

/-! ## The folded layout -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- Two `[32,32,256]` rows stacked on a new axis and folded to `[1,64,32,256]`: row `I = 2i + r` is row `i` of the
    `r`-th. -/
theorem foldRows_apply (R0 R1 : FVec Ideal S32x32x256 .f32) (r : Fin 2) (i j : Fin 32) (l : Fin 256) (I : Fin 64)
    (hI : I.val = 2 * i.val + r.val) :
    shapeCast S1x64x32x256 (shapeCast S64x32x256 (concatenate S32x2x32x256 1 [⟨S32x1x32x256, shapeCast S32x1x32x256 R0 shapeCasts_S32x32x256_S32x1x32x256⟩, ⟨S32x1x32x256, shapeCast S32x1x32x256 R1 shapeCasts_S32x32x256_S32x1x32x256⟩] concatenates_S32x1x32x256_S32x1x32x256_S32x2x32x256_d1)
        shapeCasts_S32x2x32x256_S64x32x256) shapeCasts_S64x32x256_S1x64x32x256 (ix4 0 I j l)
      = (if r = 0 then R0 else R1) (ix3 i j l) := by
  refine (shapeCast_apply _ shapeCasts_S64x32x256_S1x64x32x256 (ix4 0 I j l) (ix3 I j l) (by
    rw [Shape.rowMajor_val_four, Shape.rowMajor_val_three]
    show (I.val * 32 + j.val) * 256 + l.val = ((0 * 64 + I.val) * 32 + j.val) * 256 + l.val
    omega)).trans ?_
  refine (shapeCast_apply _ shapeCasts_S32x2x32x256_S64x32x256 (ix3 I j l) (ix4 i r j l) (by
    rw [Shape.rowMajor_val_four, Shape.rowMajor_val_three]
    show ((i.val * 2 + r.val) * 32 + j.val) * 256 + l.val = (I.val * 32 + j.val) * 256 + l.val
    rw [hI]; ring)).trans ?_
  have hrow : ∀ R : FVec Ideal S32x32x256 .f32,
      shapeCast S32x1x32x256 R shapeCasts_S32x32x256_S32x1x32x256 (ix4 i 0 j l) = R (ix3 i j l) := fun R =>
    shapeCast_apply R shapeCasts_S32x32x256_S32x1x32x256 (ix4 i 0 j l) (ix3 i j l) (by
      rw [Shape.rowMajor_val_four, Shape.rowMajor_val_three]
      show (i.val * 32 + j.val) * 256 + l.val = ((i.val * 1 + 0) * 32 + j.val) * 256 + l.val
      omega)
  match r with
  | ⟨0, _⟩ =>
    refine (concatenate_apply_piece 1 [⟨S32x1x32x256, shapeCast S32x1x32x256 R0 shapeCasts_S32x32x256_S32x1x32x256⟩, ⟨S32x1x32x256, shapeCast S32x1x32x256 R1 shapeCasts_S32x32x256_S32x1x32x256⟩] concatenates_S32x1x32x256_S32x1x32x256_S32x2x32x256_d1 _ 0 (by show 0 < 2; omega) S32x1x32x256 _ rfl rfl 0 rfl (ix4 i 0 j l)
      (fun a ha => by
        match a with
        | ⟨0, _⟩ => rfl
        | ⟨1, _⟩ => exact absurd rfl ha
        | ⟨2, _⟩ => rfl
        | ⟨3, _⟩ => rfl) (by show 0 + 0 = 0; rfl)).trans ?_
    exact hrow R0
  | ⟨1, _⟩ =>
    refine (concatenate_apply_piece 1 [⟨S32x1x32x256, shapeCast S32x1x32x256 R0 shapeCasts_S32x32x256_S32x1x32x256⟩, ⟨S32x1x32x256, shapeCast S32x1x32x256 R1 shapeCasts_S32x32x256_S32x1x32x256⟩] concatenates_S32x1x32x256_S32x1x32x256_S32x2x32x256_d1 _ 1 (by show 1 < 2; omega) S32x1x32x256 _ rfl rfl 1 (by simp) (ix4 i 0 j l)
      (fun a ha => by
        match a with
        | ⟨0, _⟩ => rfl
        | ⟨1, _⟩ => exact absurd rfl ha
        | ⟨2, _⟩ => rfl
        | ⟨3, _⟩ => rfl) (by show 1 + 0 = 1; rfl)).trans ?_
    exact hrow R1

/-- The four phases interleaved: row `2i + r`, lane `128·s + c` holds phase `(r, s)` at `(i, j, c)`. -/
theorem fold_apply (Q00 Q01 Q10 Q11 : FVec Ideal S32x32x128 .f32) (r s : Fin 2) (i j : Fin 32) (c : Fin 128)
    (I : Fin 64) (l : Fin 256) (hI : I.val = 2 * i.val + r.val) (hl : l.val = s.val * 128 + c.val) :
    shapeCast S1x64x32x256 (shapeCast S64x32x256 (concatenate S32x2x32x256 1
        [⟨S32x1x32x256, shapeCast S32x1x32x256 (concatenate S32x32x256 2 [⟨S32x32x128, Q00⟩, ⟨S32x32x128, Q01⟩] concatenates_S32x32x128_S32x32x128_S32x32x256_d2) shapeCasts_S32x32x256_S32x1x32x256⟩,
         ⟨S32x1x32x256, shapeCast S32x1x32x256 (concatenate S32x32x256 2 [⟨S32x32x128, Q10⟩, ⟨S32x32x128, Q11⟩] concatenates_S32x32x128_S32x32x128_S32x32x256_d2) shapeCasts_S32x32x256_S32x1x32x256⟩] concatenates_S32x1x32x256_S32x1x32x256_S32x2x32x256_d1)
        shapeCasts_S32x2x32x256_S64x32x256) shapeCasts_S64x32x256_S1x64x32x256 (ix4 0 I j l)
      = (if r = 0 then (if s = 0 then Q00 else Q01) else (if s = 0 then Q10 else Q11)) (ix3 i j c) := by
  refine (foldRows_apply (concatenate S32x32x256 2 [⟨S32x32x128, Q00⟩, ⟨S32x32x128, Q01⟩] concatenates_S32x32x128_S32x32x128_S32x32x256_d2) (concatenate S32x32x256 2 [⟨S32x32x128, Q10⟩, ⟨S32x32x128, Q11⟩] concatenates_S32x32x128_S32x32x128_S32x32x256_d2) r i j l I hI).trans ?_
  match r, s, hl with
  | ⟨0, _⟩, ⟨0, _⟩, hl => exact side2_fst Q00 Q01 i j c l (by show l.val = c.val; simpa using hl)
  | ⟨0, _⟩, ⟨1, _⟩, hl => exact side2_snd Q00 Q01 i j c l (by show l.val = 128 + c.val; simpa [Nat.add_comm] using hl)
  | ⟨1, _⟩, ⟨0, _⟩, hl => exact side2_fst Q10 Q11 i j c l (by show l.val = c.val; simpa using hl)
  | ⟨1, _⟩, ⟨1, _⟩, hl => exact side2_snd Q10 Q11 i j c l (by show l.val = 128 + c.val; simpa [Nat.add_comm] using hl)

/-! ## Sums over the image -/

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reduction of an image over its two position axes is, per channel, the double sum over positions. -/
theorem red_apply (P : FVec Ideal S32x32x128 .f32) (c : Fin 128) :
    multiReduction (F := Ideal) .add [0, 1] S128 P 0x00000000#32 reduces_S32x32x128_S128 (.inl rfl) rfl (ix1 c)
      = ∑ i : Fin 32, ∑ j : Fin 32, P (ix3 i j c) := by
  show Ideal.reduceAdd reduces_S32x32x128_S128 P (ix1 c) = _
  unfold Ideal.reduceAdd
  rw [Finset.sum_filter, sum_idx3]
  refine Finset.sum_congr rfl fun a _ => Finset.sum_congr rfl fun b _ => ?_
  have hd : ∀ k : Fin 128, (reduces_S32x32x128_S128.drop (ix3 a b k) = ix1 c) ↔ k = c := fun k => by
    have hv : (reduces_S32x32x128_S128.drop (ix3 a b k) 0 : Nat) = k.val :=
      reduces_S32x32x128_S128.drop_apply_val_of_eq (ix3 a b k) 0 2
    constructor
    · intro h
      have h0 := congrArg (fun f : S128.Idx => (f 0 : Nat)) h
      exact Fin.ext (hv.symm.trans h0)
    · rintro rfl
      funext d
      match d with
      | ⟨0, _⟩ => exact Fin.ext hv
  simp only [hd, Finset.sum_ite_eq', Finset.mem_univ, if_true]

/-! ## The projection -/

theorem pay16_apply (v1 : FVec Ideal S32x32x128 .f32) (v69 : Vec Ideal S128x128 .f32) (i j : Fin 32) (c : Fin 128) :
    k0_pay16 (F := Ideal) v1 v69 (ix4 0 i j c) = ∑ k : Fin 128, v1 (ix3 i j k) * v69 (ix2 k c) := by
  unfold k0_pay16
  refine (shapeCast_apply _ shapeCasts_S32x32x128_S1x32x32x128 (ix4 0 i j c) (ix3 i j c) (by
    rw [Shape.rowMajor_val_four, Shape.rowMajor_val_three]
    show (i.val * 32 + j.val) * 128 + c.val = ((0 * 32 + i.val) * 32 + j.val) * 128 + c.val
    omega)).trans ?_
  exact prod1_apply v1 v69 i j c

/-- The stored projection is the specification's. -/
theorem skip_eq (x0 : Vec Ideal S1x32x32x128 .f32) (x8 : Vec Ideal S128x128 .f32) (wsc : Fin 128 → Fin 128 → EReal)
    (hwsc : ∀ k c : Fin 128, x8 (ix2 k c) = wsc k c) (i j : Fin 32) (c : Fin 128) :
    k0_pay16 (F := Ideal) (k0_pay3 (F := Ideal) x0) x8 (ix4 0 i j c) = Spec.skip1 (xOf x0) wsc i j c := by
  rw [pay16_apply]
  unfold Spec.skip1
  exact Finset.sum_congr rfl fun k _ => congrArg₂ (· * ·) (pay3_apply x0 i j k) (hwsc k c)

/-! ## The channel statistics -/

/-- Per channel, the sum of an image over its positions. -/
def imgSum (P : FVec Ideal S32x32x128 .f32) (c : Fin 128) : EReal := ∑ i : Fin 32, ∑ j : Fin 32, P (ix3 i j c)

theorem redRow_apply (P : FVec Ideal S32x32x128 .f32) (c : Fin 128) :
    shapeCast S1x1x128 (multiReduction (F := Ideal) .add [0, 1] S128 P 0x00000000#32 reduces_S32x32x128_S128 (.inl rfl) rfl)
      shapeCasts_S128_S1x1x128 (ix3 0 0 c) = imgSum P c :=
  (shapeCast_apply _ shapeCasts_S128_S1x1x128 (ix3 0 0 c) (ix1 c) (by
    rw [Shape.rowMajor_val_one, Shape.rowMajor_val_three]
    show c.val = (0 * 1 + 0) * 128 + c.val
    omega)).trans (red_apply P c)

theorem pay17_apply (v31 : FVec Ideal S32x32x128 .f32) (c : Fin 128) :
    k0_pay17 (F := Ideal) v31 (ix3 0 0 c) = imgSum v31 c := by
  unfold k0_pay17
  exact redRow_apply v31 c

theorem pay1_apply (v40 v49 v58 : FVec Ideal S32x32x128 .f32) (v77 : FVec Ideal S1x1x128 .f32) (c : Fin 128) :
    k0_pay1 (F := Ideal) v40 v49 v58 v77 (ix3 0 0 c)
      = ((v77 (ix3 0 0 c) + imgSum v40 c) + imgSum v49 c) + imgSum v58 c := by
  unfold k0_pay1
  refine (congrFun (shapeCast_shapeCast (s := S1x1x128) (t := S1x128) _ shapeCasts_S1x1x128_S1x128
    shapeCasts_S1x128_S1x1x128) (ix3 0 0 c)).trans ?_
  exact congrArg₂ (· + ·) (congrArg₂ (· + ·) (congrArg (v77 (ix3 0 0 c) + ·) (redRow_apply v40 c)) (redRow_apply v49 c))
    (redRow_apply v58 c)

theorem pay2_apply (v31 v40 v49 v58 : FVec Ideal S32x32x128 .f32) (c : Fin 128) :
    k0_pay2 (F := Ideal) v31 v40 v49 v58 (ix3 0 0 c)
      = ((imgSum (mulf v31 v31) c + imgSum (mulf v40 v40) c) + imgSum (mulf v49 v49) c) + imgSum (mulf v58 v58) c := by
  unfold k0_pay2
  refine (congrFun (shapeCast_shapeCast (s := S1x1x128) (t := S1x128) _ shapeCasts_S1x1x128_S1x128
    shapeCasts_S1x128_S1x1x128) (ix3 0 0 c)).trans ?_
  exact congrArg₂ (· + ·) (congrArg₂ (· + ·) (congrArg₂ (· + ·) (redRow_apply (mulf v31 v31) c) (redRow_apply (mulf v40 v40) c))
    (redRow_apply (mulf v49 v49) c)) (redRow_apply (mulf v58 v58) c)

/-! ## What the body stores, against the specification -/

section Stored
variable (x0 : Vec Ideal S1x32x32x128 .f32) (x1 x2 : Vec Ideal S1x1x128 .f32) (x3 : Vec Ideal S128x128 .f32)
  (x4 x5 : Vec Ideal S256x128 .f32) (x6 : Vec Ideal S512x128 .f32) (x7 : Vec Ideal S1x128 .f32) (x8 : Vec Ideal S128x128 .f32)
  (w : Fin 3 → Fin 3 → Fin 128 → Fin 128 → EReal) (b : Fin 128 → EReal) (hW : PhaseWeights x3 x4 x5 x6 x7 w b)
include hW

theorem yfold_eq (I : Fin 64) (j : Fin 32) (l : Fin 256) :
    k0_pay15 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) (k0_pay10 (F := Ideal) x0 x1 x2 x7 x3) (k0_pay11 (F := Ideal) x0 x1 x2 x4) x5 x6 (ix4 0 I j l)
      = Spec.yfold1 (xOf x0) (rowOf x1) (rowOf x2) w b I j l := by
  have hI := I.isLt
  have hl := l.isLt
  unfold k0_pay15 Spec.yfold1
  refine (fold_apply (k0_pay10 (F := Ideal) x0 x1 x2 x7 x3) (k0_pay12 (F := Ideal) (k0_pay9 (F := Ideal) x7) (k0_pay11 (F := Ideal) x0 x1 x2 x4)) (k0_pay13 (F := Ideal) (k0_pay4 (F := Ideal) x0 x1 x2) (k0_pay6 (F := Ideal) x0 x1 x2) (k0_pay9 (F := Ideal) x7) x5) (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) ⟨I.val % 2, Nat.mod_lt _ (by norm_num)⟩ ⟨l.val / 128, by omega⟩
    ⟨I.val / 2, by omega⟩ j ⟨l.val % 128, Nat.mod_lt _ (by norm_num)⟩ I l
    (by show I.val = 2 * (I.val / 2) + I.val % 2; omega) (by show l.val = l.val / 128 * 128 + l.val % 128; omega)).trans ?_
  exact phases_eq x0 x1 x2 x3 x4 x5 x6 x7 w b hW _ j _ _ _

theorem sum_eq (c : Fin 128) :
    k0_pay1 (F := Ideal) (k0_pay12 (F := Ideal) (k0_pay9 (F := Ideal) x7) (k0_pay11 (F := Ideal) x0 x1 x2 x4)) (k0_pay13 (F := Ideal) (k0_pay4 (F := Ideal) x0 x1 x2) (k0_pay6 (F := Ideal) x0 x1 x2) (k0_pay9 (F := Ideal) x7) x5) (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) (k0_pay17 (F := Ideal) (k0_pay10 (F := Ideal) x0 x1 x2 x7 x3)) (ix3 0 0 c) = Spec.sum1 (xOf x0) (rowOf x1) (rowOf x2) w b c := by
  rw [pay1_apply, pay17_apply]
  have h00 : imgSum (k0_pay10 (F := Ideal) x0 x1 x2 x7 x3) c = ∑ i : Fin 32, ∑ j : Fin 32, Spec.phase1 (xOf x0) (rowOf x1) (rowOf x2) w b 0 0 i j c :=
    Finset.sum_congr rfl fun i _ => Finset.sum_congr rfl fun j _ => phase00_eq x0 x1 x2 x3 x4 x5 x6 x7 w b hW i j c
  have h01 : imgSum (k0_pay12 (F := Ideal) (k0_pay9 (F := Ideal) x7) (k0_pay11 (F := Ideal) x0 x1 x2 x4)) c = ∑ i : Fin 32, ∑ j : Fin 32, Spec.phase1 (xOf x0) (rowOf x1) (rowOf x2) w b 0 1 i j c :=
    Finset.sum_congr rfl fun i _ => Finset.sum_congr rfl fun j _ => phase01_eq x0 x1 x2 x3 x4 x5 x6 x7 w b hW i j c
  have h10 : imgSum (k0_pay13 (F := Ideal) (k0_pay4 (F := Ideal) x0 x1 x2) (k0_pay6 (F := Ideal) x0 x1 x2) (k0_pay9 (F := Ideal) x7) x5) c = ∑ i : Fin 32, ∑ j : Fin 32, Spec.phase1 (xOf x0) (rowOf x1) (rowOf x2) w b 1 0 i j c :=
    Finset.sum_congr rfl fun i _ => Finset.sum_congr rfl fun j _ => phase10_eq x0 x1 x2 x3 x4 x5 x6 x7 w b hW i j c
  have h11 : imgSum (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) c = ∑ i : Fin 32, ∑ j : Fin 32, Spec.phase1 (xOf x0) (rowOf x1) (rowOf x2) w b 1 1 i j c :=
    Finset.sum_congr rfl fun i _ => Finset.sum_congr rfl fun j _ => phase11_eq x0 x1 x2 x3 x4 x5 x6 x7 w b hW i j c
  rw [h00, h01, h10, h11]
  unfold Spec.sum1
  simp only [Fin.sum_univ_two]
  exact add_assoc _ _ _

theorem ssq_eq (c : Fin 128) :
    k0_pay2 (F := Ideal) (k0_pay10 (F := Ideal) x0 x1 x2 x7 x3) (k0_pay12 (F := Ideal) (k0_pay9 (F := Ideal) x7) (k0_pay11 (F := Ideal) x0 x1 x2 x4)) (k0_pay13 (F := Ideal) (k0_pay4 (F := Ideal) x0 x1 x2) (k0_pay6 (F := Ideal) x0 x1 x2) (k0_pay9 (F := Ideal) x7) x5) (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) (ix3 0 0 c) = Spec.ssq1 (xOf x0) (rowOf x1) (rowOf x2) w b c := by
  rw [pay2_apply]
  have h00 : imgSum (mulf (k0_pay10 (F := Ideal) x0 x1 x2 x7 x3) (k0_pay10 (F := Ideal) x0 x1 x2 x7 x3)) c
      = ∑ i : Fin 32, ∑ j : Fin 32, Spec.phase1 (xOf x0) (rowOf x1) (rowOf x2) w b 0 0 i j c * Spec.phase1 (xOf x0) (rowOf x1) (rowOf x2) w b 0 0 i j c :=
    Finset.sum_congr rfl fun i _ => Finset.sum_congr rfl fun j _ => congrArg₂ (· * ·)
      (phase00_eq x0 x1 x2 x3 x4 x5 x6 x7 w b hW i j c) (phase00_eq x0 x1 x2 x3 x4 x5 x6 x7 w b hW i j c)
  have h01 : imgSum (mulf (k0_pay12 (F := Ideal) (k0_pay9 (F := Ideal) x7) (k0_pay11 (F := Ideal) x0 x1 x2 x4)) (k0_pay12 (F := Ideal) (k0_pay9 (F := Ideal) x7) (k0_pay11 (F := Ideal) x0 x1 x2 x4))) c
      = ∑ i : Fin 32, ∑ j : Fin 32, Spec.phase1 (xOf x0) (rowOf x1) (rowOf x2) w b 0 1 i j c * Spec.phase1 (xOf x0) (rowOf x1) (rowOf x2) w b 0 1 i j c :=
    Finset.sum_congr rfl fun i _ => Finset.sum_congr rfl fun j _ => congrArg₂ (· * ·)
      (phase01_eq x0 x1 x2 x3 x4 x5 x6 x7 w b hW i j c) (phase01_eq x0 x1 x2 x3 x4 x5 x6 x7 w b hW i j c)
  have h10 : imgSum (mulf (k0_pay13 (F := Ideal) (k0_pay4 (F := Ideal) x0 x1 x2) (k0_pay6 (F := Ideal) x0 x1 x2) (k0_pay9 (F := Ideal) x7) x5) (k0_pay13 (F := Ideal) (k0_pay4 (F := Ideal) x0 x1 x2) (k0_pay6 (F := Ideal) x0 x1 x2) (k0_pay9 (F := Ideal) x7) x5)) c
      = ∑ i : Fin 32, ∑ j : Fin 32, Spec.phase1 (xOf x0) (rowOf x1) (rowOf x2) w b 1 0 i j c * Spec.phase1 (xOf x0) (rowOf x1) (rowOf x2) w b 1 0 i j c :=
    Finset.sum_congr rfl fun i _ => Finset.sum_congr rfl fun j _ => congrArg₂ (· * ·)
      (phase10_eq x0 x1 x2 x3 x4 x5 x6 x7 w b hW i j c) (phase10_eq x0 x1 x2 x3 x4 x5 x6 x7 w b hW i j c)
  have h11 : imgSum (mulf (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6)) c
      = ∑ i : Fin 32, ∑ j : Fin 32, Spec.phase1 (xOf x0) (rowOf x1) (rowOf x2) w b 1 1 i j c * Spec.phase1 (xOf x0) (rowOf x1) (rowOf x2) w b 1 1 i j c :=
    Finset.sum_congr rfl fun i _ => Finset.sum_congr rfl fun j _ => congrArg₂ (· * ·)
      (phase11_eq x0 x1 x2 x3 x4 x5 x6 x7 w b hW i j c) (phase11_eq x0 x1 x2 x3 x4 x5 x6 x7 w b hW i j c)
  rw [h00, h01, h10, h11]
  unfold Spec.ssq1
  simp only [Fin.sum_univ_two]
  exact add_assoc _ _ _

end Stored

/-! ## The four output buffers after the body -/

section Buffers
variable (x0 : Vec Ideal S1x32x32x128 .f32) (x1 x2 : Vec Ideal S1x1x128 .f32) (x3 : Vec Ideal S128x128 .f32)
  (x4 x5 : Vec Ideal S256x128 .f32) (x6 : Vec Ideal S512x128 .f32) (x7 : Vec Ideal S1x128 .f32) (x8 : Vec Ideal S128x128 .f32)

theorem out0_9_eq : out0_9 (F := Ideal) x0 x1 x2 x3 x4 x5 x6 x7 x8
    = k0_pay15 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) (k0_pay10 (F := Ideal) x0 x1 x2 x7 x3) (k0_pay11 (F := Ideal) x0 x1 x2 x4) x5 x6 := by
  unfold out0_9
  rw [View.canon_unit_zero hz4]
  simp only [m0_v1, m0_v13, m0_v17, m0_v19, m0_v21, m0_v23, m0_v31, m0_v37, m0_v40, m0_v49, m0_v58, m0_v77, View.ld_unit_zero (S := S1x32x32x128) hz4, View.ld_unit_zero (S := S1x1x128) hz3,
    View.ld_unit_zero (S := S128x128) hz2, View.ld_unit_zero (S := S256x128) hz2, View.ld_unit_zero (S := S512x128) hz2,
    View.ld_unit_zero (S := S1x128) hz2]

theorem out0_10_eq : out0_10 (F := Ideal) x0 x1 x2 x3 x4 x5 x6 x7 x8 = k0_pay16 (F := Ideal) (k0_pay3 (F := Ideal) x0) x8 := by
  unfold out0_10
  rw [View.canon_unit_zero hz4]
  simp only [m0_v1, m0_v13, m0_v17, m0_v19, m0_v21, m0_v23, m0_v31, m0_v37, m0_v40, m0_v49, m0_v58, m0_v77, View.ld_unit_zero (S := S1x32x32x128) hz4, View.ld_unit_zero (S := S128x128) hz2]

theorem out0_11_eq : out0_11 (F := Ideal) x0 x1 x2 x3 x4 x5 x6 x7 x8
    = k0_pay1 (F := Ideal) (k0_pay12 (F := Ideal) (k0_pay9 (F := Ideal) x7) (k0_pay11 (F := Ideal) x0 x1 x2 x4)) (k0_pay13 (F := Ideal) (k0_pay4 (F := Ideal) x0 x1 x2) (k0_pay6 (F := Ideal) x0 x1 x2) (k0_pay9 (F := Ideal) x7) x5) (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) (k0_pay17 (F := Ideal) (k0_pay10 (F := Ideal) x0 x1 x2 x7 x3)) := by
  unfold out0_11
  rw [View.canon_unit_zero hz3]
  simp only [m0_v1, m0_v13, m0_v17, m0_v19, m0_v21, m0_v23, m0_v31, m0_v37, m0_v40, m0_v49, m0_v58, m0_v77, View.ld_unit_zero (S := S1x32x32x128) hz4, View.ld_unit_zero (S := S1x1x128) hz3,
    View.ld_unit_zero (S := S128x128) hz2, View.ld_unit_zero (S := S256x128) hz2, View.ld_unit_zero (S := S512x128) hz2,
    View.ld_unit_zero (S := S1x128) hz2]

theorem out0_12_eq : out0_12 (F := Ideal) x0 x1 x2 x3 x4 x5 x6 x7 x8 = k0_pay2 (F := Ideal) (k0_pay10 (F := Ideal) x0 x1 x2 x7 x3) (k0_pay12 (F := Ideal) (k0_pay9 (F := Ideal) x7) (k0_pay11 (F := Ideal) x0 x1 x2 x4)) (k0_pay13 (F := Ideal) (k0_pay4 (F := Ideal) x0 x1 x2) (k0_pay6 (F := Ideal) x0 x1 x2) (k0_pay9 (F := Ideal) x7) x5) (k0_pay14 (F := Ideal) (k0_pay4 (F := Ideal) x0 x1 x2) (k0_pay6 (F := Ideal) x0 x1 x2) (k0_pay7 (F := Ideal) x0 x1 x2) (k0_pay8 (F := Ideal) x0 x1 x2) (k0_pay9 (F := Ideal) x7) x6) := by
  unfold out0_12
  rw [View.canon_unit_zero hz3]
  simp only [m0_v1, m0_v13, m0_v17, m0_v19, m0_v21, m0_v23, m0_v31, m0_v37, m0_v40, m0_v49, m0_v58, m0_v77, View.ld_unit_zero (S := S1x32x32x128) hz4, View.ld_unit_zero (S := S1x1x128) hz3,
    View.ld_unit_zero (S := S128x128) hz2, View.ld_unit_zero (S := S256x128) hz2, View.ld_unit_zero (S := S512x128) hz2,
    View.ld_unit_zero (S := S1x128) hz2]

/-- The skip block the body leaves is the specification's projection of the sample. -/
theorem out0_10_apply (wsc : Fin 128 → Fin 128 → EReal) (hwsc : ∀ k c : Fin 128, x8 (ix2 k c) = wsc k c)
    (i j : Fin 32) (c : Fin 128) :
    out0_10 (F := Ideal) x0 x1 x2 x3 x4 x5 x6 x7 x8 (ix4 0 i j c) = Spec.skip1 (xOf x0) wsc i j c := by
  rw [out0_10_eq]; exact skip_eq x0 x8 wsc hwsc i j c

variable (w : Fin 3 → Fin 3 → Fin 128 → Fin 128 → EReal) (b : Fin 128 → EReal) (hW : PhaseWeights x3 x4 x5 x6 x7 w b)
include hW

/-- The up-sampled block the body leaves is the specification's folded convolution output of the sample. -/
theorem out0_9_apply (I : Fin 64) (j : Fin 32) (l : Fin 256) :
    out0_9 (F := Ideal) x0 x1 x2 x3 x4 x5 x6 x7 x8 (ix4 0 I j l) = Spec.yfold1 (xOf x0) (rowOf x1) (rowOf x2) w b I j l := by
  rw [out0_9_eq]; exact yfold_eq x0 x1 x2 x3 x4 x5 x6 x7 w b hW I j l

/-- The sums row the body leaves is the specification's. -/
theorem out0_11_apply (c : Fin 128) :
    out0_11 (F := Ideal) x0 x1 x2 x3 x4 x5 x6 x7 x8 (ix3 0 0 c) = Spec.sum1 (xOf x0) (rowOf x1) (rowOf x2) w b c := by
  rw [out0_11_eq]; exact sum_eq x0 x1 x2 x3 x4 x5 x6 x7 w b hW c

/-- The sums-of-squares row the body leaves is the specification's. -/
theorem out0_12_apply (c : Fin 128) :
    out0_12 (F := Ideal) x0 x1 x2 x3 x4 x5 x6 x7 x8 (ix3 0 0 c) = Spec.ssq1 (xOf x0) (rowOf x1) (rowOf x2) w b c := by
  rw [out0_12_eq]; exact ssq_eq x0 x1 x2 x3 x4 x5 x6 x7 w b hW c

end Buffers

end Cert.ReferenceIdeal.Val0

end
-- ==== Proof.R0Arr.lean ====
import proofs.«148433_g2000002724561042_pallasbulk_175_35_alg».proof.Proof.R0Outs
import Idealize.ShloMosaic.Lib.Pipeline.Value
import Idealize.ShloMosaic.Lib.ValueIdx

set_option maxRecDepth 16384

noncomputable section

namespace Cert.ReferenceIdeal.Val0

open Cert.ReferenceIdeal.Gen Cert.ReferenceIdeal.Hand
open Idealize.ShloMosaic Idealize.ShloMosaic.TcCoe Idealize.ShloMosaic.ValueIdx
open Idealize.SL Idealize.SL.Sem
open Idealize.ShloMosaic.Pipeline (Dat Cfg Window)
open scoped BigOperators

/-!
# Stage 1, all samples: the four result arrays against the specification

Grid point `t` works on sample `t`: its input block is sample `t` of the input array, its scale and shift rows are rows
`t` of theirs, the weight blocks are the whole weight arrays at every point, and each result block is written to sample `t`
of its array. So after the region every sample of every result array holds the specification of that sample's inputs.
Everything is stated at the contents `V` the region is entered with.
-/

variable (V : (c : Dev nD) → (b : Ref sig .tc) → Buf (Elt Ideal) ((c : Thread nD τ).loc b))

/-- Sample `N` of the input array, as a function of row, column and channel. -/
def xAt (c : Dev nD) (N : Fin 64) : Fin 32 → Fin 32 → Fin 128 → EReal :=
  fun i j k => (V c main_v0 : Vec Ideal S64x32x32x128 .f32) (ix4 N i j k)
/-- Sample `N`'s scale row. -/
def scAt (c : Dev nD) (N : Fin 64) : Fin 128 → EReal := fun k => (V c main_v19 : Vec Ideal S64x1x128 .f32) (ix3 N 0 k)
/-- Sample `N`'s shift row. -/
def shAt (c : Dev nD) (N : Fin 64) : Fin 128 → EReal := fun k => (V c main_v27 : Vec Ideal S64x1x128 .f32) (ix3 N 0 k)

/-! ## The printed index maps, decided over the 64 grid points -/

theorem idx0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)
theorem idx10 : ∀ t : Fin cfg0.N, win0_10.index t (0 : Fin 4) = t.val ∧ win0_10.index t (1 : Fin 4) = 0 ∧ win0_10.index t (2 : Fin 4) = 0 ∧ win0_10.index t (3 : Fin 4) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

/-! ## The input blocks at a point -/

theorem blk3_eq (c : Dev nD) (t : Fin cfg0.N) :
    (iblk0 V c 3 t : Vec Ideal S128x128 .f32) = (V c main_v29 : Vec Ideal S128x128 .f32) := by
  obtain ⟨e0, e1⟩ := idx3 t
  refine funext fun (y : S128x128.Idx) => ?_
  unfold iblk0
  rw [View.read_apply]
  show V c main_v29 _ = V c main_v29 y
  congr 1
  funext a
  apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4_eq (c : Dev nD) (t : Fin cfg0.N) :
    (iblk0 V c 4 t : Vec Ideal S256x128 .f32) = (V c main_v34 : Vec Ideal S256x128 .f32) := by
  obtain ⟨e0, e1⟩ := idx4 t
  refine funext fun (y : S256x128.Idx) => ?_
  unfold iblk0
  rw [View.read_apply]
  show V c main_v34 _ = V c main_v34 y
  congr 1
  funext a
  apply Fin.ext
  match a with
  | ⟨0, _⟩ => show win0_4.index t (0 : Fin 2) * 256 + 1 * (y 0).val = (y 0).val; omega
  | ⟨1, _⟩ => show win0_4.index t (1 : Fin 2) * 128 + 1 * (y 1).val = (y 1).val; omega

theorem blk5_eq (c : Dev nD) (t : Fin cfg0.N) :
    (iblk0 V c 5 t : Vec Ideal S256x128 .f32) = (V c main_v39 : Vec Ideal S256x128 .f32) := by
  obtain ⟨e0, e1⟩ := idx5 t
  refine funext fun (y : S256x128.Idx) => ?_
  unfold iblk0
  rw [View.read_apply]
  show V c main_v39 _ = V c main_v39 y
  congr 1
  funext a
  apply Fin.ext
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem blk6_eq (c : Dev nD) (t : Fin cfg0.N) :
    (iblk0 V c 6 t : Vec Ideal S512x128 .f32) = (V c main_v48 : Vec Ideal S512x128 .f32) := by
  obtain ⟨e0, e1⟩ := idx6 t
  refine funext fun (y : S512x128.Idx) => ?_
  unfold iblk0
  rw [View.read_apply]
  show V c main_v48 _ = V c main_v48 y
  congr 1
  funext a
  apply Fin.ext
  match a with
  | ⟨0, _⟩ => show win0_6.index t (0 : Fin 2) * 512 + 1 * (y 0).val = (y 0).val; omega
  | ⟨1, _⟩ => show win0_6.index t (1 : Fin 2) * 128 + 1 * (y 1).val = (y 1).val; omega

theorem blk7_eq (c : Dev nD) (t : Fin cfg0.N) :
    (iblk0 V c 7 t : Vec Ideal S1x128 .f32) = (V c main_v49 : Vec Ideal S1x128 .f32) := by
  obtain ⟨e0, e1⟩ := idx7 t
  refine funext fun (y : S1x128.Idx) => ?_
  unfold iblk0
  rw [View.read_apply]
  show V c main_v49 _ = V c main_v49 y
  congr 1
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem blk8_eq (c : Dev nD) (t : Fin cfg0.N) :
    (iblk0 V c 8 t : Vec Ideal S128x128 .f32) = (V c main_v50 : Vec Ideal S128x128 .f32) := by
  obtain ⟨e0, e1⟩ := idx8 t
  refine funext fun (y : S128x128.Idx) => ?_
  unfold iblk0
  rw [View.read_apply]
  show V c main_v50 _ = V c main_v50 y
  congr 1
  funext a
  apply Fin.ext
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem xblk_eq (c : Dev nD) (t : Fin cfg0.N) (N : Fin 64) (hN : N.val = t.val) : xOf (iblk0 V c 0 t) = xAt V c N := by
  obtain ⟨e0, e1, e2, e3⟩ := idx0 t
  funext i j k
  unfold xOf xAt iblk0
  rw [View.read_apply]
  show V c main_v0 _ = V c main_v0 _
  congr 1
  funext a
  apply Fin.ext
  match a with
  | ⟨0, _⟩ => show win0_0.index t (0 : Fin 4) * 1 + 1 * 0 = N.val; omega
  | ⟨1, _⟩ => show win0_0.index t (1 : Fin 4) * 32 + 1 * i.val = i.val; omega
  | ⟨2, _⟩ => show win0_0.index t (2 : Fin 4) * 32 + 1 * j.val = j.val; omega
  | ⟨3, _⟩ => show win0_0.index t (3 : Fin 4) * 128 + 1 * k.val = k.val; omega

theorem scblk_eq (c : Dev nD) (t : Fin cfg0.N) (N : Fin 64) (hN : N.val = t.val) : rowOf (iblk0 V c 1 t) = scAt V c N := by
  obtain ⟨e0, e1, e2⟩ := idx1 t
  funext k
  unfold rowOf scAt iblk0
  rw [View.read_apply]
  show V c main_v19 _ = V c main_v19 _
  congr 1
  funext a
  apply Fin.ext
  match a with
  | ⟨0, _⟩ => show win0_1.index t (0 : Fin 3) * 1 + 1 * 0 = N.val; omega
  | ⟨1, _⟩ => show win0_1.index t (1 : Fin 3) * 1 + 1 * 0 = 0; omega
  | ⟨2, _⟩ => show win0_1.index t (2 : Fin 3) * 128 + 1 * k.val = k.val; omega

theorem shblk_eq (c : Dev nD) (t : Fin cfg0.N) (N : Fin 64) (hN : N.val = t.val) : rowOf (iblk0 V c 2 t) = shAt V c N := by
  obtain ⟨e0, e1, e2⟩ := idx2 t
  funext k
  unfold rowOf shAt iblk0
  rw [View.read_apply]
  show V c main_v27 _ = V c main_v27 _
  congr 1
  funext a
  apply Fin.ext
  match a with
  | ⟨0, _⟩ => show win0_2.index t (0 : Fin 3) * 1 + 1 * 0 = N.val; omega
  | ⟨1, _⟩ => show win0_2.index t (1 : Fin 3) * 1 + 1 * 0 = 0; omega
  | ⟨2, _⟩ => show win0_2.index t (2 : Fin 3) * 128 + 1 * k.val = k.val; omega

/-- The weight blocks at any point hold what the weight arrays hold. -/
theorem weights_blk (c : Dev nD) (t : Fin cfg0.N) (w : Fin 3 → Fin 3 → Fin 128 → Fin 128 → EReal) (b : Fin 128 → EReal)
    (hW : PhaseWeights (V c main_v29) (V c main_v34) (V c main_v39) (V c main_v48) (V c main_v49) w b) :
    PhaseWeights (iblk0 V c 3 t) (iblk0 V c 4 t) (iblk0 V c 5 t) (iblk0 V c 6 t) (iblk0 V c 7 t) w b where
  w00 k c' := (congrFun (blk3_eq V c t) _).trans (hW.w00 k c')
  w01a K k c' h := (congrFun (blk4_eq V c t) _).trans (hW.w01a K k c' h)
  w01b K k c' h := (congrFun (blk4_eq V c t) _).trans (hW.w01b K k c' h)
  w10a K k c' h := (congrFun (blk5_eq V c t) _).trans (hW.w10a K k c' h)
  w10b K k c' h := (congrFun (blk5_eq V c t) _).trans (hW.w10b K k c' h)
  w11a K k c' h := (congrFun (blk6_eq V c t) _).trans (hW.w11a K k c' h)
  w11b K k c' h := (congrFun (blk6_eq V c t) _).trans (hW.w11b K k c' h)
  w11c K k c' h := (congrFun (blk6_eq V c t) _).trans (hW.w11c K k c' h)
  w11d K k c' h := (congrFun (blk6_eq V c t) _).trans (hW.w11d K k c' h)
  bias c' := (congrFun (blk7_eq V c t) _).trans (hW.bias c')

theorem point_lt (t : Fin cfg0.N) : t.val < 64 := Nat.lt_of_lt_of_eq t.isLt N_0

/-! ## The result arrays as functions of the entry contents -/

/-- The folded convolution output of every sample. -/
def G9 (c : Dev nD) (w : Fin 3 → Fin 3 → Fin 128 → Fin 128 → EReal) (b : Fin 128 → EReal) : Vec Ideal S64x64x32x256 .f32 :=
  fun q => Spec.yfold1 (xAt V c (q 0)) (scAt V c (q 0)) (shAt V c (q 0)) w b (q 1) (q 2) (q 3)
/-- The projection of every sample. -/
def G10 (c : Dev nD) (wsc : Fin 128 → Fin 128 → EReal) : Vec Ideal S64x32x32x128 .f32 :=
  fun q => Spec.skip1 (xAt V c (q 0)) wsc (q 1) (q 2) (q 3)
/-- The channel sums of every sample. -/
def G11 (c : Dev nD) (w : Fin 3 → Fin 3 → Fin 128 → Fin 128 → EReal) (b : Fin 128 → EReal) : Vec Ideal S64x1x128 .f32 :=
  fun q => Spec.sum1 (xAt V c (q 0)) (scAt V c (q 0)) (shAt V c (q 0)) w b (q 2)
/-- The channel sums of squares of every sample. -/
def G12 (c : Dev nD) (w : Fin 3 → Fin 3 → Fin 128 → Fin 128 → EReal) (b : Fin 128 → EReal) : Vec Ideal S64x1x128 .f32 :=
  fun q => Spec.ssq1 (xAt V c (q 0)) (scAt V c (q 0)) (shAt V c (q 0)) w b (q 2)

/-! ## What each point writes back is its sample's block of those functions -/

theorem flushed9_eq (c : Dev nD) (w : Fin 3 → Fin 3 → Fin 128 → Fin 128 → EReal) (b : Fin 128 → EReal) (hW : PhaseWeights (V c main_v29) (V c main_v34) (V c main_v39) (V c main_v48) (V c main_v49) w b) (t : Fin cfg0.N) :
    (dat0 V c).flushed 9 t = ((cfg0.win 9).blk t).view.read (Elt Ideal) (G9 V c w b) := by
  show (cfg0.win 9).cut (grid0.coords t) ((dat0 V c).after 9 t) = _
  rw [after0_9]
  obtain ⟨e0, e1, e2, e3⟩ := idx9 t
  have ht := point_lt t
  refine funext fun (y : S1x64x32x256.Idx) => ?_
  obtain ⟨y0, I, j, l, rfl⟩ : ∃ (y0 : Fin 1) (I : Fin 64) (j : Fin 32) (l : Fin 256), y = ix4 y0 I j l :=
    ⟨y 0, y 1, y 2, y 3, eq_ix4 y⟩
  obtain rfl : y0 = 0 := Subsingleton.elim _ _
  have hemb : ((cfg0.win 9).blk t).view.emb (ix4 0 I j l) = (ix4 (⟨t.val, ht⟩ : Fin 64) I j l : S64x64x32x256.Idx) := by
    funext a
    apply Fin.ext
    match a with
    | ⟨0, _⟩ => show win0_9.index t (0 : Fin 4) * 1 + 1 * 0 = t.val; omega
    | ⟨1, _⟩ => show win0_9.index t (1 : Fin 4) * 64 + 1 * I.val = I.val; omega
    | ⟨2, _⟩ => show win0_9.index t (2 : Fin 4) * 32 + 1 * j.val = j.val; omega
    | ⟨3, _⟩ => show win0_9.index t (3 : Fin 4) * 256 + 1 * l.val = l.val; omega
  show out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix4 0 I j l) = G9 V c w b (((cfg0.win 9).blk t).view.emb (ix4 0 I j l))
  rw [hemb]
  refine (out0_9_apply (iblk0 V c 0 t) (iblk0 V c 1 t) (iblk0 V c 2 t) (iblk0 V c 3 t) (iblk0 V c 4 t) (iblk0 V c 5 t) (iblk0 V c 6 t) (iblk0 V c 7 t) (iblk0 V c 8 t) w b (weights_blk V c t w b hW) I j l).trans ?_
  show _ = Spec.yfold1 (xAt V c ⟨t.val, ht⟩) (scAt V c ⟨t.val, ht⟩) (shAt V c ⟨t.val, ht⟩) w b I j l
  rw [xblk_eq V c t ⟨t.val, ht⟩ rfl, scblk_eq V c t ⟨t.val, ht⟩ rfl, shblk_eq V c t ⟨t.val, ht⟩ rfl]

theorem flushed10_eq (c : Dev nD) (wsc : Fin 128 → Fin 128 → EReal)
    (hwsc : ∀ k c' : Fin 128, (V c main_v50 : Vec Ideal S128x128 .f32) (ix2 k c') = wsc k c') (t : Fin cfg0.N) :
    (dat0 V c).flushed 10 t = ((cfg0.win 10).blk t).view.read (Elt Ideal) (G10 V c wsc) := by
  show (cfg0.win 10).cut (grid0.coords t) ((dat0 V c).after 10 t) = _
  rw [after0_10]
  obtain ⟨e0, e1, e2, e3⟩ := idx10 t
  have ht := point_lt t
  refine funext fun (y : S1x32x32x128.Idx) => ?_
  obtain ⟨y0, i, j, k, rfl⟩ : ∃ (y0 : Fin 1) (i : Fin 32) (j : Fin 32) (k : Fin 128), y = ix4 y0 i j k :=
    ⟨y 0, y 1, y 2, y 3, eq_ix4 y⟩
  obtain rfl : y0 = 0 := Subsingleton.elim _ _
  have hemb : ((cfg0.win 10).blk t).view.emb (ix4 0 i j k) = (ix4 (⟨t.val, ht⟩ : Fin 64) i j k : S64x32x32x128.Idx) := by
    funext a
    apply Fin.ext
    match a with
    | ⟨0, _⟩ => show win0_10.index t (0 : Fin 4) * 1 + 1 * 0 = t.val; omega
    | ⟨1, _⟩ => show win0_10.index t (1 : Fin 4) * 32 + 1 * i.val = i.val; omega
    | ⟨2, _⟩ => show win0_10.index t (2 : Fin 4) * 32 + 1 * j.val = j.val; omega
    | ⟨3, _⟩ => show win0_10.index t (3 : Fin 4) * 128 + 1 * k.val = k.val; omega
  show out0_10 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix4 0 i j k) = G10 V c wsc (((cfg0.win 10).blk t).view.emb (ix4 0 i j k))
  rw [hemb]
  refine (out0_10_apply (iblk0 V c 0 t) (iblk0 V c 1 t) (iblk0 V c 2 t) (iblk0 V c 3 t) (iblk0 V c 4 t) (iblk0 V c 5 t) (iblk0 V c 6 t) (iblk0 V c 7 t) (iblk0 V c 8 t) wsc (fun k' c' => (congrFun (blk8_eq V c t) _).trans (hwsc k' c')) i j k).trans ?_
  show _ = Spec.skip1 (xAt V c ⟨t.val, ht⟩) wsc i j k
  rw [xblk_eq V c t ⟨t.val, ht⟩ rfl]

theorem flushed11_eq (c : Dev nD) (w : Fin 3 → Fin 3 → Fin 128 → Fin 128 → EReal) (b : Fin 128 → EReal) (hW : PhaseWeights (V c main_v29) (V c main_v34) (V c main_v39) (V c main_v48) (V c main_v49) w b) (t : Fin cfg0.N) :
    (dat0 V c).flushed 11 t = ((cfg0.win 11).blk t).view.read (Elt Ideal) (G11 V c w b) := by
  show (cfg0.win 11).cut (grid0.coords t) ((dat0 V c).after 11 t) = _
  rw [after0_11]
  obtain ⟨e0, e1, e2⟩ := idx11 t
  have ht := point_lt t
  refine funext fun (y : S1x1x128.Idx) => ?_
  obtain ⟨y0, y1, k, rfl⟩ : ∃ (y0 : Fin 1) (y1 : Fin 1) (k : Fin 128), y = ix3 y0 y1 k := ⟨y 0, y 1, y 2, eq_ix3 y⟩
  obtain rfl : y0 = 0 := Subsingleton.elim _ _
  obtain rfl : y1 = 0 := Subsingleton.elim _ _
  have hemb : ((cfg0.win 11).blk t).view.emb (ix3 0 0 k) = (ix3 (⟨t.val, ht⟩ : Fin 64) 0 k : S64x1x128.Idx) := by
    funext a
    apply Fin.ext
    match a with
    | ⟨0, _⟩ => show win0_11.index t (0 : Fin 3) * 1 + 1 * 0 = t.val; omega
    | ⟨1, _⟩ => show win0_11.index t (1 : Fin 3) * 1 + 1 * 0 = 0; omega
    | ⟨2, _⟩ => show win0_11.index t (2 : Fin 3) * 128 + 1 * k.val = k.val; omega
  show out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix3 0 0 k) = G11 V c w b (((cfg0.win 11).blk t).view.emb (ix3 0 0 k))
  rw [hemb]
  refine (out0_11_apply (iblk0 V c 0 t) (iblk0 V c 1 t) (iblk0 V c 2 t) (iblk0 V c 3 t) (iblk0 V c 4 t) (iblk0 V c 5 t) (iblk0 V c 6 t) (iblk0 V c 7 t) (iblk0 V c 8 t) w b (weights_blk V c t w b hW) k).trans ?_
  show _ = Spec.sum1 (xAt V c ⟨t.val, ht⟩) (scAt V c ⟨t.val, ht⟩) (shAt V c ⟨t.val, ht⟩) w b k
  rw [xblk_eq V c t ⟨t.val, ht⟩ rfl, scblk_eq V c t ⟨t.val, ht⟩ rfl, shblk_eq V c t ⟨t.val, ht⟩ rfl]

theorem flushed12_eq (c : Dev nD) (w : Fin 3 → Fin 3 → Fin 128 → Fin 128 → EReal) (b : Fin 128 → EReal) (hW : PhaseWeights (V c main_v29) (V c main_v34) (V c main_v39) (V c main_v48) (V c main_v49) w b) (t : Fin cfg0.N) :
    (dat0 V c).flushed 12 t = ((cfg0.win 12).blk t).view.read (Elt Ideal) (G12 V c w b) := by
  show (cfg0.win 12).cut (grid0.coords t) ((dat0 V c).after 12 t) = _
  rw [after0_12]
  obtain ⟨e0, e1, e2⟩ := idx12 t
  have ht := point_lt t
  refine funext fun (y : S1x1x128.Idx) => ?_
  obtain ⟨y0, y1, k, rfl⟩ : ∃ (y0 : Fin 1) (y1 : Fin 1) (k : Fin 128), y = ix3 y0 y1 k := ⟨y 0, y 1, y 2, eq_ix3 y⟩
  obtain rfl : y0 = 0 := Subsingleton.elim _ _
  obtain rfl : y1 = 0 := Subsingleton.elim _ _
  have hemb : ((cfg0.win 12).blk t).view.emb (ix3 0 0 k) = (ix3 (⟨t.val, ht⟩ : Fin 64) 0 k : S64x1x128.Idx) := by
    funext a
    apply Fin.ext
    match a with
    | ⟨0, _⟩ => show win0_12.index t (0 : Fin 3) * 1 + 1 * 0 = t.val; omega
    | ⟨1, _⟩ => show win0_12.index t (1 : Fin 3) * 1 + 1 * 0 = 0; omega
    | ⟨2, _⟩ => show win0_12.index t (2 : Fin 3) * 128 + 1 * k.val = k.val; omega
  show out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (ix3 0 0 k) = G12 V c w b (((cfg0.win 12).blk t).view.emb (ix3 0 0 k))
  rw [hemb]
  refine (out0_12_apply (iblk0 V c 0 t) (iblk0 V c 1 t) (iblk0 V c 2 t) (iblk0 V c 3 t) (iblk0 V c 4 t) (iblk0 V c 5 t) (iblk0 V c 6 t) (iblk0 V c 7 t) (iblk0 V c 8 t) w b (weights_blk V c t w b hW) k).trans ?_
  show _ = Spec.ssq1 (xAt V c ⟨t.val, ht⟩) (scAt V c ⟨t.val, ht⟩) (shAt V c ⟨t.val, ht⟩) w b k
  rw [xblk_eq V c t ⟨t.val, ht⟩ rfl, scblk_eq V c t ⟨t.val, ht⟩ rfl, shblk_eq V c t ⟨t.val, ht⟩ rfl]

/-! ## The blocks cover the arrays -/

/-- An index of the array is in point `t`'s block iff each coordinate is in the block's range on its axis. -/
theorem mem_blk9 (t : Fin cfg0.N) (q : S64x64x32x256.Idx) :
    q ∈ ((cfg0.win 9).blk t).view.set ↔ ∀ a : Fin 4, win0_9.index t a * S1x64x32x256.size a ≤ (q a).val
      ∧ (q a).val < win0_9.index t a * S1x64x32x256.size a + S1x64x32x256.size a := by
  show q ∈ ((View.whole main_v51_0).slice (win0_9.rect t)).set ↔ _
  rw [View.set_slice_whole, Rect.mem_set_unit]
  exact Iff.rfl

/-- Every index of the array lies in the block of the point that is its sample. -/
theorem cover9 (q : S64x64x32x256.Idx) :
    ∃ t : Fin cfg0.N, (cfg0.win 9).flush t = true ∧ q ∈ ((cfg0.win 9).blk t).view.set := by
  have hq0 : (q 0).val < 64 := (q 0).isLt
  let t : Fin cfg0.N := ⟨(q 0).val, by rw [show cfg0.N = 64 from N_0]; exact hq0⟩
  obtain ⟨e0, e1, e2, e3⟩ := idx9 t
  refine ⟨t, flush0_9 t, ?_⟩
  rw [mem_blk9]
  intro a
  match a with
  | ⟨0, _⟩ =>
    have hq : (q 0).val < 64 := (q 0).isLt
    show win0_9.index t (0 : Fin 4) * 1 ≤ (q 0).val ∧ (q 0).val < win0_9.index t (0 : Fin 4) * 1 + 1
    have ht : t.val = (q 0).val := rfl
    omega
  | ⟨1, _⟩ =>
    have hq : (q 1).val < 64 := (q 1).isLt
    show win0_9.index t (1 : Fin 4) * 64 ≤ (q 1).val ∧ (q 1).val < win0_9.index t (1 : Fin 4) * 64 + 64
    omega
  | ⟨2, _⟩ =>
    have hq : (q 2).val < 32 := (q 2).isLt
    show win0_9.index t (2 : Fin 4) * 32 ≤ (q 2).val ∧ (q 2).val < win0_9.index t (2 : Fin 4) * 32 + 32
    omega
  | ⟨3, _⟩ =>
    have hq : (q 3).val < 256 := (q 3).isLt
    show win0_9.index t (3 : Fin 4) * 256 ≤ (q 3).val ∧ (q 3).val < win0_9.index t (3 : Fin 4) * 256 + 256
    omega

/-- An index of the array is in point `t`'s block iff each coordinate is in the block's range on its axis. -/
theorem mem_blk10 (t : Fin cfg0.N) (q : S64x32x32x128.Idx) :
    q ∈ ((cfg0.win 10).blk t).view.set ↔ ∀ a : Fin 4, win0_10.index t a * S1x32x32x128.size a ≤ (q a).val
      ∧ (q a).val < win0_10.index t a * S1x32x32x128.size a + S1x32x32x128.size a := by
  show q ∈ ((View.whole main_v51_1).slice (win0_10.rect t)).set ↔ _
  rw [View.set_slice_whole, Rect.mem_set_unit]
  exact Iff.rfl

/-- Every index of the array lies in the block of the point that is its sample. -/
theorem cover10 (q : S64x32x32x128.Idx) :
    ∃ t : Fin cfg0.N, (cfg0.win 10).flush t = true ∧ q ∈ ((cfg0.win 10).blk t).view.set := by
  have hq0 : (q 0).val < 64 := (q 0).isLt
  let t : Fin cfg0.N := ⟨(q 0).val, by rw [show cfg0.N = 64 from N_0]; exact hq0⟩
  obtain ⟨e0, e1, e2, e3⟩ := idx10 t
  refine ⟨t, flush0_10 t, ?_⟩
  rw [mem_blk10]
  intro a
  match a with
  | ⟨0, _⟩ =>
    have hq : (q 0).val < 64 := (q 0).isLt
    show win0_10.index t (0 : Fin 4) * 1 ≤ (q 0).val ∧ (q 0).val < win0_10.index t (0 : Fin 4) * 1 + 1
    have ht : t.val = (q 0).val := rfl
    omega
  | ⟨1, _⟩ =>
    have hq : (q 1).val < 32 := (q 1).isLt
    show win0_10.index t (1 : Fin 4) * 32 ≤ (q 1).val ∧ (q 1).val < win0_10.index t (1 : Fin 4) * 32 + 32
    omega
  | ⟨2, _⟩ =>
    have hq : (q 2).val < 32 := (q 2).isLt
    show win0_10.index t (2 : Fin 4) * 32 ≤ (q 2).val ∧ (q 2).val < win0_10.index t (2 : Fin 4) * 32 + 32
    omega
  | ⟨3, _⟩ =>
    have hq : (q 3).val < 128 := (q 3).isLt
    show win0_10.index t (3 : Fin 4) * 128 ≤ (q 3).val ∧ (q 3).val < win0_10.index t (3 : Fin 4) * 128 + 128
    omega

/-- An index of the array is in point `t`'s block iff each coordinate is in the block's range on its axis. -/
theorem mem_blk11 (t : Fin cfg0.N) (q : S64x1x128.Idx) :
    q ∈ ((cfg0.win 11).blk t).view.set ↔ ∀ a : Fin 3, win0_11.index t a * S1x1x128.size a ≤ (q a).val
      ∧ (q a).val < win0_11.index t a * S1x1x128.size a + S1x1x128.size a := by
  show q ∈ ((View.whole main_v51_2).slice (win0_11.rect t)).set ↔ _
  rw [View.set_slice_whole, Rect.mem_set_unit]
  exact Iff.rfl

/-- Every index of the array lies in the block of the point that is its sample. -/
theorem cover11 (q : S64x1x128.Idx) :
    ∃ t : Fin cfg0.N, (cfg0.win 11).flush t = true ∧ q ∈ ((cfg0.win 11).blk t).view.set := by
  have hq0 : (q 0).val < 64 := (q 0).isLt
  let t : Fin cfg0.N := ⟨(q 0).val, by rw [show cfg0.N = 64 from N_0]; exact hq0⟩
  obtain ⟨e0, e1, e2⟩ := idx11 t
  refine ⟨t, flush0_11 t, ?_⟩
  rw [mem_blk11]
  intro a
  match a with
  | ⟨0, _⟩ =>
    have hq : (q 0).val < 64 := (q 0).isLt
    show win0_11.index t (0 : Fin 3) * 1 ≤ (q 0).val ∧ (q 0).val < win0_11.index t (0 : Fin 3) * 1 + 1
    have ht : t.val = (q 0).val := rfl
    omega
  | ⟨1, _⟩ =>
    have hq : (q 1).val < 1 := (q 1).isLt
    show win0_11.index t (1 : Fin 3) * 1 ≤ (q 1).val ∧ (q 1).val < win0_11.index t (1 : Fin 3) * 1 + 1
    omega
  | ⟨2, _⟩ =>
    have hq : (q 2).val < 128 := (q 2).isLt
    show win0_11.index t (2 : Fin 3) * 128 ≤ (q 2).val ∧ (q 2).val < win0_11.index t (2 : Fin 3) * 128 + 128
    omega

/-- An index of the array is in point `t`'s block iff each coordinate is in the block's range on its axis. -/
theorem mem_blk12 (t : Fin cfg0.N) (q : S64x1x128.Idx) :
    q ∈ ((cfg0.win 12).blk t).view.set ↔ ∀ a : Fin 3, win0_12.index t a * S1x1x128.size a ≤ (q a).val
      ∧ (q a).val < win0_12.index t a * S1x1x128.size a + S1x1x128.size a := by
  show q ∈ ((View.whole main_v51_3).slice (win0_12.rect t)).set ↔ _
  rw [View.set_slice_whole, Rect.mem_set_unit]
  exact Iff.rfl

/-- Every index of the array lies in the block of the point that is its sample. -/
theorem cover12 (q : S64x1x128.Idx) :
    ∃ t : Fin cfg0.N, (cfg0.win 12).flush t = true ∧ q ∈ ((cfg0.win 12).blk t).view.set := by
  have hq0 : (q 0).val < 64 := (q 0).isLt
  let t : Fin cfg0.N := ⟨(q 0).val, by rw [show cfg0.N = 64 from N_0]; exact hq0⟩
  obtain ⟨e0, e1, e2⟩ := idx12 t
  refine ⟨t, flush0_12 t, ?_⟩
  rw [mem_blk12]
  intro a
  match a with
  | ⟨0, _⟩ =>
    have hq : (q 0).val < 64 := (q 0).isLt
    show win0_12.index t (0 : Fin 3) * 1 ≤ (q 0).val ∧ (q 0).val < win0_12.index t (0 : Fin 3) * 1 + 1
    have ht : t.val = (q 0).val := rfl
    omega
  | ⟨1, _⟩ =>
    have hq : (q 1).val < 1 := (q 1).isLt
    show win0_12.index t (1 : Fin 3) * 1 ≤ (q 1).val ∧ (q 1).val < win0_12.index t (1 : Fin 3) * 1 + 1
    omega
  | ⟨2, _⟩ =>
    have hq : (q 2).val < 128 := (q 2).isLt
    show win0_12.index t (2 : Fin 3) * 128 ≤ (q 2).val ∧ (q 2).val < win0_12.index t (2 : Fin 3) * 128 + 128
    omega

/-! ## The arrays after the region -/

theorem final9 (c : Dev nD) (w : Fin 3 → Fin 3 → Fin 128 → Fin 128 → EReal) (b : Fin 128 → EReal) (hW : PhaseWeights (V c main_v29) (V c main_v34) (V c main_v39) (V c main_v48) (V c main_v49) w b) : (dat0 V c).arrAt 9 cfg0.N = G9 V c w b :=
  (dat0 V c).arrAt_eq_of_cover 9 (G9 V c w b) (fun t _ => flushed9_eq V c w b hW t) (cover9)

theorem final10 (c : Dev nD) (wsc : Fin 128 → Fin 128 → EReal)
    (hwsc : ∀ k c' : Fin 128, (V c main_v50 : Vec Ideal S128x128 .f32) (ix2 k c') = wsc k c') :
    (dat0 V c).arrAt 10 cfg0.N = G10 V c wsc :=
  (dat0 V c).arrAt_eq_of_cover 10 (G10 V c wsc) (fun t _ => flushed10_eq V c wsc hwsc t) (cover10)

theorem final11 (c : Dev nD) (w : Fin 3 → Fin 3 → Fin 128 → Fin 128 → EReal) (b : Fin 128 → EReal) (hW : PhaseWeights (V c main_v29) (V c main_v34) (V c main_v39) (V c main_v48) (V c main_v49) w b) : (dat0 V c).arrAt 11 cfg0.N = G11 V c w b :=
  (dat0 V c).arrAt_eq_of_cover 11 (G11 V c w b) (fun t _ => flushed11_eq V c w b hW t) (cover11)

theorem final12 (c : Dev nD) (w : Fin 3 → Fin 3 → Fin 128 → Fin 128 → EReal) (b : Fin 128 → EReal) (hW : PhaseWeights (V c main_v29) (V c main_v34) (V c main_v39) (V c main_v48) (V c main_v49) w b) : (dat0 V c).arrAt 12 cfg0.N = G12 V c w b :=
  (dat0 V c).arrAt_eq_of_cover 12 (G12 V c w b) (fun t _ => flushed12_eq V c w b hW t) (cover12)

/-- After the region, sample `N` of the up-sampled array is the specification's folded convolution output of sample
    `N`'s input, scale and shift. -/
theorem arr9_apply (c : Dev nD) (w : Fin 3 → Fin 3 → Fin 128 → Fin 128 → EReal) (b : Fin 128 → EReal) (hW : PhaseWeights (V c main_v29) (V c main_v34) (V c main_v39) (V c main_v48) (V c main_v49) w b) (N : Fin 64) (I : Fin 64) (j : Fin 32) (l : Fin 256) :
    ((dat0 V c).arrAt 9 cfg0.N : Vec Ideal S64x64x32x256 .f32) (ix4 N I j l)
      = Spec.yfold1 (xAt V c N) (scAt V c N) (shAt V c N) w b I j l := by
  rw [final9 V c w b hW]; rfl

/-- After the region, sample `N` of the skip array is the specification's projection of sample `N`'s input. -/
theorem arr10_apply (c : Dev nD) (wsc : Fin 128 → Fin 128 → EReal)
    (hwsc : ∀ k c' : Fin 128, (V c main_v50 : Vec Ideal S128x128 .f32) (ix2 k c') = wsc k c')
    (N : Fin 64) (i j : Fin 32) (k : Fin 128) :
    ((dat0 V c).arrAt 10 cfg0.N : Vec Ideal S64x32x32x128 .f32) (ix4 N i j k) = Spec.skip1 (xAt V c N) wsc i j k := by
  rw [final10 V c wsc hwsc]; rfl

/-- After the region, row `N` of the sums array is the specification's channel sums of sample `N`. -/
theorem arr11_apply (c : Dev nD) (w : Fin 3 → Fin 3 → Fin 128 → Fin 128 → EReal) (b : Fin 128 → EReal) (hW : PhaseWeights (V c main_v29) (V c main_v34) (V c main_v39) (V c main_v48) (V c main_v49) w b) (N : Fin 64) (k : Fin 128) :
    ((dat0 V c).arrAt 11 cfg0.N : Vec Ideal S64x1x128 .f32) (ix3 N 0 k)
      = Spec.sum1 (xAt V c N) (scAt V c N) (shAt V c N) w b k := by
  rw [final11 V c w b hW]; rfl

/-- After the region, row `N` of the sums-of-squares array is the specification's of sample `N`. -/
theorem arr12_apply (c : Dev nD) (w : Fin 3 → Fin 3 → Fin 128 → Fin 128 → EReal) (b : Fin 128 → EReal) (hW : PhaseWeights (V c main_v29) (V c main_v34) (V c main_v39) (V c main_v48) (V c main_v49) w b) (N : Fin 64) (k : Fin 128) :
    ((dat0 V c).arrAt 12 cfg0.N : Vec Ideal S64x1x128 .f32) (ix3 N 0 k)
      = Spec.ssq1 (xAt V c N) (scAt V c N) (shAt V c N) w b k := by
  rw [final12 V c w b hW]; rfl

end Cert.ReferenceIdeal.Val0

end
-- ==== Proof.HostKLay.lean ====
/-
  Layout steps of the kernel program's host stretches, read at an index: blocks laid side by side or stacked, a slab of
  the grouped kernel tensor, the bias row tiled four times, and the zero block of the merged weight matrix.
-/
import proofs.«148433_g2000002724561042_pallasbulk_175_35_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostK

open Cert.KernelIdeal
open Idealize.ShloMosaic Idealize.ShloMosaic.TcCoe Idealize.ShloMosaic.ValueIdx

section Lay
variable {α : Type}

/-- Four 128-column blocks side by side: column `U·128 + c` is column `c` of the `U`-th. -/
theorem cat4_cols (a b d e : S128x128.Idx → α) (h : Shape.Concatenates [S128x128, S128x128, S128x128, S128x128] S128x512 1)
    (p : Fin 128) (U : Fin 4) (c : Fin 128) :
    concatenate S128x512 1 [⟨S128x128, a⟩, ⟨S128x128, b⟩, ⟨S128x128, d⟩, ⟨S128x128, e⟩] h (ix2 p ⟨U.val * 128 + c.val, by have := U.isLt; have := c.isLt; omega⟩)
      = (![a, b, d, e] U) (ix2 p c) := by
  match U with
  | ⟨0, _⟩ =>
    exact concatenate_apply_piece 1 [⟨S128x128, a⟩, ⟨S128x128, b⟩, ⟨S128x128, d⟩, ⟨S128x128, e⟩] h _ 0
      (by show 0 < 4; omega) S128x128 a rfl rfl 0 rfl (ix2 p c)
      (fun b hb => by
        match b with
        | ⟨0, _⟩ => rfl
        | ⟨1, _⟩ => exact absurd rfl hb)
      (by show 0 + c.val = 0 * 128 + c.val; omega)
  | ⟨1, _⟩ =>
    exact concatenate_apply_piece 1 [⟨S128x128, a⟩, ⟨S128x128, b⟩, ⟨S128x128, d⟩, ⟨S128x128, e⟩] h _ 1
      (by show 1 < 4; omega) S128x128 b rfl rfl 128 (by simp) (ix2 p c)
      (fun b hb => by
        match b with
        | ⟨0, _⟩ => rfl
        | ⟨1, _⟩ => exact absurd rfl hb)
      (by show 128 + c.val = 1 * 128 + c.val; omega)
  | ⟨2, _⟩ =>
    exact concatenate_apply_piece 1 [⟨S128x128, a⟩, ⟨S128x128, b⟩, ⟨S128x128, d⟩, ⟨S128x128, e⟩] h _ 2
      (by show 2 < 4; omega) S128x128 d rfl rfl 256 (by simp) (ix2 p c)
      (fun b hb => by
        match b with
        | ⟨0, _⟩ => rfl
        | ⟨1, _⟩ => exact absurd rfl hb)
      (by show 256 + c.val = 2 * 128 + c.val; omega)
  | ⟨3, _⟩ =>
    exact concatenate_apply_piece 1 [⟨S128x128, a⟩, ⟨S128x128, b⟩, ⟨S128x128, d⟩, ⟨S128x128, e⟩] h _ 3
      (by show 3 < 4; omega) S128x128 e rfl rfl 384 (by simp) (ix2 p c)
      (fun b hb => by
        match b with
        | ⟨0, _⟩ => rfl
        | ⟨1, _⟩ => exact absurd rfl hb)
      (by show 384 + c.val = 3 * 128 + c.val; omega)

/-- Four 128-row blocks stacked: row `T·128 + k` is row `k` of the `T`-th. -/
theorem cat4_rows (a b d e : S128x512.Idx → α) (h : Shape.Concatenates [S128x512, S128x512, S128x512, S128x512] S512x512 0)
    (T : Fin 4) (k : Fin 128) (q : Fin 512) :
    concatenate S512x512 0 [⟨S128x512, a⟩, ⟨S128x512, b⟩, ⟨S128x512, d⟩, ⟨S128x512, e⟩] h (ix2 ⟨T.val * 128 + k.val, by have := T.isLt; have := k.isLt; omega⟩ q)
      = (![a, b, d, e] T) (ix2 k q) := by
  match T with
  | ⟨0, _⟩ =>
    exact concatenate_apply_piece 0 [⟨S128x512, a⟩, ⟨S128x512, b⟩, ⟨S128x512, d⟩, ⟨S128x512, e⟩] h _ 0
      (by show 0 < 4; omega) S128x512 a rfl rfl 0 rfl (ix2 k q)
      (fun b hb => by
        match b with
        | ⟨0, _⟩ => exact absurd rfl hb
        | ⟨1, _⟩ => rfl)
      (by show 0 + k.val = 0 * 128 + k.val; omega)
  | ⟨1, _⟩ =>
    exact concatenate_apply_piece 0 [⟨S128x512, a⟩, ⟨S128x512, b⟩, ⟨S128x512, d⟩, ⟨S128x512, e⟩] h _ 1
      (by show 1 < 4; omega) S128x512 b rfl rfl 128 (by simp) (ix2 k q)
      (fun b hb => by
        match b with
        | ⟨0, _⟩ => exact absurd rfl hb
        | ⟨1, _⟩ => rfl)
      (by show 128 + k.val = 1 * 128 + k.val; omega)
  | ⟨2, _⟩ =>
    exact concatenate_apply_piece 0 [⟨S128x512, a⟩, ⟨S128x512, b⟩, ⟨S128x512, d⟩, ⟨S128x512, e⟩] h _ 2
      (by show 2 < 4; omega) S128x512 d rfl rfl 256 (by simp) (ix2 k q)
      (fun b hb => by
        match b with
        | ⟨0, _⟩ => exact absurd rfl hb
        | ⟨1, _⟩ => rfl)
      (by show 256 + k.val = 2 * 128 + k.val; omega)
  | ⟨3, _⟩ =>
    exact concatenate_apply_piece 0 [⟨S128x512, a⟩, ⟨S128x512, b⟩, ⟨S128x512, d⟩, ⟨S128x512, e⟩] h _ 3
      (by show 3 < 4; omega) S128x512 e rfl rfl 384 (by simp) (ix2 k q)
      (fun b hb => by
        match b with
        | ⟨0, _⟩ => exact absurd rfl hb
        | ⟨1, _⟩ => rfl)
      (by show 384 + k.val = 3 * 128 + k.val; omega)

/-- Three 128-column blocks side by side. -/
theorem cat3_cols (a b d : S384x128.Idx → α) (h : Shape.Concatenates [S384x128, S384x128, S384x128] S384x384 1)
    (p : Fin 384) (U : Fin 3) (c : Fin 128) :
    concatenate S384x384 1 [⟨S384x128, a⟩, ⟨S384x128, b⟩, ⟨S384x128, d⟩] h (ix2 p ⟨U.val * 128 + c.val, by have := U.isLt; have := c.isLt; omega⟩)
      = (![a, b, d] U) (ix2 p c) := by
  match U with
  | ⟨0, _⟩ =>
    exact concatenate_apply_piece 1 [⟨S384x128, a⟩, ⟨S384x128, b⟩, ⟨S384x128, d⟩] h _ 0
      (by show 0 < 3; omega) S384x128 a rfl rfl 0 rfl (ix2 p c)
      (fun b hb => by
        match b with
        | ⟨0, _⟩ => rfl
        | ⟨1, _⟩ => exact absurd rfl hb)
      (by show 0 + c.val = 0 * 128 + c.val; omega)
  | ⟨1, _⟩ =>
    exact concatenate_apply_piece 1 [⟨S384x128, a⟩, ⟨S384x128, b⟩, ⟨S384x128, d⟩] h _ 1
      (by show 1 < 3; omega) S384x128 b rfl rfl 128 (by simp) (ix2 p c)
      (fun b hb => by
        match b with
        | ⟨0, _⟩ => rfl
        | ⟨1, _⟩ => exact absurd rfl hb)
      (by show 128 + c.val = 1 * 128 + c.val; omega)
  | ⟨2, _⟩ =>
    exact concatenate_apply_piece 1 [⟨S384x128, a⟩, ⟨S384x128, b⟩, ⟨S384x128, d⟩] h _ 2
      (by show 2 < 3; omega) S384x128 d rfl rfl 256 (by simp) (ix2 p c)
      (fun b hb => by
        match b with
        | ⟨0, _⟩ => rfl
        | ⟨1, _⟩ => exact absurd rfl hb)
      (by show 256 + c.val = 2 * 128 + c.val; omega)

/-- The `(kh, kw)` tap of the 3×3 kernel array, sliced out and flattened to a matrix, at row `k` and column `c`. -/
theorem tap_at (X : S3x3x128x128.Idx → α) (o0 o1 : Fin 3) (h : S3x3x128x128.Slices ![o0.val, o1.val, 0, 0] S1x1x128x128)
    (hc : S1x1x128x128.ShapeCasts S128x128) (k c : Fin 128) :
    shapeCast S128x128 (extractStridedSlice S1x1x128x128 ![o0.val, o1.val, 0, 0] X h) hc (ix2 k c) = X (ix4 o0 o1 k c) := by
  rw [shapeCast_apply _ hc (ix2 k c) (ix4 0 0 k c) (by
    rw [Shape.rowMajor_val_four, Shape.rowMajor_val_two]
    show ((0 * 1 + 0) * 128 + k.val) * 128 + c.val = k.val * 128 + c.val
    omega)]
  exact extractStridedSlice_apply _ X h (ix4 0 0 k c) (ix4 o0 o1 k c) (fun a => by
    match a with
    | ⟨0, _⟩ => show o0.val = o0.val + 0; omega
    | ⟨1, _⟩ => show o1.val = o1.val + 0; omega
    | ⟨2, _⟩ => show k.val = 0 + k.val; omega
    | ⟨3, _⟩ => show c.val = 0 + c.val; omega)

/-- The kernel array `[3,3,128,128]` regrouped as `[3,384,128]`, slab `kh` sliced out and flattened: row `kw·128 + k`. -/
theorem slab_at (X : S3x3x128x128.Idx → α) (hm : S3x3x128x128.ShapeCasts S3x384x128) (kh : Fin 3)
    (h : S3x384x128.Slices ![kh.val, 0, 0] S1x384x128) (hc : S1x384x128.ShapeCasts S384x128) (kw : Fin 3) (k c : Fin 128) :
    shapeCast S384x128 (extractStridedSlice S1x384x128 ![kh.val, 0, 0] (shapeCast S3x384x128 X hm) h) hc
        (ix2 ⟨kw.val * 128 + k.val, by have := kw.isLt; have := k.isLt; omega⟩ c) = X (ix4 kh kw k c) := by
  have hp : kw.val * 128 + k.val < 384 := by have := kw.isLt; have := k.isLt; omega
  rw [shapeCast_apply _ hc (ix2 ⟨kw.val * 128 + k.val, hp⟩ c) (ix3 0 ⟨kw.val * 128 + k.val, hp⟩ c) (by
    rw [Shape.rowMajor_val_three, Shape.rowMajor_val_two]
    show (0 * 384 + (kw.val * 128 + k.val)) * 128 + c.val = (kw.val * 128 + k.val) * 128 + c.val
    omega)]
  rw [extractStridedSlice_apply _ _ h (ix3 0 ⟨kw.val * 128 + k.val, hp⟩ c) (ix3 kh ⟨kw.val * 128 + k.val, hp⟩ c) (fun a => by
    match a with
    | ⟨0, _⟩ => show kh.val = kh.val + 0; omega
    | ⟨1, _⟩ => show kw.val * 128 + k.val = 0 + (kw.val * 128 + k.val); omega
    | ⟨2, _⟩ => show c.val = 0 + c.val; omega)]
  exact shapeCast_apply X hm (ix3 kh ⟨kw.val * 128 + k.val, hp⟩ c) (ix4 kh kw k c) (by
    rw [Shape.rowMajor_val_four, Shape.rowMajor_val_three]
    show ((kh.val * 3 + kw.val) * 128 + k.val) * 128 + c.val = (kh.val * 384 + (kw.val * 128 + k.val)) * 128 + c.val
    omega)

/-- A vector `[128]` as a row, repeated four times down, read off as one long row `[1,512]`: entry `U·128 + c` is entry `c`. -/
theorem tiled_row_at (X : S128.Idx → α) (h1 : S128.ShapeCasts S1x128) (hb : S1x128.BroadcastsInDim S4x128 ![0, 1])
    (h2 : S4x128.ShapeCasts S512) (h3 : S512.ShapeCasts S1x512) (U : Fin 4) (c : Fin 128) :
    shapeCast S1x512 (shapeCast S512 (broadcastInDim S4x128 ![0, 1] hb (shapeCast S1x128 X h1)) h2) h3
        (ix2 0 ⟨U.val * 128 + c.val, by have := U.isLt; have := c.isLt; omega⟩) = X (ix1 c) := by
  have hq : U.val * 128 + c.val < 512 := by have := U.isLt; have := c.isLt; omega
  rw [shapeCast_apply _ h3 (ix2 0 ⟨U.val * 128 + c.val, hq⟩) (ix1 ⟨U.val * 128 + c.val, hq⟩) (by
    rw [Shape.rowMajor_val_one, Shape.rowMajor_val_two]
    show U.val * 128 + c.val = 0 * 512 + (U.val * 128 + c.val)
    omega)]
  rw [shapeCast_apply _ h2 (ix1 ⟨U.val * 128 + c.val, hq⟩) (ix2 U c) (by
    rw [Shape.rowMajor_val_two, Shape.rowMajor_val_one]
    show U.val * 128 + c.val = U.val * 128 + c.val
    rfl)]
  rw [broadcastInDim_apply _ hb _ (ix2 U c) (ix2 0 c) (fun a => by
    match a with
    | ⟨0, _⟩ => rfl
    | ⟨1, _⟩ => rfl)]
  exact shapeCast_apply X h1 (ix2 0 c) (ix1 c) (by
    rw [Shape.rowMajor_val_one, Shape.rowMajor_val_two]
    show c.val = 0 * 128 + c.val
    omega)

end Lay

/-- The zero block: the f32 zero word splat over a matrix is the extended real `0` everywhere. -/
theorem zero_block_at (hb : S_.BroadcastsInDim S128x128 ![]) (i : S128x128.Idx) :
    (broadcastInDim S128x128 ![] hb (constant (F := Ideal) S_ .f32 0x00000000#32) : S128x128.Idx → EReal) i = 0 := by
  rw [broadcastInDim_apply _ hb _ i (fun a => a.elim0) (fun a => a.elim0)]
  exact Ideal.ofBits_zero_f32

end Cert.KernelIdeal.HostK

end
-- ==== Proof.LibFoldAppend.lean ====
/-
  The contents after a line of host operations, for a line given in two pieces.

  `StableHlo.after ops V` folds the operations' results over the contents `V`, in order. Running a line that is
  one list followed by another is running the first list and then, from what it leaves, the second.
  General in the program's signature, the topology and the value family.
-/
import Idealize.ShloMosaic.Lib.StableHlo.Run

namespace FoldAppend

open Idealize.ShloMosaic Idealize.ShloMosaic.StableHlo

variable {τ : Topo} {sig : RefSig} {Val : EltTy → Type}

/-- The fold over an appended list is the fold over the second list from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end FoldAppend
-- ==== Proof.K0HostAlt.lean ====
import proofs.«148433_g2000002724561042_pallasbulk_175_35_alg».proof.Proof.Gen.KernelIdeal.Launch
import proofs.«148433_g2000002724561042_pallasbulk_175_35_alg».proof.Proof.HostKLay
import proofs.«148433_g2000002724561042_pallasbulk_175_35_alg».proof.Proof.K0Dot
import proofs.«148433_g2000002724561042_pallasbulk_175_35_alg».proof.Proof.LibFoldAppend
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostK0Alt

open Cert.KernelIdeal Cert.KernelIdeal.Gen
open Idealize.ShloMosaic Idealize.ShloMosaic.TcCoe Idealize.ShloMosaic.ValueIdx
open Idealize.ShloMosaic.StableHlo (after)

/-!
# The merged weight table, read off the first host stretch piece by piece

The stretch is cut into consecutive pieces: the statistics of the input (which never touch the kernel array), the zero
block, then one piece per row of blocks of the table (its taps sliced out of the 3×3 kernel array, then set side by side),
the stacking of the four rows with the change of format, and the rest. Running the stretch is running the pieces in order,
and each piece is read on its own from whatever contents it starts from.
-/

section Pieces
variable {F : FTy → Type} [FloatOps F]

/-- The input's statistics and the per-sample scale and shift. -/
def opsA : List (HloOp τ sig (Elt F)) :=
  [ StableHlo.unary main_arg0 main_v0 ((transpose S64x32x32x128 [0, 2, 3, 1] · transposes_S64x128x32x32_S64x32x32x128_0_2_3_1) : (⟨S64x128x32x32, .f32⟩ : BufTy).Contents (Elt F) → (⟨S64x32x32x128, .f32⟩ : BufTy).Contents (Elt F))
  , StableHlo.nullary main_cst (constant S_ .f32 0x00000000#32)
  , StableHlo.binary main_arg0 main_cst main_v1 ((fun x v => Host.reduceAdd x v reducesTo_S64x128x32x32_S128_d0_2_3 h_S_) : (⟨S64x128x32x32, .f32⟩ : BufTy).Contents (Elt F) → (⟨S_, .f32⟩ : BufTy).Contents (Elt F) → (⟨S128, .f32⟩ : BufTy).Contents (Elt F))
  , StableHlo.nullary main_cst_0 (constant S_ .f32 0x47800000#32)
  , StableHlo.unary main_cst_0 main_v2 (broadcastInDim S128 ![] bcast_S_S128 : (⟨S_, .f32⟩ : BufTy).Contents (Elt F) → (⟨S128, .f32⟩ : BufTy).Contents (Elt F))
  , StableHlo.binary main_v1 main_v2 main_v3 (Host.divf : (⟨S128, .f32⟩ : BufTy).Contents (Elt F) → (⟨S128, .f32⟩ : BufTy).Contents (Elt F) → (⟨S128, .f32⟩ : BufTy).Contents (Elt F))
  , StableHlo.binary main_arg0 main_arg0 main_v4 (mulf : (⟨S64x128x32x32, .f32⟩ : BufTy).Contents (Elt F) → (⟨S64x128x32x32, .f32⟩ : BufTy).Contents (Elt F) → (⟨S64x128x32x32, .f32⟩ : BufTy).Contents (Elt F))
  , StableHlo.nullary main_cst_1 (constant S_ .f32 0x00000000#32)
  , StableHlo.binary main_v4 main_cst_1 main_v5 ((fun x v => Host.reduceAdd x v reducesTo_S64x128x32x32_S128_d0_2_3 h_S_) : (⟨S64x128x32x32, .f32⟩ : BufTy).Contents (Elt F) → (⟨S_, .f32⟩ : BufTy).Contents (Elt F) → (⟨S128, .f32⟩ : BufTy).Contents (Elt F))
  , StableHlo.nullary main_cst_2 (constant S_ .f32 0x47800000#32)
  , StableHlo.unary main_cst_2 main_v6 (broadcastInDim S128 ![] bcast_S_S128 : (⟨S_, .f32⟩ : BufTy).Contents (Elt F) → (⟨S128, .f32⟩ : BufTy).Contents (Elt F))
  , StableHlo.binary main_v5 main_v6 main_v7 (Host.divf : (⟨S128, .f32⟩ : BufTy).Contents (Elt F) → (⟨S128, .f32⟩ : BufTy).Contents (Elt F) → (⟨S128, .f32⟩ : BufTy).Contents (Elt F))
  , StableHlo.binary main_v3 main_v3 main_v8 (mulf : (⟨S128, .f32⟩ : BufTy).Contents (Elt F) → (⟨S128, .f32⟩ : BufTy).Contents (Elt F) → (⟨S128, .f32⟩ : BufTy).Contents (Elt F))
  , StableHlo.binary main_v7 main_v8 main_v9 (subf : (⟨S128, .f32⟩ : BufTy).Contents (Elt F) → (⟨S128, .f32⟩ : BufTy).Contents (Elt F) → (⟨S128, .f32⟩ : BufTy).Contents (Elt F))
  , StableHlo.nullary main_cst_3 (constant S_ .f32 0x3727C5AC#32)
  , StableHlo.unary main_cst_3 main_v10 (broadcastInDim S128 ![] bcast_S_S128 : (⟨S_, .f32⟩ : BufTy).Contents (Elt F) → (⟨S128, .f32⟩ : BufTy).Contents (Elt F))
  , StableHlo.binary main_v9 main_v10 main_v11 (addf : (⟨S128, .f32⟩ : BufTy).Contents (Elt F) → (⟨S128, .f32⟩ : BufTy).Contents (Elt F) → (⟨S128, .f32⟩ : BufTy).Contents (Elt F))
  , StableHlo.unary main_v11 main_v12 (Host.rsqrt : (⟨S128, .f32⟩ : BufTy).Contents (Elt F) → (⟨S128, .f32⟩ : BufTy).Contents (Elt F))
  , StableHlo.binary main_arg1 main_arg2 main_v13 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F))
  , StableHlo.binary main_arg1 main_arg3 main_v14 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F))
  , StableHlo.unary main_v12 main_v15 (broadcastInDim S1x128 ![1] bcast_S128_S1x128_1 : (⟨S128, .f32⟩ : BufTy).Contents (Elt F) → (⟨S1x128, .f32⟩ : BufTy).Contents (Elt F))
  , StableHlo.unary main_v15 main_v16 (broadcastInDim S64x128 ![0, 1] bcast_S1x128_S64x128_0_1 : (⟨S1x128, .f32⟩ : BufTy).Contents (Elt F) → (⟨S64x128, .f32⟩ : BufTy).Contents (Elt F))
  , StableHlo.binary main_v13 main_v16 main_v17 (mulf : (⟨S64x128, .f32⟩ : BufTy).Contents (Elt F) → (⟨S64x128, .f32⟩ : BufTy).Contents (Elt F) → (⟨S64x128, .f32⟩ : BufTy).Contents (Elt F))
  , StableHlo.reshape main_v17 main_v18 rfl shapeCasts_S64x128_S64x1x128
  , StableHlo.unary main_v3 main_v19 (broadcastInDim S1x128 ![1] bcast_S128_S1x128_1 : (⟨S128, .f32⟩ : BufTy).Contents (Elt F) → (⟨S1x128, .f32⟩ : BufTy).Contents (Elt F))
  , StableHlo.unary main_v19 main_v20 (broadcastInDim S64x128 ![0, 1] bcast_S1x128_S64x128_0_1 : (⟨S1x128, .f32⟩ : BufTy).Contents (Elt F) → (⟨S64x128, .f32⟩ : BufTy).Contents (Elt F))
  , StableHlo.binary main_v13 main_v20 main_v21 (mulf : (⟨S64x128, .f32⟩ : BufTy).Contents (Elt F) → (⟨S64x128, .f32⟩ : BufTy).Contents (Elt F) → (⟨S64x128, .f32⟩ : BufTy).Contents (Elt F))
  , StableHlo.unary main_v12 main_v22 (broadcastInDim S1x128 ![1] bcast_S128_S1x128_1 : (⟨S128, .f32⟩ : BufTy).Contents (Elt F) → (⟨S1x128, .f32⟩ : BufTy).Contents (Elt F))
  , StableHlo.unary main_v22 main_v23 (broadcastInDim S64x128 ![0, 1] bcast_S1x128_S64x128_0_1 : (⟨S1x128, .f32⟩ : BufTy).Contents (Elt F) → (⟨S64x128, .f32⟩ : BufTy).Contents (Elt F))
  , StableHlo.binary main_v21 main_v23 main_v24 (mulf : (⟨S64x128, .f32⟩ : BufTy).Contents (Elt F) → (⟨S64x128, .f32⟩ : BufTy).Contents (Elt F) → (⟨S64x128, .f32⟩ : BufTy).Contents (Elt F))
  , StableHlo.binary main_v14 main_v24 main_v25 (subf : (⟨S64x128, .f32⟩ : BufTy).Contents (Elt F) → (⟨S64x128, .f32⟩ : BufTy).Contents (Elt F) → (⟨S64x128, .f32⟩ : BufTy).Contents (Elt F))
  , StableHlo.reshape main_v25 main_v26 rfl shapeCasts_S64x128_S64x1x128 ]

/-- The zero block. -/
def ops27 : List (HloOp τ sig (Elt F)) :=
  [ StableHlo.nullary main_cst_4 (constant S_ .f32 0x00000000#32)
  , StableHlo.unary main_cst_4 main_v27 (broadcastInDim S128x128 ![] bcast_S_S128x128 : (⟨S_, .f32⟩ : BufTy).Contents (Elt F) → (⟨S128x128, .f32⟩ : BufTy).Contents (Elt F)) ]

/-- The first row of blocks: centre, left, upper and upper-left taps. -/
def opsR0 : List (HloOp τ sig (Elt F)) :=
  [ StableHlo.unary main_arg6 main_v28 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F))
  , StableHlo.reshape main_v28 main_v29 rfl shapeCasts_S1x1x128x128_S128x128
  , StableHlo.unary main_arg6 main_v30 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F))
  , StableHlo.reshape main_v30 main_v31 rfl shapeCasts_S1x1x128x128_S128x128
  , StableHlo.unary main_arg6 main_v32 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F))
  , StableHlo.reshape main_v32 main_v33 rfl shapeCasts_S1x1x128x128_S128x128
  , StableHlo.unary main_arg6 main_v34 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F))
  , StableHlo.reshape main_v34 main_v35 rfl shapeCasts_S1x1x128x128_S128x128
  , StableHlo.nary ![main_v29, main_v31, main_v33, main_v35] main_v36 (fun u => concatenate S128x512 1 [⟨S128x128, u 0⟩, ⟨S128x128, u 1⟩, ⟨S128x128, u 2⟩, ⟨S128x128, u 3⟩] concatenates_S128x128_S128x128_S128x128_S128x128_S128x512_d1) ]

/-- The second row of blocks. -/
def opsR1 : List (HloOp τ sig (Elt F)) :=
  [ StableHlo.unary main_arg6 main_v37 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F))
  , StableHlo.reshape main_v37 main_v38 rfl shapeCasts_S1x1x128x128_S128x128
  , StableHlo.unary main_arg6 main_v39 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F))
  , StableHlo.reshape main_v39 main_v40 rfl shapeCasts_S1x1x128x128_S128x128
  , StableHlo.nary ![main_v27, main_v38, main_v27, main_v40] main_v41 (fun u => concatenate S128x512 1 [⟨S128x128, u 0⟩, ⟨S128x128, u 1⟩, ⟨S128x128, u 2⟩, ⟨S128x128, u 3⟩] concatenates_S128x128_S128x128_S128x128_S128x128_S128x512_d1) ]

/-- The third row of blocks. -/
def opsR2 : List (HloOp τ sig (Elt F)) :=
  [ StableHlo.unary main_arg6 main_v42 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F))
  , StableHlo.reshape main_v42 main_v43 rfl shapeCasts_S1x1x128x128_S128x128
  , StableHlo.unary main_arg6 main_v44 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F))
  , StableHlo.reshape main_v44 main_v45 rfl shapeCasts_S1x1x128x128_S128x128
  , StableHlo.nary ![main_v27, main_v27, main_v43, main_v45] main_v46 (fun u => concatenate S128x512 1 [⟨S128x128, u 0⟩, ⟨S128x128, u 1⟩, ⟨S128x128, u 2⟩, ⟨S128x128, u 3⟩] concatenates_S128x128_S128x128_S128x128_S128x128_S128x512_d1) ]

/-- The fourth row of blocks. -/
def opsR3 : List (HloOp τ sig (Elt F)) :=
  [ StableHlo.unary main_arg6 main_v47 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F))
  , StableHlo.reshape main_v47 main_v48 rfl shapeCasts_S1x1x128x128_S128x128
  , StableHlo.nary ![main_v27, main_v27, main_v27, main_v48] main_v49 (fun u => concatenate S128x512 1 [⟨S128x128, u 0⟩, ⟨S128x128, u 1⟩, ⟨S128x128, u 2⟩, ⟨S128x128, u 3⟩] concatenates_S128x128_S128x128_S128x128_S128x128_S128x512_d1) ]

/-- The four rows stacked, then the change of format. -/
def opsM : List (HloOp τ sig (Elt F)) :=
  [ StableHlo.nary ![main_v36, main_v41, main_v46, main_v49] main_v50 (fun u => concatenate S512x512 0 [⟨S128x512, u 0⟩, ⟨S128x512, u 1⟩, ⟨S128x512, u 2⟩, ⟨S128x512, u 3⟩] concatenates_S128x512_S128x512_S128x512_S128x512_S512x512_d0)
  , StableHlo.unary main_v50 main_v51 ((truncf .bf16 · bitsLt_bf16_f32) : (⟨S512x512, .f32⟩ : BufTy).Contents (Elt F) → (⟨S512x512, .bf16⟩ : BufTy).Contents (Elt F)) ]

/-- The bias row and the skip weights. -/
def opsZ : List (HloOp τ sig (Elt F)) :=
  [ StableHlo.reshape main_arg7 main_v52 rfl shapeCasts_S128_S1x128
  , StableHlo.unary main_v52 main_v53 (broadcastInDim S4x128 ![0, 1] bcast_S1x128_S4x128_0_1 : (⟨S1x128, .f32⟩ : BufTy).Contents (Elt F) → (⟨S4x128, .f32⟩ : BufTy).Contents (Elt F))
  , StableHlo.reshape main_v53 main_v54 rfl shapeCasts_S4x128_S512
  , StableHlo.reshape main_v54 main_v55 rfl shapeCasts_S512_S1x512
  , StableHlo.reshape main_arg10 main_v56 rfl shapeCasts_S1x1x128x128_S128x128
  , StableHlo.unary main_v56 main_v57 ((truncf .bf16 · bitsLt_bf16_f32) : (⟨S128x128, .f32⟩ : BufTy).Contents (Elt F) → (⟨S128x128, .bf16⟩ : BufTy).Contents (Elt F)) ]

/-- The stretch is its pieces, in order. -/
theorem hostOps0_pieces : (hostOps0 : List (HloOp τ sig (Elt F)))
    = opsA ++ (ops27 ++ (opsR0 ++ (opsR1 ++ (opsR2 ++ (opsR3 ++ (opsM ++ opsZ)))))) := rfl

end Pieces

open Idealize.ShloMosaic.StableHlo in
/-- One pass over a short literal list of host operations: each operation's result at its own buffer is its function of its
    operands' contents, at any other buffer what was there. -/
local macro "seg_read" : tactic =>
  `(tactic| (simp (disch := decide) only [after_cons, after_nil,
      nullary_result', unary_result', binary_result', reshape_result', nary4_result',
      nullary_result_ne', unary_result_ne', binary_result_ne', reshape_result_ne', nary_result_ne']))

/-! ## The blocks and rows of the table, as functions of the kernel array -/

/-- One tap of the kernel array as a matrix. -/
abbrev tapM (X : S3x3x128x128.Idx → EReal) (o : Fin 4 → Nat) (h : S3x3x128x128.Slices o S1x1x128x128) : S128x128.Idx → EReal :=
  shapeCast S128x128 (extractStridedSlice S1x1x128x128 o X h) shapeCasts_S1x1x128x128_S128x128

/-- The zero block. -/
abbrev zeroM : S128x128.Idx → EReal := broadcastInDim S128x128 ![] bcast_S_S128x128 (constant (F := Ideal) S_ .f32 0x00000000#32)

/-- The first row of blocks. -/
def row0 (X : S3x3x128x128.Idx → EReal) : S128x512.Idx → EReal :=
  concatenate S128x512 1 [⟨S128x128, tapM X ![1, 1, 0, 0] slices_S3x3x128x128_S1x1x128x128_1_1_0_0⟩, ⟨S128x128, tapM X ![1, 0, 0, 0] slices_S3x3x128x128_S1x1x128x128_1_0_0_0⟩, ⟨S128x128, tapM X ![0, 1, 0, 0] slices_S3x3x128x128_S1x1x128x128_0_1_0_0⟩, ⟨S128x128, tapM X ![0, 0, 0, 0] slices_S3x3x128x128_S1x1x128x128_0_0_0_0⟩] concatenates_S128x128_S128x128_S128x128_S128x128_S128x512_d1

/-- The second row of blocks. -/
def row1 (Zb : S128x128.Idx → EReal) (X : S3x3x128x128.Idx → EReal) : S128x512.Idx → EReal :=
  concatenate S128x512 1 [⟨S128x128, Zb⟩, ⟨S128x128, tapM X ![1, 2, 0, 0] slices_S3x3x128x128_S1x1x128x128_1_2_0_0⟩, ⟨S128x128, Zb⟩, ⟨S128x128, tapM X ![0, 2, 0, 0] slices_S3x3x128x128_S1x1x128x128_0_2_0_0⟩] concatenates_S128x128_S128x128_S128x128_S128x128_S128x512_d1

/-- The third row of blocks. -/
def row2 (Zb : S128x128.Idx → EReal) (X : S3x3x128x128.Idx → EReal) : S128x512.Idx → EReal :=
  concatenate S128x512 1 [⟨S128x128, Zb⟩, ⟨S128x128, Zb⟩, ⟨S128x128, tapM X ![2, 1, 0, 0] slices_S3x3x128x128_S1x1x128x128_2_1_0_0⟩, ⟨S128x128, tapM X ![2, 0, 0, 0] slices_S3x3x128x128_S1x1x128x128_2_0_0_0⟩] concatenates_S128x128_S128x128_S128x128_S128x128_S128x512_d1

/-- The fourth row of blocks. -/
def row3 (Zb : S128x128.Idx → EReal) (X : S3x3x128x128.Idx → EReal) : S128x512.Idx → EReal :=
  concatenate S128x512 1 [⟨S128x128, Zb⟩, ⟨S128x128, Zb⟩, ⟨S128x128, Zb⟩, ⟨S128x128, tapM X ![2, 2, 0, 0] slices_S3x3x128x128_S1x1x128x128_2_2_0_0⟩] concatenates_S128x128_S128x128_S128x128_S128x128_S128x512_d1

/-! ## Each piece, read from any contents -/

theorem keep_opsA_arg6 (G : Valuation τ sig (Elt Ideal)) :
    after (opsA (F := Ideal)) G (Proc.devRef .tc main_arg6) = G (Proc.devRef .tc main_arg6) := by
  unfold opsA
  seg_read

theorem keep_ops27_arg6 (G : Valuation τ sig (Elt Ideal)) :
    after (ops27 (F := Ideal)) G (Proc.devRef .tc main_arg6) = G (Proc.devRef .tc main_arg6) := by
  unfold ops27
  seg_read

theorem read_ops27 (G : Valuation τ sig (Elt Ideal)) : after (ops27 (F := Ideal)) G (Proc.devRef .tc main_v27) = zeroM := by
  unfold ops27
  seg_read

theorem keep_opsR0_arg6 (G : Valuation τ sig (Elt Ideal)) :
    after (opsR0 (F := Ideal)) G (Proc.devRef .tc main_arg6) = G (Proc.devRef .tc main_arg6) := by
  unfold opsR0
  seg_read

theorem keep_opsR0_v27 (G : Valuation τ sig (Elt Ideal)) :
    after (opsR0 (F := Ideal)) G (Proc.devRef .tc main_v27) = G (Proc.devRef .tc main_v27) := by
  unfold opsR0
  seg_read

theorem read_opsR0 (G : Valuation τ sig (Elt Ideal)) :
    after (opsR0 (F := Ideal)) G (Proc.devRef .tc main_v36) = row0 (G (Proc.devRef .tc main_arg6)) := by
  unfold opsR0
  seg_read
  rfl

theorem keep_opsR1_arg6 (G : Valuation τ sig (Elt Ideal)) :
    after (opsR1 (F := Ideal)) G (Proc.devRef .tc main_arg6) = G (Proc.devRef .tc main_arg6) := by
  unfold opsR1
  seg_read

theorem keep_opsR1_v27 (G : Valuation τ sig (Elt Ideal)) :
    after (opsR1 (F := Ideal)) G (Proc.devRef .tc main_v27) = G (Proc.devRef .tc main_v27) := by
  unfold opsR1
  seg_read

theorem keep_opsR1_v36 (G : Valuation τ sig (Elt Ideal)) :
    after (opsR1 (F := Ideal)) G (Proc.devRef .tc main_v36) = G (Proc.devRef .tc main_v36) := by
  unfold opsR1
  seg_read

theorem read_opsR1 (G : Valuation τ sig (Elt Ideal)) :
    after (opsR1 (F := Ideal)) G (Proc.devRef .tc main_v41) = row1 (G (Proc.devRef .tc main_v27)) (G (Proc.devRef .tc main_arg6)) := by
  unfold opsR1
  seg_read
  rfl

theorem keep_opsR2_arg6 (G : Valuation τ sig (Elt Ideal)) :
    after (opsR2 (F := Ideal)) G (Proc.devRef .tc main_arg6) = G (Proc.devRef .tc main_arg6) := by
  unfold opsR2
  seg_read

theorem keep_opsR2_v27 (G : Valuation τ sig (Elt Ideal)) :
    after (opsR2 (F := Ideal)) G (Proc.devRef .tc main_v27) = G (Proc.devRef .tc main_v27) := by
  unfold opsR2
  seg_read

theorem keep_opsR2_v36 (G : Valuation τ sig (Elt Ideal)) :
    after (opsR2 (F := Ideal)) G (Proc.devRef .tc main_v36) = G (Proc.devRef .tc main_v36) := by
  unfold opsR2
  seg_read

theorem keep_opsR2_v41 (G : Valuation τ sig (Elt Ideal)) :
    after (opsR2 (F := Ideal)) G (Proc.devRef .tc main_v41) = G (Proc.devRef .tc main_v41) := by
  unfold opsR2
  seg_read

theorem read_opsR2 (G : Valuation τ sig (Elt Ideal)) :
    after (opsR2 (F := Ideal)) G (Proc.devRef .tc main_v46) = row2 (G (Proc.devRef .tc main_v27)) (G (Proc.devRef .tc main_arg6)) := by
  unfold opsR2
  seg_read
  rfl

theorem keep_opsR3_v36 (G : Valuation τ sig (Elt Ideal)) :
    after (opsR3 (F := Ideal)) G (Proc.devRef .tc main_v36) = G (Proc.devRef .tc main_v36) := by
  unfold opsR3
  seg_read

theorem keep_opsR3_v41 (G : Valuation τ sig (Elt Ideal)) :
    after (opsR3 (F := Ideal)) G (Proc.devRef .tc main_v41) = G (Proc.devRef .tc main_v41) := by
  unfold opsR3
  seg_read

theorem keep_opsR3_v46 (G : Valuation τ sig (Elt Ideal)) :
    after (opsR3 (F := Ideal)) G (Proc.devRef .tc main_v46) = G (Proc.devRef .tc main_v46) := by
  unfold opsR3
  seg_read

theorem read_opsR3 (G : Valuation τ sig (Elt Ideal)) :
    after (opsR3 (F := Ideal)) G (Proc.devRef .tc main_v49) = row3 (G (Proc.devRef .tc main_v27)) (G (Proc.devRef .tc main_arg6)) := by
  unfold opsR3
  seg_read
  rfl

theorem read_opsM (G : Valuation τ sig (Elt Ideal)) :
    (after (opsM (F := Ideal)) G (Proc.devRef .tc main_v51) : S512x512.Idx → EReal)
      = concatenate S512x512 0 [⟨S128x512, G (Proc.devRef .tc main_v36)⟩, ⟨S128x512, G (Proc.devRef .tc main_v41)⟩, ⟨S128x512, G (Proc.devRef .tc main_v46)⟩,
          ⟨S128x512, G (Proc.devRef .tc main_v49)⟩] concatenates_S128x512_S128x512_S128x512_S128x512_S512x512_d0 := by
  unfold opsM
  seg_read
  rfl

theorem keep_opsZ_v51 (G : Valuation τ sig (Elt Ideal)) :
    after (opsZ (F := Ideal)) G (Proc.devRef .tc main_v51) = G (Proc.devRef .tc main_v51) := by
  unfold opsZ
  seg_read

/-! ## The whole stretch -/

/-- Four rows of blocks stacked. -/
def tableM (r0 r1 r2 r3 : S128x512.Idx → EReal) : S512x512.Idx → EReal :=
  concatenate S512x512 0 [⟨S128x512, r0⟩, ⟨S128x512, r1⟩, ⟨S128x512, r2⟩, ⟨S128x512, r3⟩]
    concatenates_S128x512_S128x512_S128x512_S128x512_S512x512_d0

theorem read_opsM' (G : Valuation τ sig (Elt Ideal)) :
    (after (opsM (F := Ideal)) G (Proc.devRef .tc main_v51) : S512x512.Idx → EReal)
      = tableM (G (Proc.devRef .tc main_v36)) (G (Proc.devRef .tc main_v41)) (G (Proc.devRef .tc main_v46)) (G (Proc.devRef .tc main_v49)) := read_opsM G

section Table
variable (V : Valuation τ sig (Elt Ideal))

/-- After the stretch the merged table is the four rows of blocks of the kernel array the stretch started with, stacked. -/
theorem v51_eq : (after (hostOps0 (F := Ideal)) V (Proc.devRef .tc main_v51) : S512x512.Idx → EReal)
    = tableM (row0 (V (Proc.devRef .tc main_arg6))) (row1 zeroM (V (Proc.devRef .tc main_arg6))) (row2 zeroM (V (Proc.devRef .tc main_arg6))) (row3 zeroM (V (Proc.devRef .tc main_arg6))) := by
  rw [hostOps0_pieces]
  simp only [FoldAppend.after_append]
  have a6 : after (opsA (F := Ideal)) V (Proc.devRef .tc main_arg6) = V (Proc.devRef .tc main_arg6) := keep_opsA_arg6 V
  generalize after (opsA (F := Ideal)) V = G0 at a6 ⊢
  have b6 : after (ops27 (F := Ideal)) G0 (Proc.devRef .tc main_arg6) = V (Proc.devRef .tc main_arg6) := (keep_ops27_arg6 G0).trans a6
  have b27 : after (ops27 (F := Ideal)) G0 (Proc.devRef .tc main_v27) = zeroM := read_ops27 G0
  generalize after (ops27 (F := Ideal)) G0 = G1 at b6 b27 ⊢
  have c6 : after (opsR0 (F := Ideal)) G1 (Proc.devRef .tc main_arg6) = V (Proc.devRef .tc main_arg6) := (keep_opsR0_arg6 G1).trans b6
  have c27 : after (opsR0 (F := Ideal)) G1 (Proc.devRef .tc main_v27) = zeroM := (keep_opsR0_v27 G1).trans b27
  have c36 : after (opsR0 (F := Ideal)) G1 (Proc.devRef .tc main_v36) = row0 (V (Proc.devRef .tc main_arg6)) := (read_opsR0 G1).trans (congrArg row0 b6)
  generalize after (opsR0 (F := Ideal)) G1 = G2 at c6 c27 c36 ⊢
  have d6 : after (opsR1 (F := Ideal)) G2 (Proc.devRef .tc main_arg6) = V (Proc.devRef .tc main_arg6) := (keep_opsR1_arg6 G2).trans c6
  have d27 : after (opsR1 (F := Ideal)) G2 (Proc.devRef .tc main_v27) = zeroM := (keep_opsR1_v27 G2).trans c27
  have d36 : after (opsR1 (F := Ideal)) G2 (Proc.devRef .tc main_v36) = row0 (V (Proc.devRef .tc main_arg6)) := (keep_opsR1_v36 G2).trans c36
  have d41 : after (opsR1 (F := Ideal)) G2 (Proc.devRef .tc main_v41) = row1 zeroM (V (Proc.devRef .tc main_arg6)) :=
    (read_opsR1 G2).trans (congrArg₂ row1 c27 c6)
  generalize after (opsR1 (F := Ideal)) G2 = G3 at d6 d27 d36 d41 ⊢
  have e6 : after (opsR2 (F := Ideal)) G3 (Proc.devRef .tc main_arg6) = V (Proc.devRef .tc main_arg6) := (keep_opsR2_arg6 G3).trans d6
  have e27 : after (opsR2 (F := Ideal)) G3 (Proc.devRef .tc main_v27) = zeroM := (keep_opsR2_v27 G3).trans d27
  have e36 : after (opsR2 (F := Ideal)) G3 (Proc.devRef .tc main_v36) = row0 (V (Proc.devRef .tc main_arg6)) := (keep_opsR2_v36 G3).trans d36
  have e41 : after (opsR2 (F := Ideal)) G3 (Proc.devRef .tc main_v41) = row1 zeroM (V (Proc.devRef .tc main_arg6)) := (keep_opsR2_v41 G3).trans d41
  have e46 : after (opsR2 (F := Ideal)) G3 (Proc.devRef .tc main_v46) = row2 zeroM (V (Proc.devRef .tc main_arg6)) :=
    (read_opsR2 G3).trans (congrArg₂ row2 d27 d6)
  generalize after (opsR2 (F := Ideal)) G3 = G4 at e6 e27 e36 e41 e46 ⊢
  have f36 : after (opsR3 (F := Ideal)) G4 (Proc.devRef .tc main_v36) = row0 (V (Proc.devRef .tc main_arg6)) := (keep_opsR3_v36 G4).trans e36
  have f41 : after (opsR3 (F := Ideal)) G4 (Proc.devRef .tc main_v41) = row1 zeroM (V (Proc.devRef .tc main_arg6)) := (keep_opsR3_v41 G4).trans e41
  have f46 : after (opsR3 (F := Ideal)) G4 (Proc.devRef .tc main_v46) = row2 zeroM (V (Proc.devRef .tc main_arg6)) := (keep_opsR3_v46 G4).trans e46
  have f49 : after (opsR3 (F := Ideal)) G4 (Proc.devRef .tc main_v49) = row3 zeroM (V (Proc.devRef .tc main_arg6)) :=
    (read_opsR3 G4).trans (congrArg₂ row3 e27 e6)
  generalize after (opsR3 (F := Ideal)) G4 = G5 at f36 f41 f46 f49 ⊢
  rw [keep_opsZ_v51, read_opsM', f36, f41, f46, f49]

/-- The merged weight table after the first host stretch: block `(T, U)` at `(k, c')` is the tap of the kernel array
    that row block `T` (the activation's shift) and column block `U` (the output phase) meet in, or zero. -/
theorem wm_table (T U : Fin 4) (k c' : Fin 128) :
    (StableHlo.after (Gen.hostOps0 (F := Ideal)) V (Proc.devRef .tc main_v51) : S512x512.Idx → EReal)
        (ix2 (Val0.colOf T k) (Val0.colOf U c'))
      = Val0.Mblk (fun kh kw k c => (V (Proc.devRef .tc main_arg6) : S3x3x128x128.Idx → EReal) (ix4 kh kw k c)) T U k c' := by
  refine (congrFun (v51_eq V) _).trans ?_
  unfold tableM
  refine (HostK.cat4_rows _ _ _ _ _ T k (Val0.colOf U c')).trans ?_
  match T with
  | ⟨0, _⟩ =>
    show row0 (V (Proc.devRef .tc main_arg6)) (ix2 k (Val0.colOf U c')) = _
    unfold row0
    refine (HostK.cat4_cols _ _ _ _ _ k U c').trans ?_
    match U with
    | ⟨0, _⟩ => exact HostK.tap_at (V (Proc.devRef .tc main_arg6)) 1 1 slices_S3x3x128x128_S1x1x128x128_1_1_0_0 shapeCasts_S1x1x128x128_S128x128 k c'
    | ⟨1, _⟩ => exact HostK.tap_at (V (Proc.devRef .tc main_arg6)) 1 0 slices_S3x3x128x128_S1x1x128x128_1_0_0_0 shapeCasts_S1x1x128x128_S128x128 k c'
    | ⟨2, _⟩ => exact HostK.tap_at (V (Proc.devRef .tc main_arg6)) 0 1 slices_S3x3x128x128_S1x1x128x128_0_1_0_0 shapeCasts_S1x1x128x128_S128x128 k c'
    | ⟨3, _⟩ => exact HostK.tap_at (V (Proc.devRef .tc main_arg6)) 0 0 slices_S3x3x128x128_S1x1x128x128_0_0_0_0 shapeCasts_S1x1x128x128_S128x128 k c'
  | ⟨1, _⟩ =>
    show row1 zeroM (V (Proc.devRef .tc main_arg6)) (ix2 k (Val0.colOf U c')) = _
    unfold row1
    refine (HostK.cat4_cols _ _ _ _ _ k U c').trans ?_
    match U with
    | ⟨0, _⟩ => exact HostK.zero_block_at bcast_S_S128x128 (ix2 k c')
    | ⟨1, _⟩ => exact HostK.tap_at (V (Proc.devRef .tc main_arg6)) 1 2 slices_S3x3x128x128_S1x1x128x128_1_2_0_0 shapeCasts_S1x1x128x128_S128x128 k c'
    | ⟨2, _⟩ => exact HostK.zero_block_at bcast_S_S128x128 (ix2 k c')
    | ⟨3, _⟩ => exact HostK.tap_at (V (Proc.devRef .tc main_arg6)) 0 2 slices_S3x3x128x128_S1x1x128x128_0_2_0_0 shapeCasts_S1x1x128x128_S128x128 k c'
  | ⟨2, _⟩ =>
    show row2 zeroM (V (Proc.devRef .tc main_arg6)) (ix2 k (Val0.colOf U c')) = _
    unfold row2
    refine (HostK.cat4_cols _ _ _ _ _ k U c').trans ?_
    match U with
    | ⟨0, _⟩ => exact HostK.zero_block_at bcast_S_S128x128 (ix2 k c')
    | ⟨1, _⟩ => exact HostK.zero_block_at bcast_S_S128x128 (ix2 k c')
    | ⟨2, _⟩ => exact HostK.tap_at (V (Proc.devRef .tc main_arg6)) 2 1 slices_S3x3x128x128_S1x1x128x128_2_1_0_0 shapeCasts_S1x1x128x128_S128x128 k c'
    | ⟨3, _⟩ => exact HostK.tap_at (V (Proc.devRef .tc main_arg6)) 2 0 slices_S3x3x128x128_S1x1x128x128_2_0_0_0 shapeCasts_S1x1x128x128_S128x128 k c'
  | ⟨3, _⟩ =>
    show row3 zeroM (V (Proc.devRef .tc main_arg6)) (ix2 k (Val0.colOf U c')) = _
    unfold row3
    refine (HostK.cat4_cols _ _ _ _ _ k U c').trans ?_
    match U with
    | ⟨0, _⟩ => exact HostK.zero_block_at bcast_S_S128x128 (ix2 k c')
    | ⟨1, _⟩ => exact HostK.zero_block_at bcast_S_S128x128 (ix2 k c')
    | ⟨2, _⟩ => exact HostK.zero_block_at bcast_S_S128x128 (ix2 k c')
    | ⟨3, _⟩ => exact HostK.tap_at (V (Proc.devRef .tc main_arg6)) 2 2 slices_S3x3x128x128_S1x1x128x128_2_2_0_0 shapeCasts_S1x1x128x128_S128x128 k c'

end Table

end Cert.KernelIdeal.HostK0Alt

end
-- ==== Proof.K0HostB.lean ====
/-
  The kernel program's first line of host operations, read at an index, for three of the arrays its first stage
  loads: the bias row is the bias vector tiled four times along the lanes; the projection weights are the 1×1 kernel
  array read as a matrix; the input in channels-last layout is the argument with its channel axis moved last.
-/
import proofs.«148433_g2000002724561042_pallasbulk_175_35_alg».proof.Proof.Gen.KernelIdeal.Launch
import proofs.«148433_g2000002724561042_pallasbulk_175_35_alg».proof.Proof.HostKLay
import proofs.«148433_g2000002724561042_pallasbulk_175_35_alg».proof.Proof.K0Dot
import Idealize.ShloMosaic.Lib.StableHlo.Run

set_option maxRecDepth 16384

noncomputable section

namespace Cert.KernelIdeal.HostK0

open Cert.KernelIdeal
open Idealize.ShloMosaic Idealize.ShloMosaic.TcCoe Idealize.ShloMosaic.ValueIdx Idealize.ShloMosaic.StableHlo

section Lay
variable {α : Type}

/-- A [1,1,128,128] array read as a matrix, at row k and column c. -/
theorem unit_matrix_at (X : S1x1x128x128.Idx → α) (hc : S1x1x128x128.ShapeCasts S128x128) (k c : Fin 128) :
    shapeCast S128x128 X hc (ix2 k c) = X (ix4 (0 : Fin 1) (0 : Fin 1) k c) :=
  shapeCast_apply X hc (ix2 k c) (ix4 (0 : Fin 1) (0 : Fin 1) k c) (by
    rw [Shape.rowMajor_val_four, Shape.rowMajor_val_two]
    show ((0 * 1 + 0) * 128 + k.val) * 128 + c.val = k.val * 128 + c.val
    omega)

/-- The channel axis moved from second place to last. -/
theorem channels_last_at (X : S64x128x32x32.Idx → α) (h : S64x128x32x32.Transposes [0, 2, 3, 1] S64x32x32x128)
    (n : Fin 64) (i j : Fin 32) (k : Fin 128) :
    transpose S64x32x32x128 [0, 2, 3, 1] X h (ix4 n i j k) = X (ix4 n k i j) :=
  transpose_apply [0, 2, 3, 1] X h (ix4 n i j k) (ix4 n k i j) (fun b => by
    match b with
    | ⟨0, _⟩ => rfl
    | ⟨1, _⟩ => rfl
    | ⟨2, _⟩ => rfl
    | ⟨3, _⟩ => rfl)

end Lay

set_option maxHeartbeats 4000000 in
/-- The bias row at lane U·128 + c' is the bias vector at c'. -/
theorem b0m_at (V : Valuation τ sig (Elt Ideal)) (U : Fin 4) (c' : Fin 128) :
    (StableHlo.after (Gen.hostOps0 (F := Ideal)) V (Proc.devRef .tc main_v55) : S1x512.Idx → EReal) (ix2 (0 : Fin 1) (Val0.colOf U c'))
      = (V (Proc.devRef .tc main_arg7) : S128.Idx → EReal) (ix1 c') := by
  delta Gen.hostOps0
  after_results_simp
  exact HostK.tiled_row_at _ _ _ _ _ U c'

set_option maxHeartbeats 4000000 in
/-- The projection weights at (k, c') are the 1×1 kernel array at (0, 0, k, c'). -/
theorem wsc_at (V : Valuation τ sig (Elt Ideal)) (k c' : Fin 128) :
    (StableHlo.after (Gen.hostOps0 (F := Ideal)) V (Proc.devRef .tc main_v57) : S128x128.Idx → EReal) (ix2 k c')
      = (V (Proc.devRef .tc main_arg10) : S1x1x128x128.Idx → EReal) (ix4 (0 : Fin 1) (0 : Fin 1) k c') := by
  delta Gen.hostOps0
  after_results_simp
  exact unit_matrix_at _ _ k c'

set_option maxHeartbeats 4000000 in
/-- The channels-last input at (n, i, j, k) is the argument at (n, k, i, j). -/
theorem x_at (V : Valuation τ sig (Elt Ideal)) (n : Fin 64) (i j : Fin 32) (k : Fin 128) :
    (StableHlo.after (Gen.hostOps0 (F := Ideal)) V (Proc.devRef .tc main_v0) : S64x32x32x128.Idx → EReal) (ix4 n i j k)
      = (V (Proc.devRef .tc main_arg0) : S64x128x32x32.Idx → EReal) (ix4 n k i j) := by
  delta Gen.hostOps0
  after_results_simp
  exact channels_last_at _ _ n i j k

end Cert.KernelIdeal.HostK0

end
-- ==== Proof.LibNary3.lean ====
/-
  A host operation of three operands printed with its operands as a literal family `![x, a, b]` (a concatenation of
  three arrays): its result holds the operation's function of the three operands' contents, each AT ITS OWN
  reference — so that a reader of a literal list of host operations can go on reading each operand's contents.
  `host_results` reads a goal `after ops V r = …` over such a list, operation by operation, outermost first.
-/
import Idealize.ShloMosaic.Lib.StableHlo.Run

noncomputable section

namespace Idealize.ShloMosaic.StableHlo

variable {τ : Topo} {sig : RefSig} {Val : EltTy → Type}
variable {x a b y : Ref sig .tc}

/-- The three-operand form of the library's four-operand lemma: the operands' contents as a literal `Fin.cons` chain. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads `after ops V r` for a literal list of host operations, three-operand ones included. -/
macro "host_results" : tactic =>
  `(tactic| (simp only [after_cons, after_nil]
             repeat (first
               | rw [nullary_result] | rw [unary_result] | rw [binary_result] | rw [ternary_result] | rw [quaternary_result]
               | rw [reshape_result] | rw [nary3_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.RefHostLay.lean ====
import proofs.«148433_g2000002724561042_pallasbulk_175_35_alg».proof.Proof.Gen.ReferenceIdeal
import Idealize.ShloMosaic.Lib.Pipeline.Value
import Idealize.ShloMosaic.Lib.ValueIdx
import Idealize.ShloMosaic.Lib.ValueLayout

noncomputable section

namespace Cert.ReferenceIdeal.HostR

open Cert.ReferenceIdeal.Gen
open Idealize.ShloMosaic Idealize.ShloMosaic.TcCoe Idealize.ShloMosaic.ValueIdx
open Idealize.ShloMosaic.StableHlo (after)

/-!
# Layout steps of the reference program's host stretches, read at an index

Each lemma reads one reshaping step at a position given by coordinates: a unit slice of the 3×3 kernel array flattened to a
matrix, matrices stacked along their rows, and the reshapes and transpositions between the arrays' layouts.
-/

section Lay
variable {α : Type}

/-- The `(kh, kw)` tap of a 3×3 kernel array, sliced out and flattened to a matrix, at row `k` and column `c`. -/
theorem tap_apply (X : S3x3x128x128.Idx → α) (o0 o1 : Nat) (h : S3x3x128x128.Slices ![o0, o1, 0, 0] S1x1x128x128)
    (hc : S1x1x128x128.ShapeCasts S128x128) (kh kw : Fin 3) (h0 : kh.val = o0) (h1 : kw.val = o1) (k c : Fin 128) :
    shapeCast S128x128 (extractStridedSlice S1x1x128x128 ![o0, o1, 0, 0] X h) hc (ix2 k c) = X (ix4 kh kw k c) := by
  rw [shapeCast_apply _ hc (ix2 k c) (ix4 0 0 k c) (by
    rw [Shape.rowMajor_val_four, Shape.rowMajor_val_two]
    show ((0 * 1 + 0) * 128 + k.val) * 128 + c.val = k.val * 128 + c.val
    omega)]
  exact extractStridedSlice_apply _ X h (ix4 0 0 k c) (ix4 kh kw k c) (fun a => by
    match a with
    | ⟨0, _⟩ => show kh.val = o0 + 0; omega
    | ⟨1, _⟩ => show kw.val = o1 + 0; omega
    | ⟨2, _⟩ => show k.val = 0 + k.val; omega
    | ⟨3, _⟩ => show c.val = 0 + c.val; omega)

/-- Two matrices stacked along their rows: row `T·128 + k` is row `k` of the `T`-th. -/
theorem cat2_apply (a b : S128x128.Idx → α) (h : Shape.Concatenates [S128x128, S128x128] S256x128 0) (T : Fin 2) (k c : Fin 128) :
    concatenate S256x128 0 [⟨S128x128, a⟩, ⟨S128x128, b⟩] h (ix2 ⟨T.val * 128 + k.val, by have := T.isLt; omega⟩ c)
      = (![a, b] T) (ix2 k c) := by
  match T with
  | ⟨0, _⟩ =>
    exact concatenate_apply_piece 0 [⟨S128x128, a⟩, ⟨S128x128, b⟩] h _ 0
      (by show 0 < 2; omega) S128x128 a rfl rfl 0 rfl (ix2 k c)
      (fun b hb => by
        match b with
        | ⟨0, _⟩ => exact absurd rfl hb
        | ⟨1, _⟩ => rfl)
      (by show 0 + k.val = 0 * 128 + k.val; omega)
  | ⟨1, _⟩ =>
    exact concatenate_apply_piece 0 [⟨S128x128, a⟩, ⟨S128x128, b⟩] h _ 1
      (by show 1 < 2; omega) S128x128 b rfl rfl 128 (by simp) (ix2 k c)
      (fun b hb => by
        match b with
        | ⟨0, _⟩ => exact absurd rfl hb
        | ⟨1, _⟩ => rfl)
      (by show 128 + k.val = 1 * 128 + k.val; omega)

/-- Four matrices stacked along their rows: row `T·128 + k` is row `k` of the `T`-th. -/
theorem cat4_apply (a b d e : S128x128.Idx → α) (h : Shape.Concatenates [S128x128, S128x128, S128x128, S128x128] S512x128 0)
    (T : Fin 4) (k c : Fin 128) :
    concatenate S512x128 0 [⟨S128x128, a⟩, ⟨S128x128, b⟩, ⟨S128x128, d⟩, ⟨S128x128, e⟩] h
        (ix2 ⟨T.val * 128 + k.val, by have := T.isLt; omega⟩ c)
      = (![a, b, d, e] T) (ix2 k c) := by
  match T with
  | ⟨0, _⟩ =>
    exact concatenate_apply_piece 0 [⟨S128x128, a⟩, ⟨S128x128, b⟩, ⟨S128x128, d⟩, ⟨S128x128, e⟩] h _ 0
      (by show 0 < 4; omega) S128x128 a rfl rfl 0 rfl (ix2 k c)
      (fun b hb => by
        match b with
        | ⟨0, _⟩ => exact absurd rfl hb
        | ⟨1, _⟩ => rfl)
      (by show 0 + k.val = 0 * 128 + k.val; omega)
  | ⟨1, _⟩ =>
    exact concatenate_apply_piece 0 [⟨S128x128, a⟩, ⟨S128x128, b⟩, ⟨S128x128, d⟩, ⟨S128x128, e⟩] h _ 1
      (by show 1 < 4; omega) S128x128 b rfl rfl 128 (by simp) (ix2 k c)
      (fun b hb => by
        match b with
        | ⟨0, _⟩ => exact absurd rfl hb
        | ⟨1, _⟩ => rfl)
      (by show 128 + k.val = 1 * 128 + k.val; omega)
  | ⟨2, _⟩ =>
    exact concatenate_apply_piece 0 [⟨S128x128, a⟩, ⟨S128x128, b⟩, ⟨S128x128, d⟩, ⟨S128x128, e⟩] h _ 2
      (by show 2 < 4; omega) S128x128 d rfl rfl 256 (by simp) (ix2 k c)
      (fun b hb => by
        match b with
        | ⟨0, _⟩ => exact absurd rfl hb
        | ⟨1, _⟩ => rfl)
      (by show 256 + k.val = 2 * 128 + k.val; omega)
  | ⟨3, _⟩ =>
    exact concatenate_apply_piece 0 [⟨S128x128, a⟩, ⟨S128x128, b⟩, ⟨S128x128, d⟩, ⟨S128x128, e⟩] h _ 3
      (by show 3 < 4; omega) S128x128 e rfl rfl 384 (by simp) (ix2 k c)
      (fun b hb => by
        match b with
        | ⟨0, _⟩ => exact absurd rfl hb
        | ⟨1, _⟩ => rfl)
      (by show 384 + k.val = 3 * 128 + k.val; omega)

/-- A vector as a one-row matrix. -/
theorem row_apply (X : S128.Idx → α) (hc : S128.ShapeCasts S1x128) (c : Fin 128) :
    shapeCast S1x128 X hc (ix2 0 c) = X (ix1 c) :=
  shapeCast_apply X hc (ix2 0 c) (ix1 c) (by
    rw [Shape.rowMajor_val_one, Shape.rowMajor_val_two]
    show c.val = 0 * 128 + c.val
    omega)

/-- A 1×1 kernel array as a matrix. -/
theorem unit_tap_apply (X : S1x1x128x128.Idx → α) (hc : S1x1x128x128.ShapeCasts S128x128) (k c : Fin 128) :
    shapeCast S128x128 X hc (ix2 k c) = X (ix4 0 0 k c) :=
  shapeCast_apply X hc (ix2 k c) (ix4 0 0 k c) (by
    rw [Shape.rowMajor_val_four, Shape.rowMajor_val_two]
    show ((0 * 1 + 0) * 128 + k.val) * 128 + c.val = k.val * 128 + c.val
    omega)

/-- The channel axis moved from second place to last. -/
theorem to_nhwc_apply (X : S64x128x32x32.Idx → α) (h : S64x128x32x32.Transposes [0, 2, 3, 1] S64x32x32x128)
    (n : Fin 64) (i j : Fin 32) (k : Fin 128) :
    transpose S64x32x32x128 [0, 2, 3, 1] X h (ix4 n i j k) = X (ix4 n k i j) :=
  transpose_apply [0, 2, 3, 1] X h (ix4 n i j k) (ix4 n k i j) (fun b => by
    match b with
    | ⟨0, _⟩ => rfl
    | ⟨1, _⟩ => rfl
    | ⟨2, _⟩ => rfl
    | ⟨3, _⟩ => rfl)

/-- The folded layout `[64, 64, 32, 256]` read as `[64, 64, 64, 128]`: column `J`, channel `k` is folded column `J / 2`,
    lane `(J % 2)·128 + k`. -/
theorem unfold_apply (X : S64x64x32x256.Idx → α) (hc : S64x64x32x256.ShapeCasts S64x64x64x128)
    (N I J : Fin 64) (k : Fin 128) :
    shapeCast S64x64x64x128 X hc (ix4 N I J k)
      = X (ix4 N I ⟨J.val / 2, by have := J.isLt; omega⟩ ⟨(J.val % 2) * 128 + k.val, by have := k.isLt; omega⟩) :=
  shapeCast_apply X hc (ix4 N I J k) _ (by
    rw [Shape.rowMajor_val_four, Shape.rowMajor_val_four]
    show ((N.val * 64 + I.val) * 32 + J.val / 2) * 256 + ((J.val % 2) * 128 + k.val)
      = ((N.val * 64 + I.val) * 64 + J.val) * 128 + k.val
    omega)

/-- The 3×3 kernel array with its `kw` and input-channel axes merged: row `kw·128 + k` of slab `kh`. -/
theorem merge_apply (X : S3x3x128x128.Idx → α) (hc : S3x3x128x128.ShapeCasts S3x384x128) (kh kw : Fin 3) (k c : Fin 128) :
    shapeCast S3x384x128 X hc (ix3 kh ⟨kw.val * 128 + k.val, by have := kw.isLt; have := k.isLt; omega⟩ c) = X (ix4 kh kw k c) :=
  shapeCast_apply X hc _ (ix4 kh kw k c) (by
    rw [Shape.rowMajor_val_four, Shape.rowMajor_val_three]
    show ((kh.val * 3 + kw.val) * 128 + k.val) * 128 + c.val = (kh.val * 384 + (kw.val * 128 + k.val)) * 128 + c.val
    omega)

/-- The channel axis moved from last place to second. -/
theorem to_nchw_apply (X : S64x64x64x128.Idx → α) (h : S64x64x64x128.Transposes [0, 3, 1, 2] S64x128x64x64)
    (N : Fin 64) (c : Fin 128) (I J : Fin 64) :
    transpose S64x128x64x64 [0, 3, 1, 2] X h (ix4 N c I J) = X (ix4 N I J c) :=
  transpose_apply [0, 3, 1, 2] X h (ix4 N c I J) (ix4 N I J c) (fun b => by
    match b with
    | ⟨0, _⟩ => rfl
    | ⟨1, _⟩ => rfl
    | ⟨2, _⟩ => rfl
    | ⟨3, _⟩ => rfl)

end Lay

end Cert.ReferenceIdeal.HostR

end
-- ==== Proof.RefHost0a.lean ====
import proofs.«148433_g2000002724561042_pallasbulk_175_35_alg».proof.Proof.Gen.ReferenceIdeal.Regions
import proofs.«148433_g2000002724561042_pallasbulk_175_35_alg».proof.Proof.LibNary3
import proofs.«148433_g2000002724561042_pallasbulk_175_35_alg».proof.Proof.RefHostLay
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.HostR

open Cert.ReferenceIdeal.Gen
open Idealize.ShloMosaic Idealize.ShloMosaic.TcCoe Idealize.ShloMosaic.ValueIdx
open Idealize.ShloMosaic.StableHlo (after)

open Idealize.ShloMosaic.StableHlo in
/-- One pass over a literal list of host operations: each operation's result at its own buffer is its function of its operands'
    contents, at any other buffer what was there. -/
local macro "ref_read" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne',
      Matrix.cons_val_zero, Matrix.cons_val_one, Matrix.cons_val_two, Matrix.cons_val_three, Matrix.head_cons, Matrix.tail_cons,
      Matrix.cons_val_succ, Matrix.cons_val_succ', Matrix.cons_val_fin_one]))

/-!
# The first host stretch of the reference program, read at an index: the phase weight matrices

From any buffer contents `V`, after the stretch: the centre tap of the 3×3 kernel array as a matrix; the taps left and right of
centre stacked; the taps above and below stacked.
-/

variable (V : Valuation τ sig (Elt Ideal))

/-- `main_v29` is the centre tap. -/
theorem v29_apply (k c : Fin 128) :
    StableHlo.after (hostOps0 (F := Ideal)) V (Proc.devRef .tc main_v29) (ix2 k c) = V (Proc.devRef .tc main_arg6) (ix4 1 1 k c) := by
  dsimp only [hostOps0]
  host_results
  exact tap_apply _ 1 1 _ _ 1 1 rfl rfl k c

/-! `main_v34`: the taps left and right of centre, stacked along the rows. -/

set_option maxHeartbeats 2000000 in
/-- `main_v34` at row `T·128 + k`: the `T`-th of its stacked taps at row `k`. -/
theorem v34_at (T : Fin 2) (k c : Fin 128) :
    StableHlo.after (hostOps0 (F := Ideal)) V (Proc.devRef .tc main_v34) (ix2 ⟨T.val * 128 + k.val, by have := T.isLt; omega⟩ c)
      = (![fun k c => V (Proc.devRef .tc main_arg6) (ix4 1 0 k c), fun k c => V (Proc.devRef .tc main_arg6) (ix4 1 2 k c)] : Fin 2 → Fin 128 → Fin 128 → EReal) T k c := by
  dsimp only [hostOps0]
  ref_read
  refine (cat2_apply _ _ _ T k c).trans ?_
  match T with
  | ⟨0, _⟩ => exact tap_apply (V (Proc.devRef .tc main_arg6)) 1 0 (by decide) (by decide) 1 0 rfl rfl k c
  | ⟨1, _⟩ => exact tap_apply (V (Proc.devRef .tc main_arg6)) 1 2 (by decide) (by decide) 1 2 rfl rfl k c

theorem v34_0 (K : Fin 256) (k c : Fin 128) (hK : K.val = k.val) :
    StableHlo.after (hostOps0 (F := Ideal)) V (Proc.devRef .tc main_v34) (ix2 K c) = V (Proc.devRef .tc main_arg6) (ix4 1 0 k c) :=
  (congrArg (fun K' : Fin 256 => StableHlo.after (hostOps0 (F := Ideal)) V (Proc.devRef .tc main_v34) (ix2 K' c))
    (Fin.ext (by show K.val = 0 * 128 + k.val; omega))).trans (v34_at V 0 k c)
theorem v34_1 (K : Fin 256) (k c : Fin 128) (hK : K.val = 128 + k.val) :
    StableHlo.after (hostOps0 (F := Ideal)) V (Proc.devRef .tc main_v34) (ix2 K c) = V (Proc.devRef .tc main_arg6) (ix4 1 2 k c) :=
  (congrArg (fun K' : Fin 256 => StableHlo.after (hostOps0 (F := Ideal)) V (Proc.devRef .tc main_v34) (ix2 K' c))
    (Fin.ext (by show K.val = 1 * 128 + k.val; omega))).trans (v34_at V 1 k c)

/-! `main_v39`: the taps above and below centre, stacked along the rows. -/

set_option maxHeartbeats 2000000 in
/-- `main_v39` at row `T·128 + k`: the `T`-th of its stacked taps at row `k`. -/
theorem v39_at (T : Fin 2) (k c : Fin 128) :
    StableHlo.after (hostOps0 (F := Ideal)) V (Proc.devRef .tc main_v39) (ix2 ⟨T.val * 128 + k.val, by have := T.isLt; omega⟩ c)
      = (![fun k c => V (Proc.devRef .tc main_arg6) (ix4 0 1 k c), fun k c => V (Proc.devRef .tc main_arg6) (ix4 2 1 k c)] : Fin 2 → Fin 128 → Fin 128 → EReal) T k c := by
  dsimp only [hostOps0]
  ref_read
  refine (cat2_apply _ _ _ T k c).trans ?_
  match T with
  | ⟨0, _⟩ => exact tap_apply (V (Proc.devRef .tc main_arg6)) 0 1 (by decide) (by decide) 0 1 rfl rfl k c
  | ⟨1, _⟩ => exact tap_apply (V (Proc.devRef .tc main_arg6)) 2 1 (by decide) (by decide) 2 1 rfl rfl k c

theorem v39_0 (K : Fin 256) (k c : Fin 128) (hK : K.val = k.val) :
    StableHlo.after (hostOps0 (F := Ideal)) V (Proc.devRef .tc main_v39) (ix2 K c) = V (Proc.devRef .tc main_arg6) (ix4 0 1 k c) :=
  (congrArg (fun K' : Fin 256 => StableHlo.after (hostOps0 (F := Ideal)) V (Proc.devRef .tc main_v39) (ix2 K' c))
    (Fin.ext (by show K.val = 0 * 128 + k.val; omega))).trans (v39_at V 0 k c)
theorem v39_1 (K : Fin 256) (k c : Fin 128) (hK : K.val = 128 + k.val) :
    StableHlo.after (hostOps0 (F := Ideal)) V (Proc.devRef .tc main_v39) (ix2 K c) = V (Proc.devRef .tc main_arg6) (ix4 2 1 k c) :=
  (congrArg (fun K' : Fin 256 => StableHlo.after (hostOps0 (F := Ideal)) V (Proc.devRef .tc main_v39) (ix2 K' c))
    (Fin.ext (by show K.val = 1 * 128 + k.val; omega))).trans (v39_at V 1 k c)

end Cert.ReferenceIdeal.HostR

end
-- ==== Proof.RefHost0b.lean ====
import proofs.«148433_g2000002724561042_pallasbulk_175_35_alg».proof.Proof.Gen.ReferenceIdeal.Regions
import proofs.«148433_g2000002724561042_pallasbulk_175_35_alg».proof.Proof.LibNary3
import proofs.«148433_g2000002724561042_pallasbulk_175_35_alg».proof.Proof.RefHostLay
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.HostR

open Cert.ReferenceIdeal.Gen
open Idealize.ShloMosaic Idealize.ShloMosaic.TcCoe Idealize.ShloMosaic.ValueIdx
open Idealize.ShloMosaic.StableHlo (after)

open Idealize.ShloMosaic.StableHlo in
/-- One pass over a literal list of host operations: each operation's result at its own buffer is its function of its operands'
    contents, at any other buffer what was there. -/
local macro "ref_read" : tactic =>
  `(tactic| (simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne',
      Matrix.cons_val_zero, Matrix.cons_val_one, Matrix.cons_val_two, Matrix.cons_val_three, Matrix.head_cons, Matrix.tail_cons,
      Matrix.cons_val_succ, Matrix.cons_val_succ', Matrix.cons_val_fin_one, Fin.cons_zero, Fin.cons_one]))

/-!
# The first host stretch of the reference program, read at an index: the corner taps, the bias row, the skip weights, the input

From any buffer contents `V`, after the stretch: the four corner taps of the 3×3 kernel array stacked; the bias as a one-row
matrix; the 1×1 kernel array as a matrix; the input with its channel axis moved last.
-/

variable (V : Valuation τ sig (Elt Ideal))

/-! `main_v48`: the four corner taps, stacked along the rows. -/

set_option maxHeartbeats 2000000 in
/-- `main_v48` at row `T·128 + k`: the `T`-th of its stacked taps at row `k`. -/
theorem v48_at (T : Fin 4) (k c : Fin 128) :
    StableHlo.after (hostOps0 (F := Ideal)) V (Proc.devRef .tc main_v48) (ix2 ⟨T.val * 128 + k.val, by have := T.isLt; omega⟩ c)
      = (![fun k c => V (Proc.devRef .tc main_arg6) (ix4 0 0 k c), fun k c => V (Proc.devRef .tc main_arg6) (ix4 0 2 k c), fun k c => V (Proc.devRef .tc main_arg6) (ix4 2 0 k c), fun k c => V (Proc.devRef .tc main_arg6) (ix4 2 2 k c)] : Fin 4 → Fin 128 → Fin 128 → EReal) T k c := by
  dsimp only [hostOps0]
  ref_read
  refine (cat4_apply _ _ _ _ _ T k c).trans ?_
  match T with
  | ⟨0, _⟩ => exact tap_apply (V (Proc.devRef .tc main_arg6)) 0 0 (by decide) (by decide) 0 0 rfl rfl k c
  | ⟨1, _⟩ => exact tap_apply (V (Proc.devRef .tc main_arg6)) 0 2 (by decide) (by decide) 0 2 rfl rfl k c
  | ⟨2, _⟩ => exact tap_apply (V (Proc.devRef .tc main_arg6)) 2 0 (by decide) (by decide) 2 0 rfl rfl k c
  | ⟨3, _⟩ => exact tap_apply (V (Proc.devRef .tc main_arg6)) 2 2 (by decide) (by decide) 2 2 rfl rfl k c

theorem v48_0 (K : Fin 512) (k c : Fin 128) (hK : K.val = k.val) :
    StableHlo.after (hostOps0 (F := Ideal)) V (Proc.devRef .tc main_v48) (ix2 K c) = V (Proc.devRef .tc main_arg6) (ix4 0 0 k c) :=
  (congrArg (fun K' : Fin 512 => StableHlo.after (hostOps0 (F := Ideal)) V (Proc.devRef .tc main_v48) (ix2 K' c))
    (Fin.ext (by show K.val = 0 * 128 + k.val; omega))).trans (v48_at V 0 k c)
theorem v48_1 (K : Fin 512) (k c : Fin 128) (hK : K.val = 128 + k.val) :
    StableHlo.after (hostOps0 (F := Ideal)) V (Proc.devRef .tc main_v48) (ix2 K c) = V (Proc.devRef .tc main_arg6) (ix4 0 2 k c) :=
  (congrArg (fun K' : Fin 512 => StableHlo.after (hostOps0 (F := Ideal)) V (Proc.devRef .tc main_v48) (ix2 K' c))
    (Fin.ext (by show K.val = 1 * 128 + k.val; omega))).trans (v48_at V 1 k c)
theorem v48_2 (K : Fin 512) (k c : Fin 128) (hK : K.val = 256 + k.val) :
    StableHlo.after (hostOps0 (F := Ideal)) V (Proc.devRef .tc main_v48) (ix2 K c) = V (Proc.devRef .tc main_arg6) (ix4 2 0 k c) :=
  (congrArg (fun K' : Fin 512 => StableHlo.after (hostOps0 (F := Ideal)) V (Proc.devRef .tc main_v48) (ix2 K' c))
    (Fin.ext (by show K.val = 2 * 128 + k.val; omega))).trans (v48_at V 2 k c)
theorem v48_3 (K : Fin 512) (k c : Fin 128) (hK : K.val = 384 + k.val) :
    StableHlo.after (hostOps0 (F := Ideal)) V (Proc.devRef .tc main_v48) (ix2 K c) = V (Proc.devRef .tc main_arg6) (ix4 2 2 k c) :=
  (congrArg (fun K' : Fin 512 => StableHlo.after (hostOps0 (F := Ideal)) V (Proc.devRef .tc main_v48) (ix2 K' c))
    (Fin.ext (by show K.val = 3 * 128 + k.val; omega))).trans (v48_at V 3 k c)

/-- `main_v49` is the bias, as a one-row matrix. -/
theorem v49_apply (c : Fin 128) :
    StableHlo.after (hostOps0 (F := Ideal)) V (Proc.devRef .tc main_v49) (ix2 0 c) = V (Proc.devRef .tc main_arg7) (ix1 c) := by
  dsimp only [hostOps0]
  host_results
  exact row_apply _ _ c

/-- `main_v50` is the 1×1 kernel array, as a matrix. -/
theorem v50_apply (k c : Fin 128) :
    StableHlo.after (hostOps0 (F := Ideal)) V (Proc.devRef .tc main_v50) (ix2 k c) = V (Proc.devRef .tc main_arg10) (ix4 0 0 k c) := by
  dsimp only [hostOps0]
  host_results
  exact unit_tap_apply _ _ k c

/-- `main_v0` is the input with its channel axis moved last. -/
theorem v0_apply (n : Fin 64) (i j : Fin 32) (k : Fin 128) :
    StableHlo.after (hostOps0 (F := Ideal)) V (Proc.devRef .tc main_v0) (ix4 n i j k) = V (Proc.devRef .tc main_arg0) (ix4 n k i j) := by
  dsimp only [hostOps0]
  host_results
  exact to_nhwc_apply _ _ n i j k

end Cert.ReferenceIdeal.HostR

end
-- ==== Proof.LibFiniteAll.lean ====
/-
  A printed finiteness predicate, read back at the exact-real instance. The predicate of one float array `x`
  is `all (|x| < +∞)`: the absolute value, a comparison against the splat of the word of +∞, and a
  reduction by `and` over every axis from the constant 1. If that reduction is 1 then every entry of `x`
  is (the coercion of) a real number. Stated once for an arbitrary operand shape `s` and an arbitrary
  result shape `u` of a single index; nothing here depends on the extents.
-/
import Idealize.ShloMosaic.Lib.ReduceAll
import Idealize.ShloMosaic.Lib.StableHlo
import Idealize.ShloMosaic.PureOps
import Idealize.ShloMosaic.PureOps.Ideal

namespace Cert.LibFiniteAll

open Idealize.ShloMosaic

/-- The word 0x7F800000 read as an exact extended real is +∞. -/
theorem ofBits_inf : Ideal.ofBits .f32 0x7F800000#32 = (⊤ : EReal) := by simp [Ideal.ofBits, Ideal.ieee]

/-- One value: if `|x| < +∞` holds as a comparison word, `x` is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  induction x using EReal.rec with
  | bot => simp at h'
  | coe r => exact ⟨r, rfl⟩
  | top => simp at h'

/-- A conjunction of two `i1` arrays read at an index is 1 exactly when both are. -/
theorem andi_apply_eq_one {s : Shape} (p q : IVec s 1) (j : s.Idx) :
    andi p q j = 1#1 ↔ p j = 1#1 ∧ q j = 1#1 := IntOp.andi_eq_one

/-- `all (|x| < +∞)` is 1 ⇒ every entry of `x` is a real number. The operand shape `s`, the axes, the
    one-index result shape `u` and the broadcast's dimension map are arbitrary. -/
theorem reals_of_all_abs_lt_inf {s u : Shape} [Subsingleton u.Idx] {axes : List (Fin s.rank)}
    {dims : Fin u.rank → Fin s.rank} (hb : u.BroadcastsInDim s dims) (hr : s.ReducesTo axes u) (hu : 0 < u.numel)
    (x : FVec Ideal s .f32) (j : u.Idx)
    (h : Host.reduce IntOp.andi
          (cmpf .olt (Host.absf x) (broadcastInDim s dims hb (constant (F := Ideal) u .f32 0x7F800000#32)))
          (constantI u 1 1#1) hr hu j = 1#1) :
    ∀ i : s.Idx, ∃ r : ℝ, x i = (r : EReal) := by
  intro i
  have hi := Host.reduce_andi_all _ _ hr hu j h i
  exact real_of_abs_lt_inf (x i) hi

end Cert.LibFiniteAll
-- ==== Proof.Bn1Fin.lean ====
/-
  Every entry of the input array x is a real number: the precondition's first conjunct, all (|x| < +∞),
  read back at the exact-real instance.
-/
import proofs.«148433_g2000002724561042_pallasbulk_175_35_alg».proof.Defs
import proofs.«148433_g2000002724561042_pallasbulk_175_35_alg».proof.Proof.Gen.Pre_finite_inputs
import proofs.«148433_g2000002724561042_pallasbulk_175_35_alg».proof.Proof.LibFiniteAll
import Idealize.ShloMosaic.Lib.ValueIdx

noncomputable section

namespace Cert.Bn1

open Idealize.ShloMosaic Idealize.SL.Sem

/-- The shape of a single value has one index. -/
instance subsingleton_scalar_idx : Subsingleton Cert.Pre_finite_inputs.S_.Idx := ⟨fun _ _ => funext fun d => d.elim0⟩

/-- The precondition is a conjunction of twelve tests, one per argument array, nested to the left; the test of x
    is the innermost left conjunct. -/
theorem fin_x (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  have h1 := congrFun (h c) ValueIdx.ix0
  dsimp only [Cert.Pre_finite_inputs.fn, Cert.Pre_finite_inputs.fn_part1, Cert.Pre_finite_inputs.fn_part2,
    Cert.Pre_finite_inputs.fn_part3] at h1
  have a1 := ((Cert.LibFiniteAll.andi_apply_eq_one _ _ _).1 h1).1
  have a2 := ((Cert.LibFiniteAll.andi_apply_eq_one _ _ _).1 a1).1
  have a3 := ((Cert.LibFiniteAll.andi_apply_eq_one _ _ _).1 a2).1
  have a4 := ((Cert.LibFiniteAll.andi_apply_eq_one _ _ _).1 a3).1
  have a5 := ((Cert.LibFiniteAll.andi_apply_eq_one _ _ _).1 a4).1
  have a6 := ((Cert.LibFiniteAll.andi_apply_eq_one _ _ _).1 a5).1
  have a7 := ((Cert.LibFiniteAll.andi_apply_eq_one _ _ _).1 a6).1
  have a8 := ((Cert.LibFiniteAll.andi_apply_eq_one _ _ _).1 a7).1
  have a9 := ((Cert.LibFiniteAll.andi_apply_eq_one _ _ _).1 a8).1
  have a10 := ((Cert.LibFiniteAll.andi_apply_eq_one _ _ _).1 a9).1
  have a11 := ((Cert.LibFiniteAll.andi_apply_eq_one _ _ _).1 a10).1
  exact Cert.LibFiniteAll.reals_of_all_abs_lt_inf _ _ _ _ _ a11

end Cert.Bn1

end
-- ==== Proof.Bn1Math.lean ====
/-
  The first batch normalization's statistics, as pure functions of the input array x : [64,128,32,32].

  Two spellings of the per-channel mean and variance are compared.  One sums x (and x·x) over the
  axes 0, 2, 3 of x itself and forms  E[x²] − (E x)²;  the other first moves the channel axis last,
  sums over the axes 0, 1, 2 of the moved array, and forms  E[(x − E x)²].  Over the extended reals
  the two agree as soon as every entry of x is a real number: the sums are then finite, the
  coercion from the reals commutes with them, and the identity
      (∑ (r − μ)²)/N = (∑ r²)/N − μ²        (μ = (∑ r)/N,  N the number of summands, N ≠ 0)
  is plain algebra in the reals.
-/
import Idealize.ShloMosaic.PureOps.Ideal.Laws
import Idealize.ShloMosaic.Lib.ValueIdx
import Idealize.ShloMosaic.Lib.IdealHost
import Idealize.ShloMosaic.Lib.Pipeline.Value

noncomputable section

namespace Cert.Bn1

open Idealize.ShloMosaic Idealize.ShloMosaic.ValueIdx
open scoped BigOperators

/-- The input's shape, the shape with the channel axis moved last, and the shape of one value per channel. -/
abbrev SX : Shape := ⟨4, ![64, 128, 32, 32]⟩
abbrev ST : Shape := ⟨4, ![64, 32, 32, 128]⟩
abbrev SC : Shape := ⟨1, ![128]⟩
abbrev S0 : Shape := ⟨0, ![]⟩

/-! ## Sums over a rank-4 index set -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Dropping the axes 0, 2, 3 of an index of x leaves its channel. -/
theorem dropK_eq_iff (hK : SX.ReducesTo [0, 2, 3] SC) (i : SX.Idx) (j : SC.Idx) :
    hK.drop i = j ↔ (i 1).val = (j 0).val := by
  constructor
  · intro e; subst e; exact (Shape.ReducesTo.drop_apply_val_of_eq hK i 0 1).symm
  · intro e; funext b
    match b with
    | ⟨0, _⟩ => exact Fin.ext ((Shape.ReducesTo.drop_apply_val_of_eq hK i 0 1).trans e)

/-- Dropping the axes 0, 1, 2 of an index of the moved array leaves its channel. -/
theorem dropR_eq_iff (hR : ST.ReducesTo [0, 1, 2] SC) (i : ST.Idx) (j : SC.Idx) :
    hR.drop i = j ↔ (i 3).val = (j 0).val := by
  constructor
  · intro e; subst e; exact (Shape.ReducesTo.drop_apply_val_of_eq hR i 0 3).symm
  · intro e; funext b
    match b with
    | ⟨0, _⟩ => exact Fin.ext ((Shape.ReducesTo.drop_apply_val_of_eq hR i 0 3).trans e)

private theorem sum2_ite {M : Type*} [AddCommMonoid M] {α β : Type} [Fintype α] [Fintype β] (p : Prop) [Decidable p] (g : α → β → M) :
    (∑ a, ∑ b, if p then g a b else 0) = if p then ∑ a, ∑ b, g a b else 0 := by
  split_ifs <;> simp

/-- The sum over the indices of x that lie in channel j is the triple sum over the other three coordinates. -/
theorem sum_fiberK {M : Type*} [AddCommMonoid M] (hK : SX.ReducesTo [0, 2, 3] SC) (f : SX.Idx → M) (c0 : Fin 128) :
    ∑ i ∈ Finset.univ.filter (fun i => hK.drop i = ix1 c0), f i
      = ∑ n : Fin 64, ∑ h : Fin 32, ∑ w : Fin 32, f (ix4 n c0 h w) := by
  rw [Finset.sum_filter, sum_idx4]
  refine Finset.sum_congr rfl fun n _ => ?_
  have e : ∀ c : Fin 128, (∑ h : Fin 32, ∑ w : Fin 32, if hK.drop (ix4 n c h w) = ix1 c0 then f (ix4 n c h w) else 0)
      = if c = c0 then ∑ h : Fin 32, ∑ w : Fin 32, f (ix4 n c h w) else 0 := by
    intro c
    rw [← sum2_ite]
    refine Finset.sum_congr rfl fun h _ => Finset.sum_congr rfl fun w _ => ?_
    have : (hK.drop (ix4 n c h w) = ix1 c0) ↔ c = c0 := by
      rw [dropK_eq_iff]; exact ⟨fun e => Fin.ext e, fun e => congrArg Fin.val e⟩
    simp only [this]
  simp only [e]
  rw [Finset.sum_ite_eq']
  simp

/-- The same for the moved array. -/
theorem sum_fiberR {M : Type*} [AddCommMonoid M] (hR : ST.ReducesTo [0, 1, 2] SC) (f : ST.Idx → M) (c0 : Fin 128) :
    ∑ i ∈ Finset.univ.filter (fun i => hR.drop i = ix1 c0), f i
      = ∑ n : Fin 64, ∑ h : Fin 32, ∑ w : Fin 32, f (ix4 n h w c0) := by
  rw [Finset.sum_filter, sum_idx4]
  refine Finset.sum_congr rfl fun n _ => Finset.sum_congr rfl fun h _ => Finset.sum_congr rfl fun w _ => ?_
  have e : ∀ c : Fin 128, (if hR.drop (ix4 n h w c) = ix1 c0 then f (ix4 n h w c) else 0)
      = if c = c0 then f (ix4 n h w c) else 0 := by
    intro c
    have : (hR.drop (ix4 n h w c) = ix1 c0) ↔ c = c0 := by
      rw [dropR_eq_iff]; exact ⟨fun e => Fin.ext e, fun e => congrArg Fin.val e⟩
    simp only [this]
  simp only [e]
  rw [Finset.sum_ite_eq']
  simp

/-! ## The number of summands per channel, and the moved array read at an index -/

/-- Each channel of x has 64·32·32 = 65536 entries. -/
theorem card_fiberK (hK : SX.ReducesTo [0, 2, 3] SC) (c0 : Fin 128) :
    (Finset.univ.filter (fun i => hK.drop i = ix1 c0)).card = 65536 := by
  rw [Finset.card_eq_sum_ones, sum_fiberK]
  simp

/-- The array with the channel axis moved last, read at (n, h, w, c), is x at (n, c, h, w). -/
theorem transpose_ix4 {α : Type} (hT : SX.Transposes [0, 2, 3, 1] ST) (x : SX.Idx → α)
    (n : Fin 64) (h w : Fin 32) (c : Fin 128) :
    transpose ST [0, 2, 3, 1] x hT (ix4 n h w c) = x (ix4 n c h w) :=
  transpose_apply _ x hT _ _ fun b => match b with
    | ⟨0, _⟩ => rfl | ⟨1, _⟩ => rfl | ⟨2, _⟩ => rfl | ⟨3, _⟩ => rfl

/-- A sum over channel c0 of the moved array is the sum over channel c0 of x. -/
theorem sum_fiberR_transpose {M : Type*} [AddCommMonoid M] {α : Type} (hT : SX.Transposes [0, 2, 3, 1] ST)
    (hK : SX.ReducesTo [0, 2, 3] SC) (hR : ST.ReducesTo [0, 1, 2] SC) (x : SX.Idx → α) (g : α → M) (c0 : Fin 128) :
    ∑ i ∈ Finset.univ.filter (fun i => hR.drop i = ix1 c0), g (transpose ST [0, 2, 3, 1] x hT i)
      = ∑ k ∈ Finset.univ.filter (fun k => hK.drop k = ix1 c0), g (x k) := by
  rw [sum_fiberR hR (fun i => g (transpose ST [0, 2, 3, 1] x hT i)), sum_fiberK hK (fun k => g (x k))]
  exact Finset.sum_congr rfl fun n _ => Finset.sum_congr rfl fun h _ => Finset.sum_congr rfl fun w _ =>
    congrArg g (transpose_ix4 hT x n h w c0)

/-! ## The algebra: coercion out of a finite sum, and the two spellings of the variance -/

/-- The coercion from the reals to the extended reals commutes with a finite sum. -/
theorem coe_sum {ι : Type*} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

private theorem sum_sq_sub {ι : Type*} (s : Finset ι) (r : ι → ℝ) (μ : ℝ) :
    ∑ i ∈ s, (r i - μ) * (r i - μ) = (∑ i ∈ s, r i * r i) - 2 * μ * (∑ i ∈ s, r i) + (s.card : ℝ) * (μ * μ) := by
  have e : ∀ i, (r i - μ) * (r i - μ) = r i * r i - 2 * μ * r i + μ * μ := fun i => by ring
  simp only [e, Finset.sum_add_distrib, Finset.sum_sub_distrib, ← Finset.mul_sum, Finset.sum_const, nsmul_eq_mul]
  ring

/-- Over the reals, with N summands: the mean of the squared deviations is the mean of the squares less the squared mean. -/
theorem var_real {ι : Type*} (s : Finset ι) (N : ℝ) (hN : (s.card : ℝ) = N) (hN0 : N ≠ 0) (r : ι → ℝ) :
    (∑ i ∈ s, (r i - (∑ k ∈ s, r k) * (1 / N)) * (r i - (∑ k ∈ s, r k) * (1 / N))) * (1 / N)
      = (∑ i ∈ s, r i * r i) * (1 / N) - ((∑ k ∈ s, r k) * (1 / N)) * ((∑ k ∈ s, r k) * (1 / N)) := by
  rw [sum_sq_sub, hN]
  field_simp
  ring

/-- The same over the extended reals, for summands that are reals; the division is the exact one of the ideal
    instance, by the real N ≠ 0, and each sum starts from 0 as a host reduction does. -/
theorem var_ereal {ι : Type*} (s : Finset ι) (N : ℝ) (hN : (s.card : ℝ) = N) (hN0 : N ≠ 0) (x : ι → EReal)
    (hx : ∀ i, ∃ r : ℝ, x i = (r : EReal)) :
    Ideal.div (0 + ∑ i ∈ s, (x i - Ideal.div (0 + ∑ k ∈ s, x k) (N : EReal)) * (x i - Ideal.div (0 + ∑ k ∈ s, x k) (N : EReal))) (N : EReal)
      = Ideal.div (0 + ∑ i ∈ s, x i * x i) (N : EReal)
        - Ideal.div (0 + ∑ k ∈ s, x k) (N : EReal) * Ideal.div (0 + ∑ k ∈ s, x k) (N : EReal) := by
  choose r hr using hx
  obtain rfl : x = fun i => ((r i : ℝ) : EReal) := funext hr
  simp only [zero_add, Ideal.div_coe hN0, coe_sum, ← EReal.coe_mul, ← EReal.coe_sub]
  rw [var_real s N hN hN0 r]

/-- The f32 word 0x47800000 is the real 65536. -/
theorem ofBits_65536 : Ideal.ofBits .f32 0x47800000#32 = ((65536 : ℝ) : EReal) := by
  simp [Ideal.ofBits, Ideal.ieee, -EReal.coe_mul]; norm_num

/-! ## The two programs' statistics, as functions of x -/

abbrev S111C : Shape := ⟨4, ![1, 1, 1, 128]⟩

section Stats

variable (hT : SX.Transposes [0, 2, 3, 1] ST) (hK : SX.ReducesTo [0, 2, 3] SC) (hR : ST.ReducesTo [0, 1, 2] SC)
  (h0 : 0 < S0.numel) (hb : S0.BroadcastsInDim SC ![])
  (hb4 : SC.BroadcastsInDim S111C ![3]) (hb5 : S111C.BroadcastsInDim ST ![0, 1, 2, 3])

/-- The scalar zero every sum starts from, and the count 65536 repeated over the channels. -/
abbrev zeroS : FVec Ideal S0 .f32 := constant S0 .f32 0x00000000#32
abbrev cntC : FVec Ideal SC .f32 := broadcastInDim SC ![] hb (constant S0 .f32 0x47800000#32)

/-- Summing x over the axes 0, 2, 3: the mean, and the variance as E[x²] − (E x)². -/
abbrev meanK (x : FVec Ideal SX .f32) : FVec Ideal SC .f32 :=
  Host.divf (Host.reduceAdd x zeroS hK h0) (cntC hb)
abbrev varK (x : FVec Ideal SX .f32) : FVec Ideal SC .f32 :=
  subf (Host.divf (Host.reduceAdd (mulf x x) zeroS hK h0) (cntC hb)) (mulf (meanK hK h0 hb x) (meanK hK h0 hb x))

/-- Moving the channel axis last and summing over the axes 0, 1, 2: the mean, the deviations from it, and the
    variance as E[(x − E x)²]. -/
abbrev xT (x : FVec Ideal SX .f32) : FVec Ideal ST .f32 := transpose ST [0, 2, 3, 1] x hT
abbrev meanR (x : FVec Ideal SX .f32) : FVec Ideal SC .f32 :=
  Host.divf (Host.reduceAdd (xT hT x) zeroS hR h0) (cntC hb)
abbrev devR (x : FVec Ideal SX .f32) : FVec Ideal ST .f32 :=
  subf (xT hT x) (broadcastInDim ST ![0, 1, 2, 3] hb5 (broadcastInDim S111C ![3] hb4 (meanR hT hR h0 hb x)))
abbrev varR (x : FVec Ideal SX .f32) : FVec Ideal SC .f32 :=
  Host.divf (Host.reduceAdd (mulf (devR hT hR h0 hb hb4 hb5 x) (devR hT hR h0 hb hb4 hb5 x)) zeroS hR h0) (cntC hb)

/-- A mean over channel c0 of x, read at c0. -/
theorem readK (z : FVec Ideal S0 .f32) (cnt : FVec Ideal SC .f32) (y : FVec Ideal SX .f32) (c0 : Fin 128) :
    Host.divf (Host.reduceAdd y z hK h0) cnt (ix1 c0)
      = Ideal.div (z (Shape.Idx.first h0) + ∑ k ∈ Finset.univ.filter (fun k => hK.drop k = ix1 c0), y k) (cnt (ix1 c0)) := rfl

/-- A mean over channel c0 of an array with the channel axis last, read at c0. -/
theorem readR (z : FVec Ideal S0 .f32) (cnt : FVec Ideal SC .f32) (y : FVec Ideal ST .f32) (c0 : Fin 128) :
    Host.divf (Host.reduceAdd y z hR h0) cnt (ix1 c0)
      = Ideal.div (z (Shape.Idx.first h0) + ∑ k ∈ Finset.univ.filter (fun k => hR.drop k = ix1 c0), y k) (cnt (ix1 c0)) := rfl

/-- The two means agree: the same entries are summed, in another order (no finiteness is needed). -/
theorem meanR_eq (x : FVec Ideal SX .f32) : meanR hT hR h0 hb x = meanK hK h0 hb x := by
  funext j
  obtain ⟨c0, rfl⟩ : ∃ c0 : Fin 128, j = ix1 c0 := ⟨j 0, eq_ix1 j⟩
  show Host.divf (Host.reduceAdd (xT hT x) zeroS hR h0) (cntC hb) (ix1 c0)
      = Host.divf (Host.reduceAdd x zeroS hK h0) (cntC hb) (ix1 c0)
  rw [readR, readK]
  exact congrArg (fun s => Ideal.div (zeroS (Shape.Idx.first h0) + s) (cntC hb (ix1 c0)))
    (sum_fiberR_transpose hT hK hR x (fun v => v) c0)

theorem zeroS_apply (i : S0.Idx) : zeroS i = (0 : EReal) := Ideal.ofBits_zero_f32

theorem cntC_apply (j : SC.Idx) : cntC hb j = ((65536 : ℝ) : EReal) := by
  show broadcastInDim SC ![] hb (constant (F := Ideal) S0 .f32 0x47800000#32) j = _
  rw [broadcastInDim_scalar_apply]; exact ofBits_65536

/-- The mean of channel c0 of x, read at c0. -/
theorem meanK_apply (x : FVec Ideal SX .f32) (c0 : Fin 128) :
    meanK hK h0 hb x (ix1 c0)
      = Ideal.div (0 + ∑ k ∈ Finset.univ.filter (fun k => hK.drop k = ix1 c0), x k) ((65536 : ℝ) : EReal) := by
  show Host.divf (Host.reduceAdd x zeroS hK h0) (cntC hb) (ix1 c0) = _
  rw [readK, zeroS_apply, cntC_apply]

/-- The deviations, read at (n, h, w, c0): x at (n, c0, h, w) less the mean of channel c0. -/
theorem devR_apply (x : FVec Ideal SX .f32) (n : Fin 64) (h w : Fin 32) (c0 : Fin 128) :
    devR hT hR h0 hb hb4 hb5 x (ix4 n h w c0) = x (ix4 n c0 h w) - meanR hT hR h0 hb x (ix1 c0) := by
  show transpose ST [0, 2, 3, 1] x hT (ix4 n h w c0)
      - broadcastInDim ST ![0, 1, 2, 3] hb5 (broadcastInDim S111C ![3] hb4 (meanR hT hR h0 hb x)) (ix4 n h w c0) = _
  rw [transpose_ix4,
    broadcastInDim_apply _ hb5 _ (ix4 n h w c0) (ix4 0 0 0 c0)
      (fun a => match a with | ⟨0, _⟩ => rfl | ⟨1, _⟩ => rfl | ⟨2, _⟩ => rfl | ⟨3, _⟩ => rfl),
    broadcastInDim_apply _ hb4 _ (ix4 0 0 0 c0) (ix1 c0) (fun a => match a with | ⟨0, _⟩ => rfl)]

/-- The two variances agree when every entry of x is a real. -/
theorem varR_eq (x : FVec Ideal SX .f32) (hfin : ∀ i, ∃ r : ℝ, x i = (r : EReal)) :
    varR hT hR h0 hb hb4 hb5 x = varK hK h0 hb x := by
  funext j
  obtain ⟨c0, rfl⟩ : ∃ c0 : Fin 128, j = ix1 c0 := ⟨j 0, eq_ix1 j⟩
  show Host.divf (Host.reduceAdd (mulf (devR hT hR h0 hb hb4 hb5 x) (devR hT hR h0 hb hb4 hb5 x)) zeroS hR h0) (cntC hb) (ix1 c0)
      = Host.divf (Host.reduceAdd (mulf x x) zeroS hK h0) (cntC hb) (ix1 c0)
        - meanK hK h0 hb x (ix1 c0) * meanK hK h0 hb x (ix1 c0)
  have hN : ((Finset.univ.filter (fun k => hK.drop k = ix1 c0)).card : ℝ) = 65536 := by
    rw [card_fiberK]; norm_num
  have hμ : meanR hT hR h0 hb x (ix1 c0)
      = Ideal.div (0 + ∑ k ∈ Finset.univ.filter (fun k => hK.drop k = ix1 c0), x k) ((65536 : ℝ) : EReal) := by
    rw [meanR_eq hT hK hR h0 hb x, meanK_apply]
  rw [readR, readK, meanK_apply, zeroS_apply, cntC_apply]
  rw [sum_fiberR hR (fun i => mulf (devR hT hR h0 hb hb4 hb5 x) (devR hT hR h0 hb hb4 hb5 x) i) c0]
  simp only [mulf_apply, devR_apply, hμ]
  rw [← sum_fiberK hK (fun k => (x k - Ideal.div (0 + ∑ k ∈ Finset.univ.filter (fun k => hK.drop k = ix1 c0), x k) ((65536 : ℝ) : EReal))
      * (x k - Ideal.div (0 + ∑ k ∈ Finset.univ.filter (fun k => hK.drop k = ix1 c0), x k) ((65536 : ℝ) : EReal))) c0]
  exact var_ereal _ 65536 hN (by norm_num) x hfin

end Stats

end Cert.Bn1

end
-- ==== Proof.Bn1Host.lean ====
/-
  The first batch normalization's scale and shift are the same arrays in the two programs.

  Both programs compute them on the host from x, the conditioning matrix and two weight matrices; they differ in
  the order of summation of the statistics and in the spelling of the variance, E[x²] − (E x)² against
  E[(x − E x)²].  The host operations of each program are read off as one term; the two terms are congruent
  except at the mean and the variance, and there the pure lemmas on x apply (the variance needs every entry of x
  to be a real number).
-/
import proofs.«148433_g2000002724561042_pallasbulk_175_35_alg».proof.Proof.Gen.KernelIdeal.Launch
import proofs.«148433_g2000002724561042_pallasbulk_175_35_alg».proof.Proof.Gen.ReferenceIdeal.Launch
import proofs.«148433_g2000002724561042_pallasbulk_175_35_alg».proof.Proof.Bn1Math

set_option maxRecDepth 4096

noncomputable section

namespace Cert.Bn1

open Idealize.ShloMosaic Idealize.ShloMosaic.StableHlo Idealize.ShloMosaic.ValueIdx

set_option maxHeartbeats 4000000 in
/-- Scale, shift and the input with its channel axis moved last: equal in the two programs, from equal arguments
    x, cond, wg1, wb1 and a finite x. -/
theorem scale_shift_eq
    (VK : Valuation Cert.KernelIdeal.τ Cert.KernelIdeal.sig (Elt Ideal))
    (VR : Valuation Cert.ReferenceIdeal.τ Cert.ReferenceIdeal.sig (Elt Ideal))
    (h0 : VR (Proc.devRef .tc Cert.ReferenceIdeal.main_arg0) = VK (Proc.devRef .tc Cert.KernelIdeal.main_arg0))
    (h1 : VR (Proc.devRef .tc Cert.ReferenceIdeal.main_arg1) = VK (Proc.devRef .tc Cert.KernelIdeal.main_arg1))
    (h2 : VR (Proc.devRef .tc Cert.ReferenceIdeal.main_arg2) = VK (Proc.devRef .tc Cert.KernelIdeal.main_arg2))
    (h3 : VR (Proc.devRef .tc Cert.ReferenceIdeal.main_arg3) = VK (Proc.devRef .tc Cert.KernelIdeal.main_arg3))
    (hfin : ∀ i, ∃ r : ℝ, VK (Proc.devRef .tc Cert.KernelIdeal.main_arg0) i = (r : EReal)) :
    StableHlo.after (Cert.ReferenceIdeal.Gen.hostOps0 (F := Ideal)) VR (Proc.devRef .tc Cert.ReferenceIdeal.main_v19)
        = StableHlo.after (Cert.KernelIdeal.Gen.hostOps0 (F := Ideal)) VK (Proc.devRef .tc Cert.KernelIdeal.main_v18)
      ∧ StableHlo.after (Cert.ReferenceIdeal.Gen.hostOps0 (F := Ideal)) VR (Proc.devRef .tc Cert.ReferenceIdeal.main_v27)
        = StableHlo.after (Cert.KernelIdeal.Gen.hostOps0 (F := Ideal)) VK (Proc.devRef .tc Cert.KernelIdeal.main_v26)
      ∧ StableHlo.after (Cert.ReferenceIdeal.Gen.hostOps0 (F := Ideal)) VR (Proc.devRef .tc Cert.ReferenceIdeal.main_v0)
        = StableHlo.after (Cert.KernelIdeal.Gen.hostOps0 (F := Ideal)) VK (Proc.devRef .tc Cert.KernelIdeal.main_v0) := by
  have hT : SX.Transposes [0, 2, 3, 1] ST := by decide
  have hK : SX.ReducesTo [0, 2, 3] SC := by decide
  have hR : ST.ReducesTo [0, 1, 2] SC := by decide
  have hS : 0 < S0.numel := by decide
  have hb : S0.BroadcastsInDim SC ![] := by decide
  have hb4 : SC.BroadcastsInDim S111C ![3] := by decide
  have hb5 : S111C.BroadcastsInDim ST ![0, 1, 2, 3] := by decide
  have hm := meanR_eq hT hK hR hS hb (VK (Proc.devRef .tc Cert.KernelIdeal.main_arg0))
  have hv := varR_eq hT hK hR hS hb hb4 hb5 (VK (Proc.devRef .tc Cert.KernelIdeal.main_arg0)) hfin
  dsimp only [varR, varK, devR, meanR, meanK, xT, zeroS, cntC] at hm hv
  refine ⟨?_, ?_, ?_⟩
  · delta Cert.ReferenceIdeal.Gen.hostOps0 Cert.KernelIdeal.Gen.hostOps0
    after_results_simp
    rw [h0, h1, h2]
    rw [hv]
    rfl
  · delta Cert.ReferenceIdeal.Gen.hostOps0 Cert.KernelIdeal.Gen.hostOps0
    after_results_simp
    rw [h0, h1, h2, h3]
    rw [hv, hm]
    rfl
  · delta Cert.ReferenceIdeal.Gen.hostOps0 Cert.KernelIdeal.Gen.hostOps0
    after_results_simp
    rw [h0]

end Cert.Bn1

end
-- ==== Proof.Bn2Host.lean ====
/-
  The host operations between the two kernels of each program, and the one after the second, compute the same
  arrays in both programs from equal inputs: the second normalization's scale and shift (a sum, a division by
  the count, a square, a difference, a maximum with zero, an added constant, a reciprocal square root, and two
  products with the conditioning matrix), a reshape of the first kernel's result, the summed bias, and the final
  move of the channel axis.  No algebra is involved: both programs spell the same composed term.
-/
import proofs.«148433_g2000002724561042_pallasbulk_175_35_alg».proof.Proof.Gen.KernelIdeal.Launch
import proofs.«148433_g2000002724561042_pallasbulk_175_35_alg».proof.Proof.Gen.ReferenceIdeal.Launch
import proofs.«148433_g2000002724561042_pallasbulk_175_35_alg».proof.Proof.Gen.KernelIdeal.Regions
import proofs.«148433_g2000002724561042_pallasbulk_175_35_alg».proof.Proof.Gen.ReferenceIdeal.Regions
import Idealize.ShloMosaic.PureOps.Ideal

set_option maxRecDepth 4096

noncomputable section

namespace Cert.Bn2

open Idealize.ShloMosaic Idealize.ShloMosaic.StableHlo

variable (VK : Valuation Cert.KernelIdeal.τ Cert.KernelIdeal.sig (Elt Ideal)) (VR : Valuation Cert.ReferenceIdeal.τ Cert.ReferenceIdeal.sig (Elt Ideal))

set_option maxHeartbeats 4000000 in
/-- The second normalization's scale and shift, from equal channel sums, equal channel sums of squares, and equal
    conditioning and weight matrices. -/
theorem scale2_shift2_eq
    (hs : VR (Proc.devRef .tc Cert.ReferenceIdeal.main_v51_2) = VK (Proc.devRef .tc Cert.KernelIdeal.main_v58_2))
    (hq : VR (Proc.devRef .tc Cert.ReferenceIdeal.main_v51_3) = VK (Proc.devRef .tc Cert.KernelIdeal.main_v58_3))
    (h1 : VR (Proc.devRef .tc Cert.ReferenceIdeal.main_arg1) = VK (Proc.devRef .tc Cert.KernelIdeal.main_arg1))
    (h4 : VR (Proc.devRef .tc Cert.ReferenceIdeal.main_arg4) = VK (Proc.devRef .tc Cert.KernelIdeal.main_arg4))
    (h5 : VR (Proc.devRef .tc Cert.ReferenceIdeal.main_arg5) = VK (Proc.devRef .tc Cert.KernelIdeal.main_arg5)) :
    StableHlo.after (Cert.ReferenceIdeal.Gen.hostOps1 (F := Ideal)) VR (Proc.devRef .tc Cert.ReferenceIdeal.main_v71)
        = StableHlo.after (Cert.KernelIdeal.Gen.hostOps1 (F := Ideal)) VK (Proc.devRef .tc Cert.KernelIdeal.main_v78)
      ∧ StableHlo.after (Cert.ReferenceIdeal.Gen.hostOps1 (F := Ideal)) VR (Proc.devRef .tc Cert.ReferenceIdeal.main_v79)
        = StableHlo.after (Cert.KernelIdeal.Gen.hostOps1 (F := Ideal)) VK (Proc.devRef .tc Cert.KernelIdeal.main_v86) := by
  refine ⟨?_, ?_⟩
  · delta Cert.ReferenceIdeal.Gen.hostOps1 Cert.KernelIdeal.Gen.hostOps1
    after_results_simp
    rw [hs, hq, h1, h4]
    rfl
  · delta Cert.ReferenceIdeal.Gen.hostOps1 Cert.KernelIdeal.Gen.hostOps1
    after_results_simp
    rw [hs, hq, h1, h4, h5]
    rfl

set_option maxHeartbeats 4000000 in
/-- The first kernel's result, reshaped. -/
theorem reshape_y_eq
    (hy : VR (Proc.devRef .tc Cert.ReferenceIdeal.main_v51_0) = VK (Proc.devRef .tc Cert.KernelIdeal.main_v58_0)) :
    StableHlo.after (Cert.ReferenceIdeal.Gen.hostOps1 (F := Ideal)) VR (Proc.devRef .tc Cert.ReferenceIdeal.main_v52)
      = StableHlo.after (Cert.KernelIdeal.Gen.hostOps1 (F := Ideal)) VK (Proc.devRef .tc Cert.KernelIdeal.main_v59) := by
  delta Cert.ReferenceIdeal.Gen.hostOps1 Cert.KernelIdeal.Gen.hostOps1
  after_results_simp
  rw [hy]
  rfl

set_option maxHeartbeats 4000000 in
/-- The summed bias, as a row. -/
theorem bias_eq
    (h9 : VR (Proc.devRef .tc Cert.ReferenceIdeal.main_arg9) = VK (Proc.devRef .tc Cert.KernelIdeal.main_arg9))
    (h11 : VR (Proc.devRef .tc Cert.ReferenceIdeal.main_arg11) = VK (Proc.devRef .tc Cert.KernelIdeal.main_arg11)) :
    StableHlo.after (Cert.ReferenceIdeal.Gen.hostOps1 (F := Ideal)) VR (Proc.devRef .tc Cert.ReferenceIdeal.main_v82)
      = StableHlo.after (Cert.KernelIdeal.Gen.hostOps1 (F := Ideal)) VK (Proc.devRef .tc Cert.KernelIdeal.main_v97) := by
  delta Cert.ReferenceIdeal.Gen.hostOps1 Cert.KernelIdeal.Gen.hostOps1
  after_results_simp
  rw [h9, h11]
  rfl

/-- No operation of the stretch writes the first kernel's second result. -/
theorem proj_kept_R :
    StableHlo.after (Cert.ReferenceIdeal.Gen.hostOps1 (F := Ideal)) VR (Proc.devRef .tc Cert.ReferenceIdeal.main_v51_1) = VR (Proc.devRef .tc Cert.ReferenceIdeal.main_v51_1) :=
  StableHlo.after_of_writes_sub Cert.ReferenceIdeal.Gen.hostOps1 _ Cert.ReferenceIdeal.Gen.hostOps1_writes (r := Cert.ReferenceIdeal.main_v51_1) (by decide)

theorem proj_kept_K :
    StableHlo.after (Cert.KernelIdeal.Gen.hostOps1 (F := Ideal)) VK (Proc.devRef .tc Cert.KernelIdeal.main_v58_1) = VK (Proc.devRef .tc Cert.KernelIdeal.main_v58_1) :=
  StableHlo.after_of_writes_sub Cert.KernelIdeal.Gen.hostOps1 _ Cert.KernelIdeal.Gen.hostOps1_writes (r := Cert.KernelIdeal.main_v58_1) (by decide)

set_option maxHeartbeats 4000000 in
/-- The last operation: the channel axis moved back to second place. -/
theorem out_eq
    (hv : VR (Proc.devRef .tc Cert.ReferenceIdeal.main_v83) = VK (Proc.devRef .tc Cert.KernelIdeal.main_v98)) :
    StableHlo.after (Cert.ReferenceIdeal.Gen.hostOps2 (F := Ideal)) VR (Proc.devRef .tc Cert.ReferenceIdeal.main_v84)
      = StableHlo.after (Cert.KernelIdeal.Gen.hostOps2 (F := Ideal)) VK (Proc.devRef .tc Cert.KernelIdeal.main_v99) := by
  delta Cert.ReferenceIdeal.Gen.hostOps2 Cert.KernelIdeal.Gen.hostOps2
  after_results_simp
  rw [hv]

end Cert.Bn2

end
-- ==== Proof.BridgeS1.lean ====
/-
  Stage 1. Both programs hand their first stage the same activations' ingredients — the input moved to channels-last,
  and the first batch-norm's scale and shift, equal because the one-pass and the two-pass variance agree on finite
  inputs — and the same convolution weights in two arrangements; so the four arrays the stage leaves (the folded
  convolution output, the projection, the per-sample sums and sums of squares) agree, each being the specification's
  first stage of its sample. The second batch-norm's scale and shift, computed from those sums alone, then agree too.
-/
import proofs.«148433_g2000002724561042_pallasbulk_175_35_alg».proof.Defs
import proofs.«148433_g2000002724561042_pallasbulk_175_35_alg».proof.Proof.KFrameRun
import proofs.«148433_g2000002724561042_pallasbulk_175_35_alg».proof.Proof.RefFrameRun
import proofs.«148433_g2000002724561042_pallasbulk_175_35_alg».proof.Proof.BridgeLib
import proofs.«148433_g2000002724561042_pallasbulk_175_35_alg».proof.Proof.K0Arr
import proofs.«148433_g2000002724561042_pallasbulk_175_35_alg».proof.Proof.R0Arr
import proofs.«148433_g2000002724561042_pallasbulk_175_35_alg».proof.Proof.K0HostAlt
import proofs.«148433_g2000002724561042_pallasbulk_175_35_alg».proof.Proof.K0HostB
import proofs.«148433_g2000002724561042_pallasbulk_175_35_alg».proof.Proof.RefHost0a
import proofs.«148433_g2000002724561042_pallasbulk_175_35_alg».proof.Proof.RefHost0b
import proofs.«148433_g2000002724561042_pallasbulk_175_35_alg».proof.Proof.Bn1Fin
import proofs.«148433_g2000002724561042_pallasbulk_175_35_alg».proof.Proof.Bn1Host
import proofs.«148433_g2000002724561042_pallasbulk_175_35_alg».proof.Proof.Bn2Host

noncomputable section

namespace Cert.Bridge

open Idealize.ShloMosaic Idealize.ShloMosaic.TcCoe Idealize.SL.Sem Idealize.ShloMosaic.ValueIdx

section
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)

/-- The first convolution's kernel tensor, its bias and the projection's weights, off the kernel program's launch memory. -/
def w0 : Fin 3 → Fin 3 → Fin 128 → Fin 128 → EReal :=
  fun kh kw k c' => (m ((c : Thread Cert.KernelIdeal.nD Cert.KernelIdeal.τ).loc Cert.KernelIdeal.main_arg6) : Cert.KernelIdeal.S3x3x128x128.Idx → EReal) (ix4 kh kw k c')
def b0 : Fin 128 → EReal := fun c' => (m ((c : Thread Cert.KernelIdeal.nD Cert.KernelIdeal.τ).loc Cert.KernelIdeal.main_arg7) : Cert.KernelIdeal.S128.Idx → EReal) (ix1 c')
def wsc0 : Fin 128 → Fin 128 → EReal :=
  fun k c' => (m ((c : Thread Cert.KernelIdeal.nD Cert.KernelIdeal.τ).loc Cert.KernelIdeal.main_arg10) : Cert.KernelIdeal.S1x1x128x128.Idx → EReal) (ix4 0 0 k c')

set_option maxHeartbeats 2000000 in
/-- The first stage leaves the same four arrays in both programs. -/
theorem stage1_eq (hpre : @Cert.Pre_KernelIdeal Cert.Pre_finite_inputs.Gen.facts m)
    (hag0 : m' ((c : Thread Cert.ReferenceIdeal.nD Cert.ReferenceIdeal.τ).loc Cert.ReferenceIdeal.main_arg0) = m ((c : Thread Cert.KernelIdeal.nD Cert.KernelIdeal.τ).loc Cert.KernelIdeal.main_arg0)) (hag1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)) (hag2 : m' ((c : Thread Cert.ReferenceIdeal.nD Cert.ReferenceIdeal.τ).loc Cert.ReferenceIdeal.main_arg2) = m ((c : Thread Cert.KernelIdeal.nD Cert.KernelIdeal.τ).loc Cert.KernelIdeal.main_arg2)) (hag3 : m' ((c : Thread Cert.ReferenceIdeal.nD Cert.ReferenceIdeal.τ).loc Cert.ReferenceIdeal.main_arg3) = m ((c : Thread Cert.KernelIdeal.nD Cert.KernelIdeal.τ).loc Cert.KernelIdeal.main_arg3)) (hag6 : m' ((c : Thread Cert.ReferenceIdeal.nD Cert.ReferenceIdeal.τ).loc Cert.ReferenceIdeal.main_arg6) = m ((c : Thread Cert.KernelIdeal.nD Cert.KernelIdeal.τ).loc Cert.KernelIdeal.main_arg6)) (hag7 : m' ((c : Thread Cert.ReferenceIdeal.nD Cert.ReferenceIdeal.τ).loc Cert.ReferenceIdeal.main_arg7) = m ((c : Thread Cert.KernelIdeal.nD Cert.KernelIdeal.τ).loc Cert.KernelIdeal.main_arg7)) (hag10 : m' ((c : Thread Cert.ReferenceIdeal.nD Cert.ReferenceIdeal.τ).loc Cert.ReferenceIdeal.main_arg10) = m ((c : Thread Cert.KernelIdeal.nD Cert.KernelIdeal.τ).loc Cert.KernelIdeal.main_arg10)) :
    (∀ (N I : Fin 64) (j : Fin 32) (l : Fin 256),
      (Cert.ReferenceIdeal.Hand.W2 (F := Ideal) m' ρ' c (Proc.devRef .tc Cert.ReferenceIdeal.main_v51_0) : Cert.ReferenceIdeal.S64x64x32x256.Idx → EReal) (ix4 N I j l)
        = (Cert.KernelIdeal.Hand.W2 (F := Ideal) m ρ c (Proc.devRef .tc Cert.KernelIdeal.main_v58_0) : Cert.KernelIdeal.S64x64x32x256.Idx → EReal) (ix4 N I j l))
    ∧ (∀ (N : Fin 64) (i j : Fin 32) (k : Fin 128),
      (Cert.ReferenceIdeal.Hand.W2 (F := Ideal) m' ρ' c (Proc.devRef .tc Cert.ReferenceIdeal.main_v51_1) : Cert.ReferenceIdeal.S64x32x32x128.Idx → EReal) (ix4 N i j k)
        = (Cert.KernelIdeal.Hand.W2 (F := Ideal) m ρ c (Proc.devRef .tc Cert.KernelIdeal.main_v58_1) : Cert.KernelIdeal.S64x32x32x128.Idx → EReal) (ix4 N i j k))
    ∧ (∀ (N : Fin 64) (k : Fin 128),
      (Cert.ReferenceIdeal.Hand.W2 (F := Ideal) m' ρ' c (Proc.devRef .tc Cert.ReferenceIdeal.main_v51_2) : Cert.ReferenceIdeal.S64x1x128.Idx → EReal) (ix3 N 0 k)
        = (Cert.KernelIdeal.Hand.W2 (F := Ideal) m ρ c (Proc.devRef .tc Cert.KernelIdeal.main_v58_2) : Cert.KernelIdeal.S64x1x128.Idx → EReal) (ix3 N 0 k))
    ∧ (∀ (N : Fin 64) (k : Fin 128),
      (Cert.ReferenceIdeal.Hand.W2 (F := Ideal) m' ρ' c (Proc.devRef .tc Cert.ReferenceIdeal.main_v51_3) : Cert.ReferenceIdeal.S64x1x128.Idx → EReal) (ix3 N 0 k)
        = (Cert.KernelIdeal.Hand.W2 (F := Ideal) m ρ c (Proc.devRef .tc Cert.KernelIdeal.main_v58_3) : Cert.KernelIdeal.S64x1x128.Idx → EReal) (ix3 N 0 k)) := by
  -- the kernel program's merged weights, tiled bias and projection weights are the launch tensors' tables
  have hwK : ∀ (T U : Fin 4) (k c' : Fin 128),
      (Cert.KernelIdeal.Hand.V1 (F := Ideal) m ρ c Cert.KernelIdeal.main_v51 : Cert.KernelIdeal.S512x512.Idx → Elt Ideal .bf16)
        (ix2 (Cert.KernelIdeal.Val0.colOf T k) (Cert.KernelIdeal.Val0.colOf U c')) = Cert.KernelIdeal.Val0.Mblk (w0 m c) T U k c' :=
    fun T U k c' => Cert.KernelIdeal.HostK0Alt.wm_table (Cert.KernelIdeal.Hand.W0 (F := Ideal) m ρ c) T U k c'
  have hbK : ∀ (U : Fin 4) (c' : Fin 128),
      (Cert.KernelIdeal.Hand.V1 (F := Ideal) m ρ c Cert.KernelIdeal.main_v55 : Cert.KernelIdeal.S1x512.Idx → Elt Ideal .f32) (ix2 (0 : Fin 1) (Cert.KernelIdeal.Val0.colOf U c')) = b0 m c c' :=
    fun U c' => Cert.KernelIdeal.HostK0.b0m_at (Cert.KernelIdeal.Hand.W0 (F := Ideal) m ρ c) U c'
  have hwscK : ∀ k c' : Fin 128,
      (Cert.KernelIdeal.Hand.V1 (F := Ideal) m ρ c Cert.KernelIdeal.main_v57 : Cert.KernelIdeal.S128x128.Idx → Elt Ideal .bf16) (ix2 k c') = wsc0 m c k c' :=
    fun k c' => Cert.KernelIdeal.HostK0.wsc_at (Cert.KernelIdeal.Hand.W0 (F := Ideal) m ρ c) k c'
  -- the reference's four phase weight matrices, bias row and projection weights are the same tensors' slices
  have h6 : (Cert.ReferenceIdeal.Hand.W0 (F := Ideal) m' ρ' c (Proc.devRef .tc Cert.ReferenceIdeal.main_arg6) : Cert.ReferenceIdeal.S3x3x128x128.Idx → EReal)
      = (m ((c : Thread Cert.KernelIdeal.nD Cert.KernelIdeal.τ).loc Cert.KernelIdeal.main_arg6) : Cert.KernelIdeal.S3x3x128x128.Idx → EReal) := hag6
  have h7 : (Cert.ReferenceIdeal.Hand.W0 (F := Ideal) m' ρ' c (Proc.devRef .tc Cert.ReferenceIdeal.main_arg7) : Cert.ReferenceIdeal.S128.Idx → EReal)
      = (m ((c : Thread Cert.KernelIdeal.nD Cert.KernelIdeal.τ).loc Cert.KernelIdeal.main_arg7) : Cert.KernelIdeal.S128.Idx → EReal) := hag7
  have h10 : (Cert.ReferenceIdeal.Hand.W0 (F := Ideal) m' ρ' c (Proc.devRef .tc Cert.ReferenceIdeal.main_arg10) : Cert.ReferenceIdeal.S1x1x128x128.Idx → EReal)
      = (m ((c : Thread Cert.KernelIdeal.nD Cert.KernelIdeal.τ).loc Cert.KernelIdeal.main_arg10) : Cert.KernelIdeal.S1x1x128x128.Idx → EReal) := hag10
  have hWR : Cert.ReferenceIdeal.Val0.PhaseWeights (Cert.ReferenceIdeal.Hand.U1 (F := Ideal) m' ρ' c Cert.ReferenceIdeal.main_v29) (Cert.ReferenceIdeal.Hand.U1 (F := Ideal) m' ρ' c Cert.ReferenceIdeal.main_v34)
      (Cert.ReferenceIdeal.Hand.U1 (F := Ideal) m' ρ' c Cert.ReferenceIdeal.main_v39) (Cert.ReferenceIdeal.Hand.U1 (F := Ideal) m' ρ' c Cert.ReferenceIdeal.main_v48) (Cert.ReferenceIdeal.Hand.U1 (F := Ideal) m' ρ' c Cert.ReferenceIdeal.main_v49)
      (w0 m c) (b0 m c) :=
    ⟨fun k c' => (Cert.ReferenceIdeal.HostR.v29_apply (Cert.ReferenceIdeal.Hand.W0 (F := Ideal) m' ρ' c) k c').trans (congrFun h6 _),
     fun K k c' hK => (Cert.ReferenceIdeal.HostR.v34_0 (Cert.ReferenceIdeal.Hand.W0 (F := Ideal) m' ρ' c) K k c' hK).trans (congrFun h6 _),
     fun K k c' hK => (Cert.ReferenceIdeal.HostR.v34_1 (Cert.ReferenceIdeal.Hand.W0 (F := Ideal) m' ρ' c) K k c' hK).trans (congrFun h6 _),
     fun K k c' hK => (Cert.ReferenceIdeal.HostR.v39_0 (Cert.ReferenceIdeal.Hand.W0 (F := Ideal) m' ρ' c) K k c' hK).trans (congrFun h6 _),
     fun K k c' hK => (Cert.ReferenceIdeal.HostR.v39_1 (Cert.ReferenceIdeal.Hand.W0 (F := Ideal) m' ρ' c) K k c' hK).trans (congrFun h6 _),
     fun K k c' hK => (Cert.ReferenceIdeal.HostR.v48_0 (Cert.ReferenceIdeal.Hand.W0 (F := Ideal) m' ρ' c) K k c' hK).trans (congrFun h6 _),
     fun K k c' hK => (Cert.ReferenceIdeal.HostR.v48_1 (Cert.ReferenceIdeal.Hand.W0 (F := Ideal) m' ρ' c) K k c' hK).trans (congrFun h6 _),
     fun K k c' hK => (Cert.ReferenceIdeal.HostR.v48_2 (Cert.ReferenceIdeal.Hand.W0 (F := Ideal) m' ρ' c) K k c' hK).trans (congrFun h6 _),
     fun K k c' hK => (Cert.ReferenceIdeal.HostR.v48_3 (Cert.ReferenceIdeal.Hand.W0 (F := Ideal) m' ρ' c) K k c' hK).trans (congrFun h6 _),
     fun c' => (Cert.ReferenceIdeal.HostR.v49_apply (Cert.ReferenceIdeal.Hand.W0 (F := Ideal) m' ρ' c) c').trans (congrFun h7 _)⟩
  have hwscR : ∀ k c' : Fin 128,
      (Cert.ReferenceIdeal.Hand.U1 (F := Ideal) m' ρ' c Cert.ReferenceIdeal.main_v50 : Vec Ideal Cert.ReferenceIdeal.S128x128 .f32) (ix2 k c') = wsc0 m c k c' :=
    fun k c' => (Cert.ReferenceIdeal.HostR.v50_apply (Cert.ReferenceIdeal.Hand.W0 (F := Ideal) m' ρ' c) k c').trans (congrFun h10 _)
  -- the stage's three activation ingredients agree
  obtain ⟨esc, esh, ex⟩ := Cert.Bn1.scale_shift_eq (Cert.KernelIdeal.Hand.W0 (F := Ideal) m ρ c) (Cert.ReferenceIdeal.Hand.W0 (F := Ideal) m' ρ' c)
    hag0 hag1 hag2 hag3 (Cert.Bn1.fin_x m hpre c)
  have eX : ∀ N : Fin 64, Cert.ReferenceIdeal.Val0.xAt (Cert.ReferenceIdeal.Hand.U1 (F := Ideal) m' ρ') c N = Cert.KernelIdeal.Val0.gX (Cert.KernelIdeal.Hand.V1 (F := Ideal) m ρ) c N :=
    fun N => funext fun i => funext fun j => funext fun k => congrFun ex (ix4 N i j k)
  have eSc : ∀ N : Fin 64, Cert.ReferenceIdeal.Val0.scAt (Cert.ReferenceIdeal.Hand.U1 (F := Ideal) m' ρ') c N = Cert.KernelIdeal.Val0.gSc (Cert.KernelIdeal.Hand.V1 (F := Ideal) m ρ) c N :=
    fun N => funext fun k => congrFun esc (ix3 N 0 k)
  have eSh : ∀ N : Fin 64, Cert.ReferenceIdeal.Val0.shAt (Cert.ReferenceIdeal.Hand.U1 (F := Ideal) m' ρ') c N = Cert.KernelIdeal.Val0.gSh (Cert.KernelIdeal.Hand.V1 (F := Ideal) m ρ) c N :=
    fun N => funext fun k => congrFun esh (ix3 N 0 k)
  -- each array is what its pipeline's write-backs leave
  have aR : ∀ w : Fin Cert.ReferenceIdeal.cfg0.W, Cert.ReferenceIdeal.Hand.W2 (F := Ideal) m' ρ' c (Proc.devRef .tc (Pipeline.arrRef Cert.ReferenceIdeal.spec0 w))
      = (Cert.ReferenceIdeal.Hand.dat0 (F := Ideal) (Cert.ReferenceIdeal.Hand.U1 m' ρ') c).arrAt w Cert.ReferenceIdeal.cfg0.N := Cert.ReferenceIdeal.Hand.W2_arr m' ρ' c
  have aK : ∀ w : Fin Cert.KernelIdeal.cfg0.W, Cert.KernelIdeal.Hand.W2 (F := Ideal) m ρ c (Proc.devRef .tc (Pipeline.arrRef Cert.KernelIdeal.spec0 w))
      = (Cert.KernelIdeal.Hand.dat0 (F := Ideal) (Cert.KernelIdeal.Hand.V1 m ρ) c).arrAt w Cert.KernelIdeal.cfg0.N := Cert.KernelIdeal.Hand.W2_arr m ρ c
  refine ⟨fun N I j l => ?_, fun N i j k => ?_, fun N k => ?_, fun N k => ?_⟩
  · exact ((congrFun (aR 9) _).trans (Cert.ReferenceIdeal.Val0.arr9_apply (Cert.ReferenceIdeal.Hand.U1 m' ρ') c (w0 m c) (b0 m c) hWR N I j l)).trans
      ((by rw [eX N, eSc N, eSh N] : _ = _).trans
        ((congrFun (aK 6) _).trans (Cert.KernelIdeal.Val0.arr6 (Cert.KernelIdeal.Hand.V1 m ρ) c (w0 m c) (b0 m c) hwK hbK N I j l)).symm)
  · exact ((congrFun (aR 10) _).trans (Cert.ReferenceIdeal.Val0.arr10_apply (Cert.ReferenceIdeal.Hand.U1 m' ρ') c (wsc0 m c) hwscR N i j k)).trans
      ((by rw [eX N] : _ = _).trans
        ((congrFun (aK 7) _).trans (Cert.KernelIdeal.Val0.arr7 (Cert.KernelIdeal.Hand.V1 m ρ) c (wsc0 m c) hwscK N i j k)).symm)
  · exact ((congrFun (aR 11) _).trans (Cert.ReferenceIdeal.Val0.arr11_apply (Cert.ReferenceIdeal.Hand.U1 m' ρ') c (w0 m c) (b0 m c) hWR N k)).trans
      ((by rw [eX N, eSc N, eSh N] : _ = _).trans
        ((congrFun (aK 8) _).trans (Cert.KernelIdeal.Val0.arr8 (Cert.KernelIdeal.Hand.V1 m ρ) c (w0 m c) (b0 m c) hwK hbK N k)).symm)
  · exact ((congrFun (aR 12) _).trans (Cert.ReferenceIdeal.Val0.arr12_apply (Cert.ReferenceIdeal.Hand.U1 m' ρ') c (w0 m c) (b0 m c) hWR N k)).trans
      ((by rw [eX N, eSc N, eSh N] : _ = _).trans
        ((congrFun (aK 9) _).trans (Cert.KernelIdeal.Val0.arr9 (Cert.KernelIdeal.Hand.V1 m ρ) c (w0 m c) (b0 m c) hwK hbK N k)).symm)

/-- The second batch-norm's scale and shift agree, being one function of the sums the first stage leaves. -/
theorem scale2_eq (hag1 : m' ((c : Thread Cert.ReferenceIdeal.nD Cert.ReferenceIdeal.τ).loc Cert.ReferenceIdeal.main_arg1) = m ((c : Thread Cert.KernelIdeal.nD Cert.KernelIdeal.τ).loc Cert.KernelIdeal.main_arg1)) (hag4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)) (hag5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (hs : ∀ (N : Fin 64) (k : Fin 128),
      (Cert.ReferenceIdeal.Hand.W2 (F := Ideal) m' ρ' c (Proc.devRef .tc Cert.ReferenceIdeal.main_v51_2) : Cert.ReferenceIdeal.S64x1x128.Idx → EReal) (ix3 N 0 k)
        = (Cert.KernelIdeal.Hand.W2 (F := Ideal) m ρ c (Proc.devRef .tc Cert.KernelIdeal.main_v58_2) : Cert.KernelIdeal.S64x1x128.Idx → EReal) (ix3 N 0 k))
    (hq : ∀ (N : Fin 64) (k : Fin 128),
      (Cert.ReferenceIdeal.Hand.W2 (F := Ideal) m' ρ' c (Proc.devRef .tc Cert.ReferenceIdeal.main_v51_3) : Cert.ReferenceIdeal.S64x1x128.Idx → EReal) (ix3 N 0 k)
        = (Cert.KernelIdeal.Hand.W2 (F := Ideal) m ρ c (Proc.devRef .tc Cert.KernelIdeal.main_v58_3) : Cert.KernelIdeal.S64x1x128.Idx → EReal) (ix3 N 0 k)) :
    (Cert.ReferenceIdeal.Hand.W3 (F := Ideal) m' ρ' c (Proc.devRef .tc Cert.ReferenceIdeal.main_v71) : Cert.ReferenceIdeal.S64x1x128.Idx → EReal)
        = (Cert.KernelIdeal.Hand.W3 (F := Ideal) m ρ c (Proc.devRef .tc Cert.KernelIdeal.main_v78) : Cert.KernelIdeal.S64x1x128.Idx → EReal)
    ∧ (Cert.ReferenceIdeal.Hand.W3 (F := Ideal) m' ρ' c (Proc.devRef .tc Cert.ReferenceIdeal.main_v79) : Cert.ReferenceIdeal.S64x1x128.Idx → EReal)
        = (Cert.KernelIdeal.Hand.W3 (F := Ideal) m ρ c (Proc.devRef .tc Cert.KernelIdeal.main_v86) : Cert.KernelIdeal.S64x1x128.Idx → EReal) := by
  have ext3 : ∀ (f g : Cert.KernelIdeal.S64x1x128.Idx → EReal), (∀ (N : Fin 64) (k : Fin 128), f (ix3 N 0 k) = g (ix3 N 0 k)) → f = g := by
    intro f g h
    funext q
    obtain ⟨N, u, k, rfl⟩ : ∃ (N : Fin 64) (u : Fin 1) (k : Fin 128), q = ix3 N u k := ⟨q 0, q 1, q 2, eq_ix3 q⟩
    obtain rfl : u = 0 := Subsingleton.elim _ _
    exact h N k
  exact Cert.Bn2.scale2_shift2_eq (Cert.KernelIdeal.Hand.W2 (F := Ideal) m ρ c) (Cert.ReferenceIdeal.Hand.W2 (F := Ideal) m' ρ' c)
    (ext3 _ _ hs) (ext3 _ _ hq)
    ((R_W2_arg m' ρ' c Cert.ReferenceIdeal.main_arg1 (by decide) (by decide)).trans (hag1.trans (K_W2_arg m ρ c Cert.KernelIdeal.main_arg1 (by decide) (by decide)).symm))
    ((R_W2_arg m' ρ' c Cert.ReferenceIdeal.main_arg4 (by decide) (by decide)).trans (hag4.trans (K_W2_arg m ρ c Cert.KernelIdeal.main_arg4 (by decide) (by decide)).symm))
    ((R_W2_arg m' ρ' c Cert.ReferenceIdeal.main_arg5 (by decide) (by decide)).trans (hag5.trans (K_W2_arg m ρ c Cert.KernelIdeal.main_arg5 (by decide) (by decide)).symm))

end

end Cert.Bridge

end
-- ==== Proof.K1Act.lean ====
/-
  The second stage's body, first half of its arithmetic, read index by index over the extended reals: the
  activation `max (y·sc + sh) 0`, and the matrix the body feeds to the matrix unit — for every sample `n`, image
  position `(I, J)`, column tap `kw` and input channel `k`, the activation at `(I, J + kw - 1)`, zero when that column
  is off the image. (The row border of the padded map is never read here: the body keeps the centre rows only and
  realigns the three kernel rows after the product.)
-/
import proofs.«148433_g2000002724561042_pallasbulk_175_35_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Val1

open Cert.KernelIdeal Cert.KernelIdeal.Gen
open Idealize.ShloMosaic Idealize.ShloMosaic.ValueIdx

/-! ## The activation -/

/-- The activated block, in the narrow format (a change of format is the identity on the extended reals). -/
def actOf (v0 : Vec Ideal S2x64x64x128 .bf16) (v3 v6 : Vec Ideal S2x1x128 .f32) : FVec Ideal S2x64x64x128 .bf16 :=
  truncf .bf16
    (maximumf
      (addf
        (mulf (extf .f32 (shapeCast S2x64x64x128 v0 shapeCasts_S2x64x64x128_S2x64x64x128) bitsLt_bf16_f32)
          (broadcastTo S2x64x64x128
            (shapeCast S2x1x1x128 (shapeCast S2x1x128 v3 shapeCasts_S2x1x128_S2x1x128) shapeCasts_S2x1x128_S2x1x1x128)
            broadcasts_S2x1x1x128_S2x64x64x128))
        (broadcastTo S2x64x64x128
          (shapeCast S2x1x1x128 (shapeCast S2x1x128 v6 shapeCasts_S2x1x128_S2x1x128) shapeCasts_S2x1x128_S2x1x1x128)
          broadcasts_S2x1x1x128_S2x64x64x128))
      (broadcast S2x64x64x128 (Scalar.ofBits .f32 0x00000000#32)))
    bitsLt_bf16_f32

/-- A per-sample row `[2,1,128]` viewed `[2,1,1,128]` and repeated over the image reads, at `(n, I, J, k)`, the row's
    `(n, 0, k)`. -/
theorem rowBroadcast_apply (v : Vec Ideal S2x1x128 .f32) (n : Fin 2) (I J : Fin 64) (k : Fin 128) :
    broadcastTo S2x64x64x128
        (shapeCast S2x1x1x128 (shapeCast S2x1x128 v shapeCasts_S2x1x128_S2x1x128) shapeCasts_S2x1x128_S2x1x1x128)
        broadcasts_S2x1x1x128_S2x64x64x128 (ix4 n I J k)
      = v (ix3 n 0 k) := by
  refine (broadcastTo_apply _ broadcasts_S2x1x1x128_S2x64x64x128 (ix4 n I J k) (ix4 n 0 0 k) (fun a => ?_)).trans ?_
  · match a with
    | ⟨0, _⟩ => rfl
    | ⟨1, _⟩ => rfl
    | ⟨2, _⟩ => rfl
    | ⟨3, _⟩ => rfl
  · rw [shapeCast_self]
    refine shapeCast_apply v shapeCasts_S2x1x128_S2x1x1x128 (ix4 n 0 0 k) (ix3 n 0 k) ?_
    rw [Shape.rowMajor_val_three, Shape.rowMajor_val_four]
    show (n.val * 1 + 0) * 128 + k.val = ((n.val * 1 + 0) * 1 + 0) * 128 + k.val
    omega

/-- The activation at an index. -/
theorem actOf_apply (v0 : Vec Ideal S2x64x64x128 .bf16) (v3 v6 : Vec Ideal S2x1x128 .f32)
    (n : Fin 2) (I J : Fin 64) (k : Fin 128) :
    actOf v0 v3 v6 (ix4 n I J k) = max (v0 (ix4 n I J k) * v3 (ix3 n 0 k) + v6 (ix3 n 0 k)) 0 := by
  unfold actOf
  show max (shapeCast S2x64x64x128 v0 shapeCasts_S2x64x64x128_S2x64x64x128 (ix4 n I J k)
        * broadcastTo S2x64x64x128
            (shapeCast S2x1x1x128 (shapeCast S2x1x128 v3 shapeCasts_S2x1x128_S2x1x128) shapeCasts_S2x1x128_S2x1x1x128)
            broadcasts_S2x1x1x128_S2x64x64x128 (ix4 n I J k)
        + broadcastTo S2x64x64x128
            (shapeCast S2x1x1x128 (shapeCast S2x1x128 v6 shapeCasts_S2x1x128_S2x1x128) shapeCasts_S2x1x128_S2x1x1x128)
            broadcasts_S2x1x1x128_S2x64x64x128 (ix4 n I J k))
      (Ideal.ofBits .f32 0x00000000#32) = _
  rw [rowBroadcast_apply, rowBroadcast_apply, shapeCast_self, Ideal.ofBits_zero_f32]

/-! ## The centre rows of the padded map -/

/-- The narrow format's zero word. -/
theorem zero_bf16 : (Scalar.ofBits .bf16 0x0000#16 : Ideal .bf16) = 0 := Ideal.ofBits_zero_bf16

/-- The activated block with its one-pixel zero border, cut back to the centre rows `1..64` (the column border stays):
    `[2, 64, 66, 128]`. -/
def rowsOf (a : FVec Ideal S2x64x64x128 .bf16) : FVec Ideal S2x64x66x128 .bf16 :=
  extractStridedSlice S2x64x66x128 ![0, 1, 0, 0]
    (concatenate S2x66x66x128 2
      [⟨S2x66x1x128, broadcast S2x66x1x128 (Scalar.ofBits .bf16 0x0000#16)⟩,
       ⟨S2x66x64x128, concatenate S2x66x64x128 1
          [⟨S2x1x64x128, broadcast S2x1x64x128 (Scalar.ofBits .bf16 0x0000#16)⟩, ⟨S2x64x64x128, a⟩,
           ⟨S2x1x64x128, broadcast S2x1x64x128 (Scalar.ofBits .bf16 0x0000#16)⟩]
          concatenates_S2x1x64x128_S2x64x64x128_S2x1x64x128_S2x66x64x128_d1⟩,
       ⟨S2x66x1x128, broadcast S2x66x1x128 (Scalar.ofBits .bf16 0x0000#16)⟩]
      concatenates_S2x66x1x128_S2x66x64x128_S2x66x1x128_S2x66x66x128_d2)
    slices_S2x66x66x128_o0_1_0_0_S2x64x66x128

/-- Row `I + 1` of the row-padded block is row `I` of the block. -/
theorem padRows_mid (z₁ z₂ : FVec Ideal S2x1x64x128 .bf16) (a : FVec Ideal S2x64x64x128 .bf16)
    (n : Fin 2) (I : Fin 64) (J : Fin 64) (k : Fin 128) :
    concatenate S2x66x64x128 1 [⟨S2x1x64x128, z₁⟩, ⟨S2x64x64x128, a⟩, ⟨S2x1x64x128, z₂⟩]
        concatenates_S2x1x64x128_S2x64x64x128_S2x1x64x128_S2x66x64x128_d1
        (ix4 n (⟨I.val + 1, by have := I.isLt; omega⟩ : Fin 66) J k)
      = a (ix4 n I J k) :=
  concatenate_apply_piece 1 [⟨S2x1x64x128, z₁⟩, ⟨S2x64x64x128, a⟩, ⟨S2x1x64x128, z₂⟩]
    concatenates_S2x1x64x128_S2x64x64x128_S2x1x64x128_S2x66x64x128_d1 _ 1 (by show 1 < 3; omega)
    S2x64x64x128 a rfl rfl 1 rfl (ix4 n I J k)
    (fun b hb => by
      match b with
      | ⟨0, _⟩ => rfl
      | ⟨1, _⟩ => exact absurd rfl hb
      | ⟨2, _⟩ => rfl
      | ⟨3, _⟩ => rfl)
    (by show 1 + I.val = I.val + 1; omega)

/-- The column-padded block read on its left border column. -/
theorem padCols_left (z₁ z₂ : FVec Ideal S2x66x1x128 .bf16) (m : FVec Ideal S2x66x64x128 .bf16)
    (n : Fin 2) (Ip Jp : Fin 66) (h : Jp.val = 0) (k : Fin 128) :
    concatenate S2x66x66x128 2 [⟨S2x66x1x128, z₁⟩, ⟨S2x66x64x128, m⟩, ⟨S2x66x1x128, z₂⟩]
        concatenates_S2x66x1x128_S2x66x64x128_S2x66x1x128_S2x66x66x128_d2 (ix4 n Ip Jp k)
      = z₁ (ix4 n Ip 0 k) :=
  concatenate_apply_piece 2 [⟨S2x66x1x128, z₁⟩, ⟨S2x66x64x128, m⟩, ⟨S2x66x1x128, z₂⟩]
    concatenates_S2x66x1x128_S2x66x64x128_S2x66x1x128_S2x66x66x128_d2 _ 0 (by show 0 < 3; omega)
    S2x66x1x128 z₁ rfl rfl 0 rfl (ix4 n Ip 0 k)
    (fun b hb => by
      match b with
      | ⟨0, _⟩ => rfl
      | ⟨1, _⟩ => rfl
      | ⟨2, _⟩ => exact absurd rfl hb
      | ⟨3, _⟩ => rfl)
    (by show 0 + 0 = Jp.val; omega)

/-- The column-padded block read inside the image: column `J + 1` is the block's column `J`. -/
theorem padCols_mid (z₁ z₂ : FVec Ideal S2x66x1x128 .bf16) (m : FVec Ideal S2x66x64x128 .bf16)
    (n : Fin 2) (Ip Jp : Fin 66) (J : Fin 64) (h : 1 + J.val = Jp.val) (k : Fin 128) :
    concatenate S2x66x66x128 2 [⟨S2x66x1x128, z₁⟩, ⟨S2x66x64x128, m⟩, ⟨S2x66x1x128, z₂⟩]
        concatenates_S2x66x1x128_S2x66x64x128_S2x66x1x128_S2x66x66x128_d2 (ix4 n Ip Jp k)
      = m (ix4 n Ip J k) :=
  concatenate_apply_piece 2 [⟨S2x66x1x128, z₁⟩, ⟨S2x66x64x128, m⟩, ⟨S2x66x1x128, z₂⟩]
    concatenates_S2x66x1x128_S2x66x64x128_S2x66x1x128_S2x66x66x128_d2 _ 1 (by show 1 < 3; omega)
    S2x66x64x128 m rfl rfl 1 rfl (ix4 n Ip J k)
    (fun b hb => by
      match b with
      | ⟨0, _⟩ => rfl
      | ⟨1, _⟩ => rfl
      | ⟨2, _⟩ => exact absurd rfl hb
      | ⟨3, _⟩ => rfl)
    (by show 1 + J.val = Jp.val; omega)

/-- The column-padded block read on its right border column. -/
theorem padCols_right (z₁ z₂ : FVec Ideal S2x66x1x128 .bf16) (m : FVec Ideal S2x66x64x128 .bf16)
    (n : Fin 2) (Ip Jp : Fin 66) (h : Jp.val = 65) (k : Fin 128) :
    concatenate S2x66x66x128 2 [⟨S2x66x1x128, z₁⟩, ⟨S2x66x64x128, m⟩, ⟨S2x66x1x128, z₂⟩]
        concatenates_S2x66x1x128_S2x66x64x128_S2x66x1x128_S2x66x66x128_d2 (ix4 n Ip Jp k)
      = z₂ (ix4 n Ip 0 k) :=
  concatenate_apply_piece 2 [⟨S2x66x1x128, z₁⟩, ⟨S2x66x64x128, m⟩, ⟨S2x66x1x128, z₂⟩]
    concatenates_S2x66x1x128_S2x66x64x128_S2x66x1x128_S2x66x66x128_d2 _ 2 (by show 2 < 3; omega)
    S2x66x1x128 z₂ rfl rfl 65 rfl (ix4 n Ip 0 k)
    (fun b hb => by
      match b with
      | ⟨0, _⟩ => rfl
      | ⟨1, _⟩ => rfl
      | ⟨2, _⟩ => exact absurd rfl hb
      | ⟨3, _⟩ => rfl)
    (by show 65 + 0 = Jp.val; omega)

/-- The centre rows at a column `Jp` of the padded width: the block's column `Jp - 1` inside the image, zero on the
    two border columns. -/
theorem rowsOf_apply (a : FVec Ideal S2x64x64x128 .bf16) (n : Fin 2) (I : Fin 64) (Jp : Fin 66) (k : Fin 128) :
    rowsOf a (ix4 n I Jp k)
      = if h : 1 ≤ Jp.val ∧ Jp.val ≤ 64 then a (ix4 n I ⟨Jp.val - 1, by omega⟩ k) else 0 := by
  unfold rowsOf
  refine (extractStridedSlice_apply _ _ slices_S2x66x66x128_o0_1_0_0_S2x64x66x128 (ix4 n I Jp k)
    (ix4 n (⟨I.val + 1, by have := I.isLt; omega⟩ : Fin 66) Jp k) (fun b => ?_)).trans ?_
  · match b with
    | ⟨0, _⟩ => show n.val = 0 + n.val; omega
    | ⟨1, _⟩ => show I.val + 1 = 1 + I.val; omega
    | ⟨2, _⟩ => show Jp.val = 0 + Jp.val; omega
    | ⟨3, _⟩ => show k.val = 0 + k.val; omega
  by_cases h0 : Jp.val = 0
  · rw [dif_neg (by omega)]
    exact (padCols_left _ _ _ n _ Jp h0 k).trans zero_bf16
  by_cases h65 : Jp.val = 65
  · rw [dif_neg (by omega)]
    exact (padCols_right _ _ _ n _ Jp h65 k).trans zero_bf16
  · have hJ : 1 ≤ Jp.val ∧ Jp.val ≤ 64 := by have := Jp.isLt; omega
    rw [dif_pos hJ]
    exact (padCols_mid _ _ _ n _ Jp ⟨Jp.val - 1, by omega⟩ (by show 1 + (Jp.val - 1) = Jp.val; omega) k).trans
      (padRows_mid _ _ a n I ⟨Jp.val - 1, by omega⟩ k)

/-! ## The matrix fed to the matrix unit -/

/-- Three blocks side by side on the lanes, read on a lane of the first. -/
theorem lanes3_fst (x₁ x₂ x₃ : FVec Ideal S2x64x64x128 .bf16) (n : Fin 2) (I J : Fin 64) (l : Fin 384) (k : Fin 128)
    (h : 0 + k.val = l.val) :
    concatenate S2x64x64x384 3 [⟨S2x64x64x128, x₁⟩, ⟨S2x64x64x128, x₂⟩, ⟨S2x64x64x128, x₃⟩]
        concatenates_S2x64x64x128_S2x64x64x128_S2x64x64x128_S2x64x64x384_d3 (ix4 n I J l)
      = x₁ (ix4 n I J k) :=
  concatenate_apply_piece 3 [⟨S2x64x64x128, x₁⟩, ⟨S2x64x64x128, x₂⟩, ⟨S2x64x64x128, x₃⟩]
    concatenates_S2x64x64x128_S2x64x64x128_S2x64x64x128_S2x64x64x384_d3 _ 0 (by show 0 < 3; omega)
    S2x64x64x128 x₁ rfl rfl 0 rfl (ix4 n I J k)
    (fun b hb => by
      match b with
      | ⟨0, _⟩ => rfl
      | ⟨1, _⟩ => rfl
      | ⟨2, _⟩ => rfl
      | ⟨3, _⟩ => exact absurd rfl hb)
    (by show 0 + k.val = l.val; omega)

/-- … of the second. -/
theorem lanes3_snd (x₁ x₂ x₃ : FVec Ideal S2x64x64x128 .bf16) (n : Fin 2) (I J : Fin 64) (l : Fin 384) (k : Fin 128)
    (h : 128 + k.val = l.val) :
    concatenate S2x64x64x384 3 [⟨S2x64x64x128, x₁⟩, ⟨S2x64x64x128, x₂⟩, ⟨S2x64x64x128, x₃⟩]
        concatenates_S2x64x64x128_S2x64x64x128_S2x64x64x128_S2x64x64x384_d3 (ix4 n I J l)
      = x₂ (ix4 n I J k) :=
  concatenate_apply_piece 3 [⟨S2x64x64x128, x₁⟩, ⟨S2x64x64x128, x₂⟩, ⟨S2x64x64x128, x₃⟩]
    concatenates_S2x64x64x128_S2x64x64x128_S2x64x64x128_S2x64x64x384_d3 _ 1 (by show 1 < 3; omega)
    S2x64x64x128 x₂ rfl rfl 128 rfl (ix4 n I J k)
    (fun b hb => by
      match b with
      | ⟨0, _⟩ => rfl
      | ⟨1, _⟩ => rfl
      | ⟨2, _⟩ => rfl
      | ⟨3, _⟩ => exact absurd rfl hb)
    (by show 128 + k.val = l.val; omega)

/-- … of the third. -/
theorem lanes3_trd (x₁ x₂ x₃ : FVec Ideal S2x64x64x128 .bf16) (n : Fin 2) (I J : Fin 64) (l : Fin 384) (k : Fin 128)
    (h : 256 + k.val = l.val) :
    concatenate S2x64x64x384 3 [⟨S2x64x64x128, x₁⟩, ⟨S2x64x64x128, x₂⟩, ⟨S2x64x64x128, x₃⟩]
        concatenates_S2x64x64x128_S2x64x64x128_S2x64x64x128_S2x64x64x384_d3 (ix4 n I J l)
      = x₃ (ix4 n I J k) :=
  concatenate_apply_piece 3 [⟨S2x64x64x128, x₁⟩, ⟨S2x64x64x128, x₂⟩, ⟨S2x64x64x128, x₃⟩]
    concatenates_S2x64x64x128_S2x64x64x128_S2x64x64x128_S2x64x64x384_d3 _ 2 (by show 2 < 3; omega)
    S2x64x64x128 x₃ rfl rfl 256 rfl (ix4 n I J k)
    (fun b hb => by
      match b with
      | ⟨0, _⟩ => rfl
      | ⟨1, _⟩ => rfl
      | ⟨2, _⟩ => rfl
      | ⟨3, _⟩ => exact absurd rfl hb)
    (by show 256 + k.val = l.val; omega)

/-- The three column shifts of the centre rows set side by side on the lanes, `[2, 64, 64, 384]`, then viewed as the
    `8192 × 384` matrix whose row `(n·64 + I)·64 + J` is position `(I, J)` of sample `n`. -/
def patchOf (a : FVec Ideal S2x64x64x128 .bf16) : FVec Ideal S8192x384 .bf16 :=
  shapeCast S8192x384
    (concatenate S2x64x64x384 3
      [⟨S2x64x64x128, extractStridedSlice S2x64x64x128 ![0, 0, 0, 0] (rowsOf a) slices_S2x64x66x128_o0_0_0_0_S2x64x64x128⟩,
       ⟨S2x64x64x128, extractStridedSlice S2x64x64x128 ![0, 0, 1, 0] (rowsOf a) slices_S2x64x66x128_o0_0_1_0_S2x64x64x128⟩,
       ⟨S2x64x64x128, extractStridedSlice S2x64x64x128 ![0, 0, 2, 0] (rowsOf a) slices_S2x64x66x128_o0_0_2_0_S2x64x64x128⟩]
      concatenates_S2x64x64x128_S2x64x64x128_S2x64x64x128_S2x64x64x384_d3)
    shapeCasts_S2x64x64x384_S8192x384

/-- A column shift of the centre rows: column `J` of the shift by `s` is column `J + s` of the padded width. -/
theorem shift_apply (x : FVec Ideal S2x64x66x128 .bf16) (s : Nat) (hs : s ≤ 2)
    (hsl : S2x64x66x128.Slices ![0, 0, s, 0] S2x64x64x128) (n : Fin 2) (I J : Fin 64) (k : Fin 128) :
    extractStridedSlice S2x64x64x128 ![0, 0, s, 0] x hsl (ix4 n I J k)
      = x (ix4 n I (⟨J.val + s, by have := J.isLt; omega⟩ : Fin 66) k) :=
  extractStridedSlice_apply _ x hsl (ix4 n I J k) (ix4 n I (⟨J.val + s, by have := J.isLt; omega⟩ : Fin 66) k) (fun b => by
    match b with
    | ⟨0, _⟩ => show n.val = 0 + n.val; omega
    | ⟨1, _⟩ => show I.val = 0 + I.val; omega
    | ⟨2, _⟩ => show J.val + s = s + J.val; omega
    | ⟨3, _⟩ => show k.val = 0 + k.val; omega)

/-- The matrix at row `(n, I, J)`, column `kw·128 + k`: the activation at `(I, J + kw - 1)`, zero off the image. -/
theorem patchOf_apply (a : FVec Ideal S2x64x64x128 .bf16) (n : Fin 2) (I J : Fin 64) (kw : Fin 3) (k : Fin 128)
    (r : Fin 8192) (hr : r.val = (n.val * 64 + I.val) * 64 + J.val) (l : Fin 384) (hl : l.val = kw.val * 128 + k.val) :
    patchOf a (ix2 r l)
      = if h : 1 ≤ J.val + kw.val ∧ J.val + kw.val ≤ 64 then a (ix4 n I ⟨J.val + kw.val - 1, by omega⟩ k) else 0 := by
  unfold patchOf
  refine (shapeCast_apply _ shapeCasts_S2x64x64x384_S8192x384 (ix2 r l) (ix4 n I J l) ?_).trans ?_
  · rw [Shape.rowMajor_val_four, Shape.rowMajor_val_two]
    show ((n.val * 64 + I.val) * 64 + J.val) * 384 + l.val = r.val * 384 + l.val
    rw [hr]
  match kw, hl with
  | ⟨0, _⟩, hl =>
    refine (lanes3_fst _ _ _ n I J l k (by simp at hl; omega)).trans ?_
    exact (shift_apply (rowsOf a) 0 (by omega) _ n I J k).trans (rowsOf_apply a n I _ k)
  | ⟨1, _⟩, hl =>
    refine (lanes3_snd _ _ _ n I J l k (by simp at hl; omega)).trans ?_
    exact (shift_apply (rowsOf a) 1 (by omega) _ n I J k).trans (rowsOf_apply a n I _ k)
  | ⟨2, _⟩, hl =>
    refine (lanes3_trd _ _ _ n I J l k (by simp at hl; omega)).trans ?_
    exact (shift_apply (rowsOf a) 2 (by omega) _ n I J k).trans (rowsOf_apply a n I _ k)

end Cert.KernelIdeal.Val1

end
-- ==== Proof.K1Dot.lean ====
/-
  The second stage's body, the convolution read index by index over the extended reals.

  The matrix unit multiplies the `8192 × 384` matrix of column-shifted activations by the grouped weights; column block
  `kh` of the product is, at image position `(I, J)`, the contribution of kernel row `kh` computed on image row `I`:
  `rowConv kh (I+1) J = ∑ kw, ∑ k, act (I+1, J+kw, k) · w kh kw k c` in padded coordinates. The body then adds the middle
  block as it is, the first block moved down one image row (zeros entering at the top) and the last block moved up one
  row (zeros entering at the bottom). A row of zeros that enters is the kernel row computed on a border row of the
  padded map, where the activation vanishes, so the three terms are the three kernel rows of the zero-padded
  convolution, in the order 1, 0, 2. Only commutativity and associativity of the sum and `0 · x = 0` are used.
-/
import proofs.«148433_g2000002724561042_pallasbulk_175_35_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws
import proofs.«148433_g2000002724561042_pallasbulk_175_35_alg».proof.Proof.Spec
import proofs.«148433_g2000002724561042_pallasbulk_175_35_alg».proof.Proof.K1Act
import proofs.«148433_g2000002724561042_pallasbulk_175_35_alg».proof.Proof.LibPlainDot
import proofs.«148433_g2000002724561042_pallasbulk_175_35_alg».proof.Proof.LibSumBlocks

set_option maxRecDepth 16384

noncomputable section

open scoped BigOperators

namespace Cert.KernelIdeal.Val1

open Cert.KernelIdeal Cert.KernelIdeal.Gen
open Idealize.ShloMosaic Idealize.ShloMosaic.ValueIdx

/-! ## One kernel row of the convolution -/

/-- Kernel row `kh` applied on the padded row `Ip` at column `J`, output channel `c`. -/
def rowConv (y : Fin 64 → Fin 64 → Fin 128 → EReal) (sc sh : Fin 128 → EReal)
    (w : Fin 3 → Fin 3 → Fin 128 → Fin 128 → EReal) (kh : Fin 3) (Ip : ℕ) (J : Fin 64) (c : Fin 128) : EReal :=
  ∑ kw : Fin 3, ∑ k : Fin 128, Cert.Spec.act2 y sc sh Ip (J.val + kw.val) k * w kh kw k c

/-- The convolution is the sum of its three kernel rows. -/
theorem conv2_eq_rows (y : Fin 64 → Fin 64 → Fin 128 → EReal) (sc sh : Fin 128 → EReal)
    (w : Fin 3 → Fin 3 → Fin 128 → Fin 128 → EReal) (I J : Fin 64) (c : Fin 128) :
    Cert.Spec.conv2 y sc sh w I J c
      = rowConv y sc sh w 0 I.val J c + rowConv y sc sh w 1 (I.val + 1) J c + rowConv y sc sh w 2 (I.val + 2) J c := by
  unfold Cert.Spec.conv2
  rw [Fin.sum_univ_three]
  rfl

/-- On a border row of the padded map the activation vanishes, and so does every kernel row applied there. -/
theorem rowConv_border (y : Fin 64 → Fin 64 → Fin 128 → EReal) (sc sh : Fin 128 → EReal)
    (w : Fin 3 → Fin 3 → Fin 128 → Fin 128 → EReal) (kh : Fin 3) (Ip : ℕ) (hI : Ip = 0 ∨ 65 ≤ Ip) (J : Fin 64) (c : Fin 128) :
    rowConv y sc sh w kh Ip J c = 0 := by
  unfold rowConv
  refine Finset.sum_eq_zero fun kw _ => Finset.sum_eq_zero fun k _ => ?_
  unfold Cert.Spec.act2
  rw [dif_neg (by omega), zero_mul]

/-! ## The product -/

/-- The product of the shifted-activation matrix with the grouped weights, viewed `[2, 4096, 384]`. -/
def qOf (p : FVec Ideal S8192x384 .bf16) (v26 : Vec Ideal S384x384 .bf16) : FVec Ideal S2x4096x384 .f32 :=
  shapeCast S2x4096x384
    (matmul dot_S8192x384_S384x384_S8192x384_1_0_0_1_n_n none p
      (shapeCast S384x384 v26 shapeCasts_S384x384_S384x384 : FVec Ideal S384x384 .bf16)
      (constant (F := Ideal) S8192x384 .f32 0x00000000#32))
    shapeCasts_S8192x384_S2x4096x384

theorem plain_dot : PlainDot.Plain dot_S8192x384_S384x384_S8192x384_1_0_0_1_n_n := ⟨rfl, rfl, rfl, rfl, rfl, rfl⟩

/-- The product at an index: the contraction over the 384 lanes. -/
theorem qOf_apply (p : FVec Ideal S8192x384 .bf16) (v26 : Vec Ideal S384x384 .bf16) (n : Fin 2) (r : Fin 4096) (l : Fin 384) :
    qOf p v26 (ix3 n r l)
      = ∑ kk : Fin 384, p (ix2 (⟨n.val * 4096 + r.val, by have := n.isLt; have := r.isLt; omega⟩ : Fin 8192) kk) * v26 (ix2 kk l) := by
  unfold qOf
  refine (shapeCast_apply _ shapeCasts_S8192x384_S2x4096x384 (ix3 n r l)
    (ix2 (⟨n.val * 4096 + r.val, by have := n.isLt; have := r.isLt; omega⟩ : Fin 8192) l) ?_).trans ?_
  · rw [Shape.rowMajor_val_two, Shape.rowMajor_val_three]
    show (n.val * 4096 + r.val) * 384 + l.val = (n.val * 4096 + r.val) * 384 + l.val
    rfl
  rw [shapeCast_self]
  exact PlainDot.matmul_zero_apply dot_S8192x384_S384x384_S8192x384_1_0_0_1_n_n plain_dot rfl rfl none p v26 _

/-! ## A column block of the product is a kernel row -/

/-- The shifted-activation matrix holds the padded activation of the specification: row `(n, I, J)`, lane `kw·128 + k`
    is `act (I + 1, J + kw, k)` in padded coordinates. -/
theorem patch_act (v0 : Vec Ideal S2x64x64x128 .bf16) (v3 v6 : Vec Ideal S2x1x128 .f32) (n : Fin 2) (I J : Fin 64)
    (kw : Fin 3) (k : Fin 128) (r : Fin 8192) (hr : r.val = (n.val * 64 + I.val) * 64 + J.val) (l : Fin 384)
    (hl : l.val = kw.val * 128 + k.val) :
    patchOf (actOf v0 v3 v6) (ix2 r l)
      = Cert.Spec.act2 (fun i j k => v0 (ix4 n i j k)) (fun k => v3 (ix3 n 0 k)) (fun k => v6 (ix3 n 0 k))
          (I.val + 1) (J.val + kw.val) k := by
  rw [patchOf_apply (actOf v0 v3 v6) n I J kw k r hr l hl]
  unfold Cert.Spec.act2
  by_cases h : 1 ≤ J.val + kw.val ∧ J.val + kw.val ≤ 64
  · rw [dif_pos h, dif_pos ⟨⟨by omega, by have := I.isLt; omega⟩, h⟩, actOf_apply]
    simp only [Nat.add_sub_cancel, Fin.eta]
  · rw [dif_neg h, dif_neg (fun h' => h h'.2)]

/-- Column block `kh` of the product at image position `(I, J)`: kernel row `kh` applied on the padded row `I + 1`. -/
theorem q_block (v0 : Vec Ideal S2x64x64x128 .bf16) (v3 v6 : Vec Ideal S2x1x128 .f32) (v26 : Vec Ideal S384x384 .bf16)
    (w : Fin 3 → Fin 3 → Fin 128 → Fin 128 → EReal)
    (hw : ∀ (kh kw : Fin 3) (k c : Fin 128),
      v26 (ix2 (⟨kw.val * 128 + k.val, by have := kw.isLt; have := k.isLt; omega⟩ : Fin 384)
        (⟨kh.val * 128 + c.val, by have := kh.isLt; have := c.isLt; omega⟩ : Fin 384)) = w kh kw k c)
    (n : Fin 2) (I J : Fin 64) (kh : Fin 3) (c : Fin 128) (r : Fin 4096) (hr : r.val = I.val * 64 + J.val)
    (l : Fin 384) (hl : l.val = kh.val * 128 + c.val) :
    qOf (patchOf (actOf v0 v3 v6)) v26 (ix3 n r l)
      = rowConv (fun i j k => v0 (ix4 n i j k)) (fun k => v3 (ix3 n 0 k)) (fun k => v6 (ix3 n 0 k)) w kh (I.val + 1) J c := by
  rw [qOf_apply]
  unfold rowConv
  refine (Cert.LibSumBlocks.sum_fin_blocks2 3 128 _).trans ?_
  refine Finset.sum_congr rfl fun kw _ => Finset.sum_congr rfl fun k _ => ?_
  have hl' : l = (⟨kh.val * 128 + c.val, by have := kh.isLt; have := c.isLt; omega⟩ : Fin 384) := Fin.ext hl
  rw [patch_act v0 v3 v6 n I J kw k _ (by show n.val * 4096 + r.val = (n.val * 64 + I.val) * 64 + J.val; omega) _ rfl, hl']
  exact congrArg _ (hw kh kw k c)

/-! ## The three column blocks realigned and added -/

/-- A lane window of width 128 of the product. -/
theorem lane_apply (q : FVec Ideal S2x4096x384 .f32) (off : Nat) (hsl : S2x4096x384.Slices ![0, 0, off] S2x4096x128)
    (n : Fin 2) (r : Fin 4096) (c : Fin 128) (l : Fin 384) (hl : l.val = off + c.val) :
    extractStridedSlice S2x4096x128 ![0, 0, off] q hsl (ix3 n r c) = q (ix3 n r l) :=
  extractStridedSlice_apply _ q hsl (ix3 n r c) (ix3 n r l) (fun b => by
    match b with
    | ⟨0, _⟩ => show n.val = 0 + n.val; omega
    | ⟨1, _⟩ => show r.val = 0 + r.val; omega
    | ⟨2, _⟩ => show l.val = off + c.val; omega)

/-- A block moved down one image row (64 positions): zeros on the first row. -/
theorem down_lo (z : FVec Ideal S2x64x128 .f32) (x : FVec Ideal S2x4032x128 .f32) (n : Fin 2) (r : Fin 4096)
    (h : r.val < 64) (c : Fin 128) :
    concatenate S2x4096x128 1 [⟨S2x64x128, z⟩, ⟨S2x4032x128, x⟩] concatenates_S2x64x128_S2x4032x128_S2x4096x128_d1 (ix3 n r c)
      = z (ix3 n ⟨r.val, h⟩ c) :=
  concatenate_apply_piece 1 [⟨S2x64x128, z⟩, ⟨S2x4032x128, x⟩] concatenates_S2x64x128_S2x4032x128_S2x4096x128_d1 _ 0
    (by show 0 < 2; omega) S2x64x128 z rfl rfl 0 rfl (ix3 n ⟨r.val, h⟩ c)
    (fun b hb => by
      match b with
      | ⟨0, _⟩ => rfl
      | ⟨1, _⟩ => exact absurd rfl hb
      | ⟨2, _⟩ => rfl)
    (by show 0 + r.val = r.val; omega)

/-- … and below it the block, 64 positions earlier. -/
theorem down_hi (z : FVec Ideal S2x64x128 .f32) (x : FVec Ideal S2x4032x128 .f32) (n : Fin 2) (r : Fin 4096)
    (h : 64 ≤ r.val) (c : Fin 128) :
    concatenate S2x4096x128 1 [⟨S2x64x128, z⟩, ⟨S2x4032x128, x⟩] concatenates_S2x64x128_S2x4032x128_S2x4096x128_d1 (ix3 n r c)
      = x (ix3 n ⟨r.val - 64, by have := r.isLt; omega⟩ c) :=
  concatenate_apply_piece 1 [⟨S2x64x128, z⟩, ⟨S2x4032x128, x⟩] concatenates_S2x64x128_S2x4032x128_S2x4096x128_d1 _ 1
    (by show 1 < 2; omega) S2x4032x128 x rfl rfl 64 rfl (ix3 n ⟨r.val - 64, by have := r.isLt; omega⟩ c)
    (fun b hb => by
      match b with
      | ⟨0, _⟩ => rfl
      | ⟨1, _⟩ => exact absurd rfl hb
      | ⟨2, _⟩ => rfl)
    (by show 64 + (r.val - 64) = r.val; omega)

/-- A block moved up one image row: the block, 64 positions later, -/
theorem up_lo (x : FVec Ideal S2x4032x128 .f32) (z : FVec Ideal S2x64x128 .f32) (n : Fin 2) (r : Fin 4096)
    (h : r.val < 4032) (c : Fin 128) :
    concatenate S2x4096x128 1 [⟨S2x4032x128, x⟩, ⟨S2x64x128, z⟩] concatenates_S2x4032x128_S2x64x128_S2x4096x128_d1 (ix3 n r c)
      = x (ix3 n ⟨r.val, h⟩ c) :=
  concatenate_apply_piece 1 [⟨S2x4032x128, x⟩, ⟨S2x64x128, z⟩] concatenates_S2x4032x128_S2x64x128_S2x4096x128_d1 _ 0
    (by show 0 < 2; omega) S2x4032x128 x rfl rfl 0 rfl (ix3 n ⟨r.val, h⟩ c)
    (fun b hb => by
      match b with
      | ⟨0, _⟩ => rfl
      | ⟨1, _⟩ => exact absurd rfl hb
      | ⟨2, _⟩ => rfl)
    (by show 0 + r.val = r.val; omega)

/-- … and zeros on the last row. -/
theorem up_hi (x : FVec Ideal S2x4032x128 .f32) (z : FVec Ideal S2x64x128 .f32) (n : Fin 2) (r : Fin 4096)
    (h : 4032 ≤ r.val) (c : Fin 128) :
    concatenate S2x4096x128 1 [⟨S2x4032x128, x⟩, ⟨S2x64x128, z⟩] concatenates_S2x4032x128_S2x64x128_S2x4096x128_d1 (ix3 n r c)
      = z (ix3 n ⟨r.val - 4032, by have := r.isLt; omega⟩ c) :=
  concatenate_apply_piece 1 [⟨S2x4032x128, x⟩, ⟨S2x64x128, z⟩] concatenates_S2x4032x128_S2x64x128_S2x4096x128_d1 _ 1
    (by show 1 < 2; omega) S2x64x128 z rfl rfl 4032 rfl (ix3 n ⟨r.val - 4032, by have := r.isLt; omega⟩ c)
    (fun b hb => by
      match b with
      | ⟨0, _⟩ => rfl
      | ⟨1, _⟩ => exact absurd rfl hb
      | ⟨2, _⟩ => rfl)
    (by show 4032 + (r.val - 4032) = r.val; omega)

/-- The first 4032, respectively the last 4032, positions of a block. -/
theorem head_apply (x : FVec Ideal S2x4096x128 .f32) (n : Fin 2) (r : Fin 4032) (c : Fin 128) :
    extractStridedSlice S2x4032x128 ![0, 0, 0] x slices_S2x4096x128_o0_0_0_S2x4032x128 (ix3 n r c)
      = x (ix3 n ⟨r.val, by have := r.isLt; omega⟩ c) :=
  extractStridedSlice_apply _ x slices_S2x4096x128_o0_0_0_S2x4032x128 (ix3 n r c) (ix3 n ⟨r.val, by have := r.isLt; omega⟩ c)
    (fun b => by
      match b with
      | ⟨0, _⟩ => show n.val = 0 + n.val; omega
      | ⟨1, _⟩ => show r.val = 0 + r.val; omega
      | ⟨2, _⟩ => show c.val = 0 + c.val; omega)

theorem tail_apply (x : FVec Ideal S2x4096x128 .f32) (n : Fin 2) (r : Fin 4032) (c : Fin 128) :
    extractStridedSlice S2x4032x128 ![0, 64, 0] x slices_S2x4096x128_o0_64_0_S2x4032x128 (ix3 n r c)
      = x (ix3 n ⟨r.val + 64, by have := r.isLt; omega⟩ c) :=
  extractStridedSlice_apply _ x slices_S2x4096x128_o0_64_0_S2x4032x128 (ix3 n r c) (ix3 n ⟨r.val + 64, by have := r.isLt; omega⟩ c)
    (fun b => by
      match b with
      | ⟨0, _⟩ => show n.val = 0 + n.val; omega
      | ⟨1, _⟩ => show r.val + 64 = 64 + r.val; omega
      | ⟨2, _⟩ => show c.val = 0 + c.val; omega)

/-- The realigned sum of the product's three column blocks, viewed `[2, 64, 64, 128]`. -/
def accOf (q : FVec Ideal S2x4096x384 .f32) : FVec Ideal S2x64x64x128 .f32 :=
  shapeCast S2x64x64x128
    (addf
      (addf (extractStridedSlice S2x4096x128 ![0, 0, 128] q slices_S2x4096x384_o0_0_128_S2x4096x128)
        (concatenate S2x4096x128 1
          [⟨S2x64x128, broadcast S2x64x128 (Scalar.ofBits .f32 0x00000000#32)⟩,
           ⟨S2x4032x128, extractStridedSlice S2x4032x128 ![0, 0, 0]
              (extractStridedSlice S2x4096x128 ![0, 0, 0] q slices_S2x4096x384_o0_0_0_S2x4096x128)
              slices_S2x4096x128_o0_0_0_S2x4032x128⟩]
          concatenates_S2x64x128_S2x4032x128_S2x4096x128_d1))
      (concatenate S2x4096x128 1
        [⟨S2x4032x128, extractStridedSlice S2x4032x128 ![0, 64, 0]
            (extractStridedSlice S2x4096x128 ![0, 0, 256] q slices_S2x4096x384_o0_0_256_S2x4096x128)
            slices_S2x4096x128_o0_64_0_S2x4032x128⟩,
         ⟨S2x64x128, broadcast S2x64x128 (Scalar.ofBits .f32 0x00000000#32)⟩]
        concatenates_S2x4032x128_S2x64x128_S2x4096x128_d1))
    shapeCasts_S2x4096x128_S2x64x64x128

/-- The body's value before the bias is that realigned sum of the product. -/
theorem pay2_eq (v0 : Vec Ideal S2x64x64x128 .bf16) (v3 v6 : Vec Ideal S2x1x128 .f32) (v26 : Vec Ideal S384x384 .bf16) :
    k1_pay2 (F := Ideal) v0 v3 v6 v26 = accOf (qOf (patchOf (actOf v0 v3 v6)) v26) := rfl

/-- The realigned sum at image position `(I, J)`. -/
theorem accOf_apply (q : FVec Ideal S2x4096x384 .f32) (n : Fin 2) (I J : Fin 64) (c : Fin 128) :
    accOf q (ix4 n I J c)
      = (q (ix3 n (⟨I.val * 64 + J.val, by have := I.isLt; have := J.isLt; omega⟩ : Fin 4096)
            (⟨128 + c.val, by have := c.isLt; omega⟩ : Fin 384))
          + (if h : 1 ≤ I.val then
              q (ix3 n (⟨(I.val - 1) * 64 + J.val, by have := I.isLt; have := J.isLt; omega⟩ : Fin 4096)
                (⟨c.val, by have := c.isLt; omega⟩ : Fin 384))
            else 0))
        + (if h : I.val + 1 < 64 then
            q (ix3 n (⟨(I.val + 1) * 64 + J.val, by have := J.isLt; omega⟩ : Fin 4096)
              (⟨256 + c.val, by have := c.isLt; omega⟩ : Fin 384))
          else 0) := by
  unfold accOf
  refine (shapeCast_apply _ shapeCasts_S2x4096x128_S2x64x64x128 (ix4 n I J c)
    (ix3 n (⟨I.val * 64 + J.val, by have := I.isLt; have := J.isLt; omega⟩ : Fin 4096) c) ?_).trans ?_
  · rw [Shape.rowMajor_val_three, Shape.rowMajor_val_four]
    show (n.val * 4096 + (I.val * 64 + J.val)) * 128 + c.val = ((n.val * 64 + I.val) * 64 + J.val) * 128 + c.val
    omega
  rw [addf_apply, addf_apply]
  congr 1
  · congr 1
    · exact lane_apply q 128 _ n _ c _ rfl
    · by_cases h : 1 ≤ I.val
      · rw [dif_pos h]
        refine (down_hi _ _ n _ (by show 64 ≤ I.val * 64 + J.val; omega) c).trans ?_
        refine (head_apply _ n _ c).trans ?_
        refine (lane_apply q 0 _ n _ c (⟨c.val, by have := c.isLt; omega⟩ : Fin 384) (by show c.val = 0 + c.val; omega)).trans ?_
        exact congrArg (fun r => q (ix3 n r _)) (Fin.ext (by show I.val * 64 + J.val - 64 = (I.val - 1) * 64 + J.val; omega))
      · rw [dif_neg h]
        refine (down_lo _ _ n _ (by show I.val * 64 + J.val < 64; have := J.isLt; omega) c).trans ?_
        exact Ideal.ofBits_zero_f32
  · by_cases h : I.val + 1 < 64
    · rw [dif_pos h]
      refine (up_lo _ _ n _ (by show I.val * 64 + J.val < 4032; have := J.isLt; omega) c).trans ?_
      refine (tail_apply _ n _ c).trans ?_
      refine (lane_apply q 256 _ n _ c (⟨256 + c.val, by have := c.isLt; omega⟩ : Fin 384) rfl).trans ?_
      exact congrArg (fun r => q (ix3 n r _)) (Fin.ext (by show I.val * 64 + J.val + 64 = (I.val + 1) * 64 + J.val; omega))
    · rw [dif_neg h]
      refine (up_hi _ _ n _ (by show 4032 ≤ I.val * 64 + J.val; have := I.isLt; omega) c).trans ?_
      exact Ideal.ofBits_zero_f32

/-! ## The body's convolution is the specification's -/

/-- The body's value before the bias, at `(n, I, J, c)`: the zero-padded 3×3 convolution of sample `n`'s activation. -/
theorem pay2_apply (v0 : Vec Ideal S2x64x64x128 .bf16) (v3 v6 : Vec Ideal S2x1x128 .f32) (v26 : Vec Ideal S384x384 .bf16)
    (w : Fin 3 → Fin 3 → Fin 128 → Fin 128 → EReal)
    (hw : ∀ (kh kw : Fin 3) (k c : Fin 128),
      v26 (ix2 (⟨kw.val * 128 + k.val, by have := kw.isLt; have := k.isLt; omega⟩ : Fin 384)
        (⟨kh.val * 128 + c.val, by have := kh.isLt; have := c.isLt; omega⟩ : Fin 384)) = w kh kw k c)
    (n : Fin 2) (I J : Fin 64) (c : Fin 128) :
    k1_pay2 (F := Ideal) v0 v3 v6 v26 (ix4 n I J c)
      = Cert.Spec.conv2 (fun i j k => v0 (ix4 n i j k)) (fun k => v3 (ix3 n 0 k)) (fun k => v6 (ix3 n 0 k)) w I J c := by
  rw [pay2_eq, accOf_apply, conv2_eq_rows]
  rw [q_block v0 v3 v6 v26 w hw n I J 1 c _ rfl _ (by show 128 + c.val = 1 * 128 + c.val; omega)]
  have e0 : (if h : 1 ≤ I.val then
        qOf (patchOf (actOf v0 v3 v6)) v26
          (ix3 n (⟨(I.val - 1) * 64 + J.val, by have := I.isLt; have := J.isLt; omega⟩ : Fin 4096)
            (⟨c.val, by have := c.isLt; omega⟩ : Fin 384))
      else 0)
      = rowConv (fun i j k => v0 (ix4 n i j k)) (fun k => v3 (ix3 n 0 k)) (fun k => v6 (ix3 n 0 k)) w 0 I.val J c := by
    by_cases h : 1 ≤ I.val
    · rw [dif_pos h]
      rw [q_block v0 v3 v6 v26 w hw n (⟨I.val - 1, by have := I.isLt; omega⟩ : Fin 64) J 0 c _ rfl _
        (by show c.val = 0 * 128 + c.val; omega)]
      exact congrArg (fun Ip => rowConv _ _ _ w 0 Ip J c) (by show I.val - 1 + 1 = I.val; omega)
    · rw [dif_neg h]
      exact (rowConv_border _ _ _ w 0 I.val (Or.inl (by omega)) J c).symm
  have e2 : (if h : I.val + 1 < 64 then
        qOf (patchOf (actOf v0 v3 v6)) v26
          (ix3 n (⟨(I.val + 1) * 64 + J.val, by have := J.isLt; omega⟩ : Fin 4096)
            (⟨256 + c.val, by have := c.isLt; omega⟩ : Fin 384))
      else 0)
      = rowConv (fun i j k => v0 (ix4 n i j k)) (fun k => v3 (ix3 n 0 k)) (fun k => v6 (ix3 n 0 k)) w 2 (I.val + 2) J c := by
    by_cases h : I.val + 1 < 64
    · rw [dif_pos h]
      rw [q_block v0 v3 v6 v26 w hw n (⟨I.val + 1, h⟩ : Fin 64) J 2 c _ rfl _
        (by show 256 + c.val = 2 * 128 + c.val; omega)]
    · rw [dif_neg h]
      exact (rowConv_border _ _ _ w 2 (I.val + 2) (Or.inr (by omega)) J c).symm
  rw [e0, e2, add_comm (rowConv _ _ _ w 1 (I.val + 1) J c)]

end Cert.KernelIdeal.Val1

end
-- ==== Proof.K1Skip.lean ====
/-
  The second stage's body, the residual path read index by index over the extended reals: the half-resolution
  projection block is interleaved with zeros, first along the columns (a stack with a zero block on a new axis,
  flattened into the column axis), then along the rows in the same way. At the fine position `(I, J)` the result is the
  projection at `(I/2, J/2)` when both coordinates are even and zero otherwise. Also the bias row repeated over the block.
-/
import proofs.«148433_g2000002724561042_pallasbulk_175_35_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws
import proofs.«148433_g2000002724561042_pallasbulk_175_35_alg».proof.Proof.Spec

set_option maxRecDepth 16384

noncomputable section

namespace Cert.KernelIdeal.Val1

open Cert.KernelIdeal Cert.KernelIdeal.Gen
open Idealize.ShloMosaic Idealize.ShloMosaic.ValueIdx

/-! ## Zeros between the columns -/

/-- A block `[2,32,32,128]` with a zero after every column: `[2,32,64,128]`. -/
def colsUp (x : FVec Ideal S2x32x32x128 .f32) : FVec Ideal S2x32x64x128 .f32 :=
  shapeCast S2x32x64x128
    (concatenate S2x32x32x2x128 3
      [⟨S2x32x32x1x128, shapeCast S2x32x32x1x128 x shapeCasts_S2x32x32x128_S2x32x32x1x128⟩,
       ⟨S2x32x32x1x128, shapeCast S2x32x32x1x128 (broadcast S2x32x32x128 (Scalar.ofBits .f32 0x00000000#32))
          shapeCasts_S2x32x32x128_S2x32x32x1x128⟩]
      concatenates_S2x32x32x1x128_S2x32x32x1x128_S2x32x32x2x128_d3)
    shapeCasts_S2x32x32x2x128_S2x32x64x128

/-- The pair stacked on the new fourth axis, read on its first member. -/
theorem stackCols_fst (x y : FVec Ideal S2x32x32x1x128 .f32) (n : Fin 2) (i j : Fin 32) (s : Fin 2) (hs : s.val = 0)
    (c : Fin 128) :
    concatenate S2x32x32x2x128 3 [⟨S2x32x32x1x128, x⟩, ⟨S2x32x32x1x128, y⟩]
        concatenates_S2x32x32x1x128_S2x32x32x1x128_S2x32x32x2x128_d3 (ix5 n i j s c)
      = x (ix5 n i j 0 c) :=
  concatenate_apply_piece 3 [⟨S2x32x32x1x128, x⟩, ⟨S2x32x32x1x128, y⟩]
    concatenates_S2x32x32x1x128_S2x32x32x1x128_S2x32x32x2x128_d3 _ 0 (by show 0 < 2; omega)
    S2x32x32x1x128 x rfl rfl 0 rfl (ix5 n i j 0 c)
    (fun b hb => by
      match b with
      | ⟨0, _⟩ => rfl
      | ⟨1, _⟩ => rfl
      | ⟨2, _⟩ => rfl
      | ⟨3, _⟩ => exact absurd rfl hb
      | ⟨4, _⟩ => rfl)
    (by show 0 + 0 = s.val; omega)

/-- … on its second member. -/
theorem stackCols_snd (x y : FVec Ideal S2x32x32x1x128 .f32) (n : Fin 2) (i j : Fin 32) (s : Fin 2) (hs : s.val = 1)
    (c : Fin 128) :
    concatenate S2x32x32x2x128 3 [⟨S2x32x32x1x128, x⟩, ⟨S2x32x32x1x128, y⟩]
        concatenates_S2x32x32x1x128_S2x32x32x1x128_S2x32x32x2x128_d3 (ix5 n i j s c)
      = y (ix5 n i j 0 c) :=
  concatenate_apply_piece 3 [⟨S2x32x32x1x128, x⟩, ⟨S2x32x32x1x128, y⟩]
    concatenates_S2x32x32x1x128_S2x32x32x1x128_S2x32x32x2x128_d3 _ 1 (by show 1 < 2; omega)
    S2x32x32x1x128 y rfl rfl 1 rfl (ix5 n i j 0 c)
    (fun b hb => by
      match b with
      | ⟨0, _⟩ => rfl
      | ⟨1, _⟩ => rfl
      | ⟨2, _⟩ => rfl
      | ⟨3, _⟩ => exact absurd rfl hb
      | ⟨4, _⟩ => rfl)
    (by show 1 + 0 = s.val; omega)

/-- Column `J` of the widened block: the block's column `J/2` when `J` is even, zero when it is odd. -/
theorem colsUp_apply (x : FVec Ideal S2x32x32x128 .f32) (n : Fin 2) (i : Fin 32) (J : Fin 64) (c : Fin 128) :
    colsUp x (ix4 n i J c)
      = if J.val % 2 = 0 then x (ix4 n i ⟨J.val / 2, by have := J.isLt; omega⟩ c) else 0 := by
  unfold colsUp
  refine (shapeCast_apply _ shapeCasts_S2x32x32x2x128_S2x32x64x128 (ix4 n i J c)
    (ix5 n i (⟨J.val / 2, by have := J.isLt; omega⟩ : Fin 32) (⟨J.val % 2, Nat.mod_lt _ (by norm_num)⟩ : Fin 2) c) ?_).trans ?_
  · rw [Shape.rowMajor_val_five, Shape.rowMajor_val_four]
    show (((n.val * 32 + i.val) * 32 + J.val / 2) * 2 + J.val % 2) * 128 + c.val = ((n.val * 32 + i.val) * 64 + J.val) * 128 + c.val
    omega
  by_cases hJ : J.val % 2 = 0
  · rw [if_pos hJ]
    refine (stackCols_fst _ _ n i _ _ hJ c).trans ?_
    refine shapeCast_apply x shapeCasts_S2x32x32x128_S2x32x32x1x128 _ (ix4 n i ⟨J.val / 2, by have := J.isLt; omega⟩ c) ?_
    rw [Shape.rowMajor_val_five, Shape.rowMajor_val_four]
    show ((n.val * 32 + i.val) * 32 + J.val / 2) * 128 + c.val = (((n.val * 32 + i.val) * 32 + J.val / 2) * 1 + 0) * 128 + c.val
    omega
  · rw [if_neg hJ]
    refine (stackCols_snd _ _ n i _ _ (by show J.val % 2 = 1; omega) c).trans ?_
    exact Ideal.ofBits_zero_f32

/-! ## Zeros between the rows -/

/-- A block `[2,32,64,128]` with a zero row after every row: `[2,64,64,128]`. -/
def rowsUp (t : FVec Ideal S2x32x64x128 .f32) : FVec Ideal S2x64x64x128 .f32 :=
  shapeCast S2x64x64x128
    (concatenate S2x32x2x64x128 2
      [⟨S2x32x1x64x128, shapeCast S2x32x1x64x128 t shapeCasts_S2x32x64x128_S2x32x1x64x128⟩,
       ⟨S2x32x1x64x128, shapeCast S2x32x1x64x128 (broadcast S2x32x64x128 (Scalar.ofBits .f32 0x00000000#32))
          shapeCasts_S2x32x64x128_S2x32x1x64x128⟩]
      concatenates_S2x32x1x64x128_S2x32x1x64x128_S2x32x2x64x128_d2)
    shapeCasts_S2x32x2x64x128_S2x64x64x128

/-- The pair stacked on the new third axis, read on its first member. -/
theorem stackRows_fst (x y : FVec Ideal S2x32x1x64x128 .f32) (n : Fin 2) (i : Fin 32) (s : Fin 2) (hs : s.val = 0)
    (J : Fin 64) (c : Fin 128) :
    concatenate S2x32x2x64x128 2 [⟨S2x32x1x64x128, x⟩, ⟨S2x32x1x64x128, y⟩]
        concatenates_S2x32x1x64x128_S2x32x1x64x128_S2x32x2x64x128_d2 (ix5 n i s J c)
      = x (ix5 n i 0 J c) :=
  concatenate_apply_piece 2 [⟨S2x32x1x64x128, x⟩, ⟨S2x32x1x64x128, y⟩]
    concatenates_S2x32x1x64x128_S2x32x1x64x128_S2x32x2x64x128_d2 _ 0 (by show 0 < 2; omega)
    S2x32x1x64x128 x rfl rfl 0 rfl (ix5 n i 0 J c)
    (fun b hb => by
      match b with
      | ⟨0, _⟩ => rfl
      | ⟨1, _⟩ => rfl
      | ⟨2, _⟩ => exact absurd rfl hb
      | ⟨3, _⟩ => rfl
      | ⟨4, _⟩ => rfl)
    (by show 0 + 0 = s.val; omega)

/-- … on its second member. -/
theorem stackRows_snd (x y : FVec Ideal S2x32x1x64x128 .f32) (n : Fin 2) (i : Fin 32) (s : Fin 2) (hs : s.val = 1)
    (J : Fin 64) (c : Fin 128) :
    concatenate S2x32x2x64x128 2 [⟨S2x32x1x64x128, x⟩, ⟨S2x32x1x64x128, y⟩]
        concatenates_S2x32x1x64x128_S2x32x1x64x128_S2x32x2x64x128_d2 (ix5 n i s J c)
      = y (ix5 n i 0 J c) :=
  concatenate_apply_piece 2 [⟨S2x32x1x64x128, x⟩, ⟨S2x32x1x64x128, y⟩]
    concatenates_S2x32x1x64x128_S2x32x1x64x128_S2x32x2x64x128_d2 _ 1 (by show 1 < 2; omega)
    S2x32x1x64x128 y rfl rfl 1 rfl (ix5 n i 0 J c)
    (fun b hb => by
      match b with
      | ⟨0, _⟩ => rfl
      | ⟨1, _⟩ => rfl
      | ⟨2, _⟩ => exact absurd rfl hb
      | ⟨3, _⟩ => rfl
      | ⟨4, _⟩ => rfl)
    (by show 1 + 0 = s.val; omega)

/-- Row `I` of the heightened block: the block's row `I/2` when `I` is even, zero when it is odd. -/
theorem rowsUp_apply (t : FVec Ideal S2x32x64x128 .f32) (n : Fin 2) (I J : Fin 64) (c : Fin 128) :
    rowsUp t (ix4 n I J c)
      = if I.val % 2 = 0 then t (ix4 n ⟨I.val / 2, by have := I.isLt; omega⟩ J c) else 0 := by
  unfold rowsUp
  refine (shapeCast_apply _ shapeCasts_S2x32x2x64x128_S2x64x64x128 (ix4 n I J c)
    (ix5 n (⟨I.val / 2, by have := I.isLt; omega⟩ : Fin 32) (⟨I.val % 2, Nat.mod_lt _ (by norm_num)⟩ : Fin 2) J c) ?_).trans ?_
  · rw [Shape.rowMajor_val_five, Shape.rowMajor_val_four]
    show (((n.val * 32 + I.val / 2) * 2 + I.val % 2) * 64 + J.val) * 128 + c.val = ((n.val * 64 + I.val) * 64 + J.val) * 128 + c.val
    omega
  by_cases hI : I.val % 2 = 0
  · rw [if_pos hI]
    refine (stackRows_fst _ _ n _ _ hI J c).trans ?_
    refine shapeCast_apply t shapeCasts_S2x32x64x128_S2x32x1x64x128 _ (ix4 n ⟨I.val / 2, by have := I.isLt; omega⟩ J c) ?_
    rw [Shape.rowMajor_val_five, Shape.rowMajor_val_four]
    show ((n.val * 32 + I.val / 2) * 64 + J.val) * 128 + c.val = (((n.val * 32 + I.val / 2) * 1 + 0) * 64 + J.val) * 128 + c.val
    omega
  · rw [if_neg hI]
    refine (stackRows_snd _ _ n _ _ (by show I.val % 2 = 1; omega) J c).trans ?_
    exact Ideal.ofBits_zero_f32

/-! ## The residual term and the bias -/

/-- The projection block placed at the even/even positions of the fine grid. -/
def skipOf (v46 : Vec Ideal S2x32x32x128 .bf16) : FVec Ideal S2x64x64x128 .f32 :=
  rowsUp (colsUp (extf .f32 (shapeCast S2x32x32x128 v46 shapeCasts_S2x32x32x128_S2x32x32x128) bitsLt_bf16_f32))

theorem skipOf_apply (v46 : Vec Ideal S2x32x32x128 .bf16) (n : Fin 2) (I J : Fin 64) (c : Fin 128) :
    skipOf v46 (ix4 n I J c) = Cert.Spec.skipUp (fun i j c => v46 (ix4 n i j c)) I J c := by
  unfold skipOf Cert.Spec.skipUp
  rw [rowsUp_apply]
  by_cases hI : I.val % 2 = 0
  · rw [if_pos hI, colsUp_apply]
    by_cases hJ : J.val % 2 = 0
    · rw [if_pos hJ, if_pos ⟨hI, hJ⟩, shapeCast_self]
      rfl
    · rw [if_neg hJ, if_neg (fun h => hJ h.2)]
  · rw [if_neg hI, if_neg (fun h => hI h.1)]

/-- The bias row `[1,128]` repeated over the block. -/
def biasOf (v41 : Vec Ideal S1x128 .f32) : FVec Ideal S2x64x64x128 .f32 :=
  broadcastTo S2x64x64x128
    (shapeCast S1x1x1x128 (shapeCast S1x128 v41 shapeCasts_S1x128_S1x128) shapeCasts_S1x128_S1x1x1x128)
    broadcasts_S1x1x1x128_S2x64x64x128

theorem biasOf_apply (v41 : Vec Ideal S1x128 .f32) (n : Fin 2) (I J : Fin 64) (c : Fin 128) :
    biasOf v41 (ix4 n I J c) = v41 (ix2 0 c) := by
  unfold biasOf
  refine (broadcastTo_apply _ broadcasts_S1x1x1x128_S2x64x64x128 (ix4 n I J c) (ix4 0 0 0 c) (fun a => ?_)).trans ?_
  · match a with
    | ⟨0, _⟩ => rfl
    | ⟨1, _⟩ => rfl
    | ⟨2, _⟩ => rfl
    | ⟨3, _⟩ => rfl
  · rw [shapeCast_self]
    refine shapeCast_apply v41 shapeCasts_S1x128_S1x1x1x128 (ix4 0 0 0 c) (ix2 0 c) ?_
    rw [Shape.rowMajor_val_two, Shape.rowMajor_val_four]
    show 0 * 128 + c.val = ((0 * 1 + 0) * 1 + 0) * 128 + c.val
    omega

/-- The stored value: the convolution block plus the bias plus the residual term. -/
theorem pay1_eq (v40 : FVec Ideal S2x64x64x128 .f32) (v41 : Vec Ideal S1x128 .f32) (v46 : Vec Ideal S2x32x32x128 .bf16) :
    k1_pay1 (F := Ideal) v40 v41 v46 = addf (addf v40 (biasOf v41)) (skipOf v46) := rfl

end Cert.KernelIdeal.Val1

end
-- ==== Proof.K1Outs.lean ====
/-
  What one grid point of the second stage leaves in its output block, read index by index over the extended reals:
  at sample `n` of the pair, position `(I, J)`, channel `c`, the zero-padded 3×3 convolution of that sample's activated
  map plus the bias plus the projection placed at the even/even positions — the specification's `out2` of the sample's
  slices of the input blocks.
-/
import proofs.«148433_g2000002724561042_pallasbulk_175_35_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws
import proofs.«148433_g2000002724561042_pallasbulk_175_35_alg».proof.Proof.Spec
import proofs.«148433_g2000002724561042_pallasbulk_175_35_alg».proof.Proof.KFrame1
import proofs.«148433_g2000002724561042_pallasbulk_175_35_alg».proof.Proof.K1Dot
import proofs.«148433_g2000002724561042_pallasbulk_175_35_alg».proof.Proof.K1Skip

set_option maxRecDepth 16384

noncomputable section

namespace Cert.KernelIdeal.Val1

open Cert.KernelIdeal Cert.KernelIdeal.Gen Cert.KernelIdeal.Hand
open Idealize.ShloMosaic Idealize.ShloMosaic.ValueIdx

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The body loads its whole input buffers and stores its whole output buffer once: the block it leaves is its
    arithmetic on the input blocks. -/
theorem out1_6_eq (x0 : Vec Ideal S2x64x64x128 .bf16) (x1 x2 : Vec Ideal S2x1x128 .f32) (x3 : Vec Ideal S384x384 .bf16)
    (x4 : Vec Ideal S1x128 .f32) (x5 : Vec Ideal S2x32x32x128 .bf16) :
    out1_6 (F := Ideal) x0 x1 x2 x3 x4 x5 = k1_pay1 (F := Ideal) (k1_pay2 (F := Ideal) x0 x1 x2 x3) x4 x5 := by
  unfold out1_6
  rw [View.canon_unit_zero hz4]
  simp only [View.ld_unit_zero (S := S2x64x64x128) hz4, View.ld_unit_zero (S := S2x1x128) hz3,
    View.ld_unit_zero (S := S384x384) hz2, View.ld_unit_zero (S := S1x128) hz2, View.ld_unit_zero (S := S2x32x32x128) hz4]

/-- The output block at an index is the specification's second stage on the sample's slices of the input blocks, given
    that the weight block holds kernel row `kh`, column tap `kw` at rows `kw·128 + k`, columns `kh·128 + c`, and the bias
    block holds the bias. -/
theorem out1_6_apply (x0 : Vec Ideal S2x64x64x128 .bf16) (x1 x2 : Vec Ideal S2x1x128 .f32) (x3 : Vec Ideal S384x384 .bf16)
    (x4 : Vec Ideal S1x128 .f32) (x5 : Vec Ideal S2x32x32x128 .bf16)
    (w : Fin 3 → Fin 3 → Fin 128 → Fin 128 → EReal) (bias : Fin 128 → EReal)
    (hw : ∀ (kh kw : Fin 3) (k c : Fin 128),
      x3 (ix2 (⟨kw.val * 128 + k.val, by have := kw.isLt; have := k.isLt; omega⟩ : Fin 384)
        (⟨kh.val * 128 + c.val, by have := kh.isLt; have := c.isLt; omega⟩ : Fin 384)) = w kh kw k c)
    (hb : ∀ c : Fin 128, x4 (ix2 0 c) = bias c)
    (n : Fin 2) (I J : Fin 64) (c : Fin 128) :
    out1_6 (F := Ideal) x0 x1 x2 x3 x4 x5 (ix4 n I J c)
      = Cert.Spec.out2 (fun i j k => x0 (ix4 n i j k)) (fun k => x1 (ix3 n 0 k)) (fun k => x2 (ix3 n 0 k)) w bias
          (fun i j k => x5 (ix4 n i j k)) I J c := by
  unfold Cert.Spec.out2
  rw [out1_6_eq, pay1_eq, addf_apply, addf_apply, pay2_apply x0 x1 x2 x3 w hw n I J c, biasOf_apply, skipOf_apply, hb]

end Cert.KernelIdeal.Val1

end
-- ==== Proof.K1Arr.lean ====
/-
  From blocks to the array, for the second stage: grid point `t` of the 32 works on samples `2t` and `2t + 1`; its input
  blocks are those two samples' slices of the arrays the region finds (the weights and the bias whole), and what it
  writes back is those two samples' slices of one function of the arrays — the specification's second stage, sample by
  sample. The 32 blocks tile the output array (sample `N` lies in the block of point `N / 2`), so after the region the
  array holds that function everywhere.
-/
import proofs.«148433_g2000002724561042_pallasbulk_175_35_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws
import proofs.«148433_g2000002724561042_pallasbulk_175_35_alg».proof.Proof.Spec
import proofs.«148433_g2000002724561042_pallasbulk_175_35_alg».proof.Proof.KFrame1
import proofs.«148433_g2000002724561042_pallasbulk_175_35_alg».proof.Proof.K1Outs

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

/-! ## The index maps, decided over the 32 grid points -/

theorem idx1_0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)

theorem idx1_1 : ∀ t : Fin cfg1.N, win1_1.index t (0 : Fin 3) = t.val ∧ win1_1.index t (1 : Fin 3) = 0
    ∧ win1_1.index t (2 : Fin 3) = 0 :=
  (by decide +kernel : ∀ t : Fin grid1.N, _)

theorem idx1_2 : ∀ t : Fin cfg1.N, win1_2.index t (0 : Fin 3) = t.val ∧ win1_2.index t (1 : Fin 3) = 0
    ∧ win1_2.index t (2 : Fin 3) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 4) = t.val ∧ win1_5.index t (1 : Fin 4) = 0
    ∧ win1_5.index t (2 : Fin 4) = 0 ∧ win1_5.index t (3 : Fin 4) = 0 :=
  (by decide +kernel : ∀ t : Fin grid1.N, _)

theorem idx1_6 : ∀ t : Fin cfg1.N, win1_6.index t (0 : Fin 4) = t.val ∧ win1_6.index t (1 : Fin 4) = 0
    ∧ win1_6.index t (2 : Fin 4) = 0 ∧ win1_6.index t (3 : Fin 4) = 0 :=
  (by decide +kernel : ∀ t : Fin grid1.N, _)

section
variable (V : (c : Dev nD) → (b : Ref sig .tc) → Buf (Elt Ideal) ((c : Thread nD τ).loc b))

/-! ## Each input block as a slice of its array -/

/-- The activation input's block at point `t`: samples `2t`, `2t + 1`. -/
theorem iblk1_0_apply (c : Dev nD) (t : Fin cfg1.N) (n : Fin 2) (i j : Fin 64) (k : Fin 128) (N : Fin 64)
    (hN : N.val = t.val * 2 + n.val) :
    (iblk1 V c 0 t : Vec Ideal S2x64x64x128 .bf16) (ix4 n i j k)
      = (V c main_v59 : S64x64x64x128.Idx → Elt Ideal .bf16) (ix4 N i j k) := by
  obtain ⟨e0, e1, e2, e3⟩ := idx1_0 t
  unfold iblk1
  rw [View.read_apply]
  show V c main_v59 _ = V c main_v59 _
  congr 1
  funext a
  apply Fin.ext
  match a with
  | ⟨0, _⟩ => show win1_0.index t (0 : Fin 4) * 2 + 1 * n.val = N.val; rw [e0, hN]; omega
  | ⟨1, _⟩ => show win1_0.index t (1 : Fin 4) * 64 + 1 * i.val = i.val; rw [e1]; omega
  | ⟨2, _⟩ => show win1_0.index t (2 : Fin 4) * 64 + 1 * j.val = j.val; rw [e2]; omega
  | ⟨3, _⟩ => show win1_0.index t (3 : Fin 4) * 128 + 1 * k.val = k.val; rw [e3]; omega

/-- The scale's block. -/
theorem iblk1_1_apply (c : Dev nD) (t : Fin cfg1.N) (n : Fin 2) (k : Fin 128) (N : Fin 64)
    (hN : N.val = t.val * 2 + n.val) :
    (iblk1 V c 1 t : Vec Ideal S2x1x128 .f32) (ix3 n 0 k)
      = (V c main_v78 : S64x1x128.Idx → Elt Ideal .f32) (ix3 N 0 k) := by
  obtain ⟨e0, e1, e2⟩ := idx1_1 t
  unfold iblk1
  rw [View.read_apply]
  show V c main_v78 _ = V c main_v78 _
  congr 1
  funext a
  apply Fin.ext
  match a with
  | ⟨0, _⟩ => show win1_1.index t (0 : Fin 3) * 2 + 1 * n.val = N.val; rw [e0, hN]; omega
  | ⟨1, _⟩ => show win1_1.index t (1 : Fin 3) * 1 + 1 * 0 = 0; rw [e1]
  | ⟨2, _⟩ => show win1_1.index t (2 : Fin 3) * 128 + 1 * k.val = k.val; rw [e2]; omega

/-- The shift's block. -/
theorem iblk1_2_apply (c : Dev nD) (t : Fin cfg1.N) (n : Fin 2) (k : Fin 128) (N : Fin 64)
    (hN : N.val = t.val * 2 + n.val) :
    (iblk1 V c 2 t : Vec Ideal S2x1x128 .f32) (ix3 n 0 k)
      = (V c main_v86 : S64x1x128.Idx → Elt Ideal .f32) (ix3 N 0 k) := by
  obtain ⟨e0, e1, e2⟩ := idx1_2 t
  unfold iblk1
  rw [View.read_apply]
  show V c main_v86 _ = V c main_v86 _
  congr 1
  funext a
  apply Fin.ext
  match a with
  | ⟨0, _⟩ => show win1_2.index t (0 : Fin 3) * 2 + 1 * n.val = N.val; rw [e0, hN]; omega
  | ⟨1, _⟩ => show win1_2.index t (1 : Fin 3) * 1 + 1 * 0 = 0; rw [e1]
  | ⟨2, _⟩ => show win1_2.index t (2 : Fin 3) * 128 + 1 * k.val = k.val; rw [e2]; omega

/-- The weights' block is the whole array. -/
theorem iblk1_3_apply (c : Dev nD) (t : Fin cfg1.N) (p q : Fin 384) :
    (iblk1 V c 3 t : Vec Ideal S384x384 .bf16) (ix2 p q)
      = (V c main_v95 : S384x384.Idx → Elt Ideal .bf16) (ix2 p q) := by
  obtain ⟨e0, e1⟩ := idx1_3 t
  unfold iblk1
  rw [View.read_apply]
  show V c main_v95 _ = V c main_v95 _
  congr 1
  funext a
  apply Fin.ext
  match a with
  | ⟨0, _⟩ => show win1_3.index t (0 : Fin 2) * 384 + 1 * p.val = p.val; rw [e0]; omega
  | ⟨1, _⟩ => show win1_3.index t (1 : Fin 2) * 384 + 1 * q.val = q.val; rw [e1]; omega

/-- The bias's block is the whole array. -/
theorem iblk1_4_apply (c : Dev nD) (t : Fin cfg1.N) (q : Fin 128) :
    (iblk1 V c 4 t : Vec Ideal S1x128 .f32) (ix2 0 q)
      = (V c main_v97 : S1x128.Idx → Elt Ideal .f32) (ix2 0 q) := by
  obtain ⟨e0, e1⟩ := idx1_4 t
  unfold iblk1
  rw [View.read_apply]
  show V c main_v97 _ = V c main_v97 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- The projection's block: samples `2t`, `2t + 1`. -/
theorem iblk1_5_apply (c : Dev nD) (t : Fin cfg1.N) (n : Fin 2) (i j : Fin 32) (k : Fin 128) (N : Fin 64)
    (hN : N.val = t.val * 2 + n.val) :
    (iblk1 V c 5 t : Vec Ideal S2x32x32x128 .bf16) (ix4 n i j k)
      = (V c main_v58_1 : S64x32x32x128.Idx → Elt Ideal .bf16) (ix4 N i j k) := by
  obtain ⟨e0, e1, e2, e3⟩ := idx1_5 t
  unfold iblk1
  rw [View.read_apply]
  show V c main_v58_1 _ = V c main_v58_1 _
  congr 1
  funext a
  apply Fin.ext
  match a with
  | ⟨0, _⟩ => show win1_5.index t (0 : Fin 4) * 2 + 1 * n.val = N.val; rw [e0, hN]; omega
  | ⟨1, _⟩ => show win1_5.index t (1 : Fin 4) * 32 + 1 * i.val = i.val; rw [e1]; omega
  | ⟨2, _⟩ => show win1_5.index t (2 : Fin 4) * 32 + 1 * j.val = j.val; rw [e2]; omega
  | ⟨3, _⟩ => show win1_5.index t (3 : Fin 4) * 128 + 1 * k.val = k.val; rw [e3]; omega

/-! ## The output array -/

/-- The second stage of the specification on sample `N` of the arrays the region finds. -/
def stage2At (c : Dev nD) (w : Fin 3 → Fin 3 → Fin 128 → Fin 128 → EReal) (bias : Fin 128 → EReal)
    (N : Fin 64) (I J : Fin 64) (ch : Fin 128) : EReal :=
  Cert.Spec.out2 (fun i j k => (V c main_v59 : S64x64x64x128.Idx → Elt Ideal .bf16) (ix4 N i j k))
    (fun k => (V c main_v78 : S64x1x128.Idx → Elt Ideal .f32) (ix3 N 0 k))
    (fun k => (V c main_v86 : S64x1x128.Idx → Elt Ideal .f32) (ix3 N 0 k)) w bias
    (fun i j k => (V c main_v58_1 : S64x32x32x128.Idx → Elt Ideal .bf16) (ix4 N i j k)) I J ch

/-- … as one function of the output array's index. -/
def stage2Arr (c : Dev nD) (w : Fin 3 → Fin 3 → Fin 128 → Fin 128 → EReal) (bias : Fin 128 → EReal) :
    S64x64x64x128.Idx → Elt Ideal .f32 :=
  fun i => stage2At V c w bias (i 0) (i 1) (i 2) (i 3)

/-- Block `t` of a function of the output array's index, against a block given index by index: sample `n` of the block
    is sample `2t + n` of the array. -/
theorem cut_eq_read (t : Fin cfg1.N) (X : Vec Ideal S2x64x64x128 .f32) (G : S64x64x64x128.Idx → Elt Ideal .f32)
    (h : ∀ (n : Fin 2) (I J : Fin 64) (ch : Fin 128) (N : Fin 64), N.val = t.val * 2 + n.val →
      X (ix4 n I J ch) = G (ix4 N I J ch)) :
    (cfg1.win 6).cut (grid1.coords t) X = ((cfg1.win 6).blk t).view.read (Elt Ideal) G := by
  funext j
  obtain ⟨n, I, J, ch, rfl⟩ : ∃ (n : Fin 2) (I J : Fin 64) (ch : Fin 128), j = ix4 n I J ch :=
    ⟨j 0, j 1, j 2, j 3, eq_ix4 j⟩
  obtain ⟨e0, e1, e2, e3⟩ := idx1_6 t
  have ht : t.val < 32 := t.isLt
  have hN : t.val * 2 + n.val < 64 := by have := n.isLt; omega
  have hemb : ((cfg1.win 6).blk t).view.emb (ix4 n I J ch) = ix4 (⟨t.val * 2 + n.val, hN⟩ : Fin 64) I J ch := by
    funext a
    apply Fin.ext
    match a with
    | ⟨0, _⟩ => show win1_6.index t (0 : Fin 4) * 2 + 1 * n.val = t.val * 2 + n.val; rw [e0]; omega
    | ⟨1, _⟩ => show win1_6.index t (1 : Fin 4) * 64 + 1 * I.val = I.val; rw [e1]; omega
    | ⟨2, _⟩ => show win1_6.index t (2 : Fin 4) * 64 + 1 * J.val = J.val; rw [e2]; omega
    | ⟨3, _⟩ => show win1_6.index t (3 : Fin 4) * 128 + 1 * ch.val = ch.val; rw [e3]; omega
  show X (ix4 n I J ch) = G (((cfg1.win 6).blk t).view.emb (ix4 n I J ch))
  rw [hemb]
  exact h n I J ch _ rfl

/-- The specification's second stage on the sample slices of point `t`'s input blocks is its second stage on sample
    `2t + n` of the arrays. -/
theorem stage2_blocks (c : Dev nD) (w : Fin 3 → Fin 3 → Fin 128 → Fin 128 → EReal) (bias : Fin 128 → EReal)
    (t : Fin cfg1.N) (n : Fin 2) (I J : Fin 64) (ch : Fin 128) (N : Fin 64) (hN : N.val = t.val * 2 + n.val) :
    Cert.Spec.out2 (fun i j k => (iblk1 V c 0 t : Vec Ideal S2x64x64x128 .bf16) (ix4 n i j k))
        (fun k => (iblk1 V c 1 t : Vec Ideal S2x1x128 .f32) (ix3 n 0 k))
        (fun k => (iblk1 V c 2 t : Vec Ideal S2x1x128 .f32) (ix3 n 0 k)) w bias
        (fun i j k => (iblk1 V c 5 t : Vec Ideal S2x32x32x128 .bf16) (ix4 n i j k)) I J ch
      = stage2At V c w bias N I J ch := by
  unfold stage2At
  have f0 : (fun (i j : Fin 64) (k : Fin 128) => (iblk1 V c 0 t : Vec Ideal S2x64x64x128 .bf16) (ix4 n i j k))
      = fun i j k => (V c main_v59 : S64x64x64x128.Idx → Elt Ideal .bf16) (ix4 N i j k) :=
    funext fun i => funext fun j => funext fun k => iblk1_0_apply V c t n i j k N hN
  have f1 : (fun (k : Fin 128) => (iblk1 V c 1 t : Vec Ideal S2x1x128 .f32) (ix3 n 0 k))
      = fun k => (V c main_v78 : S64x1x128.Idx → Elt Ideal .f32) (ix3 N 0 k) :=
    funext fun k => iblk1_1_apply V c t n k N hN
  have f2 : (fun (k : Fin 128) => (iblk1 V c 2 t : Vec Ideal S2x1x128 .f32) (ix3 n 0 k))
      = fun k => (V c main_v86 : S64x1x128.Idx → Elt Ideal .f32) (ix3 N 0 k) :=
    funext fun k => iblk1_2_apply V c t n k N hN
  have f5 : (fun (i j : Fin 32) (k : Fin 128) => (iblk1 V c 5 t : Vec Ideal S2x32x32x128 .bf16) (ix4 n i j k))
      = fun i j k => (V c main_v58_1 : S64x32x32x128.Idx → Elt Ideal .bf16) (ix4 N i j k) :=
    funext fun i => funext fun j => funext fun k => iblk1_5_apply V c t n i j k N hN
  rw [f0, f1, f2, f5]

/-- What point `t` writes back is block `t` of that function. -/
theorem flushed1_eq (c : Dev nD) (w : Fin 3 → Fin 3 → Fin 128 → Fin 128 → EReal) (bias : Fin 128 → EReal)
    (hw : ∀ (kh kw : Fin 3) (k c' : Fin 128),
      (V c main_v95 : S384x384.Idx → Elt Ideal .bf16)
        (ix2 (⟨kw.val * 128 + k.val, by have := kw.isLt; have := k.isLt; omega⟩ : Fin 384)
          (⟨kh.val * 128 + c'.val, by have := kh.isLt; have := c'.isLt; omega⟩ : Fin 384)) = w kh kw k c')
    (hb : ∀ c' : Fin 128, (V c main_v97 : S1x128.Idx → Elt Ideal .f32) (ix2 0 c') = bias c')
    (t : Fin cfg1.N) :
    (dat1 (F := Ideal) V c).flushed 6 t = ((cfg1.win 6).blk t).view.read (Elt Ideal) (stage2Arr V c w bias) := by
  show (cfg1.win 6).cut (grid1.coords t) ((dat1 (F := Ideal) V c).after 6 t) = _
  rw [after1_6]
  refine cut_eq_read t
    (out1_6 (F := Ideal) (iblk1 V c 0 t) (iblk1 V c 1 t) (iblk1 V c 2 t) (iblk1 V c 3 t) (iblk1 V c 4 t) (iblk1 V c 5 t))
    (stage2Arr V c w bias) (fun n I J ch N hN => ?_)
  refine (out1_6_apply (iblk1 V c 0 t) (iblk1 V c 1 t) (iblk1 V c 2 t) (iblk1 V c 3 t) (iblk1 V c 4 t) (iblk1 V c 5 t)
    w bias (fun kh kw k c' => ?_) (fun c' => ?_) n I J ch).trans ?_
  · exact (iblk1_3_apply V c t _ _).trans (hw kh kw k c')
  · exact (iblk1_4_apply V c t c').trans (hb c')
  · exact stage2_blocks V c w bias t n I J ch N hN

/-- An index of the output array is in point `t`'s block iff each coordinate is in the block's range on its axis. -/
theorem mem_blk1 (t : Fin cfg1.N) (i : S64x64x64x128.Idx) :
    i ∈ ((cfg1.win 6).blk t).view.set ↔ ∀ a : Fin 4, win1_6.index t a * S2x64x64x128.size a ≤ (i a).val
      ∧ (i a).val < win1_6.index t a * S2x64x64x128.size a + S2x64x64x128.size a := by
  show i ∈ ((View.whole main_v98).slice (win1_6.rect t)).set ↔ _
  rw [View.set_slice_whole, Rect.mem_set_unit]
  exact Iff.rfl

/-- Every index of the output array is in the block of the point that works on its sample. -/
theorem cover1 (i : S64x64x64x128.Idx) :
    ∃ t : Fin cfg1.N, (cfg1.win 6).flush t = true ∧ i ∈ ((cfg1.win 6).blk t).view.set := by
  have h0 : (i 0).val < 64 := (i 0).isLt
  have h1 : (i 1).val < 64 := (i 1).isLt
  have h2 : (i 2).val < 64 := (i 2).isLt
  have h3 : (i 3).val < 128 := (i 3).isLt
  refine ⟨(⟨(i 0).val / 2, by show (i 0).val / 2 < 32; omega⟩ : Fin cfg1.N), flush1_6 _, ?_⟩
  rw [mem_blk1]
  obtain ⟨e0, e1, e2, e3⟩ := idx1_6 (⟨(i 0).val / 2, by show (i 0).val / 2 < 32; omega⟩ : Fin cfg1.N)
  intro a
  match a with
  | ⟨0, _⟩ =>
    show win1_6.index _ (0 : Fin 4) * 2 ≤ (i 0).val ∧ (i 0).val < win1_6.index _ (0 : Fin 4) * 2 + 2
    rw [e0]; show (i 0).val / 2 * 2 ≤ (i 0).val ∧ (i 0).val < (i 0).val / 2 * 2 + 2; omega
  | ⟨1, _⟩ =>
    show win1_6.index _ (1 : Fin 4) * 64 ≤ (i 1).val ∧ (i 1).val < win1_6.index _ (1 : Fin 4) * 64 + 64
    rw [e1]; omega
  | ⟨2, _⟩ =>
    show win1_6.index _ (2 : Fin 4) * 64 ≤ (i 2).val ∧ (i 2).val < win1_6.index _ (2 : Fin 4) * 64 + 64
    rw [e2]; omega
  | ⟨3, _⟩ =>
    show win1_6.index _ (3 : Fin 4) * 128 ≤ (i 3).val ∧ (i 3).val < win1_6.index _ (3 : Fin 4) * 128 + 128
    rw [e3]; omega

/-- After the region the output array holds the specification's second stage, sample by sample. -/
theorem arr1_6 (c : Dev nD) (w : Fin 3 → Fin 3 → Fin 128 → Fin 128 → EReal) (bias : Fin 128 → EReal)
    (hw : ∀ (kh kw : Fin 3) (k c' : Fin 128),
      (V c main_v95 : S384x384.Idx → Elt Ideal .bf16)
        (ix2 (⟨kw.val * 128 + k.val, by have := kw.isLt; have := k.isLt; omega⟩ : Fin 384)
          (⟨kh.val * 128 + c'.val, by have := kh.isLt; have := c'.isLt; omega⟩ : Fin 384)) = w kh kw k c')
    (hb : ∀ c' : Fin 128, (V c main_v97 : S1x128.Idx → Elt Ideal .f32) (ix2 0 c') = bias c') :
    (dat1 (F := Ideal) V c).arrAt 6 cfg1.N = stage2Arr V c w bias :=
  (dat1 (F := Ideal) V c).arrAt_eq_of_cover 6 (stage2Arr V c w bias) (fun t _ => flushed1_eq V c w bias hw hb t) cover1

/-- The same at an index: sample `N`, position `(I, J)`, channel `ch`. -/
theorem arr1_6_apply (c : Dev nD) (w : Fin 3 → Fin 3 → Fin 128 → Fin 128 → EReal) (bias : Fin 128 → EReal)
    (hw : ∀ (kh kw : Fin 3) (k c' : Fin 128),
      (V c main_v95 : S384x384.Idx → Elt Ideal .bf16)
        (ix2 (⟨kw.val * 128 + k.val, by have := kw.isLt; have := k.isLt; omega⟩ : Fin 384)
          (⟨kh.val * 128 + c'.val, by have := kh.isLt; have := c'.isLt; omega⟩ : Fin 384)) = w kh kw k c')
    (hb : ∀ c' : Fin 128, (V c main_v97 : S1x128.Idx → Elt Ideal .f32) (ix2 0 c') = bias c')
    (N I J : Fin 64) (ch : Fin 128) :
    ((dat1 (F := Ideal) V c).arrAt 6 cfg1.N : S64x64x64x128.Idx → Elt Ideal .f32) (ix4 N I J ch)
      = Cert.Spec.out2 (fun i j k => (V c main_v59 : S64x64x64x128.Idx → Elt Ideal .bf16) (ix4 N i j k))
          (fun k => (V c main_v78 : S64x1x128.Idx → Elt Ideal .f32) (ix3 N 0 k))
          (fun k => (V c main_v86 : S64x1x128.Idx → Elt Ideal .f32) (ix3 N 0 k)) w bias
          (fun i j k => (V c main_v58_1 : S64x32x32x128.Idx → Elt Ideal .bf16) (ix4 N i j k)) I J ch := by
  rw [arr1_6 V c w bias hw hb]
  rfl

end

end Cert.KernelIdeal.Val1

end
-- ==== Proof.R1Act.lean ====
import proofs.«148433_g2000002724561042_pallasbulk_175_35_alg».proof.Proof.Gen.ReferenceIdeal.Skeleton
import proofs.«148433_g2000002724561042_pallasbulk_175_35_alg».proof.Proof.Spec
import Idealize.ShloMosaic.Lib.Pipeline.Value
import Idealize.ShloMosaic.Lib.ValueIdx
import Idealize.ShloMosaic.PureOps.Ideal.Laws

noncomputable section

namespace Cert.ReferenceIdeal.Val1

open Cert.ReferenceIdeal.Gen
open Idealize.ShloMosaic Idealize.ShloMosaic.ValueIdx
open scoped BigOperators

/-!
# Stage 2, one sample: the activated map with its zero border, read at a position

The body works on one sample's block: the map `x0` of shape `[1,64,64,128]` and the per-channel scale and shift rows
`x1`, `x2` of shape `[1,1,128]`. Read as plain functions these are `yOf x0`, `rowOf x1`, `rowOf x2`. The activated map
`max (y·sc + sh) 0` surrounded by one ring of zeros is `Spec.act2` in padded coordinates.
-/

/-- A sample's map block as a function of row, column and channel. -/
def yOf (x0 : Vec Ideal S1x64x64x128 .f32) : Fin 64 → Fin 64 → Fin 128 → EReal := fun i j k => x0 (ix4 0 i j k)

/-- A sample's per-channel row as a function of the channel. -/
def rowOf (x1 : Vec Ideal S1x1x128 .f32) : Fin 128 → EReal := fun k => x1 (ix3 0 0 k)

/-- A per-channel row `[1,1,128]`, squeezed to `[1,128]`, widened back and repeated over the map, read at a position. -/
theorem row_bcast_apply (v2 : Vec Ideal S1x1x128 .f32) (i j : Fin 64) (k : Fin 128) :
    broadcastTo S64x64x128 (shapeCast S1x1x128 (shapeCast S1x128 v2 shapeCasts_S1x1x128_S1x128) shapeCasts_S1x128_S1x1x128)
      broadcasts_S1x1x128_S64x64x128 (ix3 i j k) = rowOf v2 k := by
  unfold rowOf
  refine (broadcastTo_apply _ broadcasts_S1x1x128_S64x64x128 (ix3 i j k) (ix3 0 0 k) (fun a => ?_)).trans ?_
  · match a with
    | ⟨0, _⟩ => rfl
    | ⟨1, _⟩ => rfl
    | ⟨2, _⟩ => rfl
  refine (shapeCast_apply _ shapeCasts_S1x128_S1x1x128 (ix3 0 0 k) (ix2 0 k) (by
    rw [Shape.rowMajor_val_two, Shape.rowMajor_val_three]
    show 0 * 128 + k.val = (0 * 1 + 0) * 128 + k.val
    omega)).trans ?_
  exact shapeCast_apply v2 shapeCasts_S1x1x128_S1x128 (ix2 0 k) (ix3 0 0 k) (by
    rw [Shape.rowMajor_val_two, Shape.rowMajor_val_three]
    show (0 * 1 + 0) * 128 + k.val = 0 * 128 + k.val
    omega)

/-- The activated map `max (y·sc + sh) 0` of one sample, as the body computes it. -/
def actV (v0 : Vec Ideal S1x64x64x128 .f32) (v2 v7 : Vec Ideal S1x1x128 .f32) : FVec Ideal S64x64x128 .f32 :=
  maximumf (addf (mulf (shapeCast S64x64x128 v0 shapeCasts_S1x64x64x128_S64x64x128)
      (broadcastTo S64x64x128 (shapeCast S1x1x128 (shapeCast S1x128 v2 shapeCasts_S1x1x128_S1x128) shapeCasts_S1x128_S1x1x128) broadcasts_S1x1x128_S64x64x128))
      (broadcastTo S64x64x128 (shapeCast S1x1x128 (shapeCast S1x128 v7 shapeCasts_S1x1x128_S1x128) shapeCasts_S1x128_S1x1x128) broadcasts_S1x1x128_S64x64x128))
    (broadcast S64x64x128 (Scalar.ofBits (F := Ideal) .f32 0x00000000#32))

/-- The activated map at a position. -/
theorem actV_apply (v0 : Vec Ideal S1x64x64x128 .f32) (v2 v7 : Vec Ideal S1x1x128 .f32) (i j : Fin 64) (k : Fin 128) :
    actV v0 v2 v7 (ix3 i j k) = max (yOf v0 i j k * rowOf v2 k + rowOf v7 k) 0 := by
  unfold actV
  show max (shapeCast S64x64x128 v0 shapeCasts_S1x64x64x128_S64x64x128 (ix3 i j k) * _ + _) (Ideal.ofBits .f32 0x00000000#32) = _
  rw [Ideal.ofBits_zero_f32]
  have e0 : shapeCast S64x64x128 v0 shapeCasts_S1x64x64x128_S64x64x128 (ix3 i j k) = yOf v0 i j k :=
    shapeCast_apply v0 shapeCasts_S1x64x64x128_S64x64x128 (ix3 i j k) (ix4 0 i j k) (by
      rw [Shape.rowMajor_val_four, Shape.rowMajor_val_three]
      show ((0 * 64 + i.val) * 64 + j.val) * 128 + k.val = (i.val * 64 + j.val) * 128 + k.val
      omega)
  rw [e0]
  exact congrArg₂ (fun a b => max (yOf v0 i j k * a + b) 0) (row_bcast_apply v2 i j k) (row_bcast_apply v7 i j k)

/-! ## The zero border -/

/-- A zero row above and below the map. -/
def padRows (A : FVec Ideal S64x64x128 .f32) : FVec Ideal S66x64x128 .f32 :=
  concatenate S66x64x128 0 [⟨S1x64x128, broadcast S1x64x128 (Scalar.ofBits (F := Ideal) .f32 0x00000000#32)⟩, ⟨S64x64x128, A⟩, ⟨S1x64x128, broadcast S1x64x128 (Scalar.ofBits (F := Ideal) .f32 0x00000000#32)⟩] concatenates_S1x64x128_S64x64x128_S1x64x128_S66x64x128_d0

/-- Then a zero column left and right of it. -/
def pad (A : FVec Ideal S64x64x128 .f32) : FVec Ideal S66x66x128 .f32 :=
  concatenate S66x66x128 1 [⟨S66x1x128, broadcast S66x1x128 (Scalar.ofBits (F := Ideal) .f32 0x00000000#32)⟩, ⟨S66x64x128, padRows A⟩, ⟨S66x1x128, broadcast S66x1x128 (Scalar.ofBits (F := Ideal) .f32 0x00000000#32)⟩] concatenates_S66x1x128_S66x64x128_S66x1x128_S66x66x128_d1

/-- The rows of the padded map: the map's row `I − 1` for `I` in `1 … 64`, zero at `I = 0` and `I = 65`. -/
theorem padRows_apply (A : FVec Ideal S64x64x128 .f32) (I : Fin 66) (j : Fin 64) (k : Fin 128) :
    padRows A (ix3 I j k) = if h : 1 ≤ I.val ∧ I.val ≤ 64 then A (ix3 ⟨I.val - 1, by omega⟩ j k) else 0 := by
  unfold padRows
  by_cases h0 : I.val = 0
  · rw [dif_neg (by omega)]
    refine (concatenate_apply_piece 0 [⟨S1x64x128, broadcast S1x64x128 (Scalar.ofBits (F := Ideal) .f32 0x00000000#32)⟩, ⟨S64x64x128, A⟩, ⟨S1x64x128, broadcast S1x64x128 (Scalar.ofBits (F := Ideal) .f32 0x00000000#32)⟩] concatenates_S1x64x128_S64x64x128_S1x64x128_S66x64x128_d0 (ix3 I j k) 0 (by show 0 < 3; omega)
      S1x64x128 _ rfl rfl 0 rfl (ix3 0 j k) (fun c hc => ?_) (by show 0 + 0 = I.val; omega)).trans ?_
    · match c with
      | ⟨0, _⟩ => exact absurd rfl hc
      | ⟨1, _⟩ => rfl
      | ⟨2, _⟩ => rfl
    exact Ideal.ofBits_zero_f32
  by_cases h65 : I.val = 65
  · rw [dif_neg (by omega)]
    refine (concatenate_apply_piece 0 [⟨S1x64x128, broadcast S1x64x128 (Scalar.ofBits (F := Ideal) .f32 0x00000000#32)⟩, ⟨S64x64x128, A⟩, ⟨S1x64x128, broadcast S1x64x128 (Scalar.ofBits (F := Ideal) .f32 0x00000000#32)⟩] concatenates_S1x64x128_S64x64x128_S1x64x128_S66x64x128_d0 (ix3 I j k) 2 (by show 2 < 3; omega)
      S1x64x128 _ rfl rfl 65 (by simp) (ix3 0 j k) (fun c hc => ?_) (by show 65 + 0 = I.val; omega)).trans ?_
    · match c with
      | ⟨0, _⟩ => exact absurd rfl hc
      | ⟨1, _⟩ => rfl
      | ⟨2, _⟩ => rfl
    exact Ideal.ofBits_zero_f32
  have hI : 1 ≤ I.val ∧ I.val ≤ 64 := by have := I.isLt; omega
  rw [dif_pos hI]
  refine concatenate_apply_piece 0 [⟨S1x64x128, broadcast S1x64x128 (Scalar.ofBits (F := Ideal) .f32 0x00000000#32)⟩, ⟨S64x64x128, A⟩, ⟨S1x64x128, broadcast S1x64x128 (Scalar.ofBits (F := Ideal) .f32 0x00000000#32)⟩] concatenates_S1x64x128_S64x64x128_S1x64x128_S66x64x128_d0 (ix3 I j k) 1 (by show 1 < 3; omega)
      S64x64x128 _ rfl rfl 1 (by simp) (ix3 ⟨I.val - 1, by omega⟩ j k) (fun c hc => ?_) (by show 1 + (I.val - 1) = I.val; omega)
  match c with
  | ⟨0, _⟩ => exact absurd rfl hc
  | ⟨1, _⟩ => rfl
  | ⟨2, _⟩ => rfl

/-- The padded map at a padded position: the map at `(I − 1, J − 1)` inside the ring, zero on it. -/
theorem pad_apply (A : FVec Ideal S64x64x128 .f32) (I J : Fin 66) (k : Fin 128) :
    pad A (ix3 I J k) = if h : (1 ≤ I.val ∧ I.val ≤ 64) ∧ (1 ≤ J.val ∧ J.val ≤ 64) then
      A (ix3 ⟨I.val - 1, by omega⟩ ⟨J.val - 1, by omega⟩ k) else 0 := by
  unfold pad
  by_cases h0 : J.val = 0
  · rw [dif_neg (by omega)]
    refine (concatenate_apply_piece 1 [⟨S66x1x128, broadcast S66x1x128 (Scalar.ofBits (F := Ideal) .f32 0x00000000#32)⟩, ⟨S66x64x128, padRows A⟩, ⟨S66x1x128, broadcast S66x1x128 (Scalar.ofBits (F := Ideal) .f32 0x00000000#32)⟩] concatenates_S66x1x128_S66x64x128_S66x1x128_S66x66x128_d1 (ix3 I J k) 0 (by show 0 < 3; omega)
      S66x1x128 _ rfl rfl 0 rfl (ix3 I 0 k) (fun c hc => ?_) (by show 0 + 0 = J.val; omega)).trans ?_
    · match c with
      | ⟨0, _⟩ => rfl
      | ⟨1, _⟩ => exact absurd rfl hc
      | ⟨2, _⟩ => rfl
    exact Ideal.ofBits_zero_f32
  by_cases h65 : J.val = 65
  · rw [dif_neg (by omega)]
    refine (concatenate_apply_piece 1 [⟨S66x1x128, broadcast S66x1x128 (Scalar.ofBits (F := Ideal) .f32 0x00000000#32)⟩, ⟨S66x64x128, padRows A⟩, ⟨S66x1x128, broadcast S66x1x128 (Scalar.ofBits (F := Ideal) .f32 0x00000000#32)⟩] concatenates_S66x1x128_S66x64x128_S66x1x128_S66x66x128_d1 (ix3 I J k) 2 (by show 2 < 3; omega)
      S66x1x128 _ rfl rfl 65 (by simp) (ix3 I 0 k) (fun c hc => ?_) (by show 65 + 0 = J.val; omega)).trans ?_
    · match c with
      | ⟨0, _⟩ => rfl
      | ⟨1, _⟩ => exact absurd rfl hc
      | ⟨2, _⟩ => rfl
    exact Ideal.ofBits_zero_f32
  have hJ : 1 ≤ J.val ∧ J.val ≤ 64 := by have := J.isLt; omega
  refine (concatenate_apply_piece 1 [⟨S66x1x128, broadcast S66x1x128 (Scalar.ofBits (F := Ideal) .f32 0x00000000#32)⟩, ⟨S66x64x128, padRows A⟩, ⟨S66x1x128, broadcast S66x1x128 (Scalar.ofBits (F := Ideal) .f32 0x00000000#32)⟩] concatenates_S66x1x128_S66x64x128_S66x1x128_S66x66x128_d1 (ix3 I J k) 1 (by show 1 < 3; omega)
      S66x64x128 _ rfl rfl 1 (by simp) (ix3 I ⟨J.val - 1, by omega⟩ k) (fun c hc => ?_) (by show 1 + (J.val - 1) = J.val; omega)).trans ?_
  · match c with
      | ⟨0, _⟩ => rfl
      | ⟨1, _⟩ => exact absurd rfl hc
      | ⟨2, _⟩ => rfl
  rw [padRows_apply]
  by_cases hI : 1 ≤ I.val ∧ I.val ≤ 64
  · rw [dif_pos hI, dif_pos ⟨hI, hJ⟩]
  · rw [dif_neg hI, dif_neg (fun h => hI h.1)]

/-- The body's padded activated map is `pad` of `actV`. -/
theorem pay2_eq (v0 : Vec Ideal S1x64x64x128 .f32) (v2 v7 : Vec Ideal S1x1x128 .f32) :
    k1_pay2 (F := Ideal) v0 v2 v7 = pad (actV v0 v2 v7) := rfl

/-- The body's padded activated map is the specification's, in padded coordinates. -/
theorem pay2_apply (v0 : Vec Ideal S1x64x64x128 .f32) (v2 v7 : Vec Ideal S1x1x128 .f32) (I J : Fin 66) (k : Fin 128) :
    k1_pay2 (F := Ideal) v0 v2 v7 (ix3 I J k) = Spec.act2 (yOf v0) (rowOf v2) (rowOf v7) I.val J.val k := by
  rw [pay2_eq, pad_apply]
  unfold Spec.act2
  by_cases h : (1 ≤ I.val ∧ I.val ≤ 64) ∧ (1 ≤ J.val ∧ J.val ≤ 64)
  · rw [dif_pos h, dif_pos h]
    exact actV_apply v0 v2 v7 _ _ k
  · rw [dif_neg h, dif_neg h]

end Cert.ReferenceIdeal.Val1

end
-- ==== Proof.R1Dot.lean ====
import proofs.«148433_g2000002724561042_pallasbulk_175_35_alg».proof.Proof.Gen.ReferenceIdeal.Skeleton
import proofs.«148433_g2000002724561042_pallasbulk_175_35_alg».proof.Proof.Spec
import proofs.«148433_g2000002724561042_pallasbulk_175_35_alg».proof.Proof.R1Act
import proofs.«148433_g2000002724561042_pallasbulk_175_35_alg».proof.Proof.LibPlainDot
import proofs.«148433_g2000002724561042_pallasbulk_175_35_alg».proof.Proof.LibSumBlocks
import Idealize.ShloMosaic.Lib.Pipeline.Value
import Idealize.ShloMosaic.Lib.ValueIdx
import Idealize.ShloMosaic.PureOps.Ideal.Laws

noncomputable section

namespace Cert.ReferenceIdeal.Val1

open Cert.ReferenceIdeal.Gen
open Idealize.ShloMosaic Idealize.ShloMosaic.ValueIdx
open scoped BigOperators

/-!
# Stage 2, one sample: the three kernel-row products and their sum

For each kernel row `kh` the body takes the 64 rows `kh … kh+63` of the padded map, sets their three column shifts side by
side along the channel axis (the patch matrix: row `I·64 + J`, column `kw·128 + k` holds the padded map at
`(I + kh, J + kw, k)`), and multiplies by the `384 × 128` weight slab of that kernel row. Read at an entry the product is the
sum over `kw` and `k` of the padded map at `(I + kh, J + kw, k)` times the weight at `(kh, kw, k, c)`; the three products
are added up from zero, which is the sum over `kh`.
-/

/-- A sum over 384 indices as the sum over three blocks of 128. -/
theorem sum_384 {M : Type*} [AddCommMonoid M] (f : Fin 384 → M) :
    ∑ q, f q = ∑ kw : Fin 3, ∑ k : Fin 128, f ⟨kw.val * 128 + k.val, by have := kw.isLt; have := k.isLt; omega⟩ :=
  Cert.LibSumBlocks.sum_fin_blocks2 3 128 f

/-- The row of position `(I, J)` of the map flattened to 4096 rows. -/
abbrev rowIx (I J : Fin 64) : Fin 4096 := ⟨I.val * 64 + J.val, by have := I.isLt; have := J.isLt; omega⟩

/-- The column of channel `k` of column shift `kw`. -/
abbrev colIx (kw : Fin 3) (k : Fin 128) : Fin 384 := ⟨kw.val * 128 + k.val, by have := kw.isLt; have := k.isLt; omega⟩

/-- The patch matrix of a band of 64 padded rows. -/
def patch (R : FVec Ideal S64x66x128 .f32) : FVec Ideal S4096x384 .f32 :=
  shapeCast S4096x384 (concatenate S64x64x384 2
    [⟨S64x64x128, extractStridedSlice S64x64x128 ![0, 0, 0] R slices_S64x66x128_o0_0_0_S64x64x128⟩,
     ⟨S64x64x128, extractStridedSlice S64x64x128 ![0, 1, 0] R slices_S64x66x128_o0_1_0_S64x64x128⟩,
     ⟨S64x64x128, extractStridedSlice S64x64x128 ![0, 2, 0] R slices_S64x66x128_o0_2_0_S64x64x128⟩]
    concatenates_S64x64x128_S64x64x128_S64x64x128_S64x64x384_d2) shapeCasts_S64x64x384_S4096x384

/-- The patch matrix at an entry: the band at `(I, J + kw, k)`. -/
theorem patch_apply (R : FVec Ideal S64x66x128 .f32) (I J : Fin 64) (kw : Fin 3) (k : Fin 128) :
    patch R (ix2 (rowIx I J) (colIx kw k))
      = R (ix3 I ⟨J.val + kw.val, by have := J.isLt; have := kw.isLt; omega⟩ k) := by
  unfold patch
  refine (shapeCast_apply _ shapeCasts_S64x64x384_S4096x384 (ix2 (rowIx I J) (colIx kw k)) (ix3 I J (colIx kw k)) (by
    rw [Shape.rowMajor_val_two, Shape.rowMajor_val_three]
    show (I.val * 64 + J.val) * 384 + (kw.val * 128 + k.val) = (I.val * 64 + J.val) * 384 + (kw.val * 128 + k.val)
    rfl)).trans ?_
  match kw with
  | ⟨0, _⟩ =>
    refine (concatenate_apply_piece 2 [⟨S64x64x128, extractStridedSlice S64x64x128 ![0, 0, 0] R slices_S64x66x128_o0_0_0_S64x64x128⟩, ⟨S64x64x128, extractStridedSlice S64x64x128 ![0, 1, 0] R slices_S64x66x128_o0_1_0_S64x64x128⟩, ⟨S64x64x128, extractStridedSlice S64x64x128 ![0, 2, 0] R slices_S64x66x128_o0_2_0_S64x64x128⟩]
      concatenates_S64x64x128_S64x64x128_S64x64x128_S64x64x384_d2 (ix3 I J (colIx ⟨0, by omega⟩ k)) 0 (by show 0 < 3; omega) S64x64x128 _ rfl rfl 0 rfl (ix3 I J k)
      (fun c hc => by
        match c with
        | ⟨0, _⟩ => rfl
        | ⟨1, _⟩ => rfl
        | ⟨2, _⟩ => exact absurd rfl hc)
      (by show 0 + k.val = 0 * 128 + k.val; omega)).trans ?_
    exact extractStridedSlice_apply _ R slices_S64x66x128_o0_0_0_S64x64x128 _ _ (fun a => by
      match a with
      | ⟨0, _⟩ => show I.val = 0 + I.val; omega
      | ⟨1, _⟩ => show J.val + 0 = 0 + J.val; omega
      | ⟨2, _⟩ => show k.val = 0 + k.val; omega)
  | ⟨1, _⟩ =>
    refine (concatenate_apply_piece 2 [⟨S64x64x128, extractStridedSlice S64x64x128 ![0, 0, 0] R slices_S64x66x128_o0_0_0_S64x64x128⟩, ⟨S64x64x128, extractStridedSlice S64x64x128 ![0, 1, 0] R slices_S64x66x128_o0_1_0_S64x64x128⟩, ⟨S64x64x128, extractStridedSlice S64x64x128 ![0, 2, 0] R slices_S64x66x128_o0_2_0_S64x64x128⟩]
      concatenates_S64x64x128_S64x64x128_S64x64x128_S64x64x384_d2 (ix3 I J (colIx ⟨1, by omega⟩ k)) 1 (by show 1 < 3; omega) S64x64x128 _ rfl rfl 128 (by simp) (ix3 I J k)
      (fun c hc => by
        match c with
        | ⟨0, _⟩ => rfl
        | ⟨1, _⟩ => rfl
        | ⟨2, _⟩ => exact absurd rfl hc)
      (by show 128 + k.val = 1 * 128 + k.val; omega)).trans ?_
    exact extractStridedSlice_apply _ R slices_S64x66x128_o0_1_0_S64x64x128 _ _ (fun a => by
      match a with
      | ⟨0, _⟩ => show I.val = 0 + I.val; omega
      | ⟨1, _⟩ => show J.val + 1 = 1 + J.val; omega
      | ⟨2, _⟩ => show k.val = 0 + k.val; omega)
  | ⟨2, _⟩ =>
    refine (concatenate_apply_piece 2 [⟨S64x64x128, extractStridedSlice S64x64x128 ![0, 0, 0] R slices_S64x66x128_o0_0_0_S64x64x128⟩, ⟨S64x64x128, extractStridedSlice S64x64x128 ![0, 1, 0] R slices_S64x66x128_o0_1_0_S64x64x128⟩, ⟨S64x64x128, extractStridedSlice S64x64x128 ![0, 2, 0] R slices_S64x66x128_o0_2_0_S64x64x128⟩]
      concatenates_S64x64x128_S64x64x128_S64x64x128_S64x64x384_d2 (ix3 I J (colIx ⟨2, by omega⟩ k)) 2 (by show 2 < 3; omega) S64x64x128 _ rfl rfl 256 (by simp) (ix3 I J k)
      (fun c hc => by
        match c with
        | ⟨0, _⟩ => rfl
        | ⟨1, _⟩ => rfl
        | ⟨2, _⟩ => exact absurd rfl hc)
      (by show 256 + k.val = 2 * 128 + k.val; omega)).trans ?_
    exact extractStridedSlice_apply _ R slices_S64x66x128_o0_2_0_S64x64x128 _ _ (fun a => by
      match a with
      | ⟨0, _⟩ => show I.val = 0 + I.val; omega
      | ⟨1, _⟩ => show J.val + 2 = 2 + J.val; omega
      | ⟨2, _⟩ => show k.val = 0 + k.val; omega)

/-- The padded map's rows `0 … 63`. -/
def band0 (A : FVec Ideal S66x66x128 .f32) : FVec Ideal S64x66x128 .f32 :=
  extractStridedSlice S64x66x128 ![0, 0, 0] A slices_S66x66x128_o0_0_0_S64x66x128

theorem band0_apply (A : FVec Ideal S66x66x128 .f32) (I : Fin 64) (J' : Fin 66) (k : Fin 128) :
    band0 A (ix3 I J' k) = A (ix3 ⟨I.val + (0 : Fin 3).val, by have := I.isLt; show I.val + 0 < 66; omega⟩ J' k) :=
  extractStridedSlice_apply _ A slices_S66x66x128_o0_0_0_S64x66x128 _ _ (fun a => by
    match a with
    | ⟨0, _⟩ => show I.val + 0 = 0 + I.val; omega
    | ⟨1, _⟩ => show J'.val = 0 + J'.val; omega
    | ⟨2, _⟩ => show k.val = 0 + k.val; omega)

/-- The padded map's rows `1 … 64`. -/
def band1 (A : FVec Ideal S66x66x128 .f32) : FVec Ideal S64x66x128 .f32 :=
  extractStridedSlice S64x66x128 ![1, 0, 0] A slices_S66x66x128_o1_0_0_S64x66x128

theorem band1_apply (A : FVec Ideal S66x66x128 .f32) (I : Fin 64) (J' : Fin 66) (k : Fin 128) :
    band1 A (ix3 I J' k) = A (ix3 ⟨I.val + (1 : Fin 3).val, by have := I.isLt; show I.val + 1 < 66; omega⟩ J' k) :=
  extractStridedSlice_apply _ A slices_S66x66x128_o1_0_0_S64x66x128 _ _ (fun a => by
    match a with
    | ⟨0, _⟩ => show I.val + 1 = 1 + I.val; omega
    | ⟨1, _⟩ => show J'.val = 0 + J'.val; omega
    | ⟨2, _⟩ => show k.val = 0 + k.val; omega)

/-- The padded map's rows `2 … 65`. -/
def band2 (A : FVec Ideal S66x66x128 .f32) : FVec Ideal S64x66x128 .f32 :=
  extractStridedSlice S64x66x128 ![2, 0, 0] A slices_S66x66x128_o2_0_0_S64x66x128

theorem band2_apply (A : FVec Ideal S66x66x128 .f32) (I : Fin 64) (J' : Fin 66) (k : Fin 128) :
    band2 A (ix3 I J' k) = A (ix3 ⟨I.val + (2 : Fin 3).val, by have := I.isLt; show I.val + 2 < 66; omega⟩ J' k) :=
  extractStridedSlice_apply _ A slices_S66x66x128_o2_0_0_S64x66x128 _ _ (fun a => by
    match a with
    | ⟨0, _⟩ => show I.val + 2 = 2 + I.val; omega
    | ⟨1, _⟩ => show J'.val = 0 + J'.val; omega
    | ⟨2, _⟩ => show k.val = 0 + k.val; omega)

/-- A weight slab `[1,384,128]` as a matrix. -/
def slab (s : Vec Ideal S1x384x128 .f32) : FVec Ideal S384x128 .f32 := shapeCast S384x128 s shapeCasts_S1x384x128_S384x128

theorem slab_apply (s : Vec Ideal S1x384x128 .f32) (q : Fin 384) (c : Fin 128) :
    slab s (ix2 q c) = s (ix3 0 q c) :=
  shapeCast_apply s shapeCasts_S1x384x128_S384x128 (ix2 q c) (ix3 0 q c) (by
    rw [Shape.rowMajor_val_two, Shape.rowMajor_val_three]
    show (0 * 384 + q.val) * 128 + c.val = q.val * 128 + c.val
    omega)

/-- The matrix product into the zero accumulator at an entry. -/
theorem mm384_apply (P : FVec Ideal S4096x384 .f32) (B : FVec Ideal S384x128 .f32) (r : Fin 4096) (c : Fin 128) :
    matmul dot_S4096x384_S384x128_S4096x128_1_0_0_1_n_n none P B (constant (F := Ideal) S4096x128 .f32 0x00000000#32) (ix2 r c)
      = ∑ q : Fin 384, P (ix2 r q) * B (ix2 q c) :=
  PlainDot.matmul_zero_apply dot_S4096x384_S384x128_S4096x128_1_0_0_1_n_n ⟨rfl, rfl, rfl, rfl, rfl, rfl⟩ rfl rfl none P B (ix2 r c)

/-- One kernel row's product: the patch matrix of a band times a weight slab, into zero. -/
def tapMM (R : FVec Ideal S64x66x128 .f32) (s : Vec Ideal S1x384x128 .f32) : FVec Ideal S4096x128 .f32 :=
  matmul dot_S4096x384_S384x128_S4096x128_1_0_0_1_n_n none (patch R) (slab s)
    (constant (F := Ideal) S4096x128 .f32 0x00000000#32)

/-- One kernel row's product at an entry, for a band that is the padded map's rows `kh … kh+63` and a slab that holds the
    weights of kernel row `kh`: the sum over the column shifts and the channels. -/
theorem tapMM_apply (A : FVec Ideal S66x66x128 .f32) (R : FVec Ideal S64x66x128 .f32) (kh : Fin 3)
    (hR : ∀ (I : Fin 64) (J' : Fin 66) (k : Fin 128), R (ix3 I J' k)
      = A (ix3 ⟨I.val + kh.val, by have := I.isLt; have := kh.isLt; omega⟩ J' k))
    (s : Vec Ideal S1x384x128 .f32) (wk : Fin 3 → Fin 128 → Fin 128 → EReal)
    (hs : ∀ (kw : Fin 3) (k c : Fin 128), s (ix3 0 (colIx kw k) c) = wk kw k c) (I J : Fin 64) (c : Fin 128) :
    tapMM R s (ix2 (rowIx I J) c) = ∑ kw : Fin 3, ∑ k : Fin 128,
      A (ix3 ⟨I.val + kh.val, by have := I.isLt; have := kh.isLt; omega⟩
        ⟨J.val + kw.val, by have := J.isLt; have := kw.isLt; omega⟩ k) * wk kw k c := by
  unfold tapMM
  refine (mm384_apply (patch R) (slab s) (rowIx I J) c).trans ?_
  refine (sum_384 _).trans ?_
  refine Finset.sum_congr rfl fun kw _ => Finset.sum_congr rfl fun k _ => ?_
  exact congrArg₂ (· * ·) ((patch_apply R I J kw k).trans (hR I _ k)) ((slab_apply s (colIx kw k) c).trans (hs kw k c))

/-- The three kernel rows' products added up from zero. -/
def accV (A : FVec Ideal S66x66x128 .f32) (s0 s1 s2 : Vec Ideal S1x384x128 .f32) : FVec Ideal S4096x128 .f32 :=
  addf (addf (addf (broadcast S4096x128 (Scalar.ofBits (F := Ideal) .f32 0x00000000#32)) (tapMM (band0 A) s0)) (tapMM (band1 A) s1)) (tapMM (band2 A) s2)

/-- The accumulated products at an entry: the full 3×3 sum over the padded map. -/
theorem accV_apply (A : FVec Ideal S66x66x128 .f32) (s0 s1 s2 : Vec Ideal S1x384x128 .f32)
    (w : Fin 3 → Fin 3 → Fin 128 → Fin 128 → EReal)
    (h0 : ∀ (kw : Fin 3) (k c : Fin 128), s0 (ix3 0 (colIx kw k) c) = w 0 kw k c)
    (h1 : ∀ (kw : Fin 3) (k c : Fin 128), s1 (ix3 0 (colIx kw k) c) = w 1 kw k c)
    (h2 : ∀ (kw : Fin 3) (k c : Fin 128), s2 (ix3 0 (colIx kw k) c) = w 2 kw k c) (I J : Fin 64) (c : Fin 128) :
    accV A s0 s1 s2 (ix2 (rowIx I J) c) = ∑ kh : Fin 3, ∑ kw : Fin 3, ∑ k : Fin 128,
      A (ix3 ⟨I.val + kh.val, by have := I.isLt; have := kh.isLt; omega⟩
        ⟨J.val + kw.val, by have := J.isLt; have := kw.isLt; omega⟩ k) * w kh kw k c := by
  have e0 := tapMM_apply A (band0 A) 0 (band0_apply A) s0 (w 0) h0 I J c
  have e1 := tapMM_apply A (band1 A) 1 (band1_apply A) s1 (w 1) h1 I J c
  have e2 := tapMM_apply A (band2 A) 2 (band2_apply A) s2 (w 2) h2 I J c
  unfold accV
  show ((Ideal.ofBits .f32 0x00000000#32 + tapMM (band0 A) s0 (ix2 (rowIx I J) c)) + tapMM (band1 A) s1 (ix2 (rowIx I J) c))
    + tapMM (band2 A) s2 (ix2 (rowIx I J) c) = _
  rw [Ideal.ofBits_zero_f32, zero_add, e0, e1, e2]
  exact (Fin.sum_univ_three (fun kh : Fin 3 => ∑ kw : Fin 3, ∑ k : Fin 128,
      A (ix3 ⟨I.val + kh.val, by have := I.isLt; have := kh.isLt; omega⟩
        ⟨J.val + kw.val, by have := J.isLt; have := kw.isLt; omega⟩ k) * w kh kw k c)).symm

/-- With the padded activated map, the accumulated products are the specification's convolution. -/
theorem conv_apply (v0 : Vec Ideal S1x64x64x128 .f32) (v2 v7 : Vec Ideal S1x1x128 .f32) (s0 s1 s2 : Vec Ideal S1x384x128 .f32)
    (w : Fin 3 → Fin 3 → Fin 128 → Fin 128 → EReal)
    (h0 : ∀ (kw : Fin 3) (k c : Fin 128), s0 (ix3 0 (colIx kw k) c) = w 0 kw k c)
    (h1 : ∀ (kw : Fin 3) (k c : Fin 128), s1 (ix3 0 (colIx kw k) c) = w 1 kw k c)
    (h2 : ∀ (kw : Fin 3) (k c : Fin 128), s2 (ix3 0 (colIx kw k) c) = w 2 kw k c) (I J : Fin 64) (c : Fin 128) :
    accV (k1_pay2 (F := Ideal) v0 v2 v7) s0 s1 s2 (ix2 (rowIx I J) c)
      = Spec.conv2 (yOf v0) (rowOf v2) (rowOf v7) w I J c := by
  refine (accV_apply _ s0 s1 s2 w h0 h1 h2 I J c).trans ?_
  unfold Spec.conv2
  refine Finset.sum_congr rfl fun kh _ => Finset.sum_congr rfl fun kw _ => Finset.sum_congr rfl fun k _ => ?_
  exact congrArg (· * w kh kw k c) (pay2_apply v0 v2 v7 _ _ k)

end Cert.ReferenceIdeal.Val1

end
-- ==== Proof.R1Skip.lean ====
import proofs.«148433_g2000002724561042_pallasbulk_175_35_alg».proof.Proof.Gen.ReferenceIdeal.Skeleton
import proofs.«148433_g2000002724561042_pallasbulk_175_35_alg».proof.Proof.Spec
import Idealize.ShloMosaic.Lib.Pipeline.Value
import Idealize.ShloMosaic.Lib.ValueIdx
import Idealize.ShloMosaic.PureOps.Ideal.Laws

noncomputable section

namespace Cert.ReferenceIdeal.Val1

open Cert.ReferenceIdeal.Gen
open Idealize.ShloMosaic Idealize.ShloMosaic.ValueIdx
open scoped BigOperators

/-!
# Stage 2, one sample: the projection spread over the even positions

The body interleaves the coarse `32 × 32` projection block with zeros along the column axis (stack with a zero copy on a
new axis after the columns, then merge that axis into the columns: column `J` holds the block's column `J / 2` when `J` is even
and zero when it is odd), then does the same along the row axis. The result is the specification's `skipUp`.
-/

/-- A sample's projection block as a function of row, column and channel. -/
def skOf (x5 : Vec Ideal S1x32x32x128 .f32) : Fin 32 → Fin 32 → Fin 128 → EReal := fun i j k => x5 (ix4 0 i j k)

/-- The block with a zero after each column. -/
def colsUp (v55 : Vec Ideal S1x32x32x128 .f32) : FVec Ideal S32x64x128 .f32 :=
  shapeCast S32x64x128 (concatenate S32x32x2x128 2 [⟨S32x32x1x128, shapeCast S32x32x1x128 (shapeCast S32x32x128 v55 shapeCasts_S1x32x32x128_S32x32x128) shapeCasts_S32x32x128_S32x32x1x128⟩, ⟨S32x32x1x128, shapeCast S32x32x1x128 (broadcast S32x32x128 (Scalar.ofBits (F := Ideal) .f32 0x00000000#32)) shapeCasts_S32x32x128_S32x32x1x128⟩]
    concatenates_S32x32x1x128_S32x32x1x128_S32x32x2x128_d2) shapeCasts_S32x32x2x128_S32x64x128

/-- Then with a zero row after each row. -/
def skipV (v55 : Vec Ideal S1x32x32x128 .f32) : FVec Ideal S64x64x128 .f32 :=
  shapeCast S64x64x128 (concatenate S32x2x64x128 1 [⟨S32x1x64x128, shapeCast S32x1x64x128 (colsUp v55) shapeCasts_S32x64x128_S32x1x64x128⟩, ⟨S32x1x64x128, shapeCast S32x1x64x128 (broadcast S32x64x128 (Scalar.ofBits (F := Ideal) .f32 0x00000000#32)) shapeCasts_S32x64x128_S32x1x64x128⟩]
    concatenates_S32x1x64x128_S32x1x64x128_S32x2x64x128_d1) shapeCasts_S32x2x64x128_S64x64x128

theorem colsUp_apply (v55 : Vec Ideal S1x32x32x128 .f32) (i : Fin 32) (J : Fin 64) (c : Fin 128) :
    colsUp v55 (ix3 i J c) = if J.val % 2 = 0 then skOf v55 i ⟨J.val / 2, by have := J.isLt; omega⟩ c else 0 := by
  unfold colsUp
  have hJ := J.isLt
  refine (shapeCast_apply _ shapeCasts_S32x32x2x128_S32x64x128 (ix3 i J c)
    (ix4 i ⟨J.val / 2, by omega⟩ ⟨J.val % 2, by omega⟩ c) (by
      rw [Shape.rowMajor_val_four, Shape.rowMajor_val_three]
      show ((i.val * 32 + J.val / 2) * 2 + J.val % 2) * 128 + c.val = (i.val * 64 + J.val) * 128 + c.val
      omega)).trans ?_
  by_cases h : J.val % 2 = 0
  · rw [if_pos h]
    refine (concatenate_apply_piece 2 [⟨S32x32x1x128, shapeCast S32x32x1x128 (shapeCast S32x32x128 v55 shapeCasts_S1x32x32x128_S32x32x128) shapeCasts_S32x32x128_S32x32x1x128⟩, ⟨S32x32x1x128, shapeCast S32x32x1x128 (broadcast S32x32x128 (Scalar.ofBits (F := Ideal) .f32 0x00000000#32)) shapeCasts_S32x32x128_S32x32x1x128⟩] concatenates_S32x32x1x128_S32x32x1x128_S32x32x2x128_d2 _ 0 (by show 0 < 2; omega)
      S32x32x1x128 _ rfl rfl 0 rfl (ix4 i ⟨J.val / 2, by omega⟩ 0 c) (fun b hc => ?_) (by show 0 + 0 = J.val % 2; omega)).trans ?_
    · match b with
      | ⟨0, _⟩ => rfl
      | ⟨1, _⟩ => rfl
      | ⟨2, _⟩ => exact absurd rfl hc
      | ⟨3, _⟩ => rfl
    refine (shapeCast_apply _ shapeCasts_S32x32x128_S32x32x1x128 (ix4 i ⟨J.val / 2, by omega⟩ 0 c) (ix3 i ⟨J.val / 2, by omega⟩ c) (by
      rw [Shape.rowMajor_val_four, Shape.rowMajor_val_three]
      show (i.val * 32 + J.val / 2) * 128 + c.val = ((i.val * 32 + J.val / 2) * 1 + 0) * 128 + c.val
      omega)).trans ?_
    exact shapeCast_apply v55 shapeCasts_S1x32x32x128_S32x32x128 (ix3 i ⟨J.val / 2, by omega⟩ c) (ix4 0 i ⟨J.val / 2, by omega⟩ c) (by
      rw [Shape.rowMajor_val_four, Shape.rowMajor_val_three]
      show ((0 * 32 + i.val) * 32 + J.val / 2) * 128 + c.val = (i.val * 32 + J.val / 2) * 128 + c.val
      omega)
  · rw [if_neg h]
    refine (concatenate_apply_piece 2 [⟨S32x32x1x128, shapeCast S32x32x1x128 (shapeCast S32x32x128 v55 shapeCasts_S1x32x32x128_S32x32x128) shapeCasts_S32x32x128_S32x32x1x128⟩, ⟨S32x32x1x128, shapeCast S32x32x1x128 (broadcast S32x32x128 (Scalar.ofBits (F := Ideal) .f32 0x00000000#32)) shapeCasts_S32x32x128_S32x32x1x128⟩] concatenates_S32x32x1x128_S32x32x1x128_S32x32x2x128_d2 _ 1 (by show 1 < 2; omega)
      S32x32x1x128 _ rfl rfl 1 (by simp) (ix4 i ⟨J.val / 2, by omega⟩ 0 c) (fun b hc => ?_) (by show 1 + 0 = J.val % 2; omega)).trans ?_
    · match b with
      | ⟨0, _⟩ => rfl
      | ⟨1, _⟩ => rfl
      | ⟨2, _⟩ => exact absurd rfl hc
      | ⟨3, _⟩ => rfl
    refine (shapeCast_apply _ shapeCasts_S32x32x128_S32x32x1x128 (ix4 i ⟨J.val / 2, by omega⟩ 0 c) (ix3 i ⟨J.val / 2, by omega⟩ c) (by
      rw [Shape.rowMajor_val_four, Shape.rowMajor_val_three]
      show (i.val * 32 + J.val / 2) * 128 + c.val = ((i.val * 32 + J.val / 2) * 1 + 0) * 128 + c.val
      omega)).trans ?_
    exact Ideal.ofBits_zero_f32

/-- The spread projection at a position. -/
theorem skipV_apply (v55 : Vec Ideal S1x32x32x128 .f32) (I J : Fin 64) (c : Fin 128) :
    skipV v55 (ix3 I J c) = Spec.skipUp (skOf v55) I J c := by
  unfold skipV Spec.skipUp
  have hI := I.isLt
  refine (shapeCast_apply _ shapeCasts_S32x2x64x128_S64x64x128 (ix3 I J c)
    (ix4 ⟨I.val / 2, by omega⟩ ⟨I.val % 2, by omega⟩ J c) (by
      rw [Shape.rowMajor_val_four, Shape.rowMajor_val_three]
      show (((I.val / 2) * 2 + I.val % 2) * 64 + J.val) * 128 + c.val = (I.val * 64 + J.val) * 128 + c.val
      omega)).trans ?_
  by_cases h : I.val % 2 = 0
  · refine (concatenate_apply_piece 1 [⟨S32x1x64x128, shapeCast S32x1x64x128 (colsUp v55) shapeCasts_S32x64x128_S32x1x64x128⟩, ⟨S32x1x64x128, shapeCast S32x1x64x128 (broadcast S32x64x128 (Scalar.ofBits (F := Ideal) .f32 0x00000000#32)) shapeCasts_S32x64x128_S32x1x64x128⟩] concatenates_S32x1x64x128_S32x1x64x128_S32x2x64x128_d1 _ 0 (by show 0 < 2; omega)
      S32x1x64x128 _ rfl rfl 0 rfl (ix4 ⟨I.val / 2, by omega⟩ 0 J c) (fun b hc => ?_) (by show 0 + 0 = I.val % 2; omega)).trans ?_
    · match b with
      | ⟨0, _⟩ => rfl
      | ⟨1, _⟩ => exact absurd rfl hc
      | ⟨2, _⟩ => rfl
      | ⟨3, _⟩ => rfl
    refine (shapeCast_apply _ shapeCasts_S32x64x128_S32x1x64x128 (ix4 ⟨I.val / 2, by omega⟩ 0 J c) (ix3 ⟨I.val / 2, by omega⟩ J c) (by
      rw [Shape.rowMajor_val_four, Shape.rowMajor_val_three]
      show ((I.val / 2) * 64 + J.val) * 128 + c.val = (((I.val / 2) * 1 + 0) * 64 + J.val) * 128 + c.val
      omega)).trans ?_
    rw [colsUp_apply]
    by_cases hJ : J.val % 2 = 0
    · rw [if_pos hJ, if_pos ⟨h, hJ⟩]
    · rw [if_neg hJ, if_neg (fun hh => hJ hh.2)]
  · rw [if_neg (fun hh => h hh.1)]
    refine (concatenate_apply_piece 1 [⟨S32x1x64x128, shapeCast S32x1x64x128 (colsUp v55) shapeCasts_S32x64x128_S32x1x64x128⟩, ⟨S32x1x64x128, shapeCast S32x1x64x128 (broadcast S32x64x128 (Scalar.ofBits (F := Ideal) .f32 0x00000000#32)) shapeCasts_S32x64x128_S32x1x64x128⟩] concatenates_S32x1x64x128_S32x1x64x128_S32x2x64x128_d1 _ 1 (by show 1 < 2; omega)
      S32x1x64x128 _ rfl rfl 1 (by simp) (ix4 ⟨I.val / 2, by omega⟩ 0 J c) (fun b hc => ?_) (by show 1 + 0 = I.val % 2; omega)).trans ?_
    · match b with
      | ⟨0, _⟩ => rfl
      | ⟨1, _⟩ => exact absurd rfl hc
      | ⟨2, _⟩ => rfl
      | ⟨3, _⟩ => rfl
    refine (shapeCast_apply _ shapeCasts_S32x64x128_S32x1x64x128 (ix4 ⟨I.val / 2, by omega⟩ 0 J c) (ix3 ⟨I.val / 2, by omega⟩ J c) (by
      rw [Shape.rowMajor_val_four, Shape.rowMajor_val_three]
      show ((I.val / 2) * 64 + J.val) * 128 + c.val = (((I.val / 2) * 1 + 0) * 64 + J.val) * 128 + c.val
      omega)).trans ?_
    exact Ideal.ofBits_zero_f32

end Cert.ReferenceIdeal.Val1

end
-- ==== Proof.R1Outs.lean ====
import proofs.«148433_g2000002724561042_pallasbulk_175_35_alg».proof.Proof.Gen.ReferenceIdeal.Skeleton
import proofs.«148433_g2000002724561042_pallasbulk_175_35_alg».proof.Proof.Spec
import proofs.«148433_g2000002724561042_pallasbulk_175_35_alg».proof.Proof.RefFrame1
import proofs.«148433_g2000002724561042_pallasbulk_175_35_alg».proof.Proof.R1Act
import proofs.«148433_g2000002724561042_pallasbulk_175_35_alg».proof.Proof.R1Dot
import proofs.«148433_g2000002724561042_pallasbulk_175_35_alg».proof.Proof.R1Skip
import Idealize.ShloMosaic.Lib.Pipeline.Value
import Idealize.ShloMosaic.Lib.ValueIdx
import Idealize.ShloMosaic.PureOps.Ideal.Laws

noncomputable section

namespace Cert.ReferenceIdeal.Val1

open Cert.ReferenceIdeal.Gen
open Idealize.ShloMosaic Idealize.ShloMosaic.ValueIdx
open scoped BigOperators

/-!
# Stage 2, one sample: what the body stores

The stored block is the accumulated products reshaped to `[64,64,128]`, plus the bias row repeated over the map, plus the
spread projection, with a unit batch axis in front. At `(0, I, J, c)` that is the specification's `out2` of the sample's
map, scale and shift rows and projection block.
-/

/-- The bias row `[1,128]` repeated over the map. -/
def biasV (v50 : Vec Ideal S1x128 .f32) : FVec Ideal S64x64x128 .f32 :=
  broadcastTo S64x64x128 (shapeCast S1x1x128 (shapeCast S1x128 v50 shapeCasts_S1x128_S1x128) shapeCasts_S1x128_S1x1x128)
    broadcasts_S1x1x128_S64x64x128

theorem biasV_apply (v50 : Vec Ideal S1x128 .f32) (I J : Fin 64) (c : Fin 128) : biasV v50 (ix3 I J c) = v50 (ix2 0 c) := by
  unfold biasV
  refine (broadcastTo_apply _ broadcasts_S1x1x128_S64x64x128 (ix3 I J c) (ix3 0 0 c) (fun a => ?_)).trans ?_
  · match a with
    | ⟨0, _⟩ => rfl
    | ⟨1, _⟩ => rfl
    | ⟨2, _⟩ => rfl
  refine (shapeCast_apply _ shapeCasts_S1x128_S1x1x128 (ix3 0 0 c) (ix2 0 c) (by
    rw [Shape.rowMajor_val_two, Shape.rowMajor_val_three]
    show 0 * 128 + c.val = (0 * 1 + 0) * 128 + c.val
    omega)).trans ?_
  exact shapeCast_apply v50 shapeCasts_S1x128_S1x128 (ix2 0 c) (ix2 0 c) rfl

/-- The stored payload, spelt with the stage's parts. -/
theorem pay1_eq (v0 : Vec Ideal S1x64x64x128 .f32) (v2 v7 : Vec Ideal S1x1x128 .f32) (s0 s1 s2 : Vec Ideal S1x384x128 .f32)
    (v50 : Vec Ideal S1x128 .f32) (v55 : Vec Ideal S1x32x32x128 .f32) :
    k1_pay1 (F := Ideal) (k1_pay2 v0 v2 v7) (k1_pay3 v0 v2 v7 s0) (k1_pay4 v0 v2 v7) (k1_pay5 s1)
        (constant (F := Ideal) S4096x128 .f32 0x00000000#32) s2 v50 v55
      = shapeCast S1x64x64x128 (addf (addf (shapeCast S64x64x128 (accV (k1_pay2 (F := Ideal) v0 v2 v7) s0 s1 s2) shapeCasts_S4096x128_S64x64x128)
          (biasV v50)) (skipV v55)) shapeCasts_S64x64x128_S1x64x64x128 := rfl

/-- The stored payload at a position is the specification's result. -/
theorem pay1_apply (v0 : Vec Ideal S1x64x64x128 .f32) (v2 v7 : Vec Ideal S1x1x128 .f32) (s0 s1 s2 : Vec Ideal S1x384x128 .f32)
    (v50 : Vec Ideal S1x128 .f32) (v55 : Vec Ideal S1x32x32x128 .f32)
    (w : Fin 3 → Fin 3 → Fin 128 → Fin 128 → EReal) (bias : Fin 128 → EReal)
    (h0 : ∀ (kw : Fin 3) (k c : Fin 128), s0 (ix3 0 (colIx kw k) c) = w 0 kw k c)
    (h1 : ∀ (kw : Fin 3) (k c : Fin 128), s1 (ix3 0 (colIx kw k) c) = w 1 kw k c)
    (h2 : ∀ (kw : Fin 3) (k c : Fin 128), s2 (ix3 0 (colIx kw k) c) = w 2 kw k c)
    (hb : ∀ c : Fin 128, v50 (ix2 0 c) = bias c) (I J : Fin 64) (c : Fin 128) :
    k1_pay1 (F := Ideal) (k1_pay2 v0 v2 v7) (k1_pay3 v0 v2 v7 s0) (k1_pay4 v0 v2 v7) (k1_pay5 s1)
        (constant (F := Ideal) S4096x128 .f32 0x00000000#32) s2 v50 v55 (ix4 0 I J c)
      = Spec.out2 (yOf v0) (rowOf v2) (rowOf v7) w bias (skOf v55) I J c := by
  rw [pay1_eq]
  refine (shapeCast_apply _ shapeCasts_S64x64x128_S1x64x64x128 (ix4 0 I J c) (ix3 I J c) (by
    rw [Shape.rowMajor_val_four, Shape.rowMajor_val_three]
    show (I.val * 64 + J.val) * 128 + c.val = ((0 * 64 + I.val) * 64 + J.val) * 128 + c.val
    omega)).trans ?_
  have ea : shapeCast S64x64x128 (accV (k1_pay2 (F := Ideal) v0 v2 v7) s0 s1 s2) shapeCasts_S4096x128_S64x64x128 (ix3 I J c)
      = accV (k1_pay2 (F := Ideal) v0 v2 v7) s0 s1 s2 (ix2 (rowIx I J) c) :=
    shapeCast_apply _ shapeCasts_S4096x128_S64x64x128 (ix3 I J c) (ix2 (rowIx I J) c) (by
      rw [Shape.rowMajor_val_two, Shape.rowMajor_val_three]
      show (I.val * 64 + J.val) * 128 + c.val = (I.val * 64 + J.val) * 128 + c.val
      rfl)
  show (shapeCast S64x64x128 (accV (k1_pay2 (F := Ideal) v0 v2 v7) s0 s1 s2) shapeCasts_S4096x128_S64x64x128 (ix3 I J c)
      + biasV v50 (ix3 I J c)) + skipV v55 (ix3 I J c) = _
  rw [ea, conv_apply v0 v2 v7 s0 s1 s2 w h0 h1 h2 I J c, biasV_apply, hb, skipV_apply]
  rfl

/-! ## The body's block -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The three slabs of the weight buffer, read through their unit rectangles. -/
theorem ld_k0 (x3 : Vec Ideal S3x384x128 .f32) (q : Fin 384) (c : Fin 128) :
    (View.ld x3 Hand.r1_k0 : Vec Ideal S1x384x128 .f32) (ix3 0 q c) = x3 (ix3 0 q c) :=
  congrArg x3 (funext fun a => Fin.ext (by
    match a with
    | ⟨0, _⟩ => show 0 + 1 * 0 = 0; rfl
    | ⟨1, _⟩ => show 0 + 1 * q.val = q.val; omega
    | ⟨2, _⟩ => show 0 + 1 * c.val = c.val; omega))
theorem ld_k1 (x3 : Vec Ideal S3x384x128 .f32) (q : Fin 384) (c : Fin 128) :
    (View.ld x3 Hand.r1_k1 : Vec Ideal S1x384x128 .f32) (ix3 0 q c) = x3 (ix3 1 q c) :=
  congrArg x3 (funext fun a => Fin.ext (by
    match a with
    | ⟨0, _⟩ => show 1 + 1 * 0 = 1; rfl
    | ⟨1, _⟩ => show 0 + 1 * q.val = q.val; omega
    | ⟨2, _⟩ => show 0 + 1 * c.val = c.val; omega))
theorem ld_k2 (x3 : Vec Ideal S3x384x128 .f32) (q : Fin 384) (c : Fin 128) :
    (View.ld x3 Hand.r1_k2 : Vec Ideal S1x384x128 .f32) (ix3 0 q c) = x3 (ix3 2 q c) :=
  congrArg x3 (funext fun a => Fin.ext (by
    match a with
    | ⟨0, _⟩ => show 2 + 1 * 0 = 2; rfl
    | ⟨1, _⟩ => show 0 + 1 * q.val = q.val; omega
    | ⟨2, _⟩ => show 0 + 1 * c.val = c.val; omega))

/-- What the body leaves in the output's staging buffer, at a position: the specification's result for the sample whose
    blocks the inputs' buffers hold — given that the weight buffer holds the kernel with its `kw` and input-channel axes
    merged (`kw·128 + k`), and the bias buffer the bias. -/
theorem out1_6_apply (x0 : Vec Ideal S1x64x64x128 .f32) (x1 x2 : Vec Ideal S1x1x128 .f32) (x3 : Vec Ideal S3x384x128 .f32)
    (x4 : Vec Ideal S1x128 .f32) (x5 : Vec Ideal S1x32x32x128 .f32)
    (w : Fin 3 → Fin 3 → Fin 128 → Fin 128 → EReal) (bias : Fin 128 → EReal)
    (hw : ∀ (kh kw : Fin 3) (k c : Fin 128), x3 (ix3 kh (colIx kw k) c) = w kh kw k c)
    (hb : ∀ c : Fin 128, x4 (ix2 0 c) = bias c) (I J : Fin 64) (c : Fin 128) :
    Hand.out1_6 (F := Ideal) x0 x1 x2 x3 x4 x5 (ix4 0 I J c)
      = Spec.out2 (yOf x0) (rowOf x1) (rowOf x2) w bias (skOf x5) I J c := by
  unfold Hand.out1_6
  rw [View.canon_unit_zero hz4]
  have ea : View.ld x0 Hand.r1_a = x0 := View.ld_unit_zero (S := S1x64x64x128) hz4 _ x0
  have eb1 : View.ld x1 Hand.r1_b = x1 := View.ld_unit_zero (S := S1x1x128) hz3 _ x1
  have eb2 : View.ld x2 Hand.r1_b = x2 := View.ld_unit_zero (S := S1x1x128) hz3 _ x2
  have ef : View.ld x4 Hand.r1_f = x4 := View.ld_unit_zero (S := S1x128) hz2 _ x4
  have es : View.ld x5 Hand.r1_s = x5 := View.ld_unit_zero (S := S1x32x32x128) hz4 _ x5
  show k1_pay1 (F := Ideal) (k1_pay2 (View.ld x0 Hand.r1_a) (View.ld x1 Hand.r1_b) (View.ld x2 Hand.r1_b))
      (k1_pay3 (View.ld x0 Hand.r1_a) (View.ld x1 Hand.r1_b) (View.ld x2 Hand.r1_b) (View.ld x3 Hand.r1_k0))
      (k1_pay4 (View.ld x0 Hand.r1_a) (View.ld x1 Hand.r1_b) (View.ld x2 Hand.r1_b)) (k1_pay5 (View.ld x3 Hand.r1_k1))
      (constant (F := Ideal) S4096x128 .f32 0x00000000#32) (View.ld x3 Hand.r1_k2) (View.ld x4 Hand.r1_f) (View.ld x5 Hand.r1_s)
      (ix4 0 I J c) = _
  rw [ea, eb1, eb2, ef, es]
  exact pay1_apply x0 x1 x2 (View.ld x3 Hand.r1_k0) (View.ld x3 Hand.r1_k1) (View.ld x3 Hand.r1_k2) x4 x5 w bias
    (fun kw k c => (ld_k0 x3 _ c).trans (hw 0 kw k c)) (fun kw k c => (ld_k1 x3 _ c).trans (hw 1 kw k c))
    (fun kw k c => (ld_k2 x3 _ c).trans (hw 2 kw k c)) hb I J c

end Cert.ReferenceIdeal.Val1

end
-- ==== Proof.R1Arr.lean ====
import proofs.«148433_g2000002724561042_pallasbulk_175_35_alg».proof.Proof.Gen.ReferenceIdeal.Launch
import proofs.«148433_g2000002724561042_pallasbulk_175_35_alg».proof.Proof.Gen.ReferenceIdeal.Skeleton
import proofs.«148433_g2000002724561042_pallasbulk_175_35_alg».proof.Proof.Gen.ReferenceIdeal.Points
import proofs.«148433_g2000002724561042_pallasbulk_175_35_alg».proof.Proof.Spec
import proofs.«148433_g2000002724561042_pallasbulk_175_35_alg».proof.Proof.RefFrame1
import proofs.«148433_g2000002724561042_pallasbulk_175_35_alg».proof.Proof.R1Act
import proofs.«148433_g2000002724561042_pallasbulk_175_35_alg».proof.Proof.R1Dot
import proofs.«148433_g2000002724561042_pallasbulk_175_35_alg».proof.Proof.R1Skip
import proofs.«148433_g2000002724561042_pallasbulk_175_35_alg».proof.Proof.R1Outs
import Idealize.ShloMosaic.Lib.Pipeline.Value
import Idealize.ShloMosaic.Lib.ValueIdx
import Idealize.ShloMosaic.PureOps.Ideal.Laws

set_option maxRecDepth 16384

noncomputable section

namespace Cert.ReferenceIdeal.Val1

open Cert.ReferenceIdeal.Gen
open Idealize.ShloMosaic Idealize.ShloMosaic.TcCoe Idealize.ShloMosaic.ValueIdx
open Idealize.SL
open Idealize.ShloMosaic.Pipeline (Dat Cfg Window)
open scoped BigOperators

/-!
# Stage 2: from the blocks to the array

The stage runs at 64 grid points, one per sample. At point `t` the map, scale, shift and projection windows hold sample
`t`'s slices of their arrays, the weight and bias windows hold their whole arrays, and the output window's block is sample
`t`'s slice of the output array. So the output array ends holding, at `(N, I, J, c)`, the specification's result for sample
`N`'s slices.
-/

variable (V : (c : Dev nD) → (b : Ref sig .tc) → Buf (Elt Ideal) ((c : Thread nD τ).loc b))

/-- The output array as one function of the input arrays. -/
def G6 (Y : S64x64x64x128.Idx → EReal) (SC SH : S64x1x128.Idx → EReal) (P : S64x32x32x128.Idx → EReal)
    (w : Fin 3 → Fin 3 → Fin 128 → Fin 128 → EReal) (bias : Fin 128 → EReal) : S64x64x64x128.Idx → EReal :=
  fun i => Spec.out2 (fun a b k => Y (ix4 (i 0) a b k)) (fun k => SC (ix3 (i 0) 0 k)) (fun k => SH (ix3 (i 0) 0 k)) w bias
    (fun a b k => P (ix4 (i 0) a b k)) (i 1) (i 2) (i 3)

/-! ## The index maps, decided over the grid -/

/-- The map window's block at point `t` is sample `t`. -/
theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)

/-- The scale window's block at point `t` is sample `t`'s row. -/
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)

/-- The shift window's block at point `t` is sample `t`'s row. -/
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- The weight window's block is the whole array at every point. -/
theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)

/-- The bias window's block is the whole array at every point. -/
theorem idx1_4 : ∀ t : Fin cfg1.N, win1_4.index t (0 : Fin 2) = 0 ∧ win1_4.index t (1 : Fin 2) = 0 :=
  (by decide +kernel : ∀ t : Fin grid1.N, _)

/-- The projection window's block at point `t` is sample `t`. -/
theorem idx1_5 : ∀ t : Fin cfg1.N, win1_5.index t (0 : Fin 4) = t.val ∧ win1_5.index t (1 : Fin 4) = 0 ∧ win1_5.index t (2 : Fin 4) = 0 ∧ win1_5.index t (3 : Fin 4) = 0 :=
  (by decide +kernel : ∀ t : Fin grid1.N, _)

/-- The output window's block at point `t` is sample `t`. -/
theorem idx1_6 : ∀ t : Fin cfg1.N, win1_6.index t (0 : Fin 4) = t.val ∧ win1_6.index t (1 : Fin 4) = 0 ∧ win1_6.index t (2 : Fin 4) = 0 ∧ win1_6.index t (3 : Fin 4) = 0 :=
  (by decide +kernel : ∀ t : Fin grid1.N, _)

/-! ## The input blocks, read in their arrays -/

theorem blk0_apply (c : Dev nD) (t : Fin cfg1.N) (a b : Fin 64) (k : Fin 128) :
    Hand.iblk1 (F := Ideal) V c 0 t (ix4 0 a b k) = (V c main_v52 : S64x64x64x128.Idx → EReal) (ix4 ⟨t.val, t.isLt⟩ a b k) := by
  obtain ⟨e0, e1, e2, e3⟩ := idx1_0 t
  show V c main_v52 (((cfg1.win 0).blk t).view.emb (ix4 0 a b k)) = _
  refine congrArg _ (funext fun d => Fin.ext ?_)
  match d with
  | ⟨0, _⟩ => show win1_0.index t (0 : Fin 4) * 1 + 1 * 0 = t.val; omega
  | ⟨1, _⟩ => show win1_0.index t (1 : Fin 4) * 64 + 1 * a.val = a.val; omega
  | ⟨2, _⟩ => show win1_0.index t (2 : Fin 4) * 64 + 1 * b.val = b.val; omega
  | ⟨3, _⟩ => show win1_0.index t (3 : Fin 4) * 128 + 1 * k.val = k.val; omega

theorem blk1_apply (c : Dev nD) (t : Fin cfg1.N) (k : Fin 128) :
    Hand.iblk1 (F := Ideal) V c 1 t (ix3 0 0 k) = (V c main_v71 : S64x1x128.Idx → EReal) (ix3 ⟨t.val, t.isLt⟩ 0 k) := by
  obtain ⟨e0, e1, e2⟩ := idx1_1 t
  show V c main_v71 (((cfg1.win 1).blk t).view.emb (ix3 0 0 k)) = _
  refine congrArg _ (funext fun d => Fin.ext ?_)
  match d with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 128 + 1 * k.val = k.val; omega

theorem blk2_apply (c : Dev nD) (t : Fin cfg1.N) (k : Fin 128) :
    Hand.iblk1 (F := Ideal) V c 2 t (ix3 0 0 k) = (V c main_v79 : S64x1x128.Idx → EReal) (ix3 ⟨t.val, t.isLt⟩ 0 k) := by
  obtain ⟨e0, e1, e2⟩ := idx1_2 t
  show V c main_v79 (((cfg1.win 2).blk t).view.emb (ix3 0 0 k)) = _
  refine congrArg _ (funext fun d => Fin.ext ?_)
  match d with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 128 + 1 * k.val = k.val; omega

theorem blk3_apply (c : Dev nD) (t : Fin cfg1.N) (kh : Fin 3) (q : Fin 384) (k : Fin 128) :
    Hand.iblk1 (F := Ideal) V c 3 t (ix3 kh q k) = (V c main_v80 : S3x384x128.Idx → EReal) (ix3 kh q k) := by
  obtain ⟨e0, e1, e2⟩ := idx1_3 t
  show V c main_v80 (((cfg1.win 3).blk t).view.emb (ix3 kh q k)) = _
  refine congrArg _ (funext fun d => Fin.ext ?_)
  match d with
  | ⟨0, _⟩ => show win1_3.index t (0 : Fin 3) * 3 + 1 * kh.val = kh.val; omega
  | ⟨1, _⟩ => show win1_3.index t (1 : Fin 3) * 384 + 1 * q.val = q.val; omega
  | ⟨2, _⟩ => show win1_3.index t (2 : Fin 3) * 128 + 1 * k.val = k.val; omega

theorem blk4_apply (c : Dev nD) (t : Fin cfg1.N) (k : Fin 128) :
    Hand.iblk1 (F := Ideal) V c 4 t (ix2 0 k) = (V c main_v82 : S1x128.Idx → EReal) (ix2 0 k) := by
  obtain ⟨e0, e1⟩ := idx1_4 t
  show V c main_v82 (((cfg1.win 4).blk t).view.emb (ix2 0 k)) = _
  refine congrArg _ (funext fun d => Fin.ext ?_)
  match d with
  | ⟨0, _⟩ => show win1_4.index t (0 : Fin 2) * 1 + 1 * 0 = 0; omega
  | ⟨1, _⟩ => show win1_4.index t (1 : Fin 2) * 128 + 1 * k.val = k.val; omega

theorem blk5_apply (c : Dev nD) (t : Fin cfg1.N) (a b : Fin 32) (k : Fin 128) :
    Hand.iblk1 (F := Ideal) V c 5 t (ix4 0 a b k) = (V c main_v51_1 : S64x32x32x128.Idx → EReal) (ix4 ⟨t.val, t.isLt⟩ a b k) := by
  obtain ⟨e0, e1, e2, e3⟩ := idx1_5 t
  show V c main_v51_1 (((cfg1.win 5).blk t).view.emb (ix4 0 a b k)) = _
  refine congrArg _ (funext fun d => Fin.ext ?_)
  match d with
  | ⟨0, _⟩ => show win1_5.index t (0 : Fin 4) * 1 + 1 * 0 = t.val; omega
  | ⟨1, _⟩ => show win1_5.index t (1 : Fin 4) * 32 + 1 * a.val = a.val; omega
  | ⟨2, _⟩ => show win1_5.index t (2 : Fin 4) * 32 + 1 * b.val = b.val; omega
  | ⟨3, _⟩ => show win1_5.index t (3 : Fin 4) * 128 + 1 * k.val = k.val; omega

/-! ## What a point writes back -/

/-- The body's block at any index of the block (the leading coordinate of a `[1,64,64,128]` block is `0`). -/
theorem out1_6_at (x0 : Vec Ideal S1x64x64x128 .f32) (x1 x2 : Vec Ideal S1x1x128 .f32) (x3 : Vec Ideal S3x384x128 .f32)
    (x4 : Vec Ideal S1x128 .f32) (x5 : Vec Ideal S1x32x32x128 .f32)
    (w : Fin 3 → Fin 3 → Fin 128 → Fin 128 → EReal) (bias : Fin 128 → EReal)
    (hw : ∀ (kh kw : Fin 3) (k c : Fin 128), x3 (ix3 kh (colIx kw k) c) = w kh kw k c)
    (hb : ∀ c : Fin 128, x4 (ix2 0 c) = bias c) (j : S1x64x64x128.Idx) :
    Hand.out1_6 (F := Ideal) x0 x1 x2 x3 x4 x5 j
      = Spec.out2 (yOf x0) (rowOf x1) (rowOf x2) w bias (skOf x5) (j 1) (j 2) (j 3) := by
  obtain ⟨a, I, J, c, rfl⟩ : ∃ (a : Fin 1) (I J : Fin 64) (c : Fin 128), j = ix4 a I J c := ⟨j 0, j 1, j 2, j 3, eq_ix4 j⟩
  have ha : a = 0 := Fin.ext (by have := a.isLt; show a.val = 0; omega)
  subst ha
  exact out1_6_apply x0 x1 x2 x3 x4 x5 w bias hw hb I J c

/-- What point `t` writes back is block `t` of `G6` of the arrays as the region finds them. -/
theorem flushed6_eq (c : Dev nD) (w : Fin 3 → Fin 3 → Fin 128 → Fin 128 → EReal) (bias : Fin 128 → EReal)
    (hw : ∀ (kh kw : Fin 3) (k c' : Fin 128), (V c main_v80 : S3x384x128.Idx → EReal) (ix3 kh (colIx kw k) c') = w kh kw k c')
    (hb : ∀ c' : Fin 128, (V c main_v82 : S1x128.Idx → EReal) (ix2 0 c') = bias c') (t : Fin cfg1.N) :
    (Hand.dat1 (F := Ideal) V c).flushed 6 t
      = ((cfg1.win 6).blk t).view.read (Elt Ideal) (G6 (V c main_v52) (V c main_v71) (V c main_v79) (V c main_v51_1) w bias) := by
  show (cfg1.win 6).cut (grid1.coords t) ((Hand.dat1 (F := Ideal) V c).after 6 t) = _
  rw [Hand.after1_6]
  funext j
  show Hand.out1_6 (F := Ideal) (Hand.iblk1 V c 0 t) (Hand.iblk1 V c 1 t) (Hand.iblk1 V c 2 t) (Hand.iblk1 V c 3 t) (Hand.iblk1 V c 4 t) (Hand.iblk1 V c 5 t) j
    = G6 (V c main_v52) (V c main_v71) (V c main_v79) (V c main_v51_1) w bias (((cfg1.win 6).blk t).view.emb j)
  refine (out1_6_at (Hand.iblk1 V c 0 t) (Hand.iblk1 V c 1 t) (Hand.iblk1 V c 2 t) (Hand.iblk1 V c 3 t) (Hand.iblk1 V c 4 t) (Hand.iblk1 V c 5 t) w bias
    (fun kh kw k c' => (blk3_apply V c t kh (colIx kw k) c').trans (hw kh kw k c'))
    (fun c' => (blk4_apply V c t c').trans (hb c')) j).trans ?_
  have ey : yOf (Hand.iblk1 (F := Ideal) V c 0 t) = fun a b k => (V c main_v52 : S64x64x64x128.Idx → EReal) (ix4 ⟨t.val, t.isLt⟩ a b k) :=
    funext fun a => funext fun b => funext fun k => blk0_apply V c t a b k
  have e1 : rowOf (Hand.iblk1 (F := Ideal) V c 1 t) = fun k => (V c main_v71 : S64x1x128.Idx → EReal) (ix3 ⟨t.val, t.isLt⟩ 0 k) :=
    funext fun k => blk1_apply V c t k
  have e2 : rowOf (Hand.iblk1 (F := Ideal) V c 2 t) = fun k => (V c main_v79 : S64x1x128.Idx → EReal) (ix3 ⟨t.val, t.isLt⟩ 0 k) :=
    funext fun k => blk2_apply V c t k
  have e5 : skOf (Hand.iblk1 (F := Ideal) V c 5 t) = fun a b k => (V c main_v51_1 : S64x32x32x128.Idx → EReal) (ix4 ⟨t.val, t.isLt⟩ a b k) :=
    funext fun a => funext fun b => funext fun k => blk5_apply V c t a b k
  rw [ey, e1, e2, e5]
  obtain ⟨f0, f1, f2, f3⟩ := idx1_6 t
  have ej : ((cfg1.win 6).blk t).view.emb j = ix4 ⟨t.val, t.isLt⟩ (j 1) (j 2) (j 3) := by
    funext d; apply Fin.ext
    match d with
    | ⟨0, _⟩ => show win1_6.index t (0 : Fin 4) * 1 + 1 * (j 0).val = t.val; have hj : (j 0).val < 1 := (j 0).isLt; omega
    | ⟨1, _⟩ => show win1_6.index t (1 : Fin 4) * 64 + 1 * (j 1).val = (j 1).val; omega
    | ⟨2, _⟩ => show win1_6.index t (2 : Fin 4) * 64 + 1 * (j 2).val = (j 2).val; omega
    | ⟨3, _⟩ => show win1_6.index t (3 : Fin 4) * 128 + 1 * (j 3).val = (j 3).val; omega
  rw [ej]
  rfl

/-! ## The cover, and the array after the run -/

/-- An index of the output array is in point `t`'s block iff each coordinate is in the block's range on its axis. -/
theorem mem_blk6 (t : Fin cfg1.N) (i : S64x64x64x128.Idx) :
    i ∈ ((cfg1.win 6).blk t).view.set ↔ ∀ a : Fin 4, win1_6.index t a * S1x64x64x128.size a ≤ (i a).val
      ∧ (i a).val < win1_6.index t a * S1x64x64x128.size a + S1x64x64x128.size a := by
  show i ∈ ((View.whole main_v83).slice (win1_6.rect t)).set ↔ _
  rw [View.set_slice_whole, Rect.mem_set_unit]
  exact Iff.rfl

/-- Every index of the output array is in the block of the point its sample coordinate names. -/
theorem cover6 (i : S64x64x64x128.Idx) : ∃ t : Fin cfg1.N, (cfg1.win 6).flush t = true ∧ i ∈ ((cfg1.win 6).blk t).view.set := by
  have h0 : (i 0).val < 64 := (i 0).isLt
  have h1 : (i 1).val < 64 := (i 1).isLt
  have h2 : (i 2).val < 64 := (i 2).isLt
  have h3 : (i 3).val < 128 := (i 3).isLt
  refine ⟨⟨(i 0).val, h0⟩, flush1_6 _, ?_⟩
  rw [mem_blk6]
  obtain ⟨f0, f1, f2, f3⟩ := idx1_6 ⟨(i 0).val, h0⟩
  have f0' : win1_6.index ⟨(i 0).val, h0⟩ (0 : Fin 4) = (i 0).val := f0
  intro a
  match a with
  | ⟨0, _⟩ => show win1_6.index ⟨(i 0).val, h0⟩ (0 : Fin 4) * 1 ≤ (i 0).val ∧ (i 0).val < win1_6.index ⟨(i 0).val, h0⟩ (0 : Fin 4) * 1 + 1; omega
  | ⟨1, _⟩ => show win1_6.index ⟨(i 0).val, h0⟩ (1 : Fin 4) * 64 ≤ (i 1).val ∧ (i 1).val < win1_6.index ⟨(i 0).val, h0⟩ (1 : Fin 4) * 64 + 64; omega
  | ⟨2, _⟩ => show win1_6.index ⟨(i 0).val, h0⟩ (2 : Fin 4) * 64 ≤ (i 2).val ∧ (i 2).val < win1_6.index ⟨(i 0).val, h0⟩ (2 : Fin 4) * 64 + 64; omega
  | ⟨3, _⟩ => show win1_6.index ⟨(i 0).val, h0⟩ (3 : Fin 4) * 128 ≤ (i 3).val ∧ (i 3).val < win1_6.index ⟨(i 0).val, h0⟩ (3 : Fin 4) * 128 + 128; omega

/-- The output array after the region: `G6` of the arrays as the region finds them. -/
theorem final6 (c : Dev nD) (w : Fin 3 → Fin 3 → Fin 128 → Fin 128 → EReal) (bias : Fin 128 → EReal)
    (hw : ∀ (kh kw : Fin 3) (k c' : Fin 128), (V c main_v80 : S3x384x128.Idx → EReal) (ix3 kh (colIx kw k) c') = w kh kw k c')
    (hb : ∀ c' : Fin 128, (V c main_v82 : S1x128.Idx → EReal) (ix2 0 c') = bias c') :
    (Hand.dat1 (F := Ideal) V c).arrAt 6 cfg1.N = G6 (V c main_v52) (V c main_v71) (V c main_v79) (V c main_v51_1) w bias :=
  (Hand.dat1 (F := Ideal) V c).arrAt_eq_of_cover 6 (G6 (V c main_v52) (V c main_v71) (V c main_v79) (V c main_v51_1) w bias)
    (fun t _ => flushed6_eq V c w bias hw hb t) cover6

/-- The output array after the region, entry by entry: at `(N, I, J, c)` the specification's result for sample `N`'s slices of
    the map, scale, shift and projection arrays. -/
theorem arr1_6 (c : Dev nD) (w : Fin 3 → Fin 3 → Fin 128 → Fin 128 → EReal) (bias : Fin 128 → EReal)
    (hw : ∀ (kh kw : Fin 3) (k c' : Fin 128), (V c main_v80 : S3x384x128.Idx → EReal) (ix3 kh (colIx kw k) c') = w kh kw k c')
    (hb : ∀ c' : Fin 128, (V c main_v82 : S1x128.Idx → EReal) (ix2 0 c') = bias c')
    (N : Fin 64) (I J : Fin 64) (c' : Fin 128) :
    ((Hand.dat1 (F := Ideal) V c).arrAt 6 cfg1.N : S64x64x64x128.Idx → EReal) (ix4 N I J c')
      = Spec.out2 (fun a b k => (V c main_v52 : S64x64x64x128.Idx → EReal) (ix4 N a b k))
          (fun k => (V c main_v71 : S64x1x128.Idx → EReal) (ix3 N 0 k))
          (fun k => (V c main_v79 : S64x1x128.Idx → EReal) (ix3 N 0 k)) w bias
          (fun a b k => (V c main_v51_1 : S64x32x32x128.Idx → EReal) (ix4 N a b k)) I J c' := by
  rw [final6 V c w bias hw hb]
  rfl

end Cert.ReferenceIdeal.Val1

end
-- ==== Proof.LibHostRead.lean ====
/-
  Reading the contents after a line of host operations when some operation has several operands written as a literal
  family (a concatenation of two, three or four arrays): the result is the operation's function of the operands'
  contents, each at its own literal reference, so that the reading goes on through the operands.
-/
import Idealize.ShloMosaic.Lib.StableHlo.Run

noncomputable section

namespace Idealize.ShloMosaic.StableHlo

variable {τ : Topo} {sig : RefSig} {Val : EltTy → Type}
variable {x a b y : Ref sig .tc}

/-- Two operands. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- Three operands. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- One pass over a literal list of host operations, several-operand ones included (the general several-operand
    lemma is left out on purpose: it would leave the operands' references as entries of a literal vector). -/
macro "host_read" : tactic =>
  `(tactic| (simp (disch := decide) only [after_cons, after_nil,
      nullary_result', unary_result', binary_result', ternary_result', quaternary_result', reshape_result',
      nary4_result', nary3_result', nary2_result',
      unaryIndexed_result', binaryIndexed_result',
      nullary_result_ne', unary_result_ne', binary_result_ne', ternary_result_ne', quaternary_result_ne', reshape_result_ne',
      nary_result_ne', unaryIndexed_result_ne', binaryIndexed_result_ne',
      Fin.cons_zero, Fin.cons_one, Fin.cons_succ]))

end Idealize.ShloMosaic.StableHlo

end
-- ==== Proof.K1HostA.lean ====
/-
  The host operations around the second stage, read at an index over the extended reals: the first stage's folded
  output `[64, 64, 32, 256]` unfolded row-major to `[64, 64, 64, 128]`; the bias row as the sum of the two bias vectors;
  the projection passing through untouched; the result transposed from channels-last to channels-first.
-/
import proofs.«148433_g2000002724561042_pallasbulk_175_35_alg».proof.Proof.Gen.KernelIdeal.Launch
import proofs.«148433_g2000002724561042_pallasbulk_175_35_alg».proof.Proof.Gen.KernelIdeal.Regions
import proofs.«148433_g2000002724561042_pallasbulk_175_35_alg».proof.Proof.LibHostRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostK1

open Cert.KernelIdeal Cert.KernelIdeal.Gen
open Idealize.ShloMosaic Idealize.ShloMosaic.TcCoe Idealize.ShloMosaic.ValueIdx Idealize.ShloMosaic.StableHlo

variable (V : Valuation τ sig (Elt Ideal))

/-! ## After the second stage: channels-last to channels-first -/

/-- The final array is the second stage's output with the channel axis moved to second place. -/
theorem out_transposed :
    (StableHlo.after (hostOps2 (F := Ideal)) V (Proc.devRef .tc main_v99) : S64x128x64x64.Idx → EReal)
      = transpose S64x128x64x64 [0, 3, 1, 2] (V (Proc.devRef .tc main_v98) : S64x64x64x128.Idx → EReal)
          transposes_S64x64x64x128_S64x128x64x64_0_3_1_2 := by
  dsimp only [hostOps2]
  host_read

theorem out_transposed_apply (N : Fin 64) (ch : Fin 128) (I J : Fin 64) :
    (StableHlo.after (hostOps2 (F := Ideal)) V (Proc.devRef .tc main_v99) : S64x128x64x64.Idx → EReal) (ix4 N ch I J)
      = (V (Proc.devRef .tc main_v98) : S64x64x64x128.Idx → EReal) (ix4 N I J ch) := by
  rw [out_transposed]
  exact transpose_apply [0, 3, 1, 2] _ transposes_S64x64x64x128_S64x128x64x64_0_3_1_2 (ix4 N ch I J) (ix4 N I J ch)
    (fun b => by
      match b with
      | ⟨0, _⟩ => rfl
      | ⟨1, _⟩ => rfl
      | ⟨2, _⟩ => rfl
      | ⟨3, _⟩ => rfl)

/-! ## Before the second stage -/

/-- The projection is not written by the host operations between the stages. -/
theorem skip_kept :
    StableHlo.after (hostOps1 (F := Ideal)) V (Proc.devRef .tc main_v58_1) = V (Proc.devRef .tc main_v58_1) :=
  StableHlo.after_of_writes_sub hostOps1 _ hostOps1_writes (r := main_v58_1) (by decide)

theorem arg8_kept :
    StableHlo.after (hostOps1 (F := Ideal)) V (Proc.devRef .tc main_arg8) = V (Proc.devRef .tc main_arg8) :=
  StableHlo.after_of_writes_sub hostOps1 _ hostOps1_writes (r := main_arg8) (by decide)

theorem arg9_kept :
    StableHlo.after (hostOps1 (F := Ideal)) V (Proc.devRef .tc main_arg9) = V (Proc.devRef .tc main_arg9) :=
  StableHlo.after_of_writes_sub hostOps1 _ hostOps1_writes (r := main_arg9) (by decide)

theorem arg11_kept :
    StableHlo.after (hostOps1 (F := Ideal)) V (Proc.devRef .tc main_arg11) = V (Proc.devRef .tc main_arg11) :=
  StableHlo.after_of_writes_sub hostOps1 _ hostOps1_writes (r := main_arg11) (by decide)

/-- The second stage's bias: the two bias vectors added. -/
def bias2 (c' : Fin 128) : EReal :=
  @HAdd.hAdd EReal EReal EReal _ (V (Proc.devRef .tc main_arg9) (ix1 c')) (V (Proc.devRef .tc main_arg11) (ix1 c'))

/-- The bias row is the two bias vectors added, viewed `[1, 128]`. -/
theorem bias_row :
    @Eq (S1x128.Idx → EReal) (StableHlo.after (hostOps1 (F := Ideal)) V (Proc.devRef .tc main_v97))
      (shapeCast S1x128 (addf (F := Ideal) (s := S128) (φ := .f32) (V (Proc.devRef .tc main_arg9)) (V (Proc.devRef .tc main_arg11)))
          shapeCasts_S128_S1x128) := by
  dsimp only [hostOps1]
  host_read
  rfl

theorem bias_row_apply (c' : Fin 128) :
    @Eq EReal (StableHlo.after (hostOps1 (F := Ideal)) V (Proc.devRef .tc main_v97) (ix2 0 c')) (bias2 V c') := by
  have e := congrFun (bias_row V) (ix2 0 c')
  refine e.trans ?_
  refine (shapeCast_apply _ shapeCasts_S128_S1x128 (ix2 0 c') (ix1 c') ?_).trans rfl
  rw [Shape.rowMajor_val_one, Shape.rowMajor_val_two]
  show c'.val = 0 * 128 + c'.val
  omega

/-- The second stage's activation input is the first stage's folded output, unfolded row-major. -/
theorem y_unfolded :
    (StableHlo.after (hostOps1 (F := Ideal)) V (Proc.devRef .tc main_v59) : S64x64x64x128.Idx → EReal)
      = shapeCast S64x64x64x128 (V (Proc.devRef .tc main_v58_0) : S64x64x32x256.Idx → EReal)
          shapeCasts_S64x64x32x256_S64x64x64x128 := by
  dsimp only [hostOps1]
  host_read
  rfl

theorem y_unfolded_apply (N I J : Fin 64) (k : Fin 128) :
    (StableHlo.after (hostOps1 (F := Ideal)) V (Proc.devRef .tc main_v59) : S64x64x64x128.Idx → EReal) (ix4 N I J k)
      = (V (Proc.devRef .tc main_v58_0) : S64x64x32x256.Idx → EReal)
          (ix4 N I (⟨J.val / 2, by have := J.isLt; omega⟩ : Fin 32)
            (⟨(J.val % 2) * 128 + k.val, by have := k.isLt; omega⟩ : Fin 256)) := by
  rw [y_unfolded]
  refine shapeCast_apply _ shapeCasts_S64x64x32x256_S64x64x64x128 (ix4 N I J k) _ ?_
  rw [Shape.rowMajor_val_four, Shape.rowMajor_val_four]
  show ((N.val * 64 + I.val) * 32 + J.val / 2) * 256 + (J.val % 2 * 128 + k.val) = ((N.val * 64 + I.val) * 64 + J.val) * 128 + k.val
  omega

end Cert.KernelIdeal.HostK1

end
-- ==== Proof.K1HostB.lean ====
/-
  The grouped weights of the second stage, read at an index over the extended reals: the 3×3 kernel array
  `[3, 3, 128, 128]` is regrouped as three slabs `[384, 128]` (one per kernel row, its rows the column tap and the input
  channel), the slabs are set side by side on the columns, and the result is narrowed (the identity on the extended
  reals). Row `kw·128 + k`, column `kh·128 + c` is the kernel array at `(kh, kw, k, c)`.
-/
import proofs.«148433_g2000002724561042_pallasbulk_175_35_alg».proof.Proof.Gen.KernelIdeal.Launch
import proofs.«148433_g2000002724561042_pallasbulk_175_35_alg».proof.Proof.Gen.KernelIdeal.Regions
import proofs.«148433_g2000002724561042_pallasbulk_175_35_alg».proof.Proof.LibHostRead
import Idealize.ShloMosaic.Lib.Pipeline.Value
import Idealize.ShloMosaic.Lib.ValueIdx
import Idealize.ShloMosaic.Lib.ValueLayout
import Idealize.ShloMosaic.PureOps.Ideal.Laws
import proofs.«148433_g2000002724561042_pallasbulk_175_35_alg».proof.Proof.HostKLay

set_option maxRecDepth 16384

noncomputable section

namespace Cert.KernelIdeal.HostK1

open Cert.KernelIdeal Cert.KernelIdeal.Gen
open Idealize.ShloMosaic Idealize.ShloMosaic.TcCoe Idealize.ShloMosaic.ValueIdx Idealize.ShloMosaic.StableHlo

variable (V : Valuation τ sig (Elt Ideal))

/-- Slab `kh` of the regrouped kernel array, as the host operations compute it. -/
def slab (o : Nat) (h : S3x384x128.Slices ![o, 0, 0] S1x384x128) : S384x128.Idx → EReal :=
  shapeCast S384x128
    (extractStridedSlice S1x384x128 ![o, 0, 0]
      (shapeCast S3x384x128 (V (Proc.devRef .tc main_arg8)) shapeCasts_S3x3x128x128_S3x384x128) h)
    shapeCasts_S1x384x128_S384x128

/-- The grouped weights as the host operations leave them. -/
theorem w1g_read :
    @Eq (S384x384.Idx → EReal) (StableHlo.after (hostOps1 (F := Ideal)) V (Proc.devRef .tc main_v95))
      (truncf (F := Ideal) (s := S384x384) (φ := .f32) .bf16
        (concatenate S384x384 1
          [⟨S384x128, slab V 0 slices_S3x384x128_S1x384x128_0_0_0⟩, ⟨S384x128, slab V 1 slices_S3x384x128_S1x384x128_1_0_0⟩,
           ⟨S384x128, slab V 2 slices_S3x384x128_S1x384x128_2_0_0⟩]
          concatenates_S384x128_S384x128_S384x128_S384x384_d1)
        bitsLt_bf16_f32) := by
  dsimp only [hostOps1]
  host_read
  rfl

/-- The grouped weights at row `kw·128 + k`, column `kh·128 + c`. -/
theorem w1g_apply (kh kw : Fin 3) (k c' : Fin 128) :
    @Eq EReal
      (StableHlo.after (hostOps1 (F := Ideal)) V (Proc.devRef .tc main_v95)
        (ix2 (⟨kw.val * 128 + k.val, by have := kw.isLt; have := k.isLt; omega⟩ : Fin 384)
          (⟨kh.val * 128 + c'.val, by have := kh.isLt; have := c'.isLt; omega⟩ : Fin 384)))
      (V (Proc.devRef .tc main_arg8) (ix4 kh kw k c')) := by
  have e := congrFun (w1g_read V)
    (ix2 (⟨kw.val * 128 + k.val, by have := kw.isLt; have := k.isLt; omega⟩ : Fin 384)
      (⟨kh.val * 128 + c'.val, by have := kh.isLt; have := c'.isLt; omega⟩ : Fin 384))
  refine e.trans ?_
  rw [truncf_apply]
  refine (HostK.cat3_cols _ _ _ concatenates_S384x128_S384x128_S384x128_S384x384_d1 _ kh c').trans ?_
  match kh with
  | ⟨0, _⟩ =>
    exact HostK.slab_at (V (Proc.devRef .tc main_arg8)) shapeCasts_S3x3x128x128_S3x384x128 (0 : Fin 3)
      slices_S3x384x128_S1x384x128_0_0_0 shapeCasts_S1x384x128_S384x128 kw k c'
  | ⟨1, _⟩ =>
    exact HostK.slab_at (V (Proc.devRef .tc main_arg8)) shapeCasts_S3x3x128x128_S3x384x128 (1 : Fin 3)
      slices_S3x384x128_S1x384x128_1_0_0 shapeCasts_S1x384x128_S384x128 kw k c'
  | ⟨2, _⟩ =>
    exact HostK.slab_at (V (Proc.devRef .tc main_arg8)) shapeCasts_S3x3x128x128_S3x384x128 (2 : Fin 3)
      slices_S3x384x128_S1x384x128_2_0_0 shapeCasts_S1x384x128_S384x128 kw k c'

end Cert.KernelIdeal.HostK1

end
-- ==== Proof.RefHost1.lean ====
import proofs.«148433_g2000002724561042_pallasbulk_175_35_alg».proof.Proof.Gen.ReferenceIdeal.Regions
import proofs.«148433_g2000002724561042_pallasbulk_175_35_alg».proof.Proof.LibNary3
import proofs.«148433_g2000002724561042_pallasbulk_175_35_alg».proof.Proof.RefHostLay
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.HostR

open Cert.ReferenceIdeal.Gen
open Idealize.ShloMosaic Idealize.ShloMosaic.TcCoe Idealize.ShloMosaic.ValueIdx
open Idealize.ShloMosaic.StableHlo (after)

open Idealize.ShloMosaic.StableHlo in
/-- One pass over a literal list of host operations: each operation's result at its own buffer is its function of its operands'
    contents, at any other buffer what was there. -/
local macro "ref_read" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne',
      Matrix.cons_val_zero, Matrix.cons_val_one, Matrix.cons_val_two, Matrix.cons_val_three, Matrix.head_cons, Matrix.tail_cons,
      Matrix.cons_val_succ, Matrix.cons_val_succ', Matrix.cons_val_fin_one]))

/-!
# The second and third host stretches of the reference program, read at an index

From any buffer contents `V`: after the second stretch, the up-sampled map unfolded from its folded layout, the second 3×3 kernel
array with its `kw` and input-channel axes merged, the sum of the two biases as a one-row matrix, and the skip block untouched;
after the third, the result with its channel axis moved to second place.
-/

variable (V : Valuation τ sig (Elt Ideal))

/-- `main_v52` is the folded up-sampled map `[64, 64, 32, 256]` read as `[64, 64, 64, 128]`. -/
theorem v52_apply (N I J : Fin 64) (k : Fin 128) :
    StableHlo.after (hostOps1 (F := Ideal)) V (Proc.devRef .tc main_v52) (ix4 N I J k)
      = V (Proc.devRef .tc main_v51_0) (ix4 N I ⟨J.val / 2, by have := J.isLt; omega⟩ ⟨(J.val % 2) * 128 + k.val, by have := k.isLt; omega⟩) := by
  dsimp only [hostOps1]
  host_results
  exact unfold_apply _ _ N I J k

/-- `main_v80` is the second kernel array with rows `kw·128 + k`. -/
theorem v80_apply (kh kw : Fin 3) (k c : Fin 128) :
    StableHlo.after (hostOps1 (F := Ideal)) V (Proc.devRef .tc main_v80)
        (ix3 kh ⟨kw.val * 128 + k.val, by have := kw.isLt; have := k.isLt; omega⟩ c)
      = V (Proc.devRef .tc main_arg8) (ix4 kh kw k c) := by
  dsimp only [hostOps1]
  host_results
  exact merge_apply _ _ kh kw k c

set_option maxHeartbeats 1000000 in
/-- `main_v82` is the sum of the two bias vectors, as a one-row matrix. -/
theorem v82_apply (c : Fin 128) :
    StableHlo.after (hostOps1 (F := Ideal)) V (Proc.devRef .tc main_v82) (ix2 0 c)
      = HAdd.hAdd (α := EReal) (β := EReal) (γ := EReal) (V (Proc.devRef .tc main_arg9) (ix1 c)) (V (Proc.devRef .tc main_arg11) (ix1 c)) := by
  dsimp only [hostOps1]
  ref_read
  refine (row_apply _ _ c).trans ?_
  rfl

/-- No operation of the second stretch writes the skip block. -/
theorem v51_1_eq : StableHlo.after (hostOps1 (F := Ideal)) V (Proc.devRef .tc main_v51_1) = V (Proc.devRef .tc main_v51_1) :=
  StableHlo.after_of_writes_sub hostOps1 V hostOps1_writes (by decide)

/-- `main_v84`, the result, is region 1's output with its channel axis moved to second place. -/
theorem v84_apply (N : Fin 64) (c : Fin 128) (I J : Fin 64) :
    StableHlo.after (hostOps2 (F := Ideal)) V (Proc.devRef .tc main_v84) (ix4 N c I J) = V (Proc.devRef .tc main_v83) (ix4 N I J c) := by
  dsimp only [hostOps2]
  host_results
  exact to_nchw_apply _ _ N c I J

end Cert.ReferenceIdeal.HostR

end
-- ==== Proof.BridgeS2.lean ====
/-
  Stage 2 and the tail. Given that the first stage leaves the same four arrays in both programs and that the second
  batch-norm's scale and shift agree, the second stage's output arrays agree — each is the specification's second
  stage of its sample's slices, read off the pipelines' proof data —, and the two results are their transposes.
-/
import proofs.«148433_g2000002724561042_pallasbulk_175_35_alg».proof.Defs
import proofs.«148433_g2000002724561042_pallasbulk_175_35_alg».proof.Proof.KFrameRun
import proofs.«148433_g2000002724561042_pallasbulk_175_35_alg».proof.Proof.RefFrameRun
import proofs.«148433_g2000002724561042_pallasbulk_175_35_alg».proof.Proof.BridgeLib
import proofs.«148433_g2000002724561042_pallasbulk_175_35_alg».proof.Proof.K1Arr
import proofs.«148433_g2000002724561042_pallasbulk_175_35_alg».proof.Proof.R1Arr
import proofs.«148433_g2000002724561042_pallasbulk_175_35_alg».proof.Proof.K1HostA
import proofs.«148433_g2000002724561042_pallasbulk_175_35_alg».proof.Proof.K1HostB
import proofs.«148433_g2000002724561042_pallasbulk_175_35_alg».proof.Proof.RefHost1

noncomputable section

namespace Cert.Bridge

open Idealize.ShloMosaic Idealize.ShloMosaic.TcCoe Idealize.SL.Sem Idealize.ShloMosaic.ValueIdx

section
variable (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ) (ρ' : Dev Cert.ReferenceIdeal.nD → PrngReg) (c : Dev Cert.KernelIdeal.nD)

/-- The second convolution's kernel tensor, off the kernel program's launch memory. -/
def w1 : Fin 3 → Fin 3 → Fin 128 → Fin 128 → EReal :=
  fun kh kw k c' => (m ((c : Thread Cert.KernelIdeal.nD Cert.KernelIdeal.τ).loc Cert.KernelIdeal.main_arg8) : Cert.KernelIdeal.S3x3x128x128.Idx → EReal) (ix4 kh kw k c')

/-- The second stage's bias: the two bias vectors added. -/
def bias1 : Fin 128 → EReal :=
  fun c' => @HAdd.hAdd EReal EReal EReal _ ((m ((c : Thread Cert.KernelIdeal.nD Cert.KernelIdeal.τ).loc Cert.KernelIdeal.main_arg9) : Cert.KernelIdeal.S128.Idx → EReal) (ix1 c'))
    ((m ((c : Thread Cert.KernelIdeal.nD Cert.KernelIdeal.τ).loc Cert.KernelIdeal.main_arg11) : Cert.KernelIdeal.S128.Idx → EReal) (ix1 c'))

set_option maxHeartbeats 1000000 in
/-- The second stage's output arrays agree. -/
theorem stage2_eq
    (hag8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (hag9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (hag11 : m' ((c : Thread Cert.ReferenceIdeal.nD Cert.ReferenceIdeal.τ).loc Cert.ReferenceIdeal.main_arg11) = m ((c : Thread Cert.KernelIdeal.nD Cert.KernelIdeal.τ).loc Cert.KernelIdeal.main_arg11))
    (hy : ∀ (N I : Fin 64) (j : Fin 32) (l : Fin 256),
      (Cert.ReferenceIdeal.Hand.W2 (F := Ideal) m' ρ' c (Proc.devRef .tc Cert.ReferenceIdeal.main_v51_0) : Cert.ReferenceIdeal.S64x64x32x256.Idx → EReal) (ix4 N I j l)
        = (Cert.KernelIdeal.Hand.W2 (F := Ideal) m ρ c (Proc.devRef .tc Cert.KernelIdeal.main_v58_0) : Cert.KernelIdeal.S64x64x32x256.Idx → EReal) (ix4 N I j l))
    (hsk : ∀ (N : Fin 64) (i j : Fin 32) (k : Fin 128),
      (Cert.ReferenceIdeal.Hand.W2 (F := Ideal) m' ρ' c (Proc.devRef .tc Cert.ReferenceIdeal.main_v51_1) : Cert.ReferenceIdeal.S64x32x32x128.Idx → EReal) (ix4 N i j k)
        = (Cert.KernelIdeal.Hand.W2 (F := Ideal) m ρ c (Proc.devRef .tc Cert.KernelIdeal.main_v58_1) : Cert.KernelIdeal.S64x32x32x128.Idx → EReal) (ix4 N i j k))
    (hsc : (Cert.ReferenceIdeal.Hand.W3 (F := Ideal) m' ρ' c (Proc.devRef .tc Cert.ReferenceIdeal.main_v71) : Cert.ReferenceIdeal.S64x1x128.Idx → EReal)
        = (Cert.KernelIdeal.Hand.W3 (F := Ideal) m ρ c (Proc.devRef .tc Cert.KernelIdeal.main_v78) : Cert.KernelIdeal.S64x1x128.Idx → EReal))
    (hsh : (Cert.ReferenceIdeal.Hand.W3 (F := Ideal) m' ρ' c (Proc.devRef .tc Cert.ReferenceIdeal.main_v79) : Cert.ReferenceIdeal.S64x1x128.Idx → EReal)
        = (Cert.KernelIdeal.Hand.W3 (F := Ideal) m ρ c (Proc.devRef .tc Cert.KernelIdeal.main_v86) : Cert.KernelIdeal.S64x1x128.Idx → EReal))
    (N I J : Fin 64) (ch : Fin 128) :
    (Cert.ReferenceIdeal.Hand.W4 (F := Ideal) m' ρ' c (Proc.devRef .tc Cert.ReferenceIdeal.main_v83) : Cert.ReferenceIdeal.S64x64x64x128.Idx → EReal) (ix4 N I J ch)
      = (Cert.KernelIdeal.Hand.W4 (F := Ideal) m ρ c (Proc.devRef .tc Cert.KernelIdeal.main_v98) : Cert.KernelIdeal.S64x64x64x128.Idx → EReal) (ix4 N I J ch) := by
  -- the weights and the bias each stage is handed are the launch memory's
  have hwR : ∀ (kh kw : Fin 3) (k c' : Fin 128),
      (Cert.ReferenceIdeal.Hand.U3 (F := Ideal) m' ρ' c Cert.ReferenceIdeal.main_v80 : Cert.ReferenceIdeal.S3x384x128.Idx → EReal) (ix3 kh (Cert.ReferenceIdeal.Val1.colIx kw k) c') = w1 m c kh kw k c' :=
    fun kh kw k c' => (Cert.ReferenceIdeal.HostR.v80_apply (Cert.ReferenceIdeal.Hand.W2 (F := Ideal) m' ρ' c) kh kw k c').trans (by
      rw [R_W2_arg m' ρ' c Cert.ReferenceIdeal.main_arg8 (by decide) (by decide), hag8]; rfl)
  have hbR : ∀ c' : Fin 128,
      (Cert.ReferenceIdeal.Hand.U3 (F := Ideal) m' ρ' c Cert.ReferenceIdeal.main_v82 : Cert.ReferenceIdeal.S1x128.Idx → EReal) (ix2 0 c') = bias1 m c c' :=
    fun c' => (Cert.ReferenceIdeal.HostR.v82_apply (Cert.ReferenceIdeal.Hand.W2 (F := Ideal) m' ρ' c) c').trans (by
      rw [R_W2_arg m' ρ' c Cert.ReferenceIdeal.main_arg9 (by decide) (by decide), R_W2_arg m' ρ' c Cert.ReferenceIdeal.main_arg11 (by decide) (by decide), hag9, hag11]; rfl)
  have hwK : ∀ (kh kw : Fin 3) (k c' : Fin 128),
      (Cert.KernelIdeal.Hand.V3 (F := Ideal) m ρ c Cert.KernelIdeal.main_v95 : Cert.KernelIdeal.S384x384.Idx → Elt Ideal .bf16)
        (ix2 (⟨kw.val * 128 + k.val, by have := kw.isLt; have := k.isLt; omega⟩ : Fin 384)
          (⟨kh.val * 128 + c'.val, by have := kh.isLt; have := c'.isLt; omega⟩ : Fin 384)) = w1 m c kh kw k c' :=
    fun kh kw k c' => (Cert.KernelIdeal.HostK1.w1g_apply (Cert.KernelIdeal.Hand.W2 (F := Ideal) m ρ c) kh kw k c').trans (by
      rw [K_W2_arg m ρ c Cert.KernelIdeal.main_arg8 (by decide) (by decide)]; rfl)
  have hbK : ∀ c' : Fin 128,
      (Cert.KernelIdeal.Hand.V3 (F := Ideal) m ρ c Cert.KernelIdeal.main_v97 : Cert.KernelIdeal.S1x128.Idx → Elt Ideal .f32) (ix2 0 c') = bias1 m c c' :=
    fun c' => (Cert.KernelIdeal.HostK1.bias_row_apply (Cert.KernelIdeal.Hand.W2 (F := Ideal) m ρ c) c').trans (by
      unfold Cert.KernelIdeal.HostK1.bias2
      rw [K_W2_arg m ρ c Cert.KernelIdeal.main_arg9 (by decide) (by decide), K_W2_arg m ρ c Cert.KernelIdeal.main_arg11 (by decide) (by decide)]; rfl)
  -- each output array is what its pipeline's write-backs leave
  have eR : (Cert.ReferenceIdeal.Hand.W4 (F := Ideal) m' ρ' c (Proc.devRef .tc Cert.ReferenceIdeal.main_v83) : Cert.ReferenceIdeal.S64x64x64x128.Idx → EReal)
      = ((Cert.ReferenceIdeal.Hand.dat1 (F := Ideal) (Cert.ReferenceIdeal.Hand.U3 m' ρ') c).arrAt 6 Cert.ReferenceIdeal.cfg1.N : Cert.ReferenceIdeal.S64x64x64x128.Idx → EReal) :=
    Cert.ReferenceIdeal.Hand.W4_arr m' ρ' c 6
  have eK : (Cert.KernelIdeal.Hand.W4 (F := Ideal) m ρ c (Proc.devRef .tc Cert.KernelIdeal.main_v98) : Cert.KernelIdeal.S64x64x64x128.Idx → EReal)
      = ((Cert.KernelIdeal.Hand.dat1 (F := Ideal) (Cert.KernelIdeal.Hand.V3 m ρ) c).arrAt 6 Cert.KernelIdeal.cfg1.N : Cert.KernelIdeal.S64x64x64x128.Idx → EReal) :=
    Cert.KernelIdeal.Hand.W4_arr m ρ c 6
  rw [eR, eK, Cert.ReferenceIdeal.Val1.arr1_6 (Cert.ReferenceIdeal.Hand.U3 m' ρ') c (w1 m c) (bias1 m c) hwR hbR N I J ch,
    Cert.KernelIdeal.Val1.arr1_6_apply (Cert.KernelIdeal.Hand.V3 m ρ) c (w1 m c) (bias1 m c) hwK hbK N I J ch]
  -- and the two stages are handed the same activations, scale, shift and projection
  have e1 : (fun a b k => (Cert.ReferenceIdeal.Hand.U3 (F := Ideal) m' ρ' c Cert.ReferenceIdeal.main_v52 : Cert.ReferenceIdeal.S64x64x64x128.Idx → EReal) (ix4 N a b k))
      = fun a b k => (Cert.KernelIdeal.Hand.V3 (F := Ideal) m ρ c Cert.KernelIdeal.main_v59 : Cert.KernelIdeal.S64x64x64x128.Idx → Elt Ideal .bf16) (ix4 N a b k) := by
    funext a b k
    exact ((Cert.ReferenceIdeal.HostR.v52_apply (Cert.ReferenceIdeal.Hand.W2 (F := Ideal) m' ρ' c) N a b k).trans (hy N a _ _)).trans
      (Cert.KernelIdeal.HostK1.y_unfolded_apply (Cert.KernelIdeal.Hand.W2 (F := Ideal) m ρ c) N a b k).symm
  have e2 : (fun k => (Cert.ReferenceIdeal.Hand.U3 (F := Ideal) m' ρ' c Cert.ReferenceIdeal.main_v71 : Cert.ReferenceIdeal.S64x1x128.Idx → EReal) (ix3 N 0 k))
      = fun k => (Cert.KernelIdeal.Hand.V3 (F := Ideal) m ρ c Cert.KernelIdeal.main_v78 : Cert.KernelIdeal.S64x1x128.Idx → Elt Ideal .f32) (ix3 N 0 k) := by
    funext k; exact congrFun hsc (ix3 N 0 k)
  have e3 : (fun k => (Cert.ReferenceIdeal.Hand.U3 (F := Ideal) m' ρ' c Cert.ReferenceIdeal.main_v79 : Cert.ReferenceIdeal.S64x1x128.Idx → EReal) (ix3 N 0 k))
      = fun k => (Cert.KernelIdeal.Hand.V3 (F := Ideal) m ρ c Cert.KernelIdeal.main_v86 : Cert.KernelIdeal.S64x1x128.Idx → Elt Ideal .f32) (ix3 N 0 k) := by
    funext k; exact congrFun hsh (ix3 N 0 k)
  have e4 : (fun a b k => (Cert.ReferenceIdeal.Hand.U3 (F := Ideal) m' ρ' c Cert.ReferenceIdeal.main_v51_1 : Cert.ReferenceIdeal.S64x32x32x128.Idx → EReal) (ix4 N a b k))
      = fun a b k => (Cert.KernelIdeal.Hand.V3 (F := Ideal) m ρ c Cert.KernelIdeal.main_v58_1 : Cert.KernelIdeal.S64x32x32x128.Idx → Elt Ideal .bf16) (ix4 N a b k) := by
    funext a b k
    have hr : (Cert.ReferenceIdeal.Hand.U3 (F := Ideal) m' ρ' c Cert.ReferenceIdeal.main_v51_1 : Cert.ReferenceIdeal.S64x32x32x128.Idx → EReal)
        = (Cert.ReferenceIdeal.Hand.W2 (F := Ideal) m' ρ' c (Proc.devRef .tc Cert.ReferenceIdeal.main_v51_1) : Cert.ReferenceIdeal.S64x32x32x128.Idx → EReal) :=
      Cert.ReferenceIdeal.HostR.v51_1_eq (Cert.ReferenceIdeal.Hand.W2 (F := Ideal) m' ρ' c)
    have hk : (Cert.KernelIdeal.Hand.V3 (F := Ideal) m ρ c Cert.KernelIdeal.main_v58_1 : Cert.KernelIdeal.S64x32x32x128.Idx → EReal)
        = (Cert.KernelIdeal.Hand.W2 (F := Ideal) m ρ c (Proc.devRef .tc Cert.KernelIdeal.main_v58_1) : Cert.KernelIdeal.S64x32x32x128.Idx → EReal) :=
      Cert.KernelIdeal.HostK1.skip_kept (Cert.KernelIdeal.Hand.W2 (F := Ideal) m ρ c)
    exact ((congrFun hr _).trans (hsk N a b k)).trans (congrFun hk _).symm
  rw [e1, e2, e3, e4]

/-- The two results are the transposes of the second stage's output arrays. -/
theorem result_of_stage2
    (h2 : ∀ (N I J : Fin 64) (ch : Fin 128),
      (Cert.ReferenceIdeal.Hand.W4 (F := Ideal) m' ρ' c (Proc.devRef .tc Cert.ReferenceIdeal.main_v83) : Cert.ReferenceIdeal.S64x64x64x128.Idx → EReal) (ix4 N I J ch)
        = (Cert.KernelIdeal.Hand.W4 (F := Ideal) m ρ c (Proc.devRef .tc Cert.KernelIdeal.main_v98) : Cert.KernelIdeal.S64x64x64x128.Idx → EReal) (ix4 N I J ch)) :
    Cert.ReferenceIdeal.Hand.W5 (F := Ideal) m' ρ' c (Proc.devRef .tc Cert.ReferenceIdeal.main_v84)
      = Cert.KernelIdeal.Hand.W5 (F := Ideal) m ρ c (Proc.devRef .tc Cert.KernelIdeal.main_v99) := by
  show (Cert.ReferenceIdeal.Hand.W5 (F := Ideal) m' ρ' c (Proc.devRef .tc Cert.ReferenceIdeal.main_v84) : Cert.ReferenceIdeal.S64x128x64x64.Idx → EReal)
    = (Cert.KernelIdeal.Hand.W5 (F := Ideal) m ρ c (Proc.devRef .tc Cert.KernelIdeal.main_v99) : Cert.KernelIdeal.S64x128x64x64.Idx → EReal)
  funext q
  obtain ⟨N, ch, I, J, rfl⟩ : ∃ (N : Fin 64) (ch : Fin 128) (I J : Fin 64), q = ix4 N ch I J := ⟨q 0, q 1, q 2, q 3, eq_ix4 q⟩
  exact ((Cert.ReferenceIdeal.HostR.v84_apply (Cert.ReferenceIdeal.Hand.W4 (F := Ideal) m' ρ' c) N ch I J).trans (h2 N I J ch)).trans
    (Cert.KernelIdeal.HostK1.out_transposed_apply (Cert.KernelIdeal.Hand.W4 (F := Ideal) m ρ c) N ch I J).symm

end

end Cert.Bridge

end
-- ==== Proof.Bridge2.lean ====
/-
  The reference's result array is the kernel program's: the first stage leaves the same four arrays, so the second
  batch-norm's scale and shift agree, so the second stage's output arrays agree, and the results are their transposes.
-/
import proofs.«148433_g2000002724561042_pallasbulk_175_35_alg».proof.Defs
import proofs.«148433_g2000002724561042_pallasbulk_175_35_alg».proof.Proof.Gen.KernelIdeal
import proofs.«148433_g2000002724561042_pallasbulk_175_35_alg».proof.Proof.Gen.ReferenceIdeal
import proofs.«148433_g2000002724561042_pallasbulk_175_35_alg».proof.Proof.Gen.Pre_finite_inputs
import proofs.«148433_g2000002724561042_pallasbulk_175_35_alg».proof.Proof.KFrameRun
import proofs.«148433_g2000002724561042_pallasbulk_175_35_alg».proof.Proof.RefFrameRun
import proofs.«148433_g2000002724561042_pallasbulk_175_35_alg».proof.Proof.BridgeS1
import proofs.«148433_g2000002724561042_pallasbulk_175_35_alg».proof.Proof.BridgeS2

noncomputable section

namespace Cert.Bridge

open Idealize.ShloMosaic Idealize.ShloMosaic.TcCoe Idealize.SL.Sem

theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (hpre : @Cert.Pre_KernelIdeal Cert.Pre_finite_inputs.Gen.facts m)
    (hag : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))) (c : Dev Cert.KernelIdeal.nD) :
    Cert.ReferenceIdeal.Hand.W5 (F := Ideal) m' ρ' c (Proc.devRef .tc Cert.ReferenceIdeal.main_v84)
      = Cert.KernelIdeal.Hand.W5 (F := Ideal) m ρ c (Proc.devRef .tc Cert.KernelIdeal.main_v99) := by
  obtain ⟨h0, h1, h2, h3, h4, h5, h6, h7, h8, h9, h10, h11⟩ := hag c
  obtain ⟨hy, hsk, hs, hq⟩ := stage1_eq m ρ m' ρ' c hpre h0 h1 h2 h3 h6 h7 h10
  obtain ⟨hsc, hsh⟩ := scale2_eq m ρ m' ρ' c h1 h4 h5 hs hq
  exact result_of_stage2 m ρ m' ρ' c (stage2_eq m ρ m' ρ' c h8 h9 h11 hy hsk hsc hsh)

end Cert.Bridge

end
-- ==== Proof.Bridge.lean ====
/-
  The equality of the two idealized programs' results, assembled: both programs' runs end with every unscoped buffer at
  the contents of the last boundary of their fold; the kernel program's result buffer there is the witness, and the
  reference's result buffer there is the same array (the result-equality lemma of the stage-by-stage comparison).
-/
import proofs.«148433_g2000002724561042_pallasbulk_175_35_alg».proof.Defs
import proofs.«148433_g2000002724561042_pallasbulk_175_35_alg».proof.Proof.Gen.KernelIdeal
import proofs.«148433_g2000002724561042_pallasbulk_175_35_alg».proof.Proof.Gen.ReferenceIdeal
import proofs.«148433_g2000002724561042_pallasbulk_175_35_alg».proof.Proof.Gen.Pre_finite_inputs
import proofs.«148433_g2000002724561042_pallasbulk_175_35_alg».proof.Proof.KFrameRun
import proofs.«148433_g2000002724561042_pallasbulk_175_35_alg».proof.Proof.RefFrameRun
import proofs.«148433_g2000002724561042_pallasbulk_175_35_alg».proof.Proof.Bridge2

noncomputable section

namespace Cert.Bridge

open Idealize.ShloMosaic Idealize.ShloMosaic.TcCoe Idealize.SL.Sem

theorem algebraic : @Cert.algebraic_KernelIdeal_ReferenceIdeal Cert.KernelIdeal.Gen.facts Cert.ReferenceIdeal.Gen.facts Cert.Pre_finite_inputs.Gen.facts := by
  intro m ρ m' ρ' hpre hag
  refine ⟨fun c => Cert.KernelIdeal.Hand.W5 m ρ c (Proc.devRef .tc Cert.KernelIdeal.main_v99), ?_, ?_⟩
  · exact (θ_run Cert.KernelIdeal.defs _ _).mono (fun r h c => ⟨h c _ (Cert.KernelIdeal.Hand.mem_uc Cert.KernelIdeal.main_v99 (by decide)),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c),
      (h c _ (Cert.KernelIdeal.Hand.mem_uc Cert.KernelIdeal.main_arg7 (by decide))).trans (Cert.KernelIdeal.Hand.W5_main_arg7 m ρ c),
      (h c _ (Cert.KernelIdeal.Hand.mem_uc Cert.KernelIdeal.main_arg8 (by decide))).trans (Cert.KernelIdeal.Hand.W5_main_arg8 m ρ c),
      (h c _ (Cert.KernelIdeal.Hand.mem_uc Cert.KernelIdeal.main_arg9 (by decide))).trans (Cert.KernelIdeal.Hand.W5_main_arg9 m ρ c),
      (h c _ (Cert.KernelIdeal.Hand.mem_uc Cert.KernelIdeal.main_arg10 (by decide))).trans (Cert.KernelIdeal.Hand.W5_main_arg10 m ρ c),
      (h c _ (Cert.KernelIdeal.Hand.mem_uc Cert.KernelIdeal.main_arg11 (by decide))).trans (Cert.KernelIdeal.Hand.W5_main_arg11 m ρ c)⟩) (Cert.KernelIdeal.Hand.run_main (F := Ideal) m ρ)
  · exact (θ_run Cert.ReferenceIdeal.defs _ _).mono (fun r h c => ⟨(h c _ (Cert.ReferenceIdeal.Hand.mem_uc Cert.ReferenceIdeal.main_v84 (by decide))).trans (result_eq m ρ m' ρ' hpre hag c),
      (h c _ (Cert.ReferenceIdeal.Hand.mem_uc Cert.ReferenceIdeal.main_arg0 (by decide))).trans (Cert.ReferenceIdeal.Hand.W5_main_arg0 m' ρ' c),
      (h c _ (Cert.ReferenceIdeal.Hand.mem_uc Cert.ReferenceIdeal.main_arg1 (by decide))).trans (Cert.ReferenceIdeal.Hand.W5_main_arg1 m' ρ' c),
      (h c _ (Cert.ReferenceIdeal.Hand.mem_uc Cert.ReferenceIdeal.main_arg2 (by decide))).trans (Cert.ReferenceIdeal.Hand.W5_main_arg2 m' ρ' c),
      (h c _ (Cert.ReferenceIdeal.Hand.mem_uc Cert.ReferenceIdeal.main_arg3 (by decide))).trans (Cert.ReferenceIdeal.Hand.W5_main_arg3 m' ρ' c),
      (h c _ (Cert.ReferenceIdeal.Hand.mem_uc Cert.ReferenceIdeal.main_arg4 (by decide))).trans (Cert.ReferenceIdeal.Hand.W5_main_arg4 m' ρ' c),
      (h c _ (Cert.ReferenceIdeal.Hand.mem_uc Cert.ReferenceIdeal.main_arg5 (by decide))).trans (Cert.ReferenceIdeal.Hand.W5_main_arg5 m' ρ' c),
      (h c _ (Cert.ReferenceIdeal.Hand.mem_uc Cert.ReferenceIdeal.main_arg6 (by decide))).trans (Cert.ReferenceIdeal.Hand.W5_main_arg6 m' ρ' c),
      (h c _ (Cert.ReferenceIdeal.Hand.mem_uc Cert.ReferenceIdeal.main_arg7 (by decide))).trans (Cert.ReferenceIdeal.Hand.W5_main_arg7 m' ρ' c),
      (h c _ (Cert.ReferenceIdeal.Hand.mem_uc Cert.ReferenceIdeal.main_arg8 (by decide))).trans (Cert.ReferenceIdeal.Hand.W5_main_arg8 m' ρ' c),
      (h c _ (Cert.ReferenceIdeal.Hand.mem_uc Cert.ReferenceIdeal.main_arg9 (by decide))).trans (Cert.ReferenceIdeal.Hand.W5_main_arg9 m' ρ' c),
      (h c _ (Cert.ReferenceIdeal.Hand.mem_uc Cert.ReferenceIdeal.main_arg10 (by decide))).trans (Cert.ReferenceIdeal.Hand.W5_main_arg10 m' ρ' c),
      (h c _ (Cert.ReferenceIdeal.Hand.mem_uc Cert.ReferenceIdeal.main_arg11 (by decide))).trans (Cert.ReferenceIdeal.Hand.W5_main_arg11 m' ρ' c)⟩) (Cert.ReferenceIdeal.Hand.run_main (F := Ideal) m' ρ')

end Cert.Bridge

end
-- ==== Proof.lean ====
/-
  The certificate's proof. Each of the three programs — the kernel as printed at the word level, the same text read at
  the ideal instance, and the reference read at the ideal instance — is host operations, a first pallas stage, host
  operations, a second pallas stage, and a final transpose. Each program's run is proved once, for any float instance,
  as a fold of the unscoped buffers' contents through those five items; the frame conjuncts read the twelve argument
  arrays off the last boundary, where they are unchanged because no item writes an argument. The ideal pass rewrote
  nothing, so its conjunct is trivial. The equality of the two idealized programs' results reads both results off the
  same runs and compares them through one specification of the two convolution stages.
-/
import proofs.«148433_g2000002724561042_pallasbulk_175_35_alg».proof.Defs
import proofs.«148433_g2000002724561042_pallasbulk_175_35_alg».proof.Proof.Gen.Kernel
import proofs.«148433_g2000002724561042_pallasbulk_175_35_alg».proof.Proof.Gen.KernelIdeal
import proofs.«148433_g2000002724561042_pallasbulk_175_35_alg».proof.Proof.Gen.ReferenceIdeal
import proofs.«148433_g2000002724561042_pallasbulk_175_35_alg».proof.Proof.Gen.Pre_finite_inputs
import proofs.«148433_g2000002724561042_pallasbulk_175_35_alg».proof.Proof.KBFrameRun
import proofs.«148433_g2000002724561042_pallasbulk_175_35_alg».proof.Proof.KFrameRun
import proofs.«148433_g2000002724561042_pallasbulk_175_35_alg».proof.Proof.RefFrameRun
import proofs.«148433_g2000002724561042_pallasbulk_175_35_alg».proof.Proof.Bridge
import Idealize.ShloMosaic.Adequacy
import Idealize.ShloMosaic.Init

noncomputable section

namespace Cert.Proof

open Idealize.ShloMosaic Idealize.SL.Sem

/-- The word-level kernel runs to the end without a fault and leaves its arguments as launched. -/
theorem frame_k : @Cert.frame_Kernel Cert.Kernel.Gen.facts Cert.Pre_finite_inputs.Gen.facts :=
  fun m ρ _ => Cert.Kernel.Hand.frame (F := Bits) m ρ

/-- So does the same text at the ideal instance, -/
theorem frame_ki : @Cert.frame_KernelIdeal Cert.KernelIdeal.Gen.facts Cert.Pre_finite_inputs.Gen.facts :=
  fun m ρ _ => Cert.KernelIdeal.Hand.frame (F := Ideal) m ρ

/-- and the reference at the ideal instance. -/
theorem frame_ri : @Cert.frame_ReferenceIdeal Cert.ReferenceIdeal.Gen.facts Cert.Pre_finite_inputs.Gen.facts :=
  fun m ρ _ => Cert.ReferenceIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
